-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v679) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x24x9 : Shape := ⟨3, ![131072, 24, 9]⟩
abbrev S131072x24x3 : Shape := ⟨3, ![131072, 24, 3]⟩
abbrev S6x288 : Shape := ⟨2, ![6, 288]⟩
abbrev S6 : Shape := ⟨1, ![6]⟩
abbrev S24x19x19 : Shape := ⟨3, ![24, 19, 19]⟩
abbrev S24x19 : Shape := ⟨2, ![24, 19]⟩
abbrev S24x6x19 : Shape := ⟨3, ![24, 6, 19]⟩
abbrev S24x6 : Shape := ⟨2, ![24, 6]⟩
abbrev S_ : Shape := ⟨0, ![]⟩

class Facts : Prop where
  bcast_S_S131072x24x9 : S_.BroadcastsInDim S131072x24x9 (![] : Fin 0 → Fin S131072x24x9.rank)
  reducesTo_S131072x24x9_S_d0_1_2 : S131072x24x9.ReducesTo [0, 1, 2] S_
  h_S_ : 0 < S_.numel
  bcast_S_S131072x24x3 : S_.BroadcastsInDim S131072x24x3 (![] : Fin 0 → Fin S131072x24x3.rank)
  reducesTo_S131072x24x3_S_d0_1_2 : S131072x24x3.ReducesTo [0, 1, 2] S_
  bcast_S_S6x288 : S_.BroadcastsInDim S6x288 (![] : Fin 0 → Fin S6x288.rank)
  reducesTo_S6x288_S_d0_1 : S6x288.ReducesTo [0, 1] S_
  bcast_S_S6 : S_.BroadcastsInDim S6 (![] : Fin 0 → Fin S6.rank)
  reducesTo_S6_S_d0 : S6.ReducesTo [0] S_
  bcast_S_S24x19x19 : S_.BroadcastsInDim S24x19x19 (![] : Fin 0 → Fin S24x19x19.rank)
  reducesTo_S24x19x19_S_d0_1_2 : S24x19x19.ReducesTo [0, 1, 2] S_
  bcast_S_S24x19 : S_.BroadcastsInDim S24x19 (![] : Fin 0 → Fin S24x19.rank)
  reducesTo_S24x19_S_d0_1 : S24x19.ReducesTo [0, 1] S_
  bcast_S_S24x6x19 : S_.BroadcastsInDim S24x6x19 (![] : Fin 0 → Fin S24x6x19.rank)
  reducesTo_S24x6x19_S_d0_1_2 : S24x6x19.ReducesTo [0, 1, 2] S_
  bcast_S_S24x6 : S_.BroadcastsInDim S24x6 (![] : Fin 0 → Fin S24x6.rank)
  reducesTo_S24x6_S_d0_1 : S24x6.ReducesTo [0, 1] S_

variable [Facts]

def fn_part2 {F : FTy → Type} [FloatOps F] (main_arg7 : FVec F S24x6 .f32) (main_v33 : IVec S_ 1) : IVec S_ 1 :=
  let main_v34 : FVec F S24x6 .f32 := Host.absf main_arg7
  let main_cst_12 : FVec F S_ .f32 := constant S_ .f32 0x7F800000#32
  let main_v35 : FVec F S24x6 .f32 := broadcastInDim S24x6 ![] bcast_S_S24x6 main_cst_12
  let main_v36 : IVec S24x6 1 := cmpf .olt main_v34 main_v35
  let main_c_13 : IVec S_ 1 := constantI S_ 1 1#1
  let main_v37 : IVec S_ 1 := (fun x v => Host.reduce IntOp.andi x v reducesTo_S24x6_S_d0_1 h_S_) main_v36 main_c_13
  let main_v38 : IVec S_ 1 := andi main_v33 main_v37
  main_v38

def fn_part1 {F : FTy → Type} [FloatOps F] (main_arg4 : FVec F S24x19x19 .f32) (main_arg5 : FVec F S24x19 .f32) (main_arg6 : FVec F S24x6x19 .f32) (main_arg7 : FVec F S24x6 .f32) (main_v13 : IVec S_ 1) (main_v16 : IVec S6 1) : IVec S_ 1 :=
  let main_c_5 : IVec S_ 1 := constantI S_ 1 1#1
  let main_v17 : IVec S_ 1 := (fun x v => Host.reduce IntOp.andi x v reducesTo_S6_S_d0 h_S_) main_v16 main_c_5
  let main_v18 : IVec S_ 1 := andi main_v13 main_v17
  let main_v19 : FVec F S24x19x19 .f32 := Host.absf main_arg4
  let main_cst_6 : FVec F S_ .f32 := constant S_ .f32 0x7F800000#32
  let main_v20 : FVec F S24x19x19 .f32 := broadcastInDim S24x19x19 ![] bcast_S_S24x19x19 main_cst_6
  let main_v21 : IVec S24x19x19 1 := cmpf .olt main_v19 main_v20
  let main_c_7 : IVec S_ 1 := constantI S_ 1 1#1
  let main_v22 : IVec S_ 1 := (fun x v => Host.reduce IntOp.andi x v reducesTo_S24x19x19_S_d0_1_2 h_S_) main_v21 main_c_7
  let main_v23 : IVec S_ 1 := andi main_v18 main_v22
  let main_v24 : FVec F S24x19 .f32 := Host.absf main_arg5
  let main_cst_8 : FVec F S_ .f32 := constant S_ .f32 0x7F800000#32
  let main_v25 : FVec F S24x19 .f32 := broadcastInDim S24x19 ![] bcast_S_S24x19 main_cst_8
  let main_v26 : IVec S24x19 1 := cmpf .olt main_v24 main_v25
  let main_c_9 : IVec S_ 1 := constantI S_ 1 1#1
  let main_v27 : IVec S_ 1 := (fun x v => Host.reduce IntOp.andi x v reducesTo_S24x19_S_d0_1 h_S_) main_v26 main_c_9
  let main_v28 : IVec S_ 1 := andi main_v23 main_v27
  let main_v29 : FVec F S24x6x19 .f32 := Host.absf main_arg6
  let main_cst_10 : FVec F S_ .f32 := constant S_ .f32 0x7F800000#32
  let main_v30 : FVec F S24x6x19 .f32 := broadcastInDim S24x6x19 ![] bcast_S_S24x6x19 main_cst_10
  let main_v31 : IVec S24x6x19 1 := cmpf .olt main_v29 main_v30
  let main_c_11 : IVec S_ 1 := constantI S_ 1 1#1
  let main_v32 : IVec S_ 1 := (fun x v => Host.reduce IntOp.andi x v reducesTo_S24x6x19_S_d0_1_2 h_S_) main_v31 main_c_11
  let main_v33 : IVec S_ 1 := andi main_v28 main_v32
  fn_part2 (F := F) main_arg7 main_v33

def fn {F : FTy → Type} [FloatOps F] (main_arg0 : FVec F S131072x24x9 .f32) (main_arg1 : FVec F S131072x24x3 .f32) (main_arg2 : FVec F S6x288 .f32) (main_arg3 : FVec F S6 .f32) (main_arg4 : FVec F S24x19x19 .f32) (main_arg5 : FVec F S24x19 .f32) (main_arg6 : FVec F S24x6x19 .f32) (main_arg7 : FVec F S24x6 .f32) : IVec S_ 1 :=
  let main_v0 : FVec F S131072x24x9 .f32 := Host.absf main_arg0
  let main_cst : FVec F S_ .f32 := constant S_ .f32 0x7F800000#32
  let main_v1 : FVec F S131072x24x9 .f32 := broadcastInDim S131072x24x9 ![] bcast_S_S131072x24x9 main_cst
  let main_v2 : IVec S131072x24x9 1 := cmpf .olt main_v0 main_v1
  let main_c : IVec S_ 1 := constantI S_ 1 1#1
  let main_v3 : IVec S_ 1 := (fun x v => Host.reduce IntOp.andi x v reducesTo_S131072x24x9_S_d0_1_2 h_S_) main_v2 main_c
  let main_v4 : FVec F S131072x24x3 .f32 := Host.absf main_arg1
  let main_cst_0 : FVec F S_ .f32 := constant S_ .f32 0x7F800000#32
  let main_v5 : FVec F S131072x24x3 .f32 := broadcastInDim S131072x24x3 ![] bcast_S_S131072x24x3 main_cst_0
  let main_v6 : IVec S131072x24x3 1 := cmpf .olt main_v4 main_v5
  let main_c_1 : IVec S_ 1 := constantI S_ 1 1#1
  let main_v7 : IVec S_ 1 := (fun x v => Host.reduce IntOp.andi x v reducesTo_S131072x24x3_S_d0_1_2 h_S_) main_v6 main_c_1
  let main_v8 : IVec S_ 1 := andi main_v3 main_v7
  let main_v9 : FVec F S6x288 .f32 := Host.absf main_arg2
  let main_cst_2 : FVec F S_ .f32 := constant S_ .f32 0x7F800000#32
  let main_v10 : FVec F S6x288 .f32 := broadcastInDim S6x288 ![] bcast_S_S6x288 main_cst_2
  let main_v11 : IVec S6x288 1 := cmpf .olt main_v9 main_v10
  let main_c_3 : IVec S_ 1 := constantI S_ 1 1#1
  let main_v12 : IVec S_ 1 := (fun x v => Host.reduce IntOp.andi x v reducesTo_S6x288_S_d0_1 h_S_) main_v11 main_c_3
  let main_v13 : IVec S_ 1 := andi main_v8 main_v12
  let main_v14 : FVec F S6 .f32 := Host.absf main_arg3
  let main_cst_4 : FVec F S_ .f32 := constant S_ .f32 0x7F800000#32
  let main_v15 : FVec F S6 .f32 := broadcastInDim S6 ![] bcast_S_S6 main_cst_4
  let main_v16 : IVec S6 1 := cmpf .olt main_v14 main_v15
  fn_part1 (F := F) main_arg4 main_arg5 main_arg6 main_arg7 main_v13 main_v16
-- ==== Kernel.lean ====
abbrev S131072x24x9 : Shape := ⟨3, ![131072, 24, 9]⟩
abbrev S131072x24x3 : Shape := ⟨3, ![131072, 24, 3]⟩
abbrev S6x288 : Shape := ⟨2, ![6, 288]⟩
abbrev S6 : Shape := ⟨1, ![6]⟩
abbrev S24x19x19 : Shape := ⟨3, ![24, 19, 19]⟩
abbrev S24x19 : Shape := ⟨2, ![24, 19]⟩
abbrev S24x6x19 : Shape := ⟨3, ![24, 6, 19]⟩
abbrev S24x6 : Shape := ⟨2, ![24, 6]⟩
abbrev S131072x216 : Shape := ⟨2, ![131072, 216]⟩
abbrev S131072x72 : Shape := ⟨2, ![131072, 72]⟩
abbrev S6x216 : Shape := ⟨2, ![6, 216]⟩
abbrev S6x72 : Shape := ⟨2, ![6, 72]⟩
abbrev S6x1 : Shape := ⟨2, ![6, 1]⟩
abbrev S24x19x1 : Shape := ⟨3, ![24, 19, 1]⟩
abbrev S24x6x1 : Shape := ⟨3, ![24, 6, 1]⟩
abbrev S131072x144 : Shape := ⟨2, ![131072, 144]⟩
abbrev S4096x216 : Shape := ⟨2, ![4096, 216]⟩
abbrev S4096x72 : Shape := ⟨2, ![4096, 72]⟩
abbrev S4096x144 : Shape := ⟨2, ![4096, 144]⟩
abbrev S216x4096 : Shape := ⟨2, ![216, 4096]⟩
abbrev S72x4096 : Shape := ⟨2, ![72, 4096]⟩
abbrev S144x4096 : Shape := ⟨2, ![144, 4096]⟩
abbrev S6x4096 : Shape := ⟨2, ![6, 4096]⟩
abbrev S9x4096 : Shape := ⟨2, ![9, 4096]⟩
abbrev S3x4096 : Shape := ⟨2, ![3, 4096]⟩
abbrev S4096 : Shape := ⟨1, ![4096]⟩
abbrev S1x4096 : Shape := ⟨2, ![1, 4096]⟩
abbrev S19x4096 : Shape := ⟨2, ![19, 4096]⟩
abbrev S1x19x19 : Shape := ⟨3, ![1, 19, 19]⟩
abbrev S19x19 : Shape := ⟨2, ![19, 19]⟩
abbrev S1x19x1 : Shape := ⟨3, ![1, 19, 1]⟩
abbrev S19x1 : Shape := ⟨2, ![19, 1]⟩
abbrev S1x6x19 : Shape := ⟨3, ![1, 6, 19]⟩
abbrev S6x19 : Shape := ⟨2, ![6, 19]⟩
abbrev S1x6x1 : Shape := ⟨3, ![1, 6, 1]⟩

abbrev nBuf : Space → Nat
  | .hbm => 20
  | .vmem => 16
  | .smem => 0
  | _ => 0

abbrev bufTy : (tb : Table) → Fin (tcTables nBuf tb) → BufTy
  | .hbm, ⟨0, _⟩ => ⟨S131072x24x9, .f32⟩
  | .hbm, ⟨1, _⟩ => ⟨S131072x24x3, .f32⟩
  | .hbm, ⟨2, _⟩ => ⟨S6x288, .f32⟩
  | .hbm, ⟨3, _⟩ => ⟨S6, .f32⟩
  | .hbm, ⟨4, _⟩ => ⟨S24x19x19, .f32⟩
  | .hbm, ⟨5, _⟩ => ⟨S24x19, .f32⟩
  | .hbm, ⟨6, _⟩ => ⟨S24x6x19, .f32⟩
  | .hbm, ⟨7, _⟩ => ⟨S24x6, .f32⟩
  | .hbm, ⟨8, _⟩ => ⟨S131072x216, .f32⟩
  | .hbm, ⟨9, _⟩ => ⟨S131072x72, .f32⟩
  | .hbm, ⟨10, _⟩ => ⟨S6x216, .f32⟩
  | .hbm, ⟨11, _⟩ => ⟨S6x216, .bf16⟩
  | .hbm, ⟨12, _⟩ => ⟨S6x72, .f32⟩
  | .hbm, ⟨13, _⟩ => ⟨S6x72, .bf16⟩
  | .hbm, ⟨14, _⟩ => ⟨S6x1, .f32⟩
  | .hbm, ⟨15, _⟩ => ⟨S24x19x19, .bf16⟩
  | .hbm, ⟨16, _⟩ => ⟨S24x19x1, .f32⟩
  | .hbm, ⟨17, _⟩ => ⟨S24x6x19, .bf16⟩
  | .hbm, ⟨18, _⟩ => ⟨S24x6x1, .f32⟩
  | .hbm, ⟨19, _⟩ => ⟨S131072x144, .f32⟩
  | .local _ .vmem, ⟨0, _⟩ => ⟨S4096x216, .f32⟩
  | .local _ .vmem, ⟨1, _⟩ => ⟨S4096x216, .f32⟩
  | .local _ .vmem, ⟨2, _⟩ => ⟨S4096x72, .f32⟩
  | .local _ .vmem, ⟨3, _⟩ => ⟨S4096x72, .f32⟩
  | .local _ .vmem, ⟨4, _⟩ => ⟨S6x216, .bf16⟩
  | .local _ .vmem, ⟨5, _⟩ => ⟨S6x72, .bf16⟩
  | .local _ .vmem, ⟨6, _⟩ => ⟨S6x1, .f32⟩
  | .local _ .vmem, ⟨7, _⟩ => ⟨S24x19x19, .bf16⟩
  | .local _ .vmem, ⟨8, _⟩ => ⟨S24x19x1, .f32⟩
  | .local _ .vmem, ⟨9, _⟩ => ⟨S24x6x19, .bf16⟩
  | .local _ .vmem, ⟨10, _⟩ => ⟨S24x6x1, .f32⟩
  | .local _ .vmem, ⟨11, _⟩ => ⟨S4096x144, .f32⟩
  | .local _ .vmem, ⟨12, _⟩ => ⟨S4096x144, .f32⟩
  | .local _ .vmem, ⟨13, _⟩ => ⟨S216x4096, .f32⟩
  | .local _ .vmem, ⟨14, _⟩ => ⟨S72x4096, .f32⟩
  | .local _ .vmem, ⟨15, _⟩ => ⟨S144x4096, .f32⟩
  | _, _ => ⟨S131072x24x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x216 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x72 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x216 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S6x72 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S24x19x19 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S24x19x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S24x6x19 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S24x6x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4096x144 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S131072x24x9_S131072x216 : S131072x24x9.ShapeCasts S131072x216
  shapeCasts_S131072x24x3_S131072x72 : S131072x24x3.ShapeCasts S131072x72
  slices_S6x288_S6x216_0_0 : S6x288.Slices ![0, 0] S6x216
  bitsLt_bf16_f32 : FTy.bits .bf16 < FTy.bits .f32
  slices_S6x288_S6x72_0_216 : S6x288.Slices ![0, 216] S6x72
  shapeCasts_S6_S6x1 : S6.ShapeCasts S6x1
  shapeCasts_S24x19_S24x19x1 : S24x19.ShapeCasts S24x19x1
  shapeCasts_S24x6_S24x6x1 : S24x6.ShapeCasts S24x6x1
  inb_S4096x216_S4096x216_0_0 : ∀ a, (![0, 0] : Fin 2 → Nat) a + S4096x216.size a ≤ S4096x216.size a
  h_S4096x216 : 0 < S4096x216.numel
  shapeCasts_S4096x216_S4096x216 : S4096x216.ShapeCasts S4096x216
  transposes_S4096x216_p1_0_S216x4096 : S4096x216.Transposes [1, 0] S216x4096
  inb_S216x4096_S216x4096_0_0 : ∀ a, (![0, 0] : Fin 2 → Nat) a + S216x4096.size a ≤ S216x4096.size a
  h_S216x4096 : 0 < S216x4096.numel
  shapeCasts_S216x4096_S216x4096 : S216x4096.ShapeCasts S216x4096
  inb_S4096x72_S4096x72_0_0 : ∀ a, (![0, 0] : Fin 2 → Nat) a + S4096x72.size a ≤ S4096x72.size a
  h_S4096x72 : 0 < S4096x72.numel
  shapeCasts_S4096x72_S4096x72 : S4096x72.ShapeCasts S4096x72
  transposes_S4096x72_p1_0_S72x4096 : S4096x72.Transposes [1, 0] S72x4096
  inb_S72x4096_S72x4096_0_0 : ∀ a, (![0, 0] : Fin 2 → Nat) a + S72x4096.size a ≤ S72x4096.size a
  h_S72x4096 : 0 < S72x4096.numel
  shapeCasts_S72x4096_S72x4096 : S72x4096.ShapeCasts S72x4096
  inb_S6x216_S6x216_0_0 : ∀ a, (![0, 0] : Fin 2 → Nat) a + S6x216.size a ≤ S6x216.size a
  h_S6x216 : 0 < S6x216.numel
  shapeCasts_S6x216_S6x216 : S6x216.ShapeCasts S6x216
  inb_S6x72_S6x72_0_0 : ∀ a, (![0, 0] : Fin 2 → Nat) a + S6x72.size a ≤ S6x72.size a
  h_S6x72 : 0 < S6x72.numel
  shapeCasts_S6x72_S6x72 : S6x72.ShapeCasts S6x72
  inb_S6x1_S6x1_0_0 : ∀ a, (![0, 0] : Fin 2 → Nat) a + S6x1.size a ≤ S6x1.size a
  h_S6x1 : 0 < S6x1.numel
  shapeCasts_S6x1_S6x1 : S6x1.ShapeCasts S6x1
  broadcasts_S6x1_S6x4096 : S6x1.Broadcasts S6x4096
  inb_S216x4096_S9x4096_0_0 : ∀ a, (![0, 0] : Fin 2 → Nat) a + S9x4096.size a ≤ S216x4096.size a
  h_S9x4096 : 0 < S9x4096.numel
  inb_S72x4096_S3x4096_0_0 : ∀ a, (![0, 0] : Fin 2 → Nat) a + S3x4096.size a ≤ S72x4096.size a
  h_S3x4096 : 0 < S3x4096.numel
  reduces_S3x4096_S4096 : S3x4096.Reduces [0] S4096
  shapeCasts_S4096_S1x4096 : S4096.ShapeCasts S1x4096
  concatenates_S9x4096_S3x4096_S1x4096_S6x4096_S19x4096_d0 : Shape.Concatenates [S9x4096, S3x4096, S1x4096, S6x4096] S19x4096 0
  inb_S24x19x19_S1x19x19_0_0_0 : ∀ a, (![0, 0, 0] : Fin 3 → Nat) a + S1x19x19.size a ≤ S24x19x19.size a
  h_S1x19x19 : 0 < S1x19x19.numel
  shapeCasts_S1x19x19_S19x19 : S1x19x19.ShapeCasts S19x19
  inb_S24x19x1_S1x19x1_0_0_0 : ∀ a, (![0, 0, 0] : Fin 3 → Nat) a + S1x19x1.size a ≤ S24x19x1.size a
  h_S1x19x1 : 0 < S1x19x1.numel
  shapeCasts_S1x19x1_S19x1 : S1x19x1.ShapeCasts S19x1
  broadcasts_S19x1_S19x4096 : S19x1.Broadcasts S19x4096
  inb_S24x6x19_S1x6x19_0_0_0 : ∀ a, (![0, 0, 0] : Fin 3 → Nat) a + S1x6x19.size a ≤ S24x6x19.size a
  h_S1x6x19 : 0 < S1x6x19.numel
  shapeCasts_S1x6x19_S6x19 : S1x6x19.ShapeCasts S6x19
  inb_S24x6x1_S1x6x1_0_0_0 : ∀ a, (![0, 0, 0] : Fin 3 → Nat) a + S1x6x1.size a ≤ S24x6x1.size a
  h_S1x6x1 : 0 < S1x6x1.numel
  shapeCasts_S1x6x1_S6x1 : S1x6x1.ShapeCasts S6x1
  inb_S144x4096_S6x4096_0_0 : ∀ a, (![0, 0] : Fin 2 → Nat) a + S6x4096.size a ≤ S144x4096.size a
  h_S6x4096 : 0 < S6x4096.numel
  shapeCasts_S6x4096_S6x4096 : S6x4096.ShapeCasts S6x4096
  inb_S216x4096_S9x4096_9_0 : ∀ a, (![9, 0] : Fin 2 → Nat) a + S9x4096.size a ≤ S216x4096.size a
  inb_S72x4096_S3x4096_3_0 : ∀ a, (![3, 0] : Fin 2 → Nat) a + S3x4096.size a ≤ S72x4096.size a
  inb_S24x19x19_S1x19x19_1_0_0 : ∀ a, (![1, 0, 0] : Fin 3 → Nat) a + S1x19x19.size a ≤ S24x19x19.size a
  inb_S24x19x1_S1x19x1_1_0_0 : ∀ a, (![1, 0, 0] : Fin 3 → Nat) a + S1x19x1.size a ≤ S24x19x1.size a
  inb_S24x6x19_S1x6x19_1_0_0 : ∀ a, (![1, 0, 0] : Fin 3 → Nat) a + S1x6x19.size a ≤ S24x6x19.size a
  inb_S24x6x1_S1x6x1_1_0_0 : ∀ a, (![1, 0, 0] : Fin 3 → Nat) a + S1x6x1.size a ≤ S24x6x1.size a
  inb_S144x4096_S6x4096_6_0 : ∀ a, (![6, 0] : Fin 2 → Nat) a + S6x4096.size a ≤ S144x4096.size a
  inb_S216x4096_S9x4096_18_0 : ∀ a, (![18, 0] : Fin 2 → Nat) a + S9x4096.size a ≤ S216x4096.size a
  inb_S72x4096_S3x4096_6_0 : ∀ a, (![6, 0] : Fin 2 → Nat) a + S3x4096.size a ≤ S72x4096.size a
  inb_S24x19x19_S1x19x19_2_0_0 : ∀ a, (![2, 0, 0] : Fin 3 → Nat) a + S1x19x19.size a ≤ S24x19x19.size a
  inb_S24x19x1_S1x19x1_2_0_0 : ∀ a, (![2, 0, 0] : Fin 3 → Nat) a + S1x19x1.size a ≤ S24x19x1.size a
  inb_S24x6x19_S1x6x19_2_0_0 : ∀ a, (![2, 0, 0] : Fin 3 → Nat) a + S1x6x19.size a ≤ S24x6x19.size a
  inb_S24x6x1_S1x6x1_2_0_0 : ∀ a, (![2, 0, 0] : Fin 3 → Nat) a + S1x6x1.size a ≤ S24x6x1.size a
  inb_S144x4096_S6x4096_12_0 : ∀ a, (![12, 0] : Fin 2 → Nat) a + S6x4096.size a ≤ S144x4096.size a
  inb_S216x4096_S9x4096_27_0 : ∀ a, (![27, 0] : Fin 2 → Nat) a + S9x4096.size a ≤ S216x4096.size a
  inb_S72x4096_S3x4096_9_0 : ∀ a, (![9, 0] : Fin 2 → Nat) a + S3x4096.size a ≤ S72x4096.size a
  inb_S24x19x19_S1x19x19_3_0_0 : ∀ a, (![3, 0, 0] : Fin 3 → Nat) a + S1x19x19.size a ≤ S24x19x19.size a
  inb_S24x19x1_S1x19x1_3_0_0 : ∀ a, (![3, 0, 0] : Fin 3 → Nat) a + S1x19x1.size a ≤ S24x19x1.size a
  inb_S24x6x19_S1x6x19_3_0_0 : ∀ a, (![3, 0, 0] : Fin 3 → Nat) a + S1x6x19.size a ≤ S24x6x19.size a
  inb_S24x6x1_S1x6x1_3_0_0 : ∀ a, (![3, 0, 0] : Fin 3 → Nat) a + S1x6x1.size a ≤ S24x6x1.size a
  inb_S144x4096_S6x4096_18_0 : ∀ a, (![18, 0] : Fin 2 → Nat) a + S6x4096.size a ≤ S144x4096.size a
  inb_S216x4096_S9x4096_36_0 : ∀ a, (![36, 0] : Fin 2 → Nat) a + S9x4096.size a ≤ S216x4096.size a
  inb_S72x4096_S3x4096_12_0 : ∀ a, (![12, 0] : Fin 2 → Nat) a + S3x4096.size a ≤ S72x4096.size a
  inb_S24x19x19_S1x19x19_4_0_0 : ∀ a, (![4, 0, 0] : Fin 3 → Nat) a + S1x19x19.size a ≤ S24x19x19.size a
  inb_S24x19x1_S1x19x1_4_0_0 : ∀ a, (![4, 0, 0] : Fin 3 → Nat) a + S1x19x1.size a ≤ S24x19x1.size a
  inb_S24x6x19_S1x6x19_4_0_0 : ∀ a, (![4, 0, 0] : Fin 3 → Nat) a + S1x6x19.size a ≤ S24x6x19.size a
  inb_S24x6x1_S1x6x1_4_0_0 : ∀ a, (![4, 0, 0] : Fin 3 → Nat) a + S1x6x1.size a ≤ S24x6x1.size a
  inb_S144x4096_S6x4096_24_0 : ∀ a, (![24, 0] : Fin 2 → Nat) a + S6x4096.size a ≤ S144x4096.size a
  inb_S216x4096_S9x4096_45_0 : ∀ a, (![45, 0] : Fin 2 → Nat) a + S9x4096.size a ≤ S216x4096.size a
  inb_S72x4096_S3x4096_15_0 : ∀ a, (![15, 0] : Fin 2 → Nat) a + S3x4096.size a ≤ S72x4096.size a
  inb_S24x19x19_S1x19x19_5_0_0 : ∀ a, (![5, 0, 0] : Fin 3 → Nat) a + S1x19x19.size a ≤ S24x19x19.size a
  inb_S24x19x1_S1x19x1_5_0_0 : ∀ a, (![5, 0, 0] : Fin 3 → Nat) a + S1x19x1.size a ≤ S24x19x1.size a
  inb_S24x6x19_S1x6x19_5_0_0 : ∀ a, (![5, 0, 0] : Fin 3 → Nat) a + S1x6x19.size a ≤ S24x6x19.size a
  inb_S24x6x1_S1x6x1_5_0_0 : ∀ a, (![5, 0, 0] : Fin 3 → Nat) a + S1x6x1.size a ≤ S24x6x1.size a
  inb_S144x4096_S6x4096_30_0 : ∀ a, (![30, 0] : Fin 2 → Nat) a + S6x4096.size a ≤ S144x4096.size a
  inb_S216x4096_S9x4096_54_0 : ∀ a, (![54, 0] : Fin 2 → Nat) a + S9x4096.size a ≤ S216x4096.size a
  inb_S72x4096_S3x4096_18_0 : ∀ a, (![18, 0] : Fin 2 → Nat) a + S3x4096.size a ≤ S72x4096.size a
  inb_S24x19x19_S1x19x19_6_0_0 : ∀ a, (![6, 0, 0] : Fin 3 → Nat) a + S1x19x19.size a ≤ S24x19x19.size a
  inb_S24x19x1_S1x19x1_6_0_0 : ∀ a, (![6, 0, 0] : Fin 3 → Nat) a + S1x19x1.size a ≤ S24x19x1.size a
  inb_S24x6x19_S1x6x19_6_0_0 : ∀ a, (![6, 0, 0] : Fin 3 → Nat) a + S1x6x19.size a ≤ S24x6x19.size a
  inb_S24x6x1_S1x6x1_6_0_0 : ∀ a, (![6, 0, 0] : Fin 3 → Nat) a + S1x6x1.size a ≤ S24x6x1.size a
  inb_S144x4096_S6x4096_36_0 : ∀ a, (![36, 0] : Fin 2 → Nat) a + S6x4096.size a ≤ S144x4096.size a
  inb_S216x4096_S9x4096_63_0 : ∀ a, (![63, 0] : Fin 2 → Nat) a + S9x4096.size a ≤ S216x4096.size a
  inb_S72x4096_S3x4096_21_0 : ∀ a, (![21, 0] : Fin 2 → Nat) a + S3x4096.size a ≤ S72x4096.size a
  inb_S24x19x19_S1x19x19_7_0_0 : ∀ a, (![7, 0, 0] : Fin 3 → Nat) a + S1x19x19.size a ≤ S24x19x19.size a
  inb_S24x19x1_S1x19x1_7_0_0 : ∀ a, (![7, 0, 0] : Fin 3 → Nat) a + S1x19x1.size a ≤ S24x19x1.size a
  inb_S24x6x19_S1x6x19_7_0_0 : ∀ a, (![7, 0, 0] : Fin 3 → Nat) a + S1x6x19.size a ≤ S24x6x19.size a
  inb_S24x6x1_S1x6x1_7_0_0 : ∀ a, (![7, 0, 0] : Fin 3 → Nat) a + S1x6x1.size a ≤ S24x6x1.size a
  inb_S144x4096_S6x4096_42_0 : ∀ a, (![42, 0] : Fin 2 → Nat) a + S6x4096.size a ≤ S144x4096.size a
  inb_S216x4096_S9x4096_72_0 : ∀ a, (![72, 0] : Fin 2 → Nat) a + S9x4096.size a ≤ S216x4096.size a
  inb_S72x4096_S3x4096_24_0 : ∀ a, (![24, 0] : Fin 2 → Nat) a + S3x4096.size a ≤ S72x4096.size a
  inb_S24x19x19_S1x19x19_8_0_0 : ∀ a, (![8, 0, 0] : Fin 3 → Nat) a + S1x19x19.size a ≤ S24x19x19.size a
  inb_S24x19x1_S1x19x1_8_0_0 : ∀ a, (![8, 0, 0] : Fin 3 → Nat) a + S1x19x1.size a ≤ S24x19x1.size a
  inb_S24x6x19_S1x6x19_8_0_0 : ∀ a, (![8, 0, 0] : Fin 3 → Nat) a + S1x6x19.size a ≤ S24x6x19.size a
  inb_S24x6x1_S1x6x1_8_0_0 : ∀ a, (![8, 0, 0] : Fin 3 → Nat) a + S1x6x1.size a ≤ S24x6x1.size a
  inb_S144x4096_S6x4096_48_0 : ∀ a, (![48, 0] : Fin 2 → Nat) a + S6x4096.size a ≤ S144x4096.size a
  inb_S216x4096_S9x4096_81_0 : ∀ a, (![81, 0] : Fin 2 → Nat) a + S9x4096.size a ≤ S216x4096.size a
  inb_S72x4096_S3x4096_27_0 : ∀ a, (![27, 0] : Fin 2 → Nat) a + S3x4096.size a ≤ S72x4096.size a
  inb_S24x19x19_S1x19x19_9_0_0 : ∀ a, (![9, 0, 0] : Fin 3 → Nat) a + S1x19x19.size a ≤ S24x19x19.size a
  inb_S24x19x1_S1x19x1_9_0_0 : ∀ a, (![9, 0, 0] : Fin 3 → Nat) a + S1x19x1.size a ≤ S24x19x1.size a
  inb_S24x6x19_S1x6x19_9_0_0 : ∀ a, (![9, 0, 0] : Fin 3 → Nat) a + S1x6x19.size a ≤ S24x6x19.size a
  inb_S24x6x1_S1x6x1_9_0_0 : ∀ a, (![9, 0, 0] : Fin 3 → Nat) a + S1x6x1.size a ≤ S24x6x1.size a
  inb_S144x4096_S6x4096_54_0 : ∀ a, (![54, 0] : Fin 2 → Nat) a + S6x4096.size a ≤ S144x4096.size a
  inb_S216x4096_S9x4096_90_0 : ∀ a, (![90, 0] : Fin 2 → Nat) a + S9x4096.size a ≤ S216x4096.size a
  inb_S72x4096_S3x4096_30_0 : ∀ a, (![30, 0] : Fin 2 → Nat) a + S3x4096.size a ≤ S72x4096.size a
  inb_S24x19x19_S1x19x19_10_0_0 : ∀ a, (![10, 0, 0] : Fin 3 → Nat) a + S1x19x19.size a ≤ S24x19x19.size a
  inb_S24x19x1_S1x19x1_10_0_0 : ∀ a, (![10, 0, 0] : Fin 3 → Nat) a + S1x19x1.size a ≤ S24x19x1.size a
  inb_S24x6x19_S1x6x19_10_0_0 : ∀ a, (![10, 0, 0] : Fin 3 → Nat) a + S1x6x19.size a ≤ S24x6x19.size a
  inb_S24x6x1_S1x6x1_10_0_0 : ∀ a, (![10, 0, 0] : Fin 3 → Nat) a + S1x6x1.size a ≤ S24x6x1.size a
  inb_S144x4096_S6x4096_60_0 : ∀ a, (![60, 0] : Fin 2 → Nat) a + S6x4096.size a ≤ S144x4096.size a
  inb_S216x4096_S9x4096_99_0 : ∀ a, (![99, 0] : Fin 2 → Nat) a + S9x4096.size a ≤ S216x4096.size a
  inb_S72x4096_S3x4096_33_0 : ∀ a, (![33, 0] : Fin 2 → Nat) a + S3x4096.size a ≤ S72x4096.size a
  inb_S24x19x19_S1x19x19_11_0_0 : ∀ a, (![11, 0, 0] : Fin 3 → Nat) a + S1x19x19.size a ≤ S24x19x19.size a
  inb_S24x19x1_S1x19x1_11_0_0 : ∀ a, (![11, 0, 0] : Fin 3 → Nat) a + S1x19x1.size a ≤ S24x19x1.size a
  inb_S24x6x19_S1x6x19_11_0_0 : ∀ a, (![11, 0, 0] : Fin 3 → Nat) a + S1x6x19.size a ≤ S24x6x19.size a
  inb_S24x6x1_S1x6x1_11_0_0 : ∀ a, (![11, 0, 0] : Fin 3 → Nat) a + S1x6x1.size a ≤ S24x6x1.size a
  inb_S144x4096_S6x4096_66_0 : ∀ a, (![66, 0] : Fin 2 → Nat) a + S6x4096.size a ≤ S144x4096.size a
  inb_S216x4096_S9x4096_108_0 : ∀ a, (![108, 0] : Fin 2 → Nat) a + S9x4096.size a ≤ S216x4096.size a
  inb_S72x4096_S3x4096_36_0 : ∀ a, (![36, 0] : Fin 2 → Nat) a + S3x4096.size a ≤ S72x4096.size a
  inb_S24x19x19_S1x19x19_12_0_0 : ∀ a, (![12, 0, 0] : Fin 3 → Nat) a + S1x19x19.size a ≤ S24x19x19.size a
  inb_S24x19x1_S1x19x1_12_0_0 : ∀ a, (![12, 0, 0] : Fin 3 → Nat) a + S1x19x1.size a ≤ S24x19x1.size a
  inb_S24x6x19_S1x6x19_12_0_0 : ∀ a, (![12, 0, 0] : Fin 3 → Nat) a + S1x6x19.size a ≤ S24x6x19.size a
  inb_S24x6x1_S1x6x1_12_0_0 : ∀ a, (![12, 0, 0] : Fin 3 → Nat) a + S1x6x1.size a ≤ S24x6x1.size a
  inb_S144x4096_S6x4096_72_0 : ∀ a, (![72, 0] : Fin 2 → Nat) a + S6x4096.size a ≤ S144x4096.size a
  inb_S216x4096_S9x4096_117_0 : ∀ a, (![117, 0] : Fin 2 → Nat) a + S9x4096.size a ≤ S216x4096.size a
  inb_S72x4096_S3x4096_39_0 : ∀ a, (![39, 0] : Fin 2 → Nat) a + S3x4096.size a ≤ S72x4096.size a
  inb_S24x19x19_S1x19x19_13_0_0 : ∀ a, (![13, 0, 0] : Fin 3 → Nat) a + S1x19x19.size a ≤ S24x19x19.size a
  inb_S24x19x1_S1x19x1_13_0_0 : ∀ a, (![13, 0, 0] : Fin 3 → Nat) a + S1x19x1.size a ≤ S24x19x1.size a
  inb_S24x6x19_S1x6x19_13_0_0 : ∀ a, (![13, 0, 0] : Fin 3 → Nat) a + S1x6x19.size a ≤ S24x6x19.size a
  inb_S24x6x1_S1x6x1_13_0_0 : ∀ a, (![13, 0, 0] : Fin 3 → Nat) a + S1x6x1.size a ≤ S24x6x1.size a
  inb_S144x4096_S6x4096_78_0 : ∀ a, (![78, 0] : Fin 2 → Nat) a + S6x4096.size a ≤ S144x4096.size a
  inb_S216x4096_S9x4096_126_0 : ∀ a, (![126, 0] : Fin 2 → Nat) a + S9x4096.size a ≤ S216x4096.size a
  inb_S72x4096_S3x4096_42_0 : ∀ a, (![42, 0] : Fin 2 → Nat) a + S3x4096.size a ≤ S72x4096.size a
  inb_S24x19x19_S1x19x19_14_0_0 : ∀ a, (![14, 0, 0] : Fin 3 → Nat) a + S1x19x19.size a ≤ S24x19x19.size a
  inb_S24x19x1_S1x19x1_14_0_0 : ∀ a, (![14, 0, 0] : Fin 3 → Nat) a + S1x19x1.size a ≤ S24x19x1.size a
  inb_S24x6x19_S1x6x19_14_0_0 : ∀ a, (![14, 0, 0] : Fin 3 → Nat) a + S1x6x19.size a ≤ S24x6x19.size a
  inb_S24x6x1_S1x6x1_14_0_0 : ∀ a, (![14, 0, 0] : Fin 3 → Nat) a + S1x6x1.size a ≤ S24x6x1.size a
  inb_S144x4096_S6x4096_84_0 : ∀ a, (![84, 0] : Fin 2 → Nat) a + S6x4096.size a ≤ S144x4096.size a
  inb_S216x4096_S9x4096_135_0 : ∀ a, (![135, 0] : Fin 2 → Nat) a + S9x4096.size a ≤ S216x4096.size a
  inb_S72x4096_S3x4096_45_0 : ∀ a, (![45, 0] : Fin 2 → Nat) a + S3x4096.size a ≤ S72x4096.size a
  inb_S24x19x19_S1x19x19_15_0_0 : ∀ a, (![15, 0, 0] : Fin 3 → Nat) a + S1x19x19.size a ≤ S24x19x19.size a
  inb_S24x19x1_S1x19x1_15_0_0 : ∀ a, (![15, 0, 0] : Fin 3 → Nat) a + S1x19x1.size a ≤ S24x19x1.size a
  inb_S24x6x19_S1x6x19_15_0_0 : ∀ a, (![15, 0, 0] : Fin 3 → Nat) a + S1x6x19.size a ≤ S24x6x19.size a
  inb_S24x6x1_S1x6x1_15_0_0 : ∀ a, (![15, 0, 0] : Fin 3 → Nat) a + S1x6x1.size a ≤ S24x6x1.size a
  inb_S144x4096_S6x4096_90_0 : ∀ a, (![90, 0] : Fin 2 → Nat) a + S6x4096.size a ≤ S144x4096.size a
  inb_S216x4096_S9x4096_144_0 : ∀ a, (![144, 0] : Fin 2 → Nat) a + S9x4096.size a ≤ S216x4096.size a
  inb_S72x4096_S3x4096_48_0 : ∀ a, (![48, 0] : Fin 2 → Nat) a + S3x4096.size a ≤ S72x4096.size a
  inb_S24x19x19_S1x19x19_16_0_0 : ∀ a, (![16, 0, 0] : Fin 3 → Nat) a + S1x19x19.size a ≤ S24x19x19.size a
  inb_S24x19x1_S1x19x1_16_0_0 : ∀ a, (![16, 0, 0] : Fin 3 → Nat) a + S1x19x1.size a ≤ S24x19x1.size a
  inb_S24x6x19_S1x6x19_16_0_0 : ∀ a, (![16, 0, 0] : Fin 3 → Nat) a + S1x6x19.size a ≤ S24x6x19.size a
  inb_S24x6x1_S1x6x1_16_0_0 : ∀ a, (![16, 0, 0] : Fin 3 → Nat) a + S1x6x1.size a ≤ S24x6x1.size a
  inb_S144x4096_S6x4096_96_0 : ∀ a, (![96, 0] : Fin 2 → Nat) a + S6x4096.size a ≤ S144x4096.size a
  inb_S216x4096_S9x4096_153_0 : ∀ a, (![153, 0] : Fin 2 → Nat) a + S9x4096.size a ≤ S216x4096.size a
  inb_S72x4096_S3x4096_51_0 : ∀ a, (![51, 0] : Fin 2 → Nat) a + S3x4096.size a ≤ S72x4096.size a
  inb_S24x19x19_S1x19x19_17_0_0 : ∀ a, (![17, 0, 0] : Fin 3 → Nat) a + S1x19x19.size a ≤ S24x19x19.size a
  inb_S24x19x1_S1x19x1_17_0_0 : ∀ a, (![17, 0, 0] : Fin 3 → Nat) a + S1x19x1.size a ≤ S24x19x1.size a
  inb_S24x6x19_S1x6x19_17_0_0 : ∀ a, (![17, 0, 0] : Fin 3 → Nat) a + S1x6x19.size a ≤ S24x6x19.size a
  inb_S24x6x1_S1x6x1_17_0_0 : ∀ a, (![17, 0, 0] : Fin 3 → Nat) a + S1x6x1.size a ≤ S24x6x1.size a
  inb_S144x4096_S6x4096_102_0 : ∀ a, (![102, 0] : Fin 2 → Nat) a + S6x4096.size a ≤ S144x4096.size a
  inb_S216x4096_S9x4096_162_0 : ∀ a, (![162, 0] : Fin 2 → Nat) a + S9x4096.size a ≤ S216x4096.size a
  inb_S72x4096_S3x4096_54_0 : ∀ a, (![54, 0] : Fin 2 → Nat) a + S3x4096.size a ≤ S72x4096.size a
  inb_S24x19x19_S1x19x19_18_0_0 : ∀ a, (![18, 0, 0] : Fin 3 → Nat) a + S1x19x19.size a ≤ S24x19x19.size a
  inb_S24x19x1_S1x19x1_18_0_0 : ∀ a, (![18, 0, 0] : Fin 3 → Nat) a + S1x19x1.size a ≤ S24x19x1.size a
  inb_S24x6x19_S1x6x19_18_0_0 : ∀ a, (![18, 0, 0] : Fin 3 → Nat) a + S1x6x19.size a ≤ S24x6x19.size a
  inb_S24x6x1_S1x6x1_18_0_0 : ∀ a, (![18, 0, 0] : Fin 3 → Nat) a + S1x6x1.size a ≤ S24x6x1.size a
  inb_S144x4096_S6x4096_108_0 : ∀ a, (![108, 0] : Fin 2 → Nat) a + S6x4096.size a ≤ S144x4096.size a
  inb_S216x4096_S9x4096_171_0 : ∀ a, (![171, 0] : Fin 2 → Nat) a + S9x4096.size a ≤ S216x4096.size a
  inb_S72x4096_S3x4096_57_0 : ∀ a, (![57, 0] : Fin 2 → Nat) a + S3x4096.size a ≤ S72x4096.size a
  inb_S24x19x19_S1x19x19_19_0_0 : ∀ a, (![19, 0, 0] : Fin 3 → Nat) a + S1x19x19.size a ≤ S24x19x19.size a
  inb_S24x19x1_S1x19x1_19_0_0 : ∀ a, (![19, 0, 0] : Fin 3 → Nat) a + S1x19x1.size a ≤ S24x19x1.size a
  inb_S24x6x19_S1x6x19_19_0_0 : ∀ a, (![19, 0, 0] : Fin 3 → Nat) a + S1x6x19.size a ≤ S24x6x19.size a
  inb_S24x6x1_S1x6x1_19_0_0 : ∀ a, (![19, 0, 0] : Fin 3 → Nat) a + S1x6x1.size a ≤ S24x6x1.size a
  inb_S144x4096_S6x4096_114_0 : ∀ a, (![114, 0] : Fin 2 → Nat) a + S6x4096.size a ≤ S144x4096.size a
  inb_S216x4096_S9x4096_180_0 : ∀ a, (![180, 0] : Fin 2 → Nat) a + S9x4096.size a ≤ S216x4096.size a
  inb_S72x4096_S3x4096_60_0 : ∀ a, (![60, 0] : Fin 2 → Nat) a + S3x4096.size a ≤ S72x4096.size a
  inb_S24x19x19_S1x19x19_20_0_0 : ∀ a, (![20, 0, 0] : Fin 3 → Nat) a + S1x19x19.size a ≤ S24x19x19.size a
  inb_S24x19x1_S1x19x1_20_0_0 : ∀ a, (![20, 0, 0] : Fin 3 → Nat) a + S1x19x1.size a ≤ S24x19x1.size a
  inb_S24x6x19_S1x6x19_20_0_0 : ∀ a, (![20, 0, 0] : Fin 3 → Nat) a + S1x6x19.size a ≤ S24x6x19.size a
  inb_S24x6x1_S1x6x1_20_0_0 : ∀ a, (![20, 0, 0] : Fin 3 → Nat) a + S1x6x1.size a ≤ S24x6x1.size a
  inb_S144x4096_S6x4096_120_0 : ∀ a, (![120, 0] : Fin 2 → Nat) a + S6x4096.size a ≤ S144x4096.size a
  inb_S216x4096_S9x4096_189_0 : ∀ a, (![189, 0] : Fin 2 → Nat) a + S9x4096.size a ≤ S216x4096.size a
  inb_S72x4096_S3x4096_63_0 : ∀ a, (![63, 0] : Fin 2 → Nat) a + S3x4096.size a ≤ S72x4096.size a
  inb_S24x19x19_S1x19x19_21_0_0 : ∀ a, (![21, 0, 0] : Fin 3 → Nat) a + S1x19x19.size a ≤ S24x19x19.size a
  inb_S24x19x1_S1x19x1_21_0_0 : ∀ a, (![21, 0, 0] : Fin 3 → Nat) a + S1x19x1.size a ≤ S24x19x1.size a
  inb_S24x6x19_S1x6x19_21_0_0 : ∀ a, (![21, 0, 0] : Fin 3 → Nat) a + S1x6x19.size a ≤ S24x6x19.size a
  inb_S24x6x1_S1x6x1_21_0_0 : ∀ a, (![21, 0, 0] : Fin 3 → Nat) a + S1x6x1.size a ≤ S24x6x1.size a
  inb_S144x4096_S6x4096_126_0 : ∀ a, (![126, 0] : Fin 2 → Nat) a + S6x4096.size a ≤ S144x4096.size a
  inb_S216x4096_S9x4096_198_0 : ∀ a, (![198, 0] : Fin 2 → Nat) a + S9x4096.size a ≤ S216x4096.size a
  inb_S72x4096_S3x4096_66_0 : ∀ a, (![66, 0] : Fin 2 → Nat) a + S3x4096.size a ≤ S72x4096.size a
  inb_S24x19x19_S1x19x19_22_0_0 : ∀ a, (![22, 0, 0] : Fin 3 → Nat) a + S1x19x19.size a ≤ S24x19x19.size a
  inb_S24x19x1_S1x19x1_22_0_0 : ∀ a, (![22, 0, 0] : Fin 3 → Nat) a + S1x19x1.size a ≤ S24x19x1.size a
  inb_S24x6x19_S1x6x19_22_0_0 : ∀ a, (![22, 0, 0] : Fin 3 → Nat) a + S1x6x19.size a ≤ S24x6x19.size a
  inb_S24x6x1_S1x6x1_22_0_0 : ∀ a, (![22, 0, 0] : Fin 3 → Nat) a + S1x6x1.size a ≤ S24x6x1.size a
  inb_S144x4096_S6x4096_132_0 : ∀ a, (![132, 0] : Fin 2 → Nat) a + S6x4096.size a ≤ S144x4096.size a
  inb_S216x4096_S9x4096_207_0 : ∀ a, (![207, 0] : Fin 2 → Nat) a + S9x4096.size a ≤ S216x4096.size a
  inb_S72x4096_S3x4096_69_0 : ∀ a, (![69, 0] : Fin 2 → Nat) a + S3x4096.size a ≤ S72x4096.size a
  inb_S24x19x19_S1x19x19_23_0_0 : ∀ a, (![23, 0, 0] : Fin 3 → Nat) a + S1x19x19.size a ≤ S24x19x19.size a
  inb_S24x19x1_S1x19x1_23_0_0 : ∀ a, (![23, 0, 0] : Fin 3 → Nat) a + S1x19x1.size a ≤ S24x19x1.size a
  inb_S24x6x19_S1x6x19_23_0_0 : ∀ a, (![23, 0, 0] : Fin 3 → Nat) a + S1x6x19.size a ≤ S24x6x19.size a
  inb_S24x6x1_S1x6x1_23_0_0 : ∀ a, (![23, 0, 0] : Fin 3 → Nat) a + S1x6x1.size a ≤ S24x6x1.size a
  inb_S144x4096_S6x4096_138_0 : ∀ a, (![138, 0] : Fin 2 → Nat) a + S6x4096.size a ≤ S144x4096.size a
  inb_S144x4096_S144x4096_0_0 : ∀ a, (![0, 0] : Fin 2 → Nat) a + S144x4096.size a ≤ S144x4096.size a
  h_S144x4096 : 0 < S144x4096.numel
  transposes_S144x4096_p1_0_S4096x144 : S144x4096.Transposes [1, 0] S4096x144
  inb_S4096x144_S4096x144_0_0 : ∀ a, (![0, 0] : Fin 2 → Nat) a + S4096x144.size a ≤ S4096x144.size a
  h_S4096x144 : 0 < S4096x144.numel
  dot_S6x216_S216x4096_S6x4096_1_0_0_1_n_n_wf : DotDims.WF S6x216 S216x4096 S6x4096 [1] [0] [0] [1] [] []
  dot_S6x72_S72x4096_S6x4096_1_0_0_1_n_n_wf : DotDims.WF S6x72 S72x4096 S6x4096 [1] [0] [0] [1] [] []
  dot_S19x19_S19x4096_S19x4096_1_0_0_1_n_n_wf : DotDims.WF S19x19 S19x4096 S19x4096 [1] [0] [0] [1] [] []
  dot_S6x19_S19x4096_S6x4096_1_0_0_1_n_n_wf : DotDims.WF S6x19 S19x4096 S6x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x216.size a ≤ S131072x216.size a
  hwx0_0 : ∀ i : grid0.Coords, EltTy.bits .f32 = 32 ∨ (Rect.block (s := S131072x216) S4096x216.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x72.size a ≤ S131072x72.size a
  hwx0_1 : ∀ i : grid0.Coords, EltTy.bits .f32 = 32 ∨ (Rect.block (s := S131072x72) S4096x72.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S6x216.size a ≤ S6x216.size a
  hwx0_2 : ∀ i : grid0.Coords, EltTy.bits .bf16 = 32 ∨ (Rect.block (s := S6x216) S6x216.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S6x72.size a ≤ S6x72.size a
  hwx0_3 : ∀ i : grid0.Coords, EltTy.bits .bf16 = 32 ∨ (Rect.block (s := S6x72) S6x72.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S6x1.size a ≤ S6x1.size a
  hwx0_4 : ∀ i : grid0.Coords, EltTy.bits .f32 = 32 ∨ (Rect.block (s := S6x1) S6x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S24x19x19.size a ≤ S24x19x19.size a
  hwx0_5 : ∀ i : grid0.Coords, EltTy.bits .bf16 = 32 ∨ (Rect.block (s := S24x19x19) S24x19x19.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S24x19x1.size a ≤ S24x19x1.size a
  hwx0_6 : ∀ i : grid0.Coords, EltTy.bits .f32 = 32 ∨ (Rect.block (s := S24x19x1) S24x19x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S24x6x19.size a ≤ S24x6x19.size a
  hwx0_7 : ∀ i : grid0.Coords, EltTy.bits .bf16 = 32 ∨ (Rect.block (s := S24x6x19) S24x6x19.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S24x6x1.size a ≤ S24x6x1.size a
  hwx0_8 : ∀ i : grid0.Coords, EltTy.bits .f32 = 32 ∨ (Rect.block (s := S24x6x1) S24x6x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4096x144.size a ≤ S131072x144.size a
  hwx0_9 : ∀ i : grid0.Coords, EltTy.bits .f32 = 32 ∨ (Rect.block (s := S131072x144) S4096x144.size (cc0_transform_9 i) (hinb0_9 i)).WholeWords (EltTy.packing .f32)

variable [Facts₀]

def dot_S6x216_S216x4096_S6x4096_1_0_0_1_n_n : DotDims S6x216 S216x4096 S6x4096 where
  lhsContracting := [1]
  rhsContracting := [0]
  lhsNonContracting := [0]
  rhsNonContracting := [1]
  lhsBatch := []
  rhsBatch := []
  wf := dot_S6x216_S216x4096_S6x4096_1_0_0_1_n_n_wf
def dot_S6x72_S72x4096_S6x4096_1_0_0_1_n_n : DotDims S6x72 S72x4096 S6x4096 where
  lhsContracting := [1]
  rhsContracting := [0]
  lhsNonContracting := [0]
  rhsNonContracting := [1]
  lhsBatch := []
  rhsBatch := []
  wf := dot_S6x72_S72x4096_S6x4096_1_0_0_1_n_n_wf
def dot_S19x19_S19x4096_S19x4096_1_0_0_1_n_n : DotDims S19x19 S19x4096 S19x4096 where
  lhsContracting := [1]
  rhsContracting := [0]
  lhsNonContracting := [0]
  rhsNonContracting := [1]
  lhsBatch := []
  rhsBatch := []
  wf := dot_S19x19_S19x4096_S19x4096_1_0_0_1_n_n_wf
def dot_S6x19_S19x4096_S6x4096_1_0_0_1_n_n : DotDims S6x19 S19x4096 S6x4096 where
  lhsContracting := [1]
  rhsContracting := [0]
  lhsNonContracting := [0]
  rhsNonContracting := [1]
  lhsBatch := []
  rhsBatch := []
  wf := dot_S6x19_S19x4096_S6x4096_1_0_0_1_n_n_wf

abbrev win0_0 : Pipeline.Window sig grid0 :=
  Pipeline.Window.ofSpec (Memref.whole main_v0) S4096x216.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x72.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S6x216.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S6x72.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S6x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S24x19x19.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S24x19x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S24x6x19.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S24x6x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S4096x144.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S131072x24x9 : Shape := ⟨3, ![131072, 24, 9]⟩
abbrev S131072x24x3 : Shape := ⟨3, ![131072, 24, 3]⟩
abbrev S6x288 : Shape := ⟨2, ![6, 288]⟩
abbrev S6 : Shape := ⟨1, ![6]⟩
abbrev S24x19x19 : Shape := ⟨3, ![24, 19, 19]⟩
abbrev S24x19 : Shape := ⟨2, ![24, 19]⟩
abbrev S24x6x19 : Shape := ⟨3, ![24, 6, 19]⟩
abbrev S24x6 : Shape := ⟨2, ![24, 6]⟩
abbrev S131072x216 : Shape := ⟨2, ![131072, 216]⟩
abbrev S131072x72 : Shape := ⟨2, ![131072, 72]⟩
abbrev S131072x288 : Shape := ⟨2, ![131072, 288]⟩
abbrev S288x6 : Shape := ⟨2, ![288, 6]⟩
abbrev S131072x6 : Shape := ⟨2, ![131072, 6]⟩
abbrev S1x6 : Shape := ⟨2, ![1, 6]⟩
abbrev S131072x1x9 : Shape := ⟨3, ![131072, 1, 9]⟩
abbrev S131072x9 : Shape := ⟨2, ![131072, 9]⟩
abbrev S131072x1x3 : Shape := ⟨3, ![131072, 1, 3]⟩
abbrev S131072x3 : Shape := ⟨2, ![131072, 3]⟩
abbrev S_ : Shape := ⟨0, ![]⟩
abbrev S131072 : Shape := ⟨1, ![131072]⟩
abbrev S131072x1 : Shape := ⟨2, ![131072, 1]⟩
abbrev S131072x19 : Shape := ⟨2, ![131072, 19]⟩
abbrev S1x19x19 : Shape := ⟨3, ![1, 19, 19]⟩
abbrev S19x19 : Shape := ⟨2, ![19, 19]⟩
abbrev S1x19 : Shape := ⟨2, ![1, 19]⟩
abbrev S19 : Shape := ⟨1, ![19]⟩
abbrev S1x6x19 : Shape := ⟨3, ![1, 6, 19]⟩
abbrev S6x19 : Shape := ⟨2, ![6, 19]⟩
abbrev S19x6 : Shape := ⟨2, ![19, 6]⟩
abbrev S131072x96 : Shape := ⟨2, ![131072, 96]⟩
abbrev S131072x48 : Shape := ⟨2, ![131072, 48]⟩
abbrev S131072x144 : Shape := ⟨2, ![131072, 144]⟩

abbrev nBuf : Space → Nat
  | .hbm => 832
  | .vmem => 0
  | .smem => 0
  | _ => 0

abbrev hbmTy0_0 (i : Nat) : BufTy := match i % 128 with
  | 0 => ⟨S131072x24x9, .f32⟩
  | 1 => ⟨S131072x24x3, .f32⟩
  | 2 => ⟨S6x288, .f32⟩
  | 3 => ⟨S6, .f32⟩
  | 4 => ⟨S24x19x19, .f32⟩
  | 5 => ⟨S24x19, .f32⟩
  | 6 => ⟨S24x6x19, .f32⟩
  | 7 => ⟨S24x6, .f32⟩
  | 8 => ⟨S131072x216, .f32⟩
  | 9 => ⟨S131072x72, .f32⟩
  | 10 => ⟨S131072x288, .f32⟩
  | 11 => ⟨S288x6, .f32⟩
  | 12 => ⟨S131072x6, .f32⟩
  | 13 => ⟨S1x6, .f32⟩
  | 14 => ⟨S131072x6, .f32⟩
  | 15 => ⟨S131072x6, .f32⟩
  | 16 => ⟨S131072x1x9, .f32⟩
  | 17 => ⟨S131072x9, .f32⟩
  | 18 => ⟨S131072x1x3, .f32⟩
  | 19 => ⟨S131072x3, .f32⟩
  | 20 => ⟨S131072x3, .f32⟩
  | 21 => ⟨S_, .f32⟩
  | 22 => ⟨S131072, .f32⟩
  | 23 => ⟨S131072x1, .f32⟩
  | 24 => ⟨S131072x1, .f32⟩
  | 25 => ⟨S131072x19, .f32⟩
  | 26 => ⟨S1x19x19, .f32⟩
  | 27 => ⟨S19x19, .f32⟩
  | 28 => ⟨S19x19, .f32⟩
  | 29 => ⟨S131072x19, .f32⟩
  | 30 => ⟨S1x19, .f32⟩
  | 31 => ⟨S19, .f32⟩
  | 32 => ⟨S1x19, .f32⟩
  | 33 => ⟨S131072x19, .f32⟩
  | 34 => ⟨S131072x19, .f32⟩
  | 35 => ⟨S_, .f32⟩
  | 36 => ⟨S131072x19, .f32⟩
  | 37 => ⟨S131072x19, .f32⟩
  | 38 => ⟨S1x6x19, .f32⟩
  | 39 => ⟨S6x19, .f32⟩
  | 40 => ⟨S19x6, .f32⟩
  | 41 => ⟨S131072x6, .f32⟩
  | 42 => ⟨S1x6, .f32⟩
  | 43 => ⟨S6, .f32⟩
  | 44 => ⟨S1x6, .f32⟩
  | 45 => ⟨S131072x6, .f32⟩
  | 46 => ⟨S131072x6, .f32⟩
  | 47 => ⟨S131072x1x9, .f32⟩
  | 48 => ⟨S131072x9, .f32⟩
  | 49 => ⟨S131072x1x3, .f32⟩
  | 50 => ⟨S131072x3, .f32⟩
  | 51 => ⟨S131072x1x3, .f32⟩
  | 52 => ⟨S131072x3, .f32⟩
  | 53 => ⟨S131072x3, .f32⟩
  | 54 => ⟨S131072x3, .f32⟩
  | 55 => ⟨S_, .f32⟩
  | 56 => ⟨S131072, .f32⟩
  | 57 => ⟨S131072x1, .f32⟩
  | 58 => ⟨S131072x1, .f32⟩
  | 59 => ⟨S131072x19, .f32⟩
  | 60 => ⟨S1x19x19, .f32⟩
  | 61 => ⟨S19x19, .f32⟩
  | 62 => ⟨S19x19, .f32⟩
  | 63 => ⟨S131072x19, .f32⟩
  | 64 => ⟨S1x19, .f32⟩
  | 65 => ⟨S19, .f32⟩
  | 66 => ⟨S1x19, .f32⟩
  | 67 => ⟨S131072x19, .f32⟩
  | 68 => ⟨S131072x19, .f32⟩
  | 69 => ⟨S_, .f32⟩
  | 70 => ⟨S131072x19, .f32⟩
  | 71 => ⟨S131072x19, .f32⟩
  | 72 => ⟨S1x6x19, .f32⟩
  | 73 => ⟨S6x19, .f32⟩
  | 74 => ⟨S19x6, .f32⟩
  | 75 => ⟨S131072x6, .f32⟩
  | 76 => ⟨S1x6, .f32⟩
  | 77 => ⟨S6, .f32⟩
  | 78 => ⟨S1x6, .f32⟩
  | 79 => ⟨S131072x6, .f32⟩
  | 80 => ⟨S131072x6, .f32⟩
  | 81 => ⟨S131072x1x9, .f32⟩
  | 82 => ⟨S131072x9, .f32⟩
  | 83 => ⟨S131072x1x3, .f32⟩
  | 84 => ⟨S131072x3, .f32⟩
  | 85 => ⟨S131072x1x3, .f32⟩
  | 86 => ⟨S131072x3, .f32⟩
  | 87 => ⟨S131072x3, .f32⟩
  | 88 => ⟨S131072x3, .f32⟩
  | 89 => ⟨S_, .f32⟩
  | 90 => ⟨S131072, .f32⟩
  | 91 => ⟨S131072x1, .f32⟩
  | 92 => ⟨S131072x1, .f32⟩
  | 93 => ⟨S131072x19, .f32⟩
  | 94 => ⟨S1x19x19, .f32⟩
  | 95 => ⟨S19x19, .f32⟩
  | 96 => ⟨S19x19, .f32⟩
  | 97 => ⟨S131072x19, .f32⟩
  | 98 => ⟨S1x19, .f32⟩
  | 99 => ⟨S19, .f32⟩
  | 100 => ⟨S1x19, .f32⟩
  | 101 => ⟨S131072x19, .f32⟩
  | 102 => ⟨S131072x19, .f32⟩
  | 103 => ⟨S_, .f32⟩
  | 104 => ⟨S131072x19, .f32⟩
  | 105 => ⟨S131072x19, .f32⟩
  | 106 => ⟨S1x6x19, .f32⟩
  | 107 => ⟨S6x19, .f32⟩
  | 108 => ⟨S19x6, .f32⟩
  | 109 => ⟨S131072x6, .f32⟩
  | 110 => ⟨S1x6, .f32⟩
  | 111 => ⟨S6, .f32⟩
  | 112 => ⟨S1x6, .f32⟩
  | 113 => ⟨S131072x6, .f32⟩
  | 114 => ⟨S131072x6, .f32⟩
  | 115 => ⟨S131072x1x9, .f32⟩
  | 116 => ⟨S131072x9, .f32⟩
  | 117 => ⟨S131072x1x3, .f32⟩
  | 118 => ⟨S131072x3, .f32⟩
  | 119 => ⟨S131072x1x3, .f32⟩
  | 120 => ⟨S131072x3, .f32⟩
  | 121 => ⟨S131072x3, .f32⟩
  | 122 => ⟨S131072x3, .f32⟩
  | 123 => ⟨S_, .f32⟩
  | 124 => ⟨S131072, .f32⟩
  | 125 => ⟨S131072x1, .f32⟩
  | 126 => ⟨S131072x1, .f32⟩
  | 127 => ⟨S131072x19, .f32⟩
  | _ => ⟨S131072x24x9, .f32⟩

abbrev hbmTy0_1 (i : Nat) : BufTy := match i % 128 with
  | 0 => ⟨S1x19x19, .f32⟩
  | 1 => ⟨S19x19, .f32⟩
  | 2 => ⟨S19x19, .f32⟩
  | 3 => ⟨S131072x19, .f32⟩
  | 4 => ⟨S1x19, .f32⟩
  | 5 => ⟨S19, .f32⟩
  | 6 => ⟨S1x19, .f32⟩
  | 7 => ⟨S131072x19, .f32⟩
  | 8 => ⟨S131072x19, .f32⟩
  | 9 => ⟨S_, .f32⟩
  | 10 => ⟨S131072x19, .f32⟩
  | 11 => ⟨S131072x19, .f32⟩
  | 12 => ⟨S1x6x19, .f32⟩
  | 13 => ⟨S6x19, .f32⟩
  | 14 => ⟨S19x6, .f32⟩
  | 15 => ⟨S131072x6, .f32⟩
  | 16 => ⟨S1x6, .f32⟩
  | 17 => ⟨S6, .f32⟩
  | 18 => ⟨S1x6, .f32⟩
  | 19 => ⟨S131072x6, .f32⟩
  | 20 => ⟨S131072x6, .f32⟩
  | 21 => ⟨S131072x1x9, .f32⟩
  | 22 => ⟨S131072x9, .f32⟩
  | 23 => ⟨S131072x1x3, .f32⟩
  | 24 => ⟨S131072x3, .f32⟩
  | 25 => ⟨S131072x1x3, .f32⟩
  | 26 => ⟨S131072x3, .f32⟩
  | 27 => ⟨S131072x3, .f32⟩
  | 28 => ⟨S131072x3, .f32⟩
  | 29 => ⟨S_, .f32⟩
  | 30 => ⟨S131072, .f32⟩
  | 31 => ⟨S131072x1, .f32⟩
  | 32 => ⟨S131072x1, .f32⟩
  | 33 => ⟨S131072x19, .f32⟩
  | 34 => ⟨S1x19x19, .f32⟩
  | 35 => ⟨S19x19, .f32⟩
  | 36 => ⟨S19x19, .f32⟩
  | 37 => ⟨S131072x19, .f32⟩
  | 38 => ⟨S1x19, .f32⟩
  | 39 => ⟨S19, .f32⟩
  | 40 => ⟨S1x19, .f32⟩
  | 41 => ⟨S131072x19, .f32⟩
  | 42 => ⟨S131072x19, .f32⟩
  | 43 => ⟨S_, .f32⟩
  | 44 => ⟨S131072x19, .f32⟩
  | 45 => ⟨S131072x19, .f32⟩
  | 46 => ⟨S1x6x19, .f32⟩
  | 47 => ⟨S6x19, .f32⟩
  | 48 => ⟨S19x6, .f32⟩
  | 49 => ⟨S131072x6, .f32⟩
  | 50 => ⟨S1x6, .f32⟩
  | 51 => ⟨S6, .f32⟩
  | 52 => ⟨S1x6, .f32⟩
  | 53 => ⟨S131072x6, .f32⟩
  | 54 => ⟨S131072x6, .f32⟩
  | 55 => ⟨S131072x1x9, .f32⟩
  | 56 => ⟨S131072x9, .f32⟩
  | 57 => ⟨S131072x1x3, .f32⟩
  | 58 => ⟨S131072x3, .f32⟩
  | 59 => ⟨S131072x1x3, .f32⟩
  | 60 => ⟨S131072x3, .f32⟩
  | 61 => ⟨S131072x3, .f32⟩
  | 62 => ⟨S131072x3, .f32⟩
  | 63 => ⟨S_, .f32⟩
  | 64 => ⟨S131072, .f32⟩
  | 65 => ⟨S131072x1, .f32⟩
  | 66 => ⟨S131072x1, .f32⟩
  | 67 => ⟨S131072x19, .f32⟩
  | 68 => ⟨S1x19x19, .f32⟩
  | 69 => ⟨S19x19, .f32⟩
  | 70 => ⟨S19x19, .f32⟩
  | 71 => ⟨S131072x19, .f32⟩
  | 72 => ⟨S1x19, .f32⟩
  | 73 => ⟨S19, .f32⟩
  | 74 => ⟨S1x19, .f32⟩
  | 75 => ⟨S131072x19, .f32⟩
  | 76 => ⟨S131072x19, .f32⟩
  | 77 => ⟨S_, .f32⟩
  | 78 => ⟨S131072x19, .f32⟩
  | 79 => ⟨S131072x19, .f32⟩
  | 80 => ⟨S1x6x19, .f32⟩
  | 81 => ⟨S6x19, .f32⟩
  | 82 => ⟨S19x6, .f32⟩
  | 83 => ⟨S131072x6, .f32⟩
  | 84 => ⟨S1x6, .f32⟩
  | 85 => ⟨S6, .f32⟩
  | 86 => ⟨S1x6, .f32⟩
  | 87 => ⟨S131072x6, .f32⟩
  | 88 => ⟨S131072x6, .f32⟩
  | 89 => ⟨S131072x1x9, .f32⟩
  | 90 => ⟨S131072x9, .f32⟩
  | 91 => ⟨S131072x1x3, .f32⟩
  | 92 => ⟨S131072x3, .f32⟩
  | 93 => ⟨S131072x1x3, .f32⟩
  | 94 => ⟨S131072x3, .f32⟩
  | 95 => ⟨S131072x3, .f32⟩
  | 96 => ⟨S131072x3, .f32⟩
  | 97 => ⟨S_, .f32⟩
  | 98 => ⟨S131072, .f32⟩
  | 99 => ⟨S131072x1, .f32⟩
  | 100 => ⟨S131072x1, .f32⟩
  | 101 => ⟨S131072x19, .f32⟩
  | 102 => ⟨S1x19x19, .f32⟩
  | 103 => ⟨S19x19, .f32⟩
  | 104 => ⟨S19x19, .f32⟩
  | 105 => ⟨S131072x19, .f32⟩
  | 106 => ⟨S1x19, .f32⟩
  | 107 => ⟨S19, .f32⟩
  | 108 => ⟨S1x19, .f32⟩
  | 109 => ⟨S131072x19, .f32⟩
  | 110 => ⟨S131072x19, .f32⟩
  | 111 => ⟨S_, .f32⟩
  | 112 => ⟨S131072x19, .f32⟩
  | 113 => ⟨S131072x19, .f32⟩
  | 114 => ⟨S1x6x19, .f32⟩
  | 115 => ⟨S6x19, .f32⟩
  | 116 => ⟨S19x6, .f32⟩
  | 117 => ⟨S131072x6, .f32⟩
  | 118 => ⟨S1x6, .f32⟩
  | 119 => ⟨S6, .f32⟩
  | 120 => ⟨S1x6, .f32⟩
  | 121 => ⟨S131072x6, .f32⟩
  | 122 => ⟨S131072x6, .f32⟩
  | 123 => ⟨S131072x1x9, .f32⟩
  | 124 => ⟨S131072x9, .f32⟩
  | 125 => ⟨S131072x1x3, .f32⟩
  | 126 => ⟨S131072x3, .f32⟩
  | 127 => ⟨S131072x1x3, .f32⟩
  | _ => ⟨S131072x24x9, .f32⟩

abbrev hbmTy0_2 (i : Nat) : BufTy := match i % 128 with
  | 0 => ⟨S131072x3, .f32⟩
  | 1 => ⟨S131072x3, .f32⟩
  | 2 => ⟨S131072x3, .f32⟩
  | 3 => ⟨S_, .f32⟩
  | 4 => ⟨S131072, .f32⟩
  | 5 => ⟨S131072x1, .f32⟩
  | 6 => ⟨S131072x1, .f32⟩
  | 7 => ⟨S131072x19, .f32⟩
  | 8 => ⟨S1x19x19, .f32⟩
  | 9 => ⟨S19x19, .f32⟩
  | 10 => ⟨S19x19, .f32⟩
  | 11 => ⟨S131072x19, .f32⟩
  | 12 => ⟨S1x19, .f32⟩
  | 13 => ⟨S19, .f32⟩
  | 14 => ⟨S1x19, .f32⟩
  | 15 => ⟨S131072x19, .f32⟩
  | 16 => ⟨S131072x19, .f32⟩
  | 17 => ⟨S_, .f32⟩
  | 18 => ⟨S131072x19, .f32⟩
  | 19 => ⟨S131072x19, .f32⟩
  | 20 => ⟨S1x6x19, .f32⟩
  | 21 => ⟨S6x19, .f32⟩
  | 22 => ⟨S19x6, .f32⟩
  | 23 => ⟨S131072x6, .f32⟩
  | 24 => ⟨S1x6, .f32⟩
  | 25 => ⟨S6, .f32⟩
  | 26 => ⟨S1x6, .f32⟩
  | 27 => ⟨S131072x6, .f32⟩
  | 28 => ⟨S131072x6, .f32⟩
  | 29 => ⟨S131072x1x9, .f32⟩
  | 30 => ⟨S131072x9, .f32⟩
  | 31 => ⟨S131072x1x3, .f32⟩
  | 32 => ⟨S131072x3, .f32⟩
  | 33 => ⟨S131072x1x3, .f32⟩
  | 34 => ⟨S131072x3, .f32⟩
  | 35 => ⟨S131072x3, .f32⟩
  | 36 => ⟨S131072x3, .f32⟩
  | 37 => ⟨S_, .f32⟩
  | 38 => ⟨S131072, .f32⟩
  | 39 => ⟨S131072x1, .f32⟩
  | 40 => ⟨S131072x1, .f32⟩
  | 41 => ⟨S131072x19, .f32⟩
  | 42 => ⟨S1x19x19, .f32⟩
  | 43 => ⟨S19x19, .f32⟩
  | 44 => ⟨S19x19, .f32⟩
  | 45 => ⟨S131072x19, .f32⟩
  | 46 => ⟨S1x19, .f32⟩
  | 47 => ⟨S19, .f32⟩
  | 48 => ⟨S1x19, .f32⟩
  | 49 => ⟨S131072x19, .f32⟩
  | 50 => ⟨S131072x19, .f32⟩
  | 51 => ⟨S_, .f32⟩
  | 52 => ⟨S131072x19, .f32⟩
  | 53 => ⟨S131072x19, .f32⟩
  | 54 => ⟨S1x6x19, .f32⟩
  | 55 => ⟨S6x19, .f32⟩
  | 56 => ⟨S19x6, .f32⟩
  | 57 => ⟨S131072x6, .f32⟩
  | 58 => ⟨S1x6, .f32⟩
  | 59 => ⟨S6, .f32⟩
  | 60 => ⟨S1x6, .f32⟩
  | 61 => ⟨S131072x6, .f32⟩
  | 62 => ⟨S131072x6, .f32⟩
  | 63 => ⟨S131072x1x9, .f32⟩
  | 64 => ⟨S131072x9, .f32⟩
  | 65 => ⟨S131072x1x3, .f32⟩
  | 66 => ⟨S131072x3, .f32⟩
  | 67 => ⟨S131072x1x3, .f32⟩
  | 68 => ⟨S131072x3, .f32⟩
  | 69 => ⟨S131072x3, .f32⟩
  | 70 => ⟨S131072x3, .f32⟩
  | 71 => ⟨S_, .f32⟩
  | 72 => ⟨S131072, .f32⟩
  | 73 => ⟨S131072x1, .f32⟩
  | 74 => ⟨S131072x1, .f32⟩
  | 75 => ⟨S131072x19, .f32⟩
  | 76 => ⟨S1x19x19, .f32⟩
  | 77 => ⟨S19x19, .f32⟩
  | 78 => ⟨S19x19, .f32⟩
  | 79 => ⟨S131072x19, .f32⟩
  | 80 => ⟨S1x19, .f32⟩
  | 81 => ⟨S19, .f32⟩
  | 82 => ⟨S1x19, .f32⟩
  | 83 => ⟨S131072x19, .f32⟩
  | 84 => ⟨S131072x19, .f32⟩
  | 85 => ⟨S_, .f32⟩
  | 86 => ⟨S131072x19, .f32⟩
  | 87 => ⟨S131072x19, .f32⟩
  | 88 => ⟨S1x6x19, .f32⟩
  | 89 => ⟨S6x19, .f32⟩
  | 90 => ⟨S19x6, .f32⟩
  | 91 => ⟨S131072x6, .f32⟩
  | 92 => ⟨S1x6, .f32⟩
  | 93 => ⟨S6, .f32⟩
  | 94 => ⟨S1x6, .f32⟩
  | 95 => ⟨S131072x6, .f32⟩
  | 96 => ⟨S131072x6, .f32⟩
  | 97 => ⟨S131072x1x9, .f32⟩
  | 98 => ⟨S131072x9, .f32⟩
  | 99 => ⟨S131072x1x3, .f32⟩
  | 100 => ⟨S131072x3, .f32⟩
  | 101 => ⟨S131072x1x3, .f32⟩
  | 102 => ⟨S131072x3, .f32⟩
  | 103 => ⟨S131072x3, .f32⟩
  | 104 => ⟨S131072x3, .f32⟩
  | 105 => ⟨S_, .f32⟩
  | 106 => ⟨S131072, .f32⟩
  | 107 => ⟨S131072x1, .f32⟩
  | 108 => ⟨S131072x1, .f32⟩
  | 109 => ⟨S131072x19, .f32⟩
  | 110 => ⟨S1x19x19, .f32⟩
  | 111 => ⟨S19x19, .f32⟩
  | 112 => ⟨S19x19, .f32⟩
  | 113 => ⟨S131072x19, .f32⟩
  | 114 => ⟨S1x19, .f32⟩
  | 115 => ⟨S19, .f32⟩
  | 116 => ⟨S1x19, .f32⟩
  | 117 => ⟨S131072x19, .f32⟩
  | 118 => ⟨S131072x19, .f32⟩
  | 119 => ⟨S_, .f32⟩
  | 120 => ⟨S131072x19, .f32⟩
  | 121 => ⟨S131072x19, .f32⟩
  | 122 => ⟨S1x6x19, .f32⟩
  | 123 => ⟨S6x19, .f32⟩
  | 124 => ⟨S19x6, .f32⟩
  | 125 => ⟨S131072x6, .f32⟩
  | 126 => ⟨S1x6, .f32⟩
  | 127 => ⟨S6, .f32⟩
  | _ => ⟨S131072x24x9, .f32⟩

abbrev hbmTy0_3 (i : Nat) : BufTy := match i % 128 with
  | 0 => ⟨S1x6, .f32⟩
  | 1 => ⟨S131072x6, .f32⟩
  | 2 => ⟨S131072x6, .f32⟩
  | 3 => ⟨S131072x1x9, .f32⟩
  | 4 => ⟨S131072x9, .f32⟩
  | 5 => ⟨S131072x1x3, .f32⟩
  | 6 => ⟨S131072x3, .f32⟩
  | 7 => ⟨S131072x1x3, .f32⟩
  | 8 => ⟨S131072x3, .f32⟩
  | 9 => ⟨S131072x3, .f32⟩
  | 10 => ⟨S131072x3, .f32⟩
  | 11 => ⟨S_, .f32⟩
  | 12 => ⟨S131072, .f32⟩
  | 13 => ⟨S131072x1, .f32⟩
  | 14 => ⟨S131072x1, .f32⟩
  | 15 => ⟨S131072x19, .f32⟩
  | 16 => ⟨S1x19x19, .f32⟩
  | 17 => ⟨S19x19, .f32⟩
  | 18 => ⟨S19x19, .f32⟩
  | 19 => ⟨S131072x19, .f32⟩
  | 20 => ⟨S1x19, .f32⟩
  | 21 => ⟨S19, .f32⟩
  | 22 => ⟨S1x19, .f32⟩
  | 23 => ⟨S131072x19, .f32⟩
  | 24 => ⟨S131072x19, .f32⟩
  | 25 => ⟨S_, .f32⟩
  | 26 => ⟨S131072x19, .f32⟩
  | 27 => ⟨S131072x19, .f32⟩
  | 28 => ⟨S1x6x19, .f32⟩
  | 29 => ⟨S6x19, .f32⟩
  | 30 => ⟨S19x6, .f32⟩
  | 31 => ⟨S131072x6, .f32⟩
  | 32 => ⟨S1x6, .f32⟩
  | 33 => ⟨S6, .f32⟩
  | 34 => ⟨S1x6, .f32⟩
  | 35 => ⟨S131072x6, .f32⟩
  | 36 => ⟨S131072x6, .f32⟩
  | 37 => ⟨S131072x1x9, .f32⟩
  | 38 => ⟨S131072x9, .f32⟩
  | 39 => ⟨S131072x1x3, .f32⟩
  | 40 => ⟨S131072x3, .f32⟩
  | 41 => ⟨S131072x1x3, .f32⟩
  | 42 => ⟨S131072x3, .f32⟩
  | 43 => ⟨S131072x3, .f32⟩
  | 44 => ⟨S131072x3, .f32⟩
  | 45 => ⟨S_, .f32⟩
  | 46 => ⟨S131072, .f32⟩
  | 47 => ⟨S131072x1, .f32⟩
  | 48 => ⟨S131072x1, .f32⟩
  | 49 => ⟨S131072x19, .f32⟩
  | 50 => ⟨S1x19x19, .f32⟩
  | 51 => ⟨S19x19, .f32⟩
  | 52 => ⟨S19x19, .f32⟩
  | 53 => ⟨S131072x19, .f32⟩
  | 54 => ⟨S1x19, .f32⟩
  | 55 => ⟨S19, .f32⟩
  | 56 => ⟨S1x19, .f32⟩
  | 57 => ⟨S131072x19, .f32⟩
  | 58 => ⟨S131072x19, .f32⟩
  | 59 => ⟨S_, .f32⟩
  | 60 => ⟨S131072x19, .f32⟩
  | 61 => ⟨S131072x19, .f32⟩
  | 62 => ⟨S1x6x19, .f32⟩
  | 63 => ⟨S6x19, .f32⟩
  | 64 => ⟨S19x6, .f32⟩
  | 65 => ⟨S131072x6, .f32⟩
  | 66 => ⟨S1x6, .f32⟩
  | 67 => ⟨S6, .f32⟩
  | 68 => ⟨S1x6, .f32⟩
  | 69 => ⟨S131072x6, .f32⟩
  | 70 => ⟨S131072x6, .f32⟩
  | 71 => ⟨S131072x1x9, .f32⟩
  | 72 => ⟨S131072x9, .f32⟩
  | 73 => ⟨S131072x1x3, .f32⟩
  | 74 => ⟨S131072x3, .f32⟩
  | 75 => ⟨S131072x1x3, .f32⟩
  | 76 => ⟨S131072x3, .f32⟩
  | 77 => ⟨S131072x3, .f32⟩
  | 78 => ⟨S131072x3, .f32⟩
  | 79 => ⟨S_, .f32⟩
  | 80 => ⟨S131072, .f32⟩
  | 81 => ⟨S131072x1, .f32⟩
  | 82 => ⟨S131072x1, .f32⟩
  | 83 => ⟨S131072x19, .f32⟩
  | 84 => ⟨S1x19x19, .f32⟩
  | 85 => ⟨S19x19, .f32⟩
  | 86 => ⟨S19x19, .f32⟩
  | 87 => ⟨S131072x19, .f32⟩
  | 88 => ⟨S1x19, .f32⟩
  | 89 => ⟨S19, .f32⟩
  | 90 => ⟨S1x19, .f32⟩
  | 91 => ⟨S131072x19, .f32⟩
  | 92 => ⟨S131072x19, .f32⟩
  | 93 => ⟨S_, .f32⟩
  | 94 => ⟨S131072x19, .f32⟩
  | 95 => ⟨S131072x19, .f32⟩
  | 96 => ⟨S1x6x19, .f32⟩
  | 97 => ⟨S6x19, .f32⟩
  | 98 => ⟨S19x6, .f32⟩
  | 99 => ⟨S131072x6, .f32⟩
  | 100 => ⟨S1x6, .f32⟩
  | 101 => ⟨S6, .f32⟩
  | 102 => ⟨S1x6, .f32⟩
  | 103 => ⟨S131072x6, .f32⟩
  | 104 => ⟨S131072x6, .f32⟩
  | 105 => ⟨S131072x1x9, .f32⟩
  | 106 => ⟨S131072x9, .f32⟩
  | 107 => ⟨S131072x1x3, .f32⟩
  | 108 => ⟨S131072x3, .f32⟩
  | 109 => ⟨S131072x1x3, .f32⟩
  | 110 => ⟨S131072x3, .f32⟩
  | 111 => ⟨S131072x3, .f32⟩
  | 112 => ⟨S131072x3, .f32⟩
  | 113 => ⟨S_, .f32⟩
  | 114 => ⟨S131072, .f32⟩
  | 115 => ⟨S131072x1, .f32⟩
  | 116 => ⟨S131072x1, .f32⟩
  | 117 => ⟨S131072x19, .f32⟩
  | 118 => ⟨S1x19x19, .f32⟩
  | 119 => ⟨S19x19, .f32⟩
  | 120 => ⟨S19x19, .f32⟩
  | 121 => ⟨S131072x19, .f32⟩
  | 122 => ⟨S1x19, .f32⟩
  | 123 => ⟨S19, .f32⟩
  | 124 => ⟨S1x19, .f32⟩
  | 125 => ⟨S131072x19, .f32⟩
  | 126 => ⟨S131072x19, .f32⟩
  | 127 => ⟨S_, .f32⟩
  | _ => ⟨S131072x24x9, .f32⟩

abbrev hbmTy0_4 (i : Nat) : BufTy := match i % 128 with
  | 0 => ⟨S131072x19, .f32⟩
  | 1 => ⟨S131072x19, .f32⟩
  | 2 => ⟨S1x6x19, .f32⟩
  | 3 => ⟨S6x19, .f32⟩
  | 4 => ⟨S19x6, .f32⟩
  | 5 => ⟨S131072x6, .f32⟩
  | 6 => ⟨S1x6, .f32⟩
  | 7 => ⟨S6, .f32⟩
  | 8 => ⟨S1x6, .f32⟩
  | 9 => ⟨S131072x6, .f32⟩
  | 10 => ⟨S131072x6, .f32⟩
  | 11 => ⟨S131072x1x9, .f32⟩
  | 12 => ⟨S131072x9, .f32⟩
  | 13 => ⟨S131072x1x3, .f32⟩
  | 14 => ⟨S131072x3, .f32⟩
  | 15 => ⟨S131072x1x3, .f32⟩
  | 16 => ⟨S131072x3, .f32⟩
  | 17 => ⟨S131072x3, .f32⟩
  | 18 => ⟨S131072x3, .f32⟩
  | 19 => ⟨S_, .f32⟩
  | 20 => ⟨S131072, .f32⟩
  | 21 => ⟨S131072x1, .f32⟩
  | 22 => ⟨S131072x1, .f32⟩
  | 23 => ⟨S131072x19, .f32⟩
  | 24 => ⟨S1x19x19, .f32⟩
  | 25 => ⟨S19x19, .f32⟩
  | 26 => ⟨S19x19, .f32⟩
  | 27 => ⟨S131072x19, .f32⟩
  | 28 => ⟨S1x19, .f32⟩
  | 29 => ⟨S19, .f32⟩
  | 30 => ⟨S1x19, .f32⟩
  | 31 => ⟨S131072x19, .f32⟩
  | 32 => ⟨S131072x19, .f32⟩
  | 33 => ⟨S_, .f32⟩
  | 34 => ⟨S131072x19, .f32⟩
  | 35 => ⟨S131072x19, .f32⟩
  | 36 => ⟨S1x6x19, .f32⟩
  | 37 => ⟨S6x19, .f32⟩
  | 38 => ⟨S19x6, .f32⟩
  | 39 => ⟨S131072x6, .f32⟩
  | 40 => ⟨S1x6, .f32⟩
  | 41 => ⟨S6, .f32⟩
  | 42 => ⟨S1x6, .f32⟩
  | 43 => ⟨S131072x6, .f32⟩
  | 44 => ⟨S131072x6, .f32⟩
  | 45 => ⟨S131072x1x9, .f32⟩
  | 46 => ⟨S131072x9, .f32⟩
  | 47 => ⟨S131072x1x3, .f32⟩
  | 48 => ⟨S131072x3, .f32⟩
  | 49 => ⟨S131072x1x3, .f32⟩
  | 50 => ⟨S131072x3, .f32⟩
  | 51 => ⟨S131072x3, .f32⟩
  | 52 => ⟨S131072x3, .f32⟩
  | 53 => ⟨S_, .f32⟩
  | 54 => ⟨S131072, .f32⟩
  | 55 => ⟨S131072x1, .f32⟩
  | 56 => ⟨S131072x1, .f32⟩
  | 57 => ⟨S131072x19, .f32⟩
  | 58 => ⟨S1x19x19, .f32⟩
  | 59 => ⟨S19x19, .f32⟩
  | 60 => ⟨S19x19, .f32⟩
  | 61 => ⟨S131072x19, .f32⟩
  | 62 => ⟨S1x19, .f32⟩
  | 63 => ⟨S19, .f32⟩
  | 64 => ⟨S1x19, .f32⟩
  | 65 => ⟨S131072x19, .f32⟩
  | 66 => ⟨S131072x19, .f32⟩
  | 67 => ⟨S_, .f32⟩
  | 68 => ⟨S131072x19, .f32⟩
  | 69 => ⟨S131072x19, .f32⟩
  | 70 => ⟨S1x6x19, .f32⟩
  | 71 => ⟨S6x19, .f32⟩
  | 72 => ⟨S19x6, .f32⟩
  | 73 => ⟨S131072x6, .f32⟩
  | 74 => ⟨S1x6, .f32⟩
  | 75 => ⟨S6, .f32⟩
  | 76 => ⟨S1x6, .f32⟩
  | 77 => ⟨S131072x6, .f32⟩
  | 78 => ⟨S131072x6, .f32⟩
  | 79 => ⟨S131072x1x9, .f32⟩
  | 80 => ⟨S131072x9, .f32⟩
  | 81 => ⟨S131072x1x3, .f32⟩
  | 82 => ⟨S131072x3, .f32⟩
  | 83 => ⟨S131072x1x3, .f32⟩
  | 84 => ⟨S131072x3, .f32⟩
  | 85 => ⟨S131072x3, .f32⟩
  | 86 => ⟨S131072x3, .f32⟩
  | 87 => ⟨S_, .f32⟩
  | 88 => ⟨S131072, .f32⟩
  | 89 => ⟨S131072x1, .f32⟩
  | 90 => ⟨S131072x1, .f32⟩
  | 91 => ⟨S131072x19, .f32⟩
  | 92 => ⟨S1x19x19, .f32⟩
  | 93 => ⟨S19x19, .f32⟩
  | 94 => ⟨S19x19, .f32⟩
  | 95 => ⟨S131072x19, .f32⟩
  | 96 => ⟨S1x19, .f32⟩
  | 97 => ⟨S19, .f32⟩
  | 98 => ⟨S1x19, .f32⟩
  | 99 => ⟨S131072x19, .f32⟩
  | 100 => ⟨S131072x19, .f32⟩
  | 101 => ⟨S_, .f32⟩
  | 102 => ⟨S131072x19, .f32⟩
  | 103 => ⟨S131072x19, .f32⟩
  | 104 => ⟨S1x6x19, .f32⟩
  | 105 => ⟨S6x19, .f32⟩
  | 106 => ⟨S19x6, .f32⟩
  | 107 => ⟨S131072x6, .f32⟩
  | 108 => ⟨S1x6, .f32⟩
  | 109 => ⟨S6, .f32⟩
  | 110 => ⟨S1x6, .f32⟩
  | 111 => ⟨S131072x6, .f32⟩
  | 112 => ⟨S131072x6, .f32⟩
  | 113 => ⟨S131072x1x9, .f32⟩
  | 114 => ⟨S131072x9, .f32⟩
  | 115 => ⟨S131072x1x3, .f32⟩
  | 116 => ⟨S131072x3, .f32⟩
  | 117 => ⟨S131072x1x3, .f32⟩
  | 118 => ⟨S131072x3, .f32⟩
  | 119 => ⟨S131072x3, .f32⟩
  | 120 => ⟨S131072x3, .f32⟩
  | 121 => ⟨S_, .f32⟩
  | 122 => ⟨S131072, .f32⟩
  | 123 => ⟨S131072x1, .f32⟩
  | 124 => ⟨S131072x1, .f32⟩
  | 125 => ⟨S131072x19, .f32⟩
  | 126 => ⟨S1x19x19, .f32⟩
  | 127 => ⟨S19x19, .f32⟩
  | _ => ⟨S131072x24x9, .f32⟩

abbrev hbmTy0_5 (i : Nat) : BufTy := match i % 128 with
  | 0 => ⟨S19x19, .f32⟩
  | 1 => ⟨S131072x19, .f32⟩
  | 2 => ⟨S1x19, .f32⟩
  | 3 => ⟨S19, .f32⟩
  | 4 => ⟨S1x19, .f32⟩
  | 5 => ⟨S131072x19, .f32⟩
  | 6 => ⟨S131072x19, .f32⟩
  | 7 => ⟨S_, .f32⟩
  | 8 => ⟨S131072x19, .f32⟩
  | 9 => ⟨S131072x19, .f32⟩
  | 10 => ⟨S1x6x19, .f32⟩
  | 11 => ⟨S6x19, .f32⟩
  | 12 => ⟨S19x6, .f32⟩
  | 13 => ⟨S131072x6, .f32⟩
  | 14 => ⟨S1x6, .f32⟩
  | 15 => ⟨S6, .f32⟩
  | 16 => ⟨S1x6, .f32⟩
  | 17 => ⟨S131072x6, .f32⟩
  | 18 => ⟨S131072x6, .f32⟩
  | 19 => ⟨S131072x1x9, .f32⟩
  | 20 => ⟨S131072x9, .f32⟩
  | 21 => ⟨S131072x1x3, .f32⟩
  | 22 => ⟨S131072x3, .f32⟩
  | 23 => ⟨S131072x1x3, .f32⟩
  | 24 => ⟨S131072x3, .f32⟩
  | 25 => ⟨S131072x3, .f32⟩
  | 26 => ⟨S131072x3, .f32⟩
  | 27 => ⟨S_, .f32⟩
  | 28 => ⟨S131072, .f32⟩
  | 29 => ⟨S131072x1, .f32⟩
  | 30 => ⟨S131072x1, .f32⟩
  | 31 => ⟨S131072x19, .f32⟩
  | 32 => ⟨S1x19x19, .f32⟩
  | 33 => ⟨S19x19, .f32⟩
  | 34 => ⟨S19x19, .f32⟩
  | 35 => ⟨S131072x19, .f32⟩
  | 36 => ⟨S1x19, .f32⟩
  | 37 => ⟨S19, .f32⟩
  | 38 => ⟨S1x19, .f32⟩
  | 39 => ⟨S131072x19, .f32⟩
  | 40 => ⟨S131072x19, .f32⟩
  | 41 => ⟨S_, .f32⟩
  | 42 => ⟨S131072x19, .f32⟩
  | 43 => ⟨S131072x19, .f32⟩
  | 44 => ⟨S1x6x19, .f32⟩
  | 45 => ⟨S6x19, .f32⟩
  | 46 => ⟨S19x6, .f32⟩
  | 47 => ⟨S131072x6, .f32⟩
  | 48 => ⟨S1x6, .f32⟩
  | 49 => ⟨S6, .f32⟩
  | 50 => ⟨S1x6, .f32⟩
  | 51 => ⟨S131072x6, .f32⟩
  | 52 => ⟨S131072x6, .f32⟩
  | 53 => ⟨S131072x1x9, .f32⟩
  | 54 => ⟨S131072x9, .f32⟩
  | 55 => ⟨S131072x1x3, .f32⟩
  | 56 => ⟨S131072x3, .f32⟩
  | 57 => ⟨S131072x1x3, .f32⟩
  | 58 => ⟨S131072x3, .f32⟩
  | 59 => ⟨S131072x3, .f32⟩
  | 60 => ⟨S131072x3, .f32⟩
  | 61 => ⟨S_, .f32⟩
  | 62 => ⟨S131072, .f32⟩
  | 63 => ⟨S131072x1, .f32⟩
  | 64 => ⟨S131072x1, .f32⟩
  | 65 => ⟨S131072x19, .f32⟩
  | 66 => ⟨S1x19x19, .f32⟩
  | 67 => ⟨S19x19, .f32⟩
  | 68 => ⟨S19x19, .f32⟩
  | 69 => ⟨S131072x19, .f32⟩
  | 70 => ⟨S1x19, .f32⟩
  | 71 => ⟨S19, .f32⟩
  | 72 => ⟨S1x19, .f32⟩
  | 73 => ⟨S131072x19, .f32⟩
  | 74 => ⟨S131072x19, .f32⟩
  | 75 => ⟨S_, .f32⟩
  | 76 => ⟨S131072x19, .f32⟩
  | 77 => ⟨S131072x19, .f32⟩
  | 78 => ⟨S1x6x19, .f32⟩
  | 79 => ⟨S6x19, .f32⟩
  | 80 => ⟨S19x6, .f32⟩
  | 81 => ⟨S131072x6, .f32⟩
  | 82 => ⟨S1x6, .f32⟩
  | 83 => ⟨S6, .f32⟩
  | 84 => ⟨S1x6, .f32⟩
  | 85 => ⟨S131072x6, .f32⟩
  | 86 => ⟨S131072x6, .f32⟩
  | 87 => ⟨S131072x1x9, .f32⟩
  | 88 => ⟨S131072x9, .f32⟩
  | 89 => ⟨S131072x1x3, .f32⟩
  | 90 => ⟨S131072x3, .f32⟩
  | 91 => ⟨S131072x1x3, .f32⟩
  | 92 => ⟨S131072x3, .f32⟩
  | 93 => ⟨S131072x3, .f32⟩
  | 94 => ⟨S131072x3, .f32⟩
  | 95 => ⟨S_, .f32⟩
  | 96 => ⟨S131072, .f32⟩
  | 97 => ⟨S131072x1, .f32⟩
  | 98 => ⟨S131072x1, .f32⟩
  | 99 => ⟨S131072x19, .f32⟩
  | 100 => ⟨S1x19x19, .f32⟩
  | 101 => ⟨S19x19, .f32⟩
  | 102 => ⟨S19x19, .f32⟩
  | 103 => ⟨S131072x19, .f32⟩
  | 104 => ⟨S1x19, .f32⟩
  | 105 => ⟨S19, .f32⟩
  | 106 => ⟨S1x19, .f32⟩
  | 107 => ⟨S131072x19, .f32⟩
  | 108 => ⟨S131072x19, .f32⟩
  | 109 => ⟨S_, .f32⟩
  | 110 => ⟨S131072x19, .f32⟩
  | 111 => ⟨S131072x19, .f32⟩
  | 112 => ⟨S1x6x19, .f32⟩
  | 113 => ⟨S6x19, .f32⟩
  | 114 => ⟨S19x6, .f32⟩
  | 115 => ⟨S131072x6, .f32⟩
  | 116 => ⟨S1x6, .f32⟩
  | 117 => ⟨S6, .f32⟩
  | 118 => ⟨S1x6, .f32⟩
  | 119 => ⟨S131072x6, .f32⟩
  | 120 => ⟨S131072x6, .f32⟩
  | 121 => ⟨S131072x1x9, .f32⟩
  | 122 => ⟨S131072x9, .f32⟩
  | 123 => ⟨S131072x1x3, .f32⟩
  | 124 => ⟨S131072x3, .f32⟩
  | 125 => ⟨S131072x1x3, .f32⟩
  | 126 => ⟨S131072x3, .f32⟩
  | 127 => ⟨S131072x3, .f32⟩
  | _ => ⟨S131072x24x9, .f32⟩

abbrev hbmTy0_6 (i : Nat) : BufTy := match i % 128 with
  | 0 => ⟨S131072x3, .f32⟩
  | 1 => ⟨S_, .f32⟩
  | 2 => ⟨S131072, .f32⟩
  | 3 => ⟨S131072x1, .f32⟩
  | 4 => ⟨S131072x1, .f32⟩
  | 5 => ⟨S131072x19, .f32⟩
  | 6 => ⟨S1x19x19, .f32⟩
  | 7 => ⟨S19x19, .f32⟩
  | 8 => ⟨S19x19, .f32⟩
  | 9 => ⟨S131072x19, .f32⟩
  | 10 => ⟨S1x19, .f32⟩
  | 11 => ⟨S19, .f32⟩
  | 12 => ⟨S1x19, .f32⟩
  | 13 => ⟨S131072x19, .f32⟩
  | 14 => ⟨S131072x19, .f32⟩
  | 15 => ⟨S_, .f32⟩
  | 16 => ⟨S131072x19, .f32⟩
  | 17 => ⟨S131072x19, .f32⟩
  | 18 => ⟨S1x6x19, .f32⟩
  | 19 => ⟨S6x19, .f32⟩
  | 20 => ⟨S19x6, .f32⟩
  | 21 => ⟨S131072x6, .f32⟩
  | 22 => ⟨S1x6, .f32⟩
  | 23 => ⟨S6, .f32⟩
  | 24 => ⟨S1x6, .f32⟩
  | 25 => ⟨S131072x6, .f32⟩
  | 26 => ⟨S131072x6, .f32⟩
  | 27 => ⟨S131072x1x9, .f32⟩
  | 28 => ⟨S131072x9, .f32⟩
  | 29 => ⟨S131072x1x3, .f32⟩
  | 30 => ⟨S131072x3, .f32⟩
  | 31 => ⟨S131072x1x3, .f32⟩
  | 32 => ⟨S131072x3, .f32⟩
  | 33 => ⟨S131072x3, .f32⟩
  | 34 => ⟨S131072x3, .f32⟩
  | 35 => ⟨S_, .f32⟩
  | 36 => ⟨S131072, .f32⟩
  | 37 => ⟨S131072x1, .f32⟩
  | 38 => ⟨S131072x1, .f32⟩
  | 39 => ⟨S131072x19, .f32⟩
  | 40 => ⟨S1x19x19, .f32⟩
  | 41 => ⟨S19x19, .f32⟩
  | 42 => ⟨S19x19, .f32⟩
  | 43 => ⟨S131072x19, .f32⟩
  | 44 => ⟨S1x19, .f32⟩
  | 45 => ⟨S19, .f32⟩
  | 46 => ⟨S1x19, .f32⟩
  | 47 => ⟨S131072x19, .f32⟩
  | 48 => ⟨S131072x19, .f32⟩
  | 49 => ⟨S_, .f32⟩
  | 50 => ⟨S131072x19, .f32⟩
  | 51 => ⟨S131072x19, .f32⟩
  | 52 => ⟨S1x6x19, .f32⟩
  | 53 => ⟨S6x19, .f32⟩
  | 54 => ⟨S19x6, .f32⟩
  | 55 => ⟨S131072x6, .f32⟩
  | 56 => ⟨S1x6, .f32⟩
  | 57 => ⟨S6, .f32⟩
  | 58 => ⟨S1x6, .f32⟩
  | 59 => ⟨S131072x6, .f32⟩
  | 60 => ⟨S131072x6, .f32⟩
  | 61 => ⟨S131072x96, .f32⟩
  | 62 => ⟨S131072x48, .f32⟩
  | 63 => ⟨S131072x144, .f32⟩
  | _ => ⟨S131072x24x9, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S131072x24x9, .f32⟩

abbrev bufTy : (tb : Table) → Fin (tcTables nBuf tb) → BufTy
  | .hbm, ⟨i, _⟩ => hbmTy i
  | _, _ => ⟨S131072x24x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_call0_v0 : Ref sig .tc := ⟨.hbm, 20, rfl⟩
abbrev main_call0_cst : Ref sig .tc := ⟨.hbm, 21, rfl⟩
abbrev main_call0_v1 : Ref sig .tc := ⟨.hbm, 22, rfl⟩
abbrev main_call0_v2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call1_cst : Ref sig .tc := ⟨.hbm, 35, rfl⟩
abbrev main_call1_v0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_call2_v0 : Ref sig .tc := ⟨.hbm, 54, rfl⟩
abbrev main_call2_cst : Ref sig .tc := ⟨.hbm, 55, rfl⟩
abbrev main_call2_v1 : Ref sig .tc := ⟨.hbm, 56, rfl⟩
abbrev main_call2_v2 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_call3_cst : Ref sig .tc := ⟨.hbm, 69, rfl⟩
abbrev main_call3_v0 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_call4_v0 : Ref sig .tc := ⟨.hbm, 88, rfl⟩
abbrev main_call4_cst : Ref sig .tc := ⟨.hbm, 89, rfl⟩
abbrev main_call4_v1 : Ref sig .tc := ⟨.hbm, 90, rfl⟩
abbrev main_call4_v2 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_call5_cst : Ref sig .tc := ⟨.hbm, 103, rfl⟩
abbrev main_call5_v0 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_call6_v0 : Ref sig .tc := ⟨.hbm, 122, rfl⟩
abbrev main_call6_cst : Ref sig .tc := ⟨.hbm, 123, rfl⟩
abbrev main_call6_v1 : Ref sig .tc := ⟨.hbm, 124, rfl⟩
abbrev main_call6_v2 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_call7_cst : Ref sig .tc := ⟨.hbm, 137, rfl⟩
abbrev main_call7_v0 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_call8_v0 : Ref sig .tc := ⟨.hbm, 156, rfl⟩
abbrev main_call8_cst : Ref sig .tc := ⟨.hbm, 157, rfl⟩
abbrev main_call8_v1 : Ref sig .tc := ⟨.hbm, 158, rfl⟩
abbrev main_call8_v2 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_call9_cst : Ref sig .tc := ⟨.hbm, 171, rfl⟩
abbrev main_call9_v0 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_call10_v0 : Ref sig .tc := ⟨.hbm, 190, rfl⟩
abbrev main_call10_cst : Ref sig .tc := ⟨.hbm, 191, rfl⟩
abbrev main_call10_v1 : Ref sig .tc := ⟨.hbm, 192, rfl⟩
abbrev main_call10_v2 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_call11_cst : Ref sig .tc := ⟨.hbm, 205, rfl⟩
abbrev main_call11_v0 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_v178 : Ref sig .tc := ⟨.hbm, 222, rfl⟩
abbrev main_v179 : Ref sig .tc := ⟨.hbm, 223, rfl⟩
abbrev main_call12_v0 : Ref sig .tc := ⟨.hbm, 224, rfl⟩
abbrev main_call12_cst : Ref sig .tc := ⟨.hbm, 225, rfl⟩
abbrev main_call12_v1 : Ref sig .tc := ⟨.hbm, 226, rfl⟩
abbrev main_call12_v2 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_v186 : Ref sig .tc := ⟨.hbm, 234, rfl⟩
abbrev main_v187 : Ref sig .tc := ⟨.hbm, 235, rfl⟩
abbrev main_v188 : Ref sig .tc := ⟨.hbm, 236, rfl⟩
abbrev main_v189 : Ref sig .tc := ⟨.hbm, 237, rfl⟩
abbrev main_v190 : Ref sig .tc := ⟨.hbm, 238, rfl⟩
abbrev main_call13_cst : Ref sig .tc := ⟨.hbm, 239, rfl⟩
abbrev main_call13_v0 : Ref sig .tc := ⟨.hbm, 240, rfl⟩
abbrev main_v191 : Ref sig .tc := ⟨.hbm, 241, rfl⟩
abbrev main_v192 : Ref sig .tc := ⟨.hbm, 242, rfl⟩
abbrev main_v193 : Ref sig .tc := ⟨.hbm, 243, rfl⟩
abbrev main_v194 : Ref sig .tc := ⟨.hbm, 244, rfl⟩
abbrev main_v195 : Ref sig .tc := ⟨.hbm, 245, rfl⟩
abbrev main_v196 : Ref sig .tc := ⟨.hbm, 246, rfl⟩
abbrev main_v197 : Ref sig .tc := ⟨.hbm, 247, rfl⟩
abbrev main_v198 : Ref sig .tc := ⟨.hbm, 248, rfl⟩
abbrev main_v199 : Ref sig .tc := ⟨.hbm, 249, rfl⟩
abbrev main_v200 : Ref sig .tc := ⟨.hbm, 250, rfl⟩
abbrev main_v201 : Ref sig .tc := ⟨.hbm, 251, rfl⟩
abbrev main_v202 : Ref sig .tc := ⟨.hbm, 252, rfl⟩
abbrev main_v203 : Ref sig .tc := ⟨.hbm, 253, rfl⟩
abbrev main_v204 : Ref sig .tc := ⟨.hbm, 254, rfl⟩
abbrev main_v205 : Ref sig .tc := ⟨.hbm, 255, rfl⟩
abbrev main_v206 : Ref sig .tc := ⟨.hbm, 256, rfl⟩
abbrev main_v207 : Ref sig .tc := ⟨.hbm, 257, rfl⟩
abbrev main_call14_v0 : Ref sig .tc := ⟨.hbm, 258, rfl⟩
abbrev main_call14_cst : Ref sig .tc := ⟨.hbm, 259, rfl⟩
abbrev main_call14_v1 : Ref sig .tc := ⟨.hbm, 260, rfl⟩
abbrev main_call14_v2 : Ref sig .tc := ⟨.hbm, 261, rfl⟩
abbrev main_v208 : Ref sig .tc := ⟨.hbm, 262, rfl⟩
abbrev main_v209 : Ref sig .tc := ⟨.hbm, 263, rfl⟩
abbrev main_v210 : Ref sig .tc := ⟨.hbm, 264, rfl⟩
abbrev main_v211 : Ref sig .tc := ⟨.hbm, 265, rfl⟩
abbrev main_v212 : Ref sig .tc := ⟨.hbm, 266, rfl⟩
abbrev main_v213 : Ref sig .tc := ⟨.hbm, 267, rfl⟩
abbrev main_v214 : Ref sig .tc := ⟨.hbm, 268, rfl⟩
abbrev main_v215 : Ref sig .tc := ⟨.hbm, 269, rfl⟩
abbrev main_v216 : Ref sig .tc := ⟨.hbm, 270, rfl⟩
abbrev main_v217 : Ref sig .tc := ⟨.hbm, 271, rfl⟩
abbrev main_v218 : Ref sig .tc := ⟨.hbm, 272, rfl⟩
abbrev main_call15_cst : Ref sig .tc := ⟨.hbm, 273, rfl⟩
abbrev main_call15_v0 : Ref sig .tc := ⟨.hbm, 274, rfl⟩
abbrev main_v219 : Ref sig .tc := ⟨.hbm, 275, rfl⟩
abbrev main_v220 : Ref sig .tc := ⟨.hbm, 276, rfl⟩
abbrev main_v221 : Ref sig .tc := ⟨.hbm, 277, rfl⟩
abbrev main_v222 : Ref sig .tc := ⟨.hbm, 278, rfl⟩
abbrev main_v223 : Ref sig .tc := ⟨.hbm, 279, rfl⟩
abbrev main_v224 : Ref sig .tc := ⟨.hbm, 280, rfl⟩
abbrev main_v225 : Ref sig .tc := ⟨.hbm, 281, rfl⟩
abbrev main_v226 : Ref sig .tc := ⟨.hbm, 282, rfl⟩
abbrev main_v227 : Ref sig .tc := ⟨.hbm, 283, rfl⟩
abbrev main_v228 : Ref sig .tc := ⟨.hbm, 284, rfl⟩
abbrev main_v229 : Ref sig .tc := ⟨.hbm, 285, rfl⟩
abbrev main_v230 : Ref sig .tc := ⟨.hbm, 286, rfl⟩
abbrev main_v231 : Ref sig .tc := ⟨.hbm, 287, rfl⟩
abbrev main_v232 : Ref sig .tc := ⟨.hbm, 288, rfl⟩
abbrev main_v233 : Ref sig .tc := ⟨.hbm, 289, rfl⟩
abbrev main_v234 : Ref sig .tc := ⟨.hbm, 290, rfl⟩
abbrev main_v235 : Ref sig .tc := ⟨.hbm, 291, rfl⟩
abbrev main_call16_v0 : Ref sig .tc := ⟨.hbm, 292, rfl⟩
abbrev main_call16_cst : Ref sig .tc := ⟨.hbm, 293, rfl⟩
abbrev main_call16_v1 : Ref sig .tc := ⟨.hbm, 294, rfl⟩
abbrev main_call16_v2 : Ref sig .tc := ⟨.hbm, 295, rfl⟩
abbrev main_v236 : Ref sig .tc := ⟨.hbm, 296, rfl⟩
abbrev main_v237 : Ref sig .tc := ⟨.hbm, 297, rfl⟩
abbrev main_v238 : Ref sig .tc := ⟨.hbm, 298, rfl⟩
abbrev main_v239 : Ref sig .tc := ⟨.hbm, 299, rfl⟩
abbrev main_v240 : Ref sig .tc := ⟨.hbm, 300, rfl⟩
abbrev main_v241 : Ref sig .tc := ⟨.hbm, 301, rfl⟩
abbrev main_v242 : Ref sig .tc := ⟨.hbm, 302, rfl⟩
abbrev main_v243 : Ref sig .tc := ⟨.hbm, 303, rfl⟩
abbrev main_v244 : Ref sig .tc := ⟨.hbm, 304, rfl⟩
abbrev main_v245 : Ref sig .tc := ⟨.hbm, 305, rfl⟩
abbrev main_v246 : Ref sig .tc := ⟨.hbm, 306, rfl⟩
abbrev main_call17_cst : Ref sig .tc := ⟨.hbm, 307, rfl⟩
abbrev main_call17_v0 : Ref sig .tc := ⟨.hbm, 308, rfl⟩
abbrev main_v247 : Ref sig .tc := ⟨.hbm, 309, rfl⟩
abbrev main_v248 : Ref sig .tc := ⟨.hbm, 310, rfl⟩
abbrev main_v249 : Ref sig .tc := ⟨.hbm, 311, rfl⟩
abbrev main_v250 : Ref sig .tc := ⟨.hbm, 312, rfl⟩
abbrev main_v251 : Ref sig .tc := ⟨.hbm, 313, rfl⟩
abbrev main_v252 : Ref sig .tc := ⟨.hbm, 314, rfl⟩
abbrev main_v253 : Ref sig .tc := ⟨.hbm, 315, rfl⟩
abbrev main_v254 : Ref sig .tc := ⟨.hbm, 316, rfl⟩
abbrev main_v255 : Ref sig .tc := ⟨.hbm, 317, rfl⟩
abbrev main_v256 : Ref sig .tc := ⟨.hbm, 318, rfl⟩
abbrev main_v257 : Ref sig .tc := ⟨.hbm, 319, rfl⟩
abbrev main_v258 : Ref sig .tc := ⟨.hbm, 320, rfl⟩
abbrev main_v259 : Ref sig .tc := ⟨.hbm, 321, rfl⟩
abbrev main_v260 : Ref sig .tc := ⟨.hbm, 322, rfl⟩
abbrev main_v261 : Ref sig .tc := ⟨.hbm, 323, rfl⟩
abbrev main_v262 : Ref sig .tc := ⟨.hbm, 324, rfl⟩
abbrev main_v263 : Ref sig .tc := ⟨.hbm, 325, rfl⟩
abbrev main_call18_v0 : Ref sig .tc := ⟨.hbm, 326, rfl⟩
abbrev main_call18_cst : Ref sig .tc := ⟨.hbm, 327, rfl⟩
abbrev main_call18_v1 : Ref sig .tc := ⟨.hbm, 328, rfl⟩
abbrev main_call18_v2 : Ref sig .tc := ⟨.hbm, 329, rfl⟩
abbrev main_v264 : Ref sig .tc := ⟨.hbm, 330, rfl⟩
abbrev main_v265 : Ref sig .tc := ⟨.hbm, 331, rfl⟩
abbrev main_v266 : Ref sig .tc := ⟨.hbm, 332, rfl⟩
abbrev main_v267 : Ref sig .tc := ⟨.hbm, 333, rfl⟩
abbrev main_v268 : Ref sig .tc := ⟨.hbm, 334, rfl⟩
abbrev main_v269 : Ref sig .tc := ⟨.hbm, 335, rfl⟩
abbrev main_v270 : Ref sig .tc := ⟨.hbm, 336, rfl⟩
abbrev main_v271 : Ref sig .tc := ⟨.hbm, 337, rfl⟩
abbrev main_v272 : Ref sig .tc := ⟨.hbm, 338, rfl⟩
abbrev main_v273 : Ref sig .tc := ⟨.hbm, 339, rfl⟩
abbrev main_v274 : Ref sig .tc := ⟨.hbm, 340, rfl⟩
abbrev main_call19_cst : Ref sig .tc := ⟨.hbm, 341, rfl⟩
abbrev main_call19_v0 : Ref sig .tc := ⟨.hbm, 342, rfl⟩
abbrev main_v275 : Ref sig .tc := ⟨.hbm, 343, rfl⟩
abbrev main_v276 : Ref sig .tc := ⟨.hbm, 344, rfl⟩
abbrev main_v277 : Ref sig .tc := ⟨.hbm, 345, rfl⟩
abbrev main_v278 : Ref sig .tc := ⟨.hbm, 346, rfl⟩
abbrev main_v279 : Ref sig .tc := ⟨.hbm, 347, rfl⟩
abbrev main_v280 : Ref sig .tc := ⟨.hbm, 348, rfl⟩
abbrev main_v281 : Ref sig .tc := ⟨.hbm, 349, rfl⟩
abbrev main_v282 : Ref sig .tc := ⟨.hbm, 350, rfl⟩
abbrev main_v283 : Ref sig .tc := ⟨.hbm, 351, rfl⟩
abbrev main_v284 : Ref sig .tc := ⟨.hbm, 352, rfl⟩
abbrev main_v285 : Ref sig .tc := ⟨.hbm, 353, rfl⟩
abbrev main_v286 : Ref sig .tc := ⟨.hbm, 354, rfl⟩
abbrev main_v287 : Ref sig .tc := ⟨.hbm, 355, rfl⟩
abbrev main_v288 : Ref sig .tc := ⟨.hbm, 356, rfl⟩
abbrev main_v289 : Ref sig .tc := ⟨.hbm, 357, rfl⟩
abbrev main_v290 : Ref sig .tc := ⟨.hbm, 358, rfl⟩
abbrev main_v291 : Ref sig .tc := ⟨.hbm, 359, rfl⟩
abbrev main_call20_v0 : Ref sig .tc := ⟨.hbm, 360, rfl⟩
abbrev main_call20_cst : Ref sig .tc := ⟨.hbm, 361, rfl⟩
abbrev main_call20_v1 : Ref sig .tc := ⟨.hbm, 362, rfl⟩
abbrev main_call20_v2 : Ref sig .tc := ⟨.hbm, 363, rfl⟩
abbrev main_v292 : Ref sig .tc := ⟨.hbm, 364, rfl⟩
abbrev main_v293 : Ref sig .tc := ⟨.hbm, 365, rfl⟩
abbrev main_v294 : Ref sig .tc := ⟨.hbm, 366, rfl⟩
abbrev main_v295 : Ref sig .tc := ⟨.hbm, 367, rfl⟩
abbrev main_v296 : Ref sig .tc := ⟨.hbm, 368, rfl⟩
abbrev main_v297 : Ref sig .tc := ⟨.hbm, 369, rfl⟩
abbrev main_v298 : Ref sig .tc := ⟨.hbm, 370, rfl⟩
abbrev main_v299 : Ref sig .tc := ⟨.hbm, 371, rfl⟩
abbrev main_v300 : Ref sig .tc := ⟨.hbm, 372, rfl⟩
abbrev main_v301 : Ref sig .tc := ⟨.hbm, 373, rfl⟩
abbrev main_v302 : Ref sig .tc := ⟨.hbm, 374, rfl⟩
abbrev main_call21_cst : Ref sig .tc := ⟨.hbm, 375, rfl⟩
abbrev main_call21_v0 : Ref sig .tc := ⟨.hbm, 376, rfl⟩
abbrev main_v303 : Ref sig .tc := ⟨.hbm, 377, rfl⟩
abbrev main_v304 : Ref sig .tc := ⟨.hbm, 378, rfl⟩
abbrev main_v305 : Ref sig .tc := ⟨.hbm, 379, rfl⟩
abbrev main_v306 : Ref sig .tc := ⟨.hbm, 380, rfl⟩
abbrev main_v307 : Ref sig .tc := ⟨.hbm, 381, rfl⟩
abbrev main_v308 : Ref sig .tc := ⟨.hbm, 382, rfl⟩
abbrev main_v309 : Ref sig .tc := ⟨.hbm, 383, rfl⟩
abbrev main_v310 : Ref sig .tc := ⟨.hbm, 384, rfl⟩
abbrev main_v311 : Ref sig .tc := ⟨.hbm, 385, rfl⟩
abbrev main_v312 : Ref sig .tc := ⟨.hbm, 386, rfl⟩
abbrev main_v313 : Ref sig .tc := ⟨.hbm, 387, rfl⟩
abbrev main_v314 : Ref sig .tc := ⟨.hbm, 388, rfl⟩
abbrev main_v315 : Ref sig .tc := ⟨.hbm, 389, rfl⟩
abbrev main_v316 : Ref sig .tc := ⟨.hbm, 390, rfl⟩
abbrev main_v317 : Ref sig .tc := ⟨.hbm, 391, rfl⟩
abbrev main_v318 : Ref sig .tc := ⟨.hbm, 392, rfl⟩
abbrev main_v319 : Ref sig .tc := ⟨.hbm, 393, rfl⟩
abbrev main_call22_v0 : Ref sig .tc := ⟨.hbm, 394, rfl⟩
abbrev main_call22_cst : Ref sig .tc := ⟨.hbm, 395, rfl⟩
abbrev main_call22_v1 : Ref sig .tc := ⟨.hbm, 396, rfl⟩
abbrev main_call22_v2 : Ref sig .tc := ⟨.hbm, 397, rfl⟩
abbrev main_v320 : Ref sig .tc := ⟨.hbm, 398, rfl⟩
abbrev main_v321 : Ref sig .tc := ⟨.hbm, 399, rfl⟩
abbrev main_v322 : Ref sig .tc := ⟨.hbm, 400, rfl⟩
abbrev main_v323 : Ref sig .tc := ⟨.hbm, 401, rfl⟩
abbrev main_v324 : Ref sig .tc := ⟨.hbm, 402, rfl⟩
abbrev main_v325 : Ref sig .tc := ⟨.hbm, 403, rfl⟩
abbrev main_v326 : Ref sig .tc := ⟨.hbm, 404, rfl⟩
abbrev main_v327 : Ref sig .tc := ⟨.hbm, 405, rfl⟩
abbrev main_v328 : Ref sig .tc := ⟨.hbm, 406, rfl⟩
abbrev main_v329 : Ref sig .tc := ⟨.hbm, 407, rfl⟩
abbrev main_v330 : Ref sig .tc := ⟨.hbm, 408, rfl⟩
abbrev main_call23_cst : Ref sig .tc := ⟨.hbm, 409, rfl⟩
abbrev main_call23_v0 : Ref sig .tc := ⟨.hbm, 410, rfl⟩
abbrev main_v331 : Ref sig .tc := ⟨.hbm, 411, rfl⟩
abbrev main_v332 : Ref sig .tc := ⟨.hbm, 412, rfl⟩
abbrev main_v333 : Ref sig .tc := ⟨.hbm, 413, rfl⟩
abbrev main_v334 : Ref sig .tc := ⟨.hbm, 414, rfl⟩
abbrev main_v335 : Ref sig .tc := ⟨.hbm, 415, rfl⟩
abbrev main_v336 : Ref sig .tc := ⟨.hbm, 416, rfl⟩
abbrev main_v337 : Ref sig .tc := ⟨.hbm, 417, rfl⟩
abbrev main_v338 : Ref sig .tc := ⟨.hbm, 418, rfl⟩
abbrev main_v339 : Ref sig .tc := ⟨.hbm, 419, rfl⟩
abbrev main_v340 : Ref sig .tc := ⟨.hbm, 420, rfl⟩
abbrev main_v341 : Ref sig .tc := ⟨.hbm, 421, rfl⟩
abbrev main_v342 : Ref sig .tc := ⟨.hbm, 422, rfl⟩
abbrev main_v343 : Ref sig .tc := ⟨.hbm, 423, rfl⟩
abbrev main_v344 : Ref sig .tc := ⟨.hbm, 424, rfl⟩
abbrev main_v345 : Ref sig .tc := ⟨.hbm, 425, rfl⟩
abbrev main_v346 : Ref sig .tc := ⟨.hbm, 426, rfl⟩
abbrev main_v347 : Ref sig .tc := ⟨.hbm, 427, rfl⟩
abbrev main_call24_v0 : Ref sig .tc := ⟨.hbm, 428, rfl⟩
abbrev main_call24_cst : Ref sig .tc := ⟨.hbm, 429, rfl⟩
abbrev main_call24_v1 : Ref sig .tc := ⟨.hbm, 430, rfl⟩
abbrev main_call24_v2 : Ref sig .tc := ⟨.hbm, 431, rfl⟩
abbrev main_v348 : Ref sig .tc := ⟨.hbm, 432, rfl⟩
abbrev main_v349 : Ref sig .tc := ⟨.hbm, 433, rfl⟩
abbrev main_v350 : Ref sig .tc := ⟨.hbm, 434, rfl⟩
abbrev main_v351 : Ref sig .tc := ⟨.hbm, 435, rfl⟩
abbrev main_v352 : Ref sig .tc := ⟨.hbm, 436, rfl⟩
abbrev main_v353 : Ref sig .tc := ⟨.hbm, 437, rfl⟩
abbrev main_v354 : Ref sig .tc := ⟨.hbm, 438, rfl⟩
abbrev main_v355 : Ref sig .tc := ⟨.hbm, 439, rfl⟩
abbrev main_v356 : Ref sig .tc := ⟨.hbm, 440, rfl⟩
abbrev main_v357 : Ref sig .tc := ⟨.hbm, 441, rfl⟩
abbrev main_v358 : Ref sig .tc := ⟨.hbm, 442, rfl⟩
abbrev main_call25_cst : Ref sig .tc := ⟨.hbm, 443, rfl⟩
abbrev main_call25_v0 : Ref sig .tc := ⟨.hbm, 444, rfl⟩
abbrev main_v359 : Ref sig .tc := ⟨.hbm, 445, rfl⟩
abbrev main_v360 : Ref sig .tc := ⟨.hbm, 446, rfl⟩
abbrev main_v361 : Ref sig .tc := ⟨.hbm, 447, rfl⟩
abbrev main_v362 : Ref sig .tc := ⟨.hbm, 448, rfl⟩
abbrev main_v363 : Ref sig .tc := ⟨.hbm, 449, rfl⟩
abbrev main_v364 : Ref sig .tc := ⟨.hbm, 450, rfl⟩
abbrev main_v365 : Ref sig .tc := ⟨.hbm, 451, rfl⟩
abbrev main_v366 : Ref sig .tc := ⟨.hbm, 452, rfl⟩
abbrev main_v367 : Ref sig .tc := ⟨.hbm, 453, rfl⟩
abbrev main_v368 : Ref sig .tc := ⟨.hbm, 454, rfl⟩
abbrev main_v369 : Ref sig .tc := ⟨.hbm, 455, rfl⟩
abbrev main_v370 : Ref sig .tc := ⟨.hbm, 456, rfl⟩
abbrev main_v371 : Ref sig .tc := ⟨.hbm, 457, rfl⟩
abbrev main_v372 : Ref sig .tc := ⟨.hbm, 458, rfl⟩
abbrev main_v373 : Ref sig .tc := ⟨.hbm, 459, rfl⟩
abbrev main_v374 : Ref sig .tc := ⟨.hbm, 460, rfl⟩
abbrev main_v375 : Ref sig .tc := ⟨.hbm, 461, rfl⟩
abbrev main_call26_v0 : Ref sig .tc := ⟨.hbm, 462, rfl⟩
abbrev main_call26_cst : Ref sig .tc := ⟨.hbm, 463, rfl⟩
abbrev main_call26_v1 : Ref sig .tc := ⟨.hbm, 464, rfl⟩
abbrev main_call26_v2 : Ref sig .tc := ⟨.hbm, 465, rfl⟩
abbrev main_v376 : Ref sig .tc := ⟨.hbm, 466, rfl⟩
abbrev main_v377 : Ref sig .tc := ⟨.hbm, 467, rfl⟩
abbrev main_v378 : Ref sig .tc := ⟨.hbm, 468, rfl⟩
abbrev main_v379 : Ref sig .tc := ⟨.hbm, 469, rfl⟩
abbrev main_v380 : Ref sig .tc := ⟨.hbm, 470, rfl⟩
abbrev main_v381 : Ref sig .tc := ⟨.hbm, 471, rfl⟩
abbrev main_v382 : Ref sig .tc := ⟨.hbm, 472, rfl⟩
abbrev main_v383 : Ref sig .tc := ⟨.hbm, 473, rfl⟩
abbrev main_v384 : Ref sig .tc := ⟨.hbm, 474, rfl⟩
abbrev main_v385 : Ref sig .tc := ⟨.hbm, 475, rfl⟩
abbrev main_v386 : Ref sig .tc := ⟨.hbm, 476, rfl⟩
abbrev main_call27_cst : Ref sig .tc := ⟨.hbm, 477, rfl⟩
abbrev main_call27_v0 : Ref sig .tc := ⟨.hbm, 478, rfl⟩
abbrev main_v387 : Ref sig .tc := ⟨.hbm, 479, rfl⟩
abbrev main_v388 : Ref sig .tc := ⟨.hbm, 480, rfl⟩
abbrev main_v389 : Ref sig .tc := ⟨.hbm, 481, rfl⟩
abbrev main_v390 : Ref sig .tc := ⟨.hbm, 482, rfl⟩
abbrev main_v391 : Ref sig .tc := ⟨.hbm, 483, rfl⟩
abbrev main_v392 : Ref sig .tc := ⟨.hbm, 484, rfl⟩
abbrev main_v393 : Ref sig .tc := ⟨.hbm, 485, rfl⟩
abbrev main_v394 : Ref sig .tc := ⟨.hbm, 486, rfl⟩
abbrev main_v395 : Ref sig .tc := ⟨.hbm, 487, rfl⟩
abbrev main_v396 : Ref sig .tc := ⟨.hbm, 488, rfl⟩
abbrev main_v397 : Ref sig .tc := ⟨.hbm, 489, rfl⟩
abbrev main_v398 : Ref sig .tc := ⟨.hbm, 490, rfl⟩
abbrev main_v399 : Ref sig .tc := ⟨.hbm, 491, rfl⟩
abbrev main_v400 : Ref sig .tc := ⟨.hbm, 492, rfl⟩
abbrev main_v401 : Ref sig .tc := ⟨.hbm, 493, rfl⟩
abbrev main_v402 : Ref sig .tc := ⟨.hbm, 494, rfl⟩
abbrev main_v403 : Ref sig .tc := ⟨.hbm, 495, rfl⟩
abbrev main_call28_v0 : Ref sig .tc := ⟨.hbm, 496, rfl⟩
abbrev main_call28_cst : Ref sig .tc := ⟨.hbm, 497, rfl⟩
abbrev main_call28_v1 : Ref sig .tc := ⟨.hbm, 498, rfl⟩
abbrev main_call28_v2 : Ref sig .tc := ⟨.hbm, 499, rfl⟩
abbrev main_v404 : Ref sig .tc := ⟨.hbm, 500, rfl⟩
abbrev main_v405 : Ref sig .tc := ⟨.hbm, 501, rfl⟩
abbrev main_v406 : Ref sig .tc := ⟨.hbm, 502, rfl⟩
abbrev main_v407 : Ref sig .tc := ⟨.hbm, 503, rfl⟩
abbrev main_v408 : Ref sig .tc := ⟨.hbm, 504, rfl⟩
abbrev main_v409 : Ref sig .tc := ⟨.hbm, 505, rfl⟩
abbrev main_v410 : Ref sig .tc := ⟨.hbm, 506, rfl⟩
abbrev main_v411 : Ref sig .tc := ⟨.hbm, 507, rfl⟩
abbrev main_v412 : Ref sig .tc := ⟨.hbm, 508, rfl⟩
abbrev main_v413 : Ref sig .tc := ⟨.hbm, 509, rfl⟩
abbrev main_v414 : Ref sig .tc := ⟨.hbm, 510, rfl⟩
abbrev main_call29_cst : Ref sig .tc := ⟨.hbm, 511, rfl⟩
abbrev main_call29_v0 : Ref sig .tc := ⟨.hbm, 512, rfl⟩
abbrev main_v415 : Ref sig .tc := ⟨.hbm, 513, rfl⟩
abbrev main_v416 : Ref sig .tc := ⟨.hbm, 514, rfl⟩
abbrev main_v417 : Ref sig .tc := ⟨.hbm, 515, rfl⟩
abbrev main_v418 : Ref sig .tc := ⟨.hbm, 516, rfl⟩
abbrev main_v419 : Ref sig .tc := ⟨.hbm, 517, rfl⟩
abbrev main_v420 : Ref sig .tc := ⟨.hbm, 518, rfl⟩
abbrev main_v421 : Ref sig .tc := ⟨.hbm, 519, rfl⟩
abbrev main_v422 : Ref sig .tc := ⟨.hbm, 520, rfl⟩
abbrev main_v423 : Ref sig .tc := ⟨.hbm, 521, rfl⟩
abbrev main_v424 : Ref sig .tc := ⟨.hbm, 522, rfl⟩
abbrev main_v425 : Ref sig .tc := ⟨.hbm, 523, rfl⟩
abbrev main_v426 : Ref sig .tc := ⟨.hbm, 524, rfl⟩
abbrev main_v427 : Ref sig .tc := ⟨.hbm, 525, rfl⟩
abbrev main_v428 : Ref sig .tc := ⟨.hbm, 526, rfl⟩
abbrev main_v429 : Ref sig .tc := ⟨.hbm, 527, rfl⟩
abbrev main_v430 : Ref sig .tc := ⟨.hbm, 528, rfl⟩
abbrev main_v431 : Ref sig .tc := ⟨.hbm, 529, rfl⟩
abbrev main_call30_v0 : Ref sig .tc := ⟨.hbm, 530, rfl⟩
abbrev main_call30_cst : Ref sig .tc := ⟨.hbm, 531, rfl⟩
abbrev main_call30_v1 : Ref sig .tc := ⟨.hbm, 532, rfl⟩
abbrev main_call30_v2 : Ref sig .tc := ⟨.hbm, 533, rfl⟩
abbrev main_v432 : Ref sig .tc := ⟨.hbm, 534, rfl⟩
abbrev main_v433 : Ref sig .tc := ⟨.hbm, 535, rfl⟩
abbrev main_v434 : Ref sig .tc := ⟨.hbm, 536, rfl⟩
abbrev main_v435 : Ref sig .tc := ⟨.hbm, 537, rfl⟩
abbrev main_v436 : Ref sig .tc := ⟨.hbm, 538, rfl⟩
abbrev main_v437 : Ref sig .tc := ⟨.hbm, 539, rfl⟩
abbrev main_v438 : Ref sig .tc := ⟨.hbm, 540, rfl⟩
abbrev main_v439 : Ref sig .tc := ⟨.hbm, 541, rfl⟩
abbrev main_v440 : Ref sig .tc := ⟨.hbm, 542, rfl⟩
abbrev main_v441 : Ref sig .tc := ⟨.hbm, 543, rfl⟩
abbrev main_v442 : Ref sig .tc := ⟨.hbm, 544, rfl⟩
abbrev main_call31_cst : Ref sig .tc := ⟨.hbm, 545, rfl⟩
abbrev main_call31_v0 : Ref sig .tc := ⟨.hbm, 546, rfl⟩
abbrev main_v443 : Ref sig .tc := ⟨.hbm, 547, rfl⟩
abbrev main_v444 : Ref sig .tc := ⟨.hbm, 548, rfl⟩
abbrev main_v445 : Ref sig .tc := ⟨.hbm, 549, rfl⟩
abbrev main_v446 : Ref sig .tc := ⟨.hbm, 550, rfl⟩
abbrev main_v447 : Ref sig .tc := ⟨.hbm, 551, rfl⟩
abbrev main_v448 : Ref sig .tc := ⟨.hbm, 552, rfl⟩
abbrev main_v449 : Ref sig .tc := ⟨.hbm, 553, rfl⟩
abbrev main_v450 : Ref sig .tc := ⟨.hbm, 554, rfl⟩
abbrev main_v451 : Ref sig .tc := ⟨.hbm, 555, rfl⟩
abbrev main_v452 : Ref sig .tc := ⟨.hbm, 556, rfl⟩
abbrev main_v453 : Ref sig .tc := ⟨.hbm, 557, rfl⟩
abbrev main_v454 : Ref sig .tc := ⟨.hbm, 558, rfl⟩
abbrev main_v455 : Ref sig .tc := ⟨.hbm, 559, rfl⟩
abbrev main_v456 : Ref sig .tc := ⟨.hbm, 560, rfl⟩
abbrev main_v457 : Ref sig .tc := ⟨.hbm, 561, rfl⟩
abbrev main_v458 : Ref sig .tc := ⟨.hbm, 562, rfl⟩
abbrev main_v459 : Ref sig .tc := ⟨.hbm, 563, rfl⟩
abbrev main_call32_v0 : Ref sig .tc := ⟨.hbm, 564, rfl⟩
abbrev main_call32_cst : Ref sig .tc := ⟨.hbm, 565, rfl⟩
abbrev main_call32_v1 : Ref sig .tc := ⟨.hbm, 566, rfl⟩
abbrev main_call32_v2 : Ref sig .tc := ⟨.hbm, 567, rfl⟩
abbrev main_v460 : Ref sig .tc := ⟨.hbm, 568, rfl⟩
abbrev main_v461 : Ref sig .tc := ⟨.hbm, 569, rfl⟩
abbrev main_v462 : Ref sig .tc := ⟨.hbm, 570, rfl⟩
abbrev main_v463 : Ref sig .tc := ⟨.hbm, 571, rfl⟩
abbrev main_v464 : Ref sig .tc := ⟨.hbm, 572, rfl⟩
abbrev main_v465 : Ref sig .tc := ⟨.hbm, 573, rfl⟩
abbrev main_v466 : Ref sig .tc := ⟨.hbm, 574, rfl⟩
abbrev main_v467 : Ref sig .tc := ⟨.hbm, 575, rfl⟩
abbrev main_v468 : Ref sig .tc := ⟨.hbm, 576, rfl⟩
abbrev main_v469 : Ref sig .tc := ⟨.hbm, 577, rfl⟩
abbrev main_v470 : Ref sig .tc := ⟨.hbm, 578, rfl⟩
abbrev main_call33_cst : Ref sig .tc := ⟨.hbm, 579, rfl⟩
abbrev main_call33_v0 : Ref sig .tc := ⟨.hbm, 580, rfl⟩
abbrev main_v471 : Ref sig .tc := ⟨.hbm, 581, rfl⟩
abbrev main_v472 : Ref sig .tc := ⟨.hbm, 582, rfl⟩
abbrev main_v473 : Ref sig .tc := ⟨.hbm, 583, rfl⟩
abbrev main_v474 : Ref sig .tc := ⟨.hbm, 584, rfl⟩
abbrev main_v475 : Ref sig .tc := ⟨.hbm, 585, rfl⟩
abbrev main_v476 : Ref sig .tc := ⟨.hbm, 586, rfl⟩
abbrev main_v477 : Ref sig .tc := ⟨.hbm, 587, rfl⟩
abbrev main_v478 : Ref sig .tc := ⟨.hbm, 588, rfl⟩
abbrev main_v479 : Ref sig .tc := ⟨.hbm, 589, rfl⟩
abbrev main_v480 : Ref sig .tc := ⟨.hbm, 590, rfl⟩
abbrev main_v481 : Ref sig .tc := ⟨.hbm, 591, rfl⟩
abbrev main_v482 : Ref sig .tc := ⟨.hbm, 592, rfl⟩
abbrev main_v483 : Ref sig .tc := ⟨.hbm, 593, rfl⟩
abbrev main_v484 : Ref sig .tc := ⟨.hbm, 594, rfl⟩
abbrev main_v485 : Ref sig .tc := ⟨.hbm, 595, rfl⟩
abbrev main_v486 : Ref sig .tc := ⟨.hbm, 596, rfl⟩
abbrev main_v487 : Ref sig .tc := ⟨.hbm, 597, rfl⟩
abbrev main_call34_v0 : Ref sig .tc := ⟨.hbm, 598, rfl⟩
abbrev main_call34_cst : Ref sig .tc := ⟨.hbm, 599, rfl⟩
abbrev main_call34_v1 : Ref sig .tc := ⟨.hbm, 600, rfl⟩
abbrev main_call34_v2 : Ref sig .tc := ⟨.hbm, 601, rfl⟩
abbrev main_v488 : Ref sig .tc := ⟨.hbm, 602, rfl⟩
abbrev main_v489 : Ref sig .tc := ⟨.hbm, 603, rfl⟩
abbrev main_v490 : Ref sig .tc := ⟨.hbm, 604, rfl⟩
abbrev main_v491 : Ref sig .tc := ⟨.hbm, 605, rfl⟩
abbrev main_v492 : Ref sig .tc := ⟨.hbm, 606, rfl⟩
abbrev main_v493 : Ref sig .tc := ⟨.hbm, 607, rfl⟩
abbrev main_v494 : Ref sig .tc := ⟨.hbm, 608, rfl⟩
abbrev main_v495 : Ref sig .tc := ⟨.hbm, 609, rfl⟩
abbrev main_v496 : Ref sig .tc := ⟨.hbm, 610, rfl⟩
abbrev main_v497 : Ref sig .tc := ⟨.hbm, 611, rfl⟩
abbrev main_v498 : Ref sig .tc := ⟨.hbm, 612, rfl⟩
abbrev main_call35_cst : Ref sig .tc := ⟨.hbm, 613, rfl⟩
abbrev main_call35_v0 : Ref sig .tc := ⟨.hbm, 614, rfl⟩
abbrev main_v499 : Ref sig .tc := ⟨.hbm, 615, rfl⟩
abbrev main_v500 : Ref sig .tc := ⟨.hbm, 616, rfl⟩
abbrev main_v501 : Ref sig .tc := ⟨.hbm, 617, rfl⟩
abbrev main_v502 : Ref sig .tc := ⟨.hbm, 618, rfl⟩
abbrev main_v503 : Ref sig .tc := ⟨.hbm, 619, rfl⟩
abbrev main_v504 : Ref sig .tc := ⟨.hbm, 620, rfl⟩
abbrev main_v505 : Ref sig .tc := ⟨.hbm, 621, rfl⟩
abbrev main_v506 : Ref sig .tc := ⟨.hbm, 622, rfl⟩
abbrev main_v507 : Ref sig .tc := ⟨.hbm, 623, rfl⟩
abbrev main_v508 : Ref sig .tc := ⟨.hbm, 624, rfl⟩
abbrev main_v509 : Ref sig .tc := ⟨.hbm, 625, rfl⟩
abbrev main_v510 : Ref sig .tc := ⟨.hbm, 626, rfl⟩
abbrev main_v511 : Ref sig .tc := ⟨.hbm, 627, rfl⟩
abbrev main_v512 : Ref sig .tc := ⟨.hbm, 628, rfl⟩
abbrev main_v513 : Ref sig .tc := ⟨.hbm, 629, rfl⟩
abbrev main_v514 : Ref sig .tc := ⟨.hbm, 630, rfl⟩
abbrev main_v515 : Ref sig .tc := ⟨.hbm, 631, rfl⟩
abbrev main_call36_v0 : Ref sig .tc := ⟨.hbm, 632, rfl⟩
abbrev main_call36_cst : Ref sig .tc := ⟨.hbm, 633, rfl⟩
abbrev main_call36_v1 : Ref sig .tc := ⟨.hbm, 634, rfl⟩
abbrev main_call36_v2 : Ref sig .tc := ⟨.hbm, 635, rfl⟩
abbrev main_v516 : Ref sig .tc := ⟨.hbm, 636, rfl⟩
abbrev main_v517 : Ref sig .tc := ⟨.hbm, 637, rfl⟩
abbrev main_v518 : Ref sig .tc := ⟨.hbm, 638, rfl⟩
abbrev main_v519 : Ref sig .tc := ⟨.hbm, 639, rfl⟩
abbrev main_v520 : Ref sig .tc := ⟨.hbm, 640, rfl⟩
abbrev main_v521 : Ref sig .tc := ⟨.hbm, 641, rfl⟩
abbrev main_v522 : Ref sig .tc := ⟨.hbm, 642, rfl⟩
abbrev main_v523 : Ref sig .tc := ⟨.hbm, 643, rfl⟩
abbrev main_v524 : Ref sig .tc := ⟨.hbm, 644, rfl⟩
abbrev main_v525 : Ref sig .tc := ⟨.hbm, 645, rfl⟩
abbrev main_v526 : Ref sig .tc := ⟨.hbm, 646, rfl⟩
abbrev main_call37_cst : Ref sig .tc := ⟨.hbm, 647, rfl⟩
abbrev main_call37_v0 : Ref sig .tc := ⟨.hbm, 648, rfl⟩
abbrev main_v527 : Ref sig .tc := ⟨.hbm, 649, rfl⟩
abbrev main_v528 : Ref sig .tc := ⟨.hbm, 650, rfl⟩
abbrev main_v529 : Ref sig .tc := ⟨.hbm, 651, rfl⟩
abbrev main_v530 : Ref sig .tc := ⟨.hbm, 652, rfl⟩
abbrev main_v531 : Ref sig .tc := ⟨.hbm, 653, rfl⟩
abbrev main_v532 : Ref sig .tc := ⟨.hbm, 654, rfl⟩
abbrev main_v533 : Ref sig .tc := ⟨.hbm, 655, rfl⟩
abbrev main_v534 : Ref sig .tc := ⟨.hbm, 656, rfl⟩
abbrev main_v535 : Ref sig .tc := ⟨.hbm, 657, rfl⟩
abbrev main_v536 : Ref sig .tc := ⟨.hbm, 658, rfl⟩
abbrev main_v537 : Ref sig .tc := ⟨.hbm, 659, rfl⟩
abbrev main_v538 : Ref sig .tc := ⟨.hbm, 660, rfl⟩
abbrev main_v539 : Ref sig .tc := ⟨.hbm, 661, rfl⟩
abbrev main_v540 : Ref sig .tc := ⟨.hbm, 662, rfl⟩
abbrev main_v541 : Ref sig .tc := ⟨.hbm, 663, rfl⟩
abbrev main_v542 : Ref sig .tc := ⟨.hbm, 664, rfl⟩
abbrev main_v543 : Ref sig .tc := ⟨.hbm, 665, rfl⟩
abbrev main_call38_v0 : Ref sig .tc := ⟨.hbm, 666, rfl⟩
abbrev main_call38_cst : Ref sig .tc := ⟨.hbm, 667, rfl⟩
abbrev main_call38_v1 : Ref sig .tc := ⟨.hbm, 668, rfl⟩
abbrev main_call38_v2 : Ref sig .tc := ⟨.hbm, 669, rfl⟩
abbrev main_v544 : Ref sig .tc := ⟨.hbm, 670, rfl⟩
abbrev main_v545 : Ref sig .tc := ⟨.hbm, 671, rfl⟩
abbrev main_v546 : Ref sig .tc := ⟨.hbm, 672, rfl⟩
abbrev main_v547 : Ref sig .tc := ⟨.hbm, 673, rfl⟩
abbrev main_v548 : Ref sig .tc := ⟨.hbm, 674, rfl⟩
abbrev main_v549 : Ref sig .tc := ⟨.hbm, 675, rfl⟩
abbrev main_v550 : Ref sig .tc := ⟨.hbm, 676, rfl⟩
abbrev main_v551 : Ref sig .tc := ⟨.hbm, 677, rfl⟩
abbrev main_v552 : Ref sig .tc := ⟨.hbm, 678, rfl⟩
abbrev main_v553 : Ref sig .tc := ⟨.hbm, 679, rfl⟩
abbrev main_v554 : Ref sig .tc := ⟨.hbm, 680, rfl⟩
abbrev main_call39_cst : Ref sig .tc := ⟨.hbm, 681, rfl⟩
abbrev main_call39_v0 : Ref sig .tc := ⟨.hbm, 682, rfl⟩
abbrev main_v555 : Ref sig .tc := ⟨.hbm, 683, rfl⟩
abbrev main_v556 : Ref sig .tc := ⟨.hbm, 684, rfl⟩
abbrev main_v557 : Ref sig .tc := ⟨.hbm, 685, rfl⟩
abbrev main_v558 : Ref sig .tc := ⟨.hbm, 686, rfl⟩
abbrev main_v559 : Ref sig .tc := ⟨.hbm, 687, rfl⟩
abbrev main_v560 : Ref sig .tc := ⟨.hbm, 688, rfl⟩
abbrev main_v561 : Ref sig .tc := ⟨.hbm, 689, rfl⟩
abbrev main_v562 : Ref sig .tc := ⟨.hbm, 690, rfl⟩
abbrev main_v563 : Ref sig .tc := ⟨.hbm, 691, rfl⟩
abbrev main_v564 : Ref sig .tc := ⟨.hbm, 692, rfl⟩
abbrev main_v565 : Ref sig .tc := ⟨.hbm, 693, rfl⟩
abbrev main_v566 : Ref sig .tc := ⟨.hbm, 694, rfl⟩
abbrev main_v567 : Ref sig .tc := ⟨.hbm, 695, rfl⟩
abbrev main_v568 : Ref sig .tc := ⟨.hbm, 696, rfl⟩
abbrev main_v569 : Ref sig .tc := ⟨.hbm, 697, rfl⟩
abbrev main_v570 : Ref sig .tc := ⟨.hbm, 698, rfl⟩
abbrev main_v571 : Ref sig .tc := ⟨.hbm, 699, rfl⟩
abbrev main_call40_v0 : Ref sig .tc := ⟨.hbm, 700, rfl⟩
abbrev main_call40_cst : Ref sig .tc := ⟨.hbm, 701, rfl⟩
abbrev main_call40_v1 : Ref sig .tc := ⟨.hbm, 702, rfl⟩
abbrev main_call40_v2 : Ref sig .tc := ⟨.hbm, 703, rfl⟩
abbrev main_v572 : Ref sig .tc := ⟨.hbm, 704, rfl⟩
abbrev main_v573 : Ref sig .tc := ⟨.hbm, 705, rfl⟩
abbrev main_v574 : Ref sig .tc := ⟨.hbm, 706, rfl⟩
abbrev main_v575 : Ref sig .tc := ⟨.hbm, 707, rfl⟩
abbrev main_v576 : Ref sig .tc := ⟨.hbm, 708, rfl⟩
abbrev main_v577 : Ref sig .tc := ⟨.hbm, 709, rfl⟩
abbrev main_v578 : Ref sig .tc := ⟨.hbm, 710, rfl⟩
abbrev main_v579 : Ref sig .tc := ⟨.hbm, 711, rfl⟩
abbrev main_v580 : Ref sig .tc := ⟨.hbm, 712, rfl⟩
abbrev main_v581 : Ref sig .tc := ⟨.hbm, 713, rfl⟩
abbrev main_v582 : Ref sig .tc := ⟨.hbm, 714, rfl⟩
abbrev main_call41_cst : Ref sig .tc := ⟨.hbm, 715, rfl⟩
abbrev main_call41_v0 : Ref sig .tc := ⟨.hbm, 716, rfl⟩
abbrev main_v583 : Ref sig .tc := ⟨.hbm, 717, rfl⟩
abbrev main_v584 : Ref sig .tc := ⟨.hbm, 718, rfl⟩
abbrev main_v585 : Ref sig .tc := ⟨.hbm, 719, rfl⟩
abbrev main_v586 : Ref sig .tc := ⟨.hbm, 720, rfl⟩
abbrev main_v587 : Ref sig .tc := ⟨.hbm, 721, rfl⟩
abbrev main_v588 : Ref sig .tc := ⟨.hbm, 722, rfl⟩
abbrev main_v589 : Ref sig .tc := ⟨.hbm, 723, rfl⟩
abbrev main_v590 : Ref sig .tc := ⟨.hbm, 724, rfl⟩
abbrev main_v591 : Ref sig .tc := ⟨.hbm, 725, rfl⟩
abbrev main_v592 : Ref sig .tc := ⟨.hbm, 726, rfl⟩
abbrev main_v593 : Ref sig .tc := ⟨.hbm, 727, rfl⟩
abbrev main_v594 : Ref sig .tc := ⟨.hbm, 728, rfl⟩
abbrev main_v595 : Ref sig .tc := ⟨.hbm, 729, rfl⟩
abbrev main_v596 : Ref sig .tc := ⟨.hbm, 730, rfl⟩
abbrev main_v597 : Ref sig .tc := ⟨.hbm, 731, rfl⟩
abbrev main_v598 : Ref sig .tc := ⟨.hbm, 732, rfl⟩
abbrev main_v599 : Ref sig .tc := ⟨.hbm, 733, rfl⟩
abbrev main_call42_v0 : Ref sig .tc := ⟨.hbm, 734, rfl⟩
abbrev main_call42_cst : Ref sig .tc := ⟨.hbm, 735, rfl⟩
abbrev main_call42_v1 : Ref sig .tc := ⟨.hbm, 736, rfl⟩
abbrev main_call42_v2 : Ref sig .tc := ⟨.hbm, 737, rfl⟩
abbrev main_v600 : Ref sig .tc := ⟨.hbm, 738, rfl⟩
abbrev main_v601 : Ref sig .tc := ⟨.hbm, 739, rfl⟩
abbrev main_v602 : Ref sig .tc := ⟨.hbm, 740, rfl⟩
abbrev main_v603 : Ref sig .tc := ⟨.hbm, 741, rfl⟩
abbrev main_v604 : Ref sig .tc := ⟨.hbm, 742, rfl⟩
abbrev main_v605 : Ref sig .tc := ⟨.hbm, 743, rfl⟩
abbrev main_v606 : Ref sig .tc := ⟨.hbm, 744, rfl⟩
abbrev main_v607 : Ref sig .tc := ⟨.hbm, 745, rfl⟩
abbrev main_v608 : Ref sig .tc := ⟨.hbm, 746, rfl⟩
abbrev main_v609 : Ref sig .tc := ⟨.hbm, 747, rfl⟩
abbrev main_v610 : Ref sig .tc := ⟨.hbm, 748, rfl⟩
abbrev main_call43_cst : Ref sig .tc := ⟨.hbm, 749, rfl⟩
abbrev main_call43_v0 : Ref sig .tc := ⟨.hbm, 750, rfl⟩
abbrev main_v611 : Ref sig .tc := ⟨.hbm, 751, rfl⟩
abbrev main_v612 : Ref sig .tc := ⟨.hbm, 752, rfl⟩
abbrev main_v613 : Ref sig .tc := ⟨.hbm, 753, rfl⟩
abbrev main_v614 : Ref sig .tc := ⟨.hbm, 754, rfl⟩
abbrev main_v615 : Ref sig .tc := ⟨.hbm, 755, rfl⟩
abbrev main_v616 : Ref sig .tc := ⟨.hbm, 756, rfl⟩
abbrev main_v617 : Ref sig .tc := ⟨.hbm, 757, rfl⟩
abbrev main_v618 : Ref sig .tc := ⟨.hbm, 758, rfl⟩
abbrev main_v619 : Ref sig .tc := ⟨.hbm, 759, rfl⟩
abbrev main_v620 : Ref sig .tc := ⟨.hbm, 760, rfl⟩
abbrev main_v621 : Ref sig .tc := ⟨.hbm, 761, rfl⟩
abbrev main_v622 : Ref sig .tc := ⟨.hbm, 762, rfl⟩
abbrev main_v623 : Ref sig .tc := ⟨.hbm, 763, rfl⟩
abbrev main_v624 : Ref sig .tc := ⟨.hbm, 764, rfl⟩
abbrev main_v625 : Ref sig .tc := ⟨.hbm, 765, rfl⟩
abbrev main_v626 : Ref sig .tc := ⟨.hbm, 766, rfl⟩
abbrev main_v627 : Ref sig .tc := ⟨.hbm, 767, rfl⟩
abbrev main_call44_v0 : Ref sig .tc := ⟨.hbm, 768, rfl⟩
abbrev main_call44_cst : Ref sig .tc := ⟨.hbm, 769, rfl⟩
abbrev main_call44_v1 : Ref sig .tc := ⟨.hbm, 770, rfl⟩
abbrev main_call44_v2 : Ref sig .tc := ⟨.hbm, 771, rfl⟩
abbrev main_v628 : Ref sig .tc := ⟨.hbm, 772, rfl⟩
abbrev main_v629 : Ref sig .tc := ⟨.hbm, 773, rfl⟩
abbrev main_v630 : Ref sig .tc := ⟨.hbm, 774, rfl⟩
abbrev main_v631 : Ref sig .tc := ⟨.hbm, 775, rfl⟩
abbrev main_v632 : Ref sig .tc := ⟨.hbm, 776, rfl⟩
abbrev main_v633 : Ref sig .tc := ⟨.hbm, 777, rfl⟩
abbrev main_v634 : Ref sig .tc := ⟨.hbm, 778, rfl⟩
abbrev main_v635 : Ref sig .tc := ⟨.hbm, 779, rfl⟩
abbrev main_v636 : Ref sig .tc := ⟨.hbm, 780, rfl⟩
abbrev main_v637 : Ref sig .tc := ⟨.hbm, 781, rfl⟩
abbrev main_v638 : Ref sig .tc := ⟨.hbm, 782, rfl⟩
abbrev main_call45_cst : Ref sig .tc := ⟨.hbm, 783, rfl⟩
abbrev main_call45_v0 : Ref sig .tc := ⟨.hbm, 784, rfl⟩
abbrev main_v639 : Ref sig .tc := ⟨.hbm, 785, rfl⟩
abbrev main_v640 : Ref sig .tc := ⟨.hbm, 786, rfl⟩
abbrev main_v641 : Ref sig .tc := ⟨.hbm, 787, rfl⟩
abbrev main_v642 : Ref sig .tc := ⟨.hbm, 788, rfl⟩
abbrev main_v643 : Ref sig .tc := ⟨.hbm, 789, rfl⟩
abbrev main_v644 : Ref sig .tc := ⟨.hbm, 790, rfl⟩
abbrev main_v645 : Ref sig .tc := ⟨.hbm, 791, rfl⟩
abbrev main_v646 : Ref sig .tc := ⟨.hbm, 792, rfl⟩
abbrev main_v647 : Ref sig .tc := ⟨.hbm, 793, rfl⟩
abbrev main_v648 : Ref sig .tc := ⟨.hbm, 794, rfl⟩
abbrev main_v649 : Ref sig .tc := ⟨.hbm, 795, rfl⟩
abbrev main_v650 : Ref sig .tc := ⟨.hbm, 796, rfl⟩
abbrev main_v651 : Ref sig .tc := ⟨.hbm, 797, rfl⟩
abbrev main_v652 : Ref sig .tc := ⟨.hbm, 798, rfl⟩
abbrev main_v653 : Ref sig .tc := ⟨.hbm, 799, rfl⟩
abbrev main_v654 : Ref sig .tc := ⟨.hbm, 800, rfl⟩
abbrev main_v655 : Ref sig .tc := ⟨.hbm, 801, rfl⟩
abbrev main_call46_v0 : Ref sig .tc := ⟨.hbm, 802, rfl⟩
abbrev main_call46_cst : Ref sig .tc := ⟨.hbm, 803, rfl⟩
abbrev main_call46_v1 : Ref sig .tc := ⟨.hbm, 804, rfl⟩
abbrev main_call46_v2 : Ref sig .tc := ⟨.hbm, 805, rfl⟩
abbrev main_v656 : Ref sig .tc := ⟨.hbm, 806, rfl⟩
abbrev main_v657 : Ref sig .tc := ⟨.hbm, 807, rfl⟩
abbrev main_v658 : Ref sig .tc := ⟨.hbm, 808, rfl⟩
abbrev main_v659 : Ref sig .tc := ⟨.hbm, 809, rfl⟩
abbrev main_v660 : Ref sig .tc := ⟨.hbm, 810, rfl⟩
abbrev main_v661 : Ref sig .tc := ⟨.hbm, 811, rfl⟩
abbrev main_v662 : Ref sig .tc := ⟨.hbm, 812, rfl⟩
abbrev main_v663 : Ref sig .tc := ⟨.hbm, 813, rfl⟩
abbrev main_v664 : Ref sig .tc := ⟨.hbm, 814, rfl⟩
abbrev main_v665 : Ref sig .tc := ⟨.hbm, 815, rfl⟩
abbrev main_v666 : Ref sig .tc := ⟨.hbm, 816, rfl⟩
abbrev main_call47_cst : Ref sig .tc := ⟨.hbm, 817, rfl⟩
abbrev main_call47_v0 : Ref sig .tc := ⟨.hbm, 818, rfl⟩
abbrev main_v667 : Ref sig .tc := ⟨.hbm, 819, rfl⟩
abbrev main_v668 : Ref sig .tc := ⟨.hbm, 820, rfl⟩
abbrev main_v669 : Ref sig .tc := ⟨.hbm, 821, rfl⟩
abbrev main_v670 : Ref sig .tc := ⟨.hbm, 822, rfl⟩
abbrev main_v671 : Ref sig .tc := ⟨.hbm, 823, rfl⟩
abbrev main_v672 : Ref sig .tc := ⟨.hbm, 824, rfl⟩
abbrev main_v673 : Ref sig .tc := ⟨.hbm, 825, rfl⟩
abbrev main_v674 : Ref sig .tc := ⟨.hbm, 826, rfl⟩
abbrev main_v675 : Ref sig .tc := ⟨.hbm, 827, rfl⟩
abbrev main_v676 : Ref sig .tc := ⟨.hbm, 828, rfl⟩
abbrev main_v677 : Ref sig .tc := ⟨.hbm, 829, rfl⟩
abbrev main_v678 : Ref sig .tc := ⟨.hbm, 830, rfl⟩
abbrev main_v679 : Ref sig .tc := ⟨.hbm, 831, rfl⟩

abbrev nD : Nat := 1
abbrev τ : Topo := Topo.v7x

variable {F : FTy → Type} [FloatOps F]

class Facts₀ : Prop where
  shapeCasts_S131072x24x9_S131072x216 : S131072x24x9.ShapeCasts S131072x216
  shapeCasts_S131072x24x3_S131072x72 : S131072x24x3.ShapeCasts S131072x72
  concatenates_S131072x216_S131072x72_S131072x288_d1 : Shape.Concatenates [S131072x216, S131072x72] S131072x288 1
  transposes_S6x288_S288x6_1_0 : S6x288.Transposes [1, 0] S288x6
  bcast_S6_S1x6_1 : S6.BroadcastsInDim S1x6 (![1] : Fin 1 → Fin S1x6.rank)
  bcast_S1x6_S131072x6_0_1 : S1x6.BroadcastsInDim S131072x6 (![0, 1] : Fin 2 → Fin S131072x6.rank)
  slices_S131072x24x9_S131072x1x9_0_0_0 : S131072x24x9.Slices ![0, 0, 0] S131072x1x9
  shapeCasts_S131072x1x9_S131072x9 : S131072x1x9.ShapeCasts S131072x9
  slices_S131072x24x3_S131072x1x3_0_0_0 : S131072x24x3.Slices ![0, 0, 0] S131072x1x3
  shapeCasts_S131072x1x3_S131072x3 : S131072x1x3.ShapeCasts S131072x3
  reducesTo_S131072x3_S131072_d1 : S131072x3.ReducesTo [1] S131072
  h_S_ : 0 < S_.numel
  bcast_S131072_S131072x1_0 : S131072.BroadcastsInDim S131072x1 (![0] : Fin 1 → Fin S131072x1.rank)
  concatenates_S131072x9_S131072x3_S131072x1_S131072x6_S131072x19_d1 : Shape.Concatenates [S131072x9, S131072x3, S131072x1, S131072x6] S131072x19 1
  slices_S24x19x19_S1x19x19_0_0_0 : S24x19x19.Slices ![0, 0, 0] S1x19x19
  shapeCasts_S1x19x19_S19x19 : S1x19x19.ShapeCasts S19x19
  transposes_S19x19_S19x19_1_0 : S19x19.Transposes [1, 0] S19x19
  slices_S24x19_S1x19_0_0 : S24x19.Slices ![0, 0] S1x19
  shapeCasts_S1x19_S19 : S1x19.ShapeCasts S19
  bcast_S19_S1x19_1 : S19.BroadcastsInDim S1x19 (![1] : Fin 1 → Fin S1x19.rank)
  bcast_S1x19_S131072x19_0_1 : S1x19.BroadcastsInDim S131072x19 (![0, 1] : Fin 2 → Fin S131072x19.rank)
  bcast_S_S131072x19 : S_.BroadcastsInDim S131072x19 (![] : Fin 0 → Fin S131072x19.rank)
  slices_S24x6x19_S1x6x19_0_0_0 : S24x6x19.Slices ![0, 0, 0] S1x6x19
  shapeCasts_S1x6x19_S6x19 : S1x6x19.ShapeCasts S6x19
  transposes_S6x19_S19x6_1_0 : S6x19.Transposes [1, 0] S19x6
  slices_S24x6_S1x6_0_0 : S24x6.Slices ![0, 0] S1x6
  shapeCasts_S1x6_S6 : S1x6.ShapeCasts S6
  slices_S131072x24x9_S131072x1x9_0_1_0 : S131072x24x9.Slices ![0, 1, 0] S131072x1x9
  slices_S131072x24x3_S131072x1x3_0_1_0 : S131072x24x3.Slices ![0, 1, 0] S131072x1x3
  slices_S24x19x19_S1x19x19_1_0_0 : S24x19x19.Slices ![1, 0, 0] S1x19x19
  slices_S24x19_S1x19_1_0 : S24x19.Slices ![1, 0] S1x19
  slices_S24x6x19_S1x6x19_1_0_0 : S24x6x19.Slices ![1, 0, 0] S1x6x19
  slices_S24x6_S1x6_1_0 : S24x6.Slices ![1, 0] S1x6
  slices_S131072x24x9_S131072x1x9_0_2_0 : S131072x24x9.Slices ![0, 2, 0] S131072x1x9
  slices_S131072x24x3_S131072x1x3_0_2_0 : S131072x24x3.Slices ![0, 2, 0] S131072x1x3
  slices_S24x19x19_S1x19x19_2_0_0 : S24x19x19.Slices ![2, 0, 0] S1x19x19
  slices_S24x19_S1x19_2_0 : S24x19.Slices ![2, 0] S1x19
  slices_S24x6x19_S1x6x19_2_0_0 : S24x6x19.Slices ![2, 0, 0] S1x6x19
  slices_S24x6_S1x6_2_0 : S24x6.Slices ![2, 0] S1x6
  slices_S131072x24x9_S131072x1x9_0_3_0 : S131072x24x9.Slices ![0, 3, 0] S131072x1x9
  slices_S131072x24x3_S131072x1x3_0_3_0 : S131072x24x3.Slices ![0, 3, 0] S131072x1x3
  slices_S24x19x19_S1x19x19_3_0_0 : S24x19x19.Slices ![3, 0, 0] S1x19x19
  slices_S24x19_S1x19_3_0 : S24x19.Slices ![3, 0] S1x19
  slices_S24x6x19_S1x6x19_3_0_0 : S24x6x19.Slices ![3, 0, 0] S1x6x19
  slices_S24x6_S1x6_3_0 : S24x6.Slices ![3, 0] S1x6
  slices_S131072x24x9_S131072x1x9_0_4_0 : S131072x24x9.Slices ![0, 4, 0] S131072x1x9
  slices_S131072x24x3_S131072x1x3_0_4_0 : S131072x24x3.Slices ![0, 4, 0] S131072x1x3
  slices_S24x19x19_S1x19x19_4_0_0 : S24x19x19.Slices ![4, 0, 0] S1x19x19
  slices_S24x19_S1x19_4_0 : S24x19.Slices ![4, 0] S1x19
  slices_S24x6x19_S1x6x19_4_0_0 : S24x6x19.Slices ![4, 0, 0] S1x6x19
  slices_S24x6_S1x6_4_0 : S24x6.Slices ![4, 0] S1x6
  slices_S131072x24x9_S131072x1x9_0_5_0 : S131072x24x9.Slices ![0, 5, 0] S131072x1x9
  slices_S131072x24x3_S131072x1x3_0_5_0 : S131072x24x3.Slices ![0, 5, 0] S131072x1x3
  slices_S24x19x19_S1x19x19_5_0_0 : S24x19x19.Slices ![5, 0, 0] S1x19x19
  slices_S24x19_S1x19_5_0 : S24x19.Slices ![5, 0] S1x19
  slices_S24x6x19_S1x6x19_5_0_0 : S24x6x19.Slices ![5, 0, 0] S1x6x19
  slices_S24x6_S1x6_5_0 : S24x6.Slices ![5, 0] S1x6
  slices_S131072x24x9_S131072x1x9_0_6_0 : S131072x24x9.Slices ![0, 6, 0] S131072x1x9
  slices_S131072x24x3_S131072x1x3_0_6_0 : S131072x24x3.Slices ![0, 6, 0] S131072x1x3
  slices_S24x19x19_S1x19x19_6_0_0 : S24x19x19.Slices ![6, 0, 0] S1x19x19
  slices_S24x19_S1x19_6_0 : S24x19.Slices ![6, 0] S1x19
  slices_S24x6x19_S1x6x19_6_0_0 : S24x6x19.Slices ![6, 0, 0] S1x6x19
  slices_S24x6_S1x6_6_0 : S24x6.Slices ![6, 0] S1x6
  slices_S131072x24x9_S131072x1x9_0_7_0 : S131072x24x9.Slices ![0, 7, 0] S131072x1x9
  slices_S131072x24x3_S131072x1x3_0_7_0 : S131072x24x3.Slices ![0, 7, 0] S131072x1x3
  slices_S24x19x19_S1x19x19_7_0_0 : S24x19x19.Slices ![7, 0, 0] S1x19x19
  slices_S24x19_S1x19_7_0 : S24x19.Slices ![7, 0] S1x19
  slices_S24x6x19_S1x6x19_7_0_0 : S24x6x19.Slices ![7, 0, 0] S1x6x19
  slices_S24x6_S1x6_7_0 : S24x6.Slices ![7, 0] S1x6
  slices_S131072x24x9_S131072x1x9_0_8_0 : S131072x24x9.Slices ![0, 8, 0] S131072x1x9
  slices_S131072x24x3_S131072x1x3_0_8_0 : S131072x24x3.Slices ![0, 8, 0] S131072x1x3
  slices_S24x19x19_S1x19x19_8_0_0 : S24x19x19.Slices ![8, 0, 0] S1x19x19
  slices_S24x19_S1x19_8_0 : S24x19.Slices ![8, 0] S1x19
  slices_S24x6x19_S1x6x19_8_0_0 : S24x6x19.Slices ![8, 0, 0] S1x6x19
  slices_S24x6_S1x6_8_0 : S24x6.Slices ![8, 0] S1x6
  slices_S131072x24x9_S131072x1x9_0_9_0 : S131072x24x9.Slices ![0, 9, 0] S131072x1x9
  slices_S131072x24x3_S131072x1x3_0_9_0 : S131072x24x3.Slices ![0, 9, 0] S131072x1x3
  slices_S24x19x19_S1x19x19_9_0_0 : S24x19x19.Slices ![9, 0, 0] S1x19x19
  slices_S24x19_S1x19_9_0 : S24x19.Slices ![9, 0] S1x19
  slices_S24x6x19_S1x6x19_9_0_0 : S24x6x19.Slices ![9, 0, 0] S1x6x19
  slices_S24x6_S1x6_9_0 : S24x6.Slices ![9, 0] S1x6
  slices_S131072x24x9_S131072x1x9_0_10_0 : S131072x24x9.Slices ![0, 10, 0] S131072x1x9
  slices_S131072x24x3_S131072x1x3_0_10_0 : S131072x24x3.Slices ![0, 10, 0] S131072x1x3
  slices_S24x19x19_S1x19x19_10_0_0 : S24x19x19.Slices ![10, 0, 0] S1x19x19
  slices_S24x19_S1x19_10_0 : S24x19.Slices ![10, 0] S1x19
  slices_S24x6x19_S1x6x19_10_0_0 : S24x6x19.Slices ![10, 0, 0] S1x6x19
  slices_S24x6_S1x6_10_0 : S24x6.Slices ![10, 0] S1x6
  slices_S131072x24x9_S131072x1x9_0_11_0 : S131072x24x9.Slices ![0, 11, 0] S131072x1x9
  slices_S131072x24x3_S131072x1x3_0_11_0 : S131072x24x3.Slices ![0, 11, 0] S131072x1x3
  slices_S24x19x19_S1x19x19_11_0_0 : S24x19x19.Slices ![11, 0, 0] S1x19x19
  slices_S24x19_S1x19_11_0 : S24x19.Slices ![11, 0] S1x19
  slices_S24x6x19_S1x6x19_11_0_0 : S24x6x19.Slices ![11, 0, 0] S1x6x19
  slices_S24x6_S1x6_11_0 : S24x6.Slices ![11, 0] S1x6
  slices_S131072x24x9_S131072x1x9_0_12_0 : S131072x24x9.Slices ![0, 12, 0] S131072x1x9
  slices_S131072x24x3_S131072x1x3_0_12_0 : S131072x24x3.Slices ![0, 12, 0] S131072x1x3
  slices_S24x19x19_S1x19x19_12_0_0 : S24x19x19.Slices ![12, 0, 0] S1x19x19
  slices_S24x19_S1x19_12_0 : S24x19.Slices ![12, 0] S1x19
  slices_S24x6x19_S1x6x19_12_0_0 : S24x6x19.Slices ![12, 0, 0] S1x6x19
  slices_S24x6_S1x6_12_0 : S24x6.Slices ![12, 0] S1x6
  slices_S131072x24x9_S131072x1x9_0_13_0 : S131072x24x9.Slices ![0, 13, 0] S131072x1x9
  slices_S131072x24x3_S131072x1x3_0_13_0 : S131072x24x3.Slices ![0, 13, 0] S131072x1x3
  slices_S24x19x19_S1x19x19_13_0_0 : S24x19x19.Slices ![13, 0, 0] S1x19x19
  slices_S24x19_S1x19_13_0 : S24x19.Slices ![13, 0] S1x19
  slices_S24x6x19_S1x6x19_13_0_0 : S24x6x19.Slices ![13, 0, 0] S1x6x19
  slices_S24x6_S1x6_13_0 : S24x6.Slices ![13, 0] S1x6
  slices_S131072x24x9_S131072x1x9_0_14_0 : S131072x24x9.Slices ![0, 14, 0] S131072x1x9
  slices_S131072x24x3_S131072x1x3_0_14_0 : S131072x24x3.Slices ![0, 14, 0] S131072x1x3
  slices_S24x19x19_S1x19x19_14_0_0 : S24x19x19.Slices ![14, 0, 0] S1x19x19
  slices_S24x19_S1x19_14_0 : S24x19.Slices ![14, 0] S1x19
  slices_S24x6x19_S1x6x19_14_0_0 : S24x6x19.Slices ![14, 0, 0] S1x6x19
  slices_S24x6_S1x6_14_0 : S24x6.Slices ![14, 0] S1x6
  slices_S131072x24x9_S131072x1x9_0_15_0 : S131072x24x9.Slices ![0, 15, 0] S131072x1x9
  slices_S131072x24x3_S131072x1x3_0_15_0 : S131072x24x3.Slices ![0, 15, 0] S131072x1x3
  slices_S24x19x19_S1x19x19_15_0_0 : S24x19x19.Slices ![15, 0, 0] S1x19x19
  slices_S24x19_S1x19_15_0 : S24x19.Slices ![15, 0] S1x19
  slices_S24x6x19_S1x6x19_15_0_0 : S24x6x19.Slices ![15, 0, 0] S1x6x19
  slices_S24x6_S1x6_15_0 : S24x6.Slices ![15, 0] S1x6
  slices_S131072x24x9_S131072x1x9_0_16_0 : S131072x24x9.Slices ![0, 16, 0] S131072x1x9
  slices_S131072x24x3_S131072x1x3_0_16_0 : S131072x24x3.Slices ![0, 16, 0] S131072x1x3
  slices_S24x19x19_S1x19x19_16_0_0 : S24x19x19.Slices ![16, 0, 0] S1x19x19
  slices_S24x19_S1x19_16_0 : S24x19.Slices ![16, 0] S1x19
  slices_S24x6x19_S1x6x19_16_0_0 : S24x6x19.Slices ![16, 0, 0] S1x6x19
  slices_S24x6_S1x6_16_0 : S24x6.Slices ![16, 0] S1x6
  slices_S131072x24x9_S131072x1x9_0_17_0 : S131072x24x9.Slices ![0, 17, 0] S131072x1x9
  slices_S131072x24x3_S131072x1x3_0_17_0 : S131072x24x3.Slices ![0, 17, 0] S131072x1x3
  slices_S24x19x19_S1x19x19_17_0_0 : S24x19x19.Slices ![17, 0, 0] S1x19x19
  slices_S24x19_S1x19_17_0 : S24x19.Slices ![17, 0] S1x19
  slices_S24x6x19_S1x6x19_17_0_0 : S24x6x19.Slices ![17, 0, 0] S1x6x19
  slices_S24x6_S1x6_17_0 : S24x6.Slices ![17, 0] S1x6
  slices_S131072x24x9_S131072x1x9_0_18_0 : S131072x24x9.Slices ![0, 18, 0] S131072x1x9
  slices_S131072x24x3_S131072x1x3_0_18_0 : S131072x24x3.Slices ![0, 18, 0] S131072x1x3
  slices_S24x19x19_S1x19x19_18_0_0 : S24x19x19.Slices ![18, 0, 0] S1x19x19
  slices_S24x19_S1x19_18_0 : S24x19.Slices ![18, 0] S1x19
  slices_S24x6x19_S1x6x19_18_0_0 : S24x6x19.Slices ![18, 0, 0] S1x6x19
  slices_S24x6_S1x6_18_0 : S24x6.Slices ![18, 0] S1x6
  slices_S131072x24x9_S131072x1x9_0_19_0 : S131072x24x9.Slices ![0, 19, 0] S131072x1x9
  slices_S131072x24x3_S131072x1x3_0_19_0 : S131072x24x3.Slices ![0, 19, 0] S131072x1x3
  slices_S24x19x19_S1x19x19_19_0_0 : S24x19x19.Slices ![19, 0, 0] S1x19x19
  slices_S24x19_S1x19_19_0 : S24x19.Slices ![19, 0] S1x19
  slices_S24x6x19_S1x6x19_19_0_0 : S24x6x19.Slices ![19, 0, 0] S1x6x19
  slices_S24x6_S1x6_19_0 : S24x6.Slices ![19, 0] S1x6
  slices_S131072x24x9_S131072x1x9_0_20_0 : S131072x24x9.Slices ![0, 20, 0] S131072x1x9
  slices_S131072x24x3_S131072x1x3_0_20_0 : S131072x24x3.Slices ![0, 20, 0] S131072x1x3
  slices_S24x19x19_S1x19x19_20_0_0 : S24x19x19.Slices ![20, 0, 0] S1x19x19
  slices_S24x19_S1x19_20_0 : S24x19.Slices ![20, 0] S1x19
  slices_S24x6x19_S1x6x19_20_0_0 : S24x6x19.Slices ![20, 0, 0] S1x6x19
  slices_S24x6_S1x6_20_0 : S24x6.Slices ![20, 0] S1x6
  slices_S131072x24x9_S131072x1x9_0_21_0 : S131072x24x9.Slices ![0, 21, 0] S131072x1x9
  slices_S131072x24x3_S131072x1x3_0_21_0 : S131072x24x3.Slices ![0, 21, 0] S131072x1x3
  slices_S24x19x19_S1x19x19_21_0_0 : S24x19x19.Slices ![21, 0, 0] S1x19x19
  slices_S24x19_S1x19_21_0 : S24x19.Slices ![21, 0] S1x19
  slices_S24x6x19_S1x6x19_21_0_0 : S24x6x19.Slices ![21, 0, 0] S1x6x19
  slices_S24x6_S1x6_21_0 : S24x6.Slices ![21, 0] S1x6
  slices_S131072x24x9_S131072x1x9_0_22_0 : S131072x24x9.Slices ![0, 22, 0] S131072x1x9
  slices_S131072x24x3_S131072x1x3_0_22_0 : S131072x24x3.Slices ![0, 22, 0] S131072x1x3
  slices_S24x19x19_S1x19x19_22_0_0 : S24x19x19.Slices ![22, 0, 0] S1x19x19
  slices_S24x19_S1x19_22_0 : S24x19.Slices ![22, 0] S1x19
  slices_S24x6x19_S1x6x19_22_0_0 : S24x6x19.Slices ![22, 0, 0] S1x6x19
  slices_S24x6_S1x6_22_0 : S24x6.Slices ![22, 0] S1x6
  slices_S131072x24x9_S131072x1x9_0_23_0 : S131072x24x9.Slices ![0, 23, 0] S131072x1x9
  slices_S131072x24x3_S131072x1x3_0_23_0 : S131072x24x3.Slices ![0, 23, 0] S131072x1x3
  slices_S24x19x19_S1x19x19_23_0_0 : S24x19x19.Slices ![23, 0, 0] S1x19x19
  slices_S24x19_S1x19_23_0 : S24x19.Slices ![23, 0] S1x19
  slices_S24x6x19_S1x6x19_23_0_0 : S24x6x19.Slices ![23, 0, 0] S1x6x19
  slices_S24x6_S1x6_23_0 : S24x6.Slices ![23, 0] S1x6
  concatenates_S131072x6_S131072x6_S131072x6_S131072x6_S131072x6_S131072x6_S131072x6_S131072x6_S131072x6_S131072x6_S131072x6_S131072x6_S131072x6_S131072x6_S131072x6_S131072x6_S131072x96_d1 : Shape.Concatenates [S131072x6, S131072x6, S131072x6, S131072x6, S131072x6, S131072x6, S131072x6, S131072x6, S131072x6, S131072x6, S131072x6, S131072x6, S131072x6, S131072x6, S131072x6, S131072x6] S131072x96 1
  concatenates_S131072x6_S131072x6_S131072x6_S131072x6_S131072x6_S131072x6_S131072x6_S131072x6_S131072x48_d1 : Shape.Concatenates [S131072x6, S131072x6, S131072x6, S131072x6, S131072x6, S131072x6, S131072x6, S131072x6] S131072x48 1
  concatenates_S131072x96_S131072x48_S131072x144_d1 : Shape.Concatenates [S131072x96, S131072x48] S131072x144 1
  dot_S131072x288_S288x6_S131072x6_1_0_0_1_n_n_wf : DotDims.WF S131072x288 S288x6 S131072x6 [1] [0] [0] [1] [] []
  dot_S131072x19_S19x19_S131072x19_1_0_0_1_n_n_wf : DotDims.WF S131072x19 S19x19 S131072x19 [1] [0] [0] [1] [] []
  dot_S131072x19_S19x6_S131072x6_1_0_0_1_n_n_wf : DotDims.WF S131072x19 S19x6 S131072x6 [1] [0] [0] [1] [] []

variable [Facts₀]

def dot_S131072x288_S288x6_S131072x6_1_0_0_1_n_n : DotDims S131072x288 S288x6 S131072x6 where
  lhsContracting := [1]
  rhsContracting := [0]
  lhsNonContracting := [0]
  rhsNonContracting := [1]
  lhsBatch := []
  rhsBatch := []
  wf := dot_S131072x288_S288x6_S131072x6_1_0_0_1_n_n_wf
def dot_S131072x19_S19x19_S131072x19_1_0_0_1_n_n : DotDims S131072x19 S19x19 S131072x19 where
  lhsContracting := [1]
  rhsContracting := [0]
  lhsNonContracting := [0]
  rhsNonContracting := [1]
  lhsBatch := []
  rhsBatch := []
  wf := dot_S131072x19_S19x19_S131072x19_1_0_0_1_n_n_wf
def dot_S131072x19_S19x6_S131072x6_1_0_0_1_n_n : DotDims S131072x19 S19x6 S131072x6 where
  lhsContracting := [1]
  rhsContracting := [0]
  lhsNonContracting := [0]
  rhsNonContracting := [1]
  lhsBatch := []
  rhsBatch := []
  wf := dot_S131072x19_S19x6_S131072x6_1_0_0_1_n_n_wf

class Facts : Prop extends Facts₀ where

variable [Facts]
-- ==== Proof.Frames.lean ====
/-
  The two kernels' frame claims and the idealization claim.

  Both printed kernels run one grid of 32 points; at every point the body overwrites its three scratch arrays and the output
  block, so the frame — termination, no fault, arguments unchanged — is the generated run of the pipeline. The ideal pass
  rewrote nothing, so the idealization claim is `True`. (The reference is a straight-line host program; its frame is its
  run with the result forgotten, and sits beside that run in Proof/Claims.lean.)
-/
import proofs.«147313_j28467043238534_2_alg».proof.Defs
import proofs.«147313_j28467043238534_2_alg».proof.Proof.Gen.Kernel.Frame
import proofs.«147313_j28467043238534_2_alg».proof.Proof.Gen.KernelIdeal.Frame
import proofs.«147313_j28467043238534_2_alg».proof.Proof.Gen.Pre_finite_inputs

noncomputable section

namespace Cert.Proof.Frames

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem preserves : Cert.preserves_Kernel_KernelIdeal := trivial

end Cert.Proof.Frames

end
-- ==== Proof.LibPlainProduct.lean ====
/-
  A plain matrix product into a zero accumulator, read at one entry.

  For a matrix `l` of shape `[M, K]` and a matrix `r` of shape `[K, N]`, contracted over `l`'s second axis and `r`'s first,
  the product's entry `(p, c)` on the extended reals is `∑ k, l[p, k] · r[k, c]`: the accumulator contributes the real `0`,
  the contraction index has a single axis of extent `K` and is traded for its one coordinate `k`, and the operand indices
  at the output index `(p, c)` and contraction coordinate `k` are `(p, k)` and `(k, c)`.

  The dimension numbers enter only through six facts, which a caller proves for its own record: the contraction shape
  has rank one (`hr`) and extent `K` (`hs`), and the four coordinates of the two operand indices (`hl0`, `hl1`, `hr0`,
  `hr1`). The operands' float formats are arbitrary.
-/
import Idealize.ShloMosaic.Lib.ValueIdx
import Idealize.ShloMosaic.PureOps.Ideal.Laws

noncomputable section

namespace Cert.PlainProduct

open Idealize.ShloMosaic Idealize.ShloMosaic.ValueIdx

/-- Entry `(p, c)` of an `[M, K]` by `[K, N]` product into the zero accumulator is `∑ k, l[p, k] · r[k, c]`, for any dimension
    numbers `D` whose contraction has the one axis of extent `K` and whose operand indices read `(p, k)` and `(k, c)`. -/
theorem matmul_zero_entry {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q (0 : Fin 2)).val = (j (0 : Fin 2)).val)
    (hl1 : ∀ (j : (⟨2, ![M, N]⟩ : Shape).Idx) (q : D.contr.Idx), (D.lhsIdx j q (1 : Fin 2)).val = (q ⟨0, by omega⟩).val)
    (hr0 : ∀ (j : (⟨2, ![M, N]⟩ : Shape).Idx) (q : D.contr.Idx), (D.rhsIdx j q (0 : Fin 2)).val = (q ⟨0, by omega⟩).val)
    (hr1 : ∀ (j : (⟨2, ![M, N]⟩ : Shape).Idx) (q : D.contr.Idx), (D.rhsIdx j q (1 : Fin 2)).val = (j (1 : Fin 2)).val)
    {φ₁ φ₂ : FTy} (l : FVec Ideal ⟨2, ![M, K]⟩ φ₁) (r : FVec Ideal ⟨2, ![K, N]⟩ φ₂) (p : Fin M) (c : Fin N) :
    FloatOps.matmul D none l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k :=
    funext fun a => Fin.ext (by
      match a with
      | ⟨0, _⟩ => exact hl0 (ix2 p c) _
      | ⟨1, _⟩ => exact (hl1 (ix2 p c) _).trans hk)
  have er : D.rhsIdx (ix2 p c) ((contrEquiv1 D K hr hs).symm k) = ix2 k c :=
    funext fun a => Fin.ext (by
      match a with
      | ⟨0, _⟩ => exact (hr0 (ix2 p c) _).trans hk
      | ⟨1, _⟩ => exact hr1 (ix2 p c) _)
  rw [el, er]

end Cert.PlainProduct

end
-- ==== Proof.Spec.lean ====
/-
  The per-row mathematics shared by the two programs.

  Every batch row is processed independently. For one row the data are the 24 joints' rotation entries (9 each) and
  positions (3 each), and for each joint two small affine layers with a rectifier between them. A joint's network reads
  19 numbers: its 9 rotation entries, its 3 position entries, its bone length — the Euclidean norm of its position
  relative to its parent's, or of its position itself at the root — and the 6 outputs of its parent (at the root: the 6
  global features, an affine function of all 288 rotation and position entries). The result is the 6 outputs of every
  joint, laid side by side.

  Everything is stated on the extended reals; only commutativity and associativity of sum and product are ever used, so
  no finiteness is needed.
-/
import Idealize.ShloMosaic.PureOps.Ideal
import Idealize.ShloMosaic.Lib.ValueIdx

noncomputable section

namespace Cert.Spec

open Idealize.ShloMosaic

/-- The rectifier's zero, as the float word both programs spell. -/
abbrev zeroWord : EReal := Ideal.ofBits .f32 0x00000000#32

/-- The Euclidean length of a 3-vector: the square root of the sum of its squares. -/
def bone (d : Fin 3 → EReal) : EReal := Ideal.sqrt (∑ k : Fin 3, d k * d k)

/-- The 19 inputs of a joint's network, in order: 9 rotation entries, 3 position entries, the bone length, and the 6
    outputs of the parent. -/
def feats (rot : Fin 9 → EReal) (pos : Fin 3 → EReal) (len : EReal) (prev : Fin 6 → EReal) (k : Fin 19) : EReal :=
  if h9 : k.val < 9 then rot ⟨k.val, h9⟩
  else if h12 : k.val < 12 then pos ⟨k.val - 9, by omega⟩
  else if _h13 : k.val < 13 then len
  else prev ⟨k.val - 13, by omega⟩

/-- An affine layer on `n` inputs: output `f` is `∑ k, W f k · x k + b f`. -/
def layer {n o : ℕ} (W : Fin o → Fin n → EReal) (b : Fin o → EReal) (x : Fin n → EReal) (f : Fin o) : EReal :=
  ∑ k : Fin n, W f k * x k + b f

/-- A joint's network: an affine layer 19 → 19, the rectifier, an affine layer 19 → 6. -/
def joint (W1 : Fin 19 → Fin 19 → EReal) (b1 : Fin 19 → EReal) (W2 : Fin 6 → Fin 19 → EReal) (b2 : Fin 6 → EReal)
    (x : Fin 19 → EReal) (f : Fin 6) : EReal :=
  layer W2 b2 (fun k => max (layer W1 b1 x k) zeroWord) f

theorem feats_rot (rot pos len prev) (k : Fin 19) (h : k.val < 9) : feats rot pos len prev k = rot ⟨k.val, h⟩ := by
  unfold feats; rw [dif_pos h]

theorem feats_pos (rot pos len prev) (k : Fin 19) (h0 : 9 ≤ k.val) (h : k.val < 12) :
    feats rot pos len prev k = pos ⟨k.val - 9, by omega⟩ := by
  unfold feats; rw [dif_neg (by omega), dif_pos h]

theorem feats_len (rot pos len prev) (k : Fin 19) (h : k.val = 12) : feats rot pos len prev k = len := by
  unfold feats; rw [dif_neg (by omega), dif_neg (by omega), dif_pos (by omega)]

theorem feats_prev (rot pos len prev) (k : Fin 19) (h : 13 ≤ k.val) :
    feats rot pos len prev k = prev ⟨k.val - 13, by have := k.isLt; omega⟩ := by
  unfold feats; rw [dif_neg (by omega), dif_neg (by omega), dif_neg (by omega)]

/-! ## The kinematic tree and the recurrence over it -/

/-- Each joint's parent in the 24-joint kinematic tree; every parent comes before its children (the root is listed as its
    own parent and is treated apart). -/
def parent : Fin 24 → Fin 24 :=
  ![0, 0, 0, 0, 1, 2, 3, 4, 5, 6, 7, 8, 9, 9, 9, 12, 13, 14, 16, 17, 18, 19, 20, 21]

/-- What one batch row's computation reads: every joint's rotation and position entries, the six global features, and
    every joint's two layers. -/
structure Row where
  rot : Fin 24 → Fin 9 → EReal
  pos : Fin 24 → Fin 3 → EReal
  glob : Fin 6 → EReal
  W1 : Fin 24 → Fin 19 → Fin 19 → EReal
  b1 : Fin 24 → Fin 19 → EReal
  W2 : Fin 24 → Fin 6 → Fin 19 → EReal
  b2 : Fin 24 → Fin 6 → EReal

/-- Joint `j`'s outputs from the bone vector `d` and the six numbers `prev` it inherits. -/
def Row.step (D : Row) (j : Fin 24) (d : Fin 3 → EReal) (prev : Fin 6 → EReal) : Fin 6 → EReal :=
  joint (D.W1 j) (D.b1 j) (D.W2 j) (D.b2 j) (feats (D.rot j) (D.pos j) (bone d) prev)

/-- `R` assigns to every joint its six outputs: the root from its own position and the global features, every other
    joint from its position relative to its parent's and its parent's outputs. -/
structure Solves (D : Row) (R : Fin 24 → Fin 6 → EReal) : Prop where
  root : R 0 = D.step 0 (D.pos 0) D.glob
  child : ∀ j : Fin 24, j ≠ 0 → R j = D.step j (fun k => D.pos j k - D.pos (parent j) k) (R (parent j))

/-- A sum over the 288 rotation-and-position entries of a row splits into the 216 rotation entries and the 72 position
    entries. -/
theorem sum_288 (u : Fin 288 → EReal) :
    ∑ k : Fin 288, u k
      = (∑ k : Fin 216, u ⟨k.val, by have := k.isLt; omega⟩) + ∑ k : Fin 72, u ⟨216 + k.val, by have := k.isLt; omega⟩ := by
  show ∑ k : Fin (216 + 72), u k = _
  rw [Fin.sum_univ_add]
  rfl

open Idealize.ShloMosaic.ValueIdx in
/-- Batch row `b`'s data, read off the eight argument arrays: rotations [B, 24, 9], positions [B, 24, 3], the global
    layer [6, 288] and [6] — its weights against the 216 rotation entries then the 72 position entries of the row, in
    joint-major order —, and the joints' layers [24, 19, 19], [24, 19], [24, 6, 19], [24, 6]. -/
def rowOf (A0 : (⟨3, ![131072, 24, 9]⟩ : Shape).Idx → EReal) (A1 : (⟨3, ![131072, 24, 3]⟩ : Shape).Idx → EReal)
    (A2 : (⟨2, ![6, 288]⟩ : Shape).Idx → EReal) (A3 : (⟨1, ![6]⟩ : Shape).Idx → EReal)
    (A4 : (⟨3, ![24, 19, 19]⟩ : Shape).Idx → EReal) (A5 : (⟨2, ![24, 19]⟩ : Shape).Idx → EReal)
    (A6 : (⟨3, ![24, 6, 19]⟩ : Shape).Idx → EReal) (A7 : (⟨2, ![24, 6]⟩ : Shape).Idx → EReal) (b : Fin 131072) : Row where
  rot j a := A0 (ix3 b j a)
  pos j a := A1 (ix3 b j a)
  glob f :=
    (∑ k : Fin 216, A2 (ix2 f (⟨k.val, by have := k.isLt; omega⟩ : Fin 288))
        * A0 (ix3 b (⟨k.val / 9, by have := k.isLt; omega⟩ : Fin 24) (⟨k.val % 9, Nat.mod_lt _ (by decide)⟩ : Fin 9)))
      + (∑ k : Fin 72, A2 (ix2 f (⟨216 + k.val, by have := k.isLt; omega⟩ : Fin 288))
        * A1 (ix3 b (⟨k.val / 3, by have := k.isLt; omega⟩ : Fin 24) (⟨k.val % 3, Nat.mod_lt _ (by decide)⟩ : Fin 3)))
      + A3 (ix1 f)
  W1 j a k := A4 (ix3 j a k)
  b1 j a := A5 (ix2 j a)
  W2 j a k := A6 (ix3 j a k)
  b2 j a := A7 (ix2 j a)

/-! ## Congruences: the network depends on its data only through their values -/

theorem bone_congr {d d' : Fin 3 → EReal} (h : ∀ k, d k = d' k) : bone d = bone d' := by
  rw [show d = d' from funext h]

theorem feats_congr {rot rot' : Fin 9 → EReal} {pos pos' : Fin 3 → EReal} {len len' : EReal} {prev prev' : Fin 6 → EReal}
    (hr : ∀ a, rot a = rot' a) (hp : ∀ a, pos a = pos' a) (hl : len = len') (hv : ∀ a, prev a = prev' a) (k : Fin 19) :
    feats rot pos len prev k = feats rot' pos' len' prev' k := by
  rw [show rot = rot' from funext hr, show pos = pos' from funext hp, hl, show prev = prev' from funext hv]

theorem joint_congr {W1 W1' : Fin 19 → Fin 19 → EReal} {b1 b1' : Fin 19 → EReal} {W2 W2' : Fin 6 → Fin 19 → EReal}
    {b2 b2' : Fin 6 → EReal} {x x' : Fin 19 → EReal}
    (h1 : ∀ a k, W1 a k = W1' a k) (h2 : ∀ a, b1 a = b1' a) (h3 : ∀ a k, W2 a k = W2' a k) (h4 : ∀ a, b2 a = b2' a)
    (hx : ∀ k, x k = x' k) (f : Fin 6) : joint W1 b1 W2 b2 x f = joint W1' b1' W2' b2' x' f := by
  rw [show W1 = W1' from funext fun a => funext (h1 a), show b1 = b1' from funext h2,
    show W2 = W2' from funext fun a => funext (h3 a), show b2 = b2' from funext h4, show x = x' from funext hx]

end Cert.Spec

end
-- ==== Proof.KernelRows.lean ====
/-
  One joint of the kernel, as vectors with the batch on the lanes, read at an entry.

  Inside a block the kernel keeps every quantity feature-major: a value of shape [features, 4096] holds one batch row per
  lane. A joint's 19 input rows are stacked from four pieces (9 rotation rows, 3 position rows, one bone-length row, 6
  parent rows); its network is two matrix products with the weights on the left, each followed by a bias column spread
  over the lanes, with the rectifier between them. At lane `r` all of this is the per-row network of `Cert.Spec` on
  column `r` of the pieces: the products are plain sums over the 19 (or 216, or 72) contracted rows, a change of float
  format is the identity, and the bone-length row is the square root of the three-term sum of squares down the lane.
-/
import proofs.«147313_j28467043238534_2_alg».proof.Proof.Gen.KernelIdeal
import proofs.«147313_j28467043238534_2_alg».proof.Proof.LibPlainProduct
import proofs.«147313_j28467043238534_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Rows

open Cert.KernelIdeal Cert.KernelIdeal.Facts₀ Cert.KernelIdeal.Facts
open Idealize.ShloMosaic Idealize.ShloMosaic.ValueIdx

variable {F : FTy → Type} [FloatOps F]

/-! ## The vectors -/

/-- The bone-length row of a difference `d` of position rows: down each lane, the root of the sum of the three squares. -/
def lenRow (d : FVec F S3x4096 .f32) : FVec F S1x4096 .f32 :=
  sqrt (shapeCast S1x4096 (multiReduction .add [0] S4096 (mulf d d) 0x00000000#32 reduces_S3x4096_S4096 (.inl rfl) rfl)
    shapeCasts_S4096_S1x4096)

/-- The 19 input rows of a joint: rotation rows, position rows, the bone-length row, the parent's rows. -/
def inRows (rot : Vec F S9x4096 .f32) (pos : Vec F S3x4096 .f32) (len : FVec F S1x4096 .f32) (prev : Vec F S6x4096 .f32) :
    FVec F S19x4096 .f32 :=
  concatenate S19x4096 0 [⟨S9x4096, rot⟩, ⟨S3x4096, pos⟩, ⟨S1x4096, len⟩, ⟨S6x4096, prev⟩]
    concatenates_S9x4096_S3x4096_S1x4096_S6x4096_S19x4096_d0

/-- A joint's network on its 19 input rows: weights on the left, a bias column spread over the lanes, the rectifier. -/
def net (w1 : Vec F S1x19x19 .bf16) (b1 : Vec F S1x19x1 .f32) (w2 : Vec F S1x6x19 .bf16) (b2 : Vec F S1x6x1 .f32)
    (x : FVec F S19x4096 .f32) : FVec F S6x4096 .f32 :=
  shapeCast S6x4096
    (addf
      (matmul dot_S6x19_S19x4096_S6x4096_1_0_0_1_n_n none (shapeCast S6x19 w2 shapeCasts_S1x6x19_S6x19)
        (truncf .bf16
          (maximumf
            (addf
              (matmul dot_S19x19_S19x4096_S19x4096_1_0_0_1_n_n none (shapeCast S19x19 w1 shapeCasts_S1x19x19_S19x19)
                (truncf .bf16 x bitsLt_bf16_f32) (constant S19x4096 .f32 0x00000000#32))
              (broadcastTo S19x4096 (shapeCast S19x1 b1 shapeCasts_S1x19x1_S19x1) broadcasts_S19x1_S19x4096))
            (broadcast S19x4096 (Scalar.ofBits .f32 0x00000000#32)))
          bitsLt_bf16_f32)
        (constant S6x4096 .f32 0x00000000#32))
      (broadcastTo S6x4096 (shapeCast S6x1 b2 shapeCasts_S1x6x1_S6x1) broadcasts_S6x1_S6x4096))
    shapeCasts_S6x4096_S6x4096

/-- The six global-feature rows: the two halves of the first layer's weights against the rotation rows and the position
    rows, added, plus the bias column. -/
def globalRows (wa : Vec F S6x216 .bf16) (rot : Vec F S216x4096 .f32) (wb : Vec F S6x72 .bf16) (pos : Vec F S72x4096 .f32)
    (b : Vec F S6x1 .f32) : FVec F S6x4096 .f32 :=
  addf
    (addf
      (matmul dot_S6x216_S216x4096_S6x4096_1_0_0_1_n_n none (shapeCast S6x216 wa shapeCasts_S6x216_S6x216)
        (truncf .bf16 rot bitsLt_bf16_f32) (constant S6x4096 .f32 0x00000000#32))
      (matmul dot_S6x72_S72x4096_S6x4096_1_0_0_1_n_n none (shapeCast S6x72 wb shapeCasts_S6x72_S6x72)
        (truncf .bf16 pos bitsLt_bf16_f32) (constant S6x4096 .f32 0x00000000#32)))
    (broadcastTo S6x4096 (shapeCast S6x1 b shapeCasts_S6x1_S6x1) broadcasts_S6x1_S6x4096)

/-! ## The matrix products' index maps -/

section Dots

theorem l0_6x19 (j : S6x4096.Idx) (q : dot_S6x19_S19x4096_S6x4096_1_0_0_1_n_n.contr.Idx) :
    (dot_S6x19_S19x4096_S6x4096_1_0_0_1_n_n.lhsIdx j q (0 : Fin 2)).val = (j (0 : Fin 2)).val := by
  unfold DotDims.lhsIdx
  rw [dif_neg (show ¬(0 : Fin S6x19.rank) ∈ dot_S6x19_S19x4096_S6x4096_1_0_0_1_n_n.lhsBatch by decide),
    dif_pos (show (0 : Fin S6x19.rank) ∈ dot_S6x19_S19x4096_S6x4096_1_0_0_1_n_n.lhsNonContracting by decide)]
  rfl
theorem r1_6x19 (j : S6x4096.Idx) (q : dot_S6x19_S19x4096_S6x4096_1_0_0_1_n_n.contr.Idx) :
    (dot_S6x19_S19x4096_S6x4096_1_0_0_1_n_n.rhsIdx j q (1 : Fin 2)).val = (j (1 : Fin 2)).val := by
  unfold DotDims.rhsIdx
  rw [dif_neg (show ¬(1 : Fin S19x4096.rank) ∈ dot_S6x19_S19x4096_S6x4096_1_0_0_1_n_n.rhsBatch by decide),
    dif_pos (show (1 : Fin S19x4096.rank) ∈ dot_S6x19_S19x4096_S6x4096_1_0_0_1_n_n.rhsNonContracting by decide)]
  rfl

theorem l0_19x19 (j : S19x4096.Idx) (q : dot_S19x19_S19x4096_S19x4096_1_0_0_1_n_n.contr.Idx) :
    (dot_S19x19_S19x4096_S19x4096_1_0_0_1_n_n.lhsIdx j q (0 : Fin 2)).val = (j (0 : Fin 2)).val := by
  unfold DotDims.lhsIdx
  rw [dif_neg (show ¬(0 : Fin S19x19.rank) ∈ dot_S19x19_S19x4096_S19x4096_1_0_0_1_n_n.lhsBatch by decide),
    dif_pos (show (0 : Fin S19x19.rank) ∈ dot_S19x19_S19x4096_S19x4096_1_0_0_1_n_n.lhsNonContracting by decide)]
  rfl
theorem r1_19x19 (j : S19x4096.Idx) (q : dot_S19x19_S19x4096_S19x4096_1_0_0_1_n_n.contr.Idx) :
    (dot_S19x19_S19x4096_S19x4096_1_0_0_1_n_n.rhsIdx j q (1 : Fin 2)).val = (j (1 : Fin 2)).val := by
  unfold DotDims.rhsIdx
  rw [dif_neg (show ¬(1 : Fin S19x4096.rank) ∈ dot_S19x19_S19x4096_S19x4096_1_0_0_1_n_n.rhsBatch by decide),
    dif_pos (show (1 : Fin S19x4096.rank) ∈ dot_S19x19_S19x4096_S19x4096_1_0_0_1_n_n.rhsNonContracting by decide)]
  rfl

theorem l0_6x216 (j : S6x4096.Idx) (q : dot_S6x216_S216x4096_S6x4096_1_0_0_1_n_n.contr.Idx) :
    (dot_S6x216_S216x4096_S6x4096_1_0_0_1_n_n.lhsIdx j q (0 : Fin 2)).val = (j (0 : Fin 2)).val := by
  unfold DotDims.lhsIdx
  rw [dif_neg (show ¬(0 : Fin S6x216.rank) ∈ dot_S6x216_S216x4096_S6x4096_1_0_0_1_n_n.lhsBatch by decide),
    dif_pos (show (0 : Fin S6x216.rank) ∈ dot_S6x216_S216x4096_S6x4096_1_0_0_1_n_n.lhsNonContracting by decide)]
  rfl
theorem r1_6x216 (j : S6x4096.Idx) (q : dot_S6x216_S216x4096_S6x4096_1_0_0_1_n_n.contr.Idx) :
    (dot_S6x216_S216x4096_S6x4096_1_0_0_1_n_n.rhsIdx j q (1 : Fin 2)).val = (j (1 : Fin 2)).val := by
  unfold DotDims.rhsIdx
  rw [dif_neg (show ¬(1 : Fin S216x4096.rank) ∈ dot_S6x216_S216x4096_S6x4096_1_0_0_1_n_n.rhsBatch by decide),
    dif_pos (show (1 : Fin S216x4096.rank) ∈ dot_S6x216_S216x4096_S6x4096_1_0_0_1_n_n.rhsNonContracting by decide)]
  rfl

theorem l0_6x72 (j : S6x4096.Idx) (q : dot_S6x72_S72x4096_S6x4096_1_0_0_1_n_n.contr.Idx) :
    (dot_S6x72_S72x4096_S6x4096_1_0_0_1_n_n.lhsIdx j q (0 : Fin 2)).val = (j (0 : Fin 2)).val := by
  unfold DotDims.lhsIdx
  rw [dif_neg (show ¬(0 : Fin S6x72.rank) ∈ dot_S6x72_S72x4096_S6x4096_1_0_0_1_n_n.lhsBatch by decide),
    dif_pos (show (0 : Fin S6x72.rank) ∈ dot_S6x72_S72x4096_S6x4096_1_0_0_1_n_n.lhsNonContracting by decide)]
  rfl
theorem r1_6x72 (j : S6x4096.Idx) (q : dot_S6x72_S72x4096_S6x4096_1_0_0_1_n_n.contr.Idx) :
    (dot_S6x72_S72x4096_S6x4096_1_0_0_1_n_n.rhsIdx j q (1 : Fin 2)).val = (j (1 : Fin 2)).val := by
  unfold DotDims.rhsIdx
  rw [dif_neg (show ¬(1 : Fin S72x4096.rank) ∈ dot_S6x72_S72x4096_S6x4096_1_0_0_1_n_n.rhsBatch by decide),
    dif_pos (show (1 : Fin S72x4096.rank) ∈ dot_S6x72_S72x4096_S6x4096_1_0_0_1_n_n.rhsNonContracting by decide)]
  rfl

end Dots

/-! ## Layout operations read at an entry -/

/-- An `[a, 1]` column spread to `[a, b]` reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, a, 1]` array cast to `[a, 1]` reads, at `(i, u)`, the operand at `(0, i, 0)`. -/
theorem shapeCast_1a1_a1_apply {α : Type} {a : ℕ} (x : (⟨3, ![1, a, 1]⟩ : Shape).Idx → α)
    (h : (⟨3, ![1, a, 1]⟩ : Shape).ShapeCasts ⟨2, ![a, 1]⟩) (i : Fin a) :
    shapeCast ⟨2, ![a, 1]⟩ x h (ix2 i (0 : Fin 1)) = x (ix3 (0 : Fin 1) i (0 : Fin 1)) :=
  shapeCast_1ab_ab_apply x h i (0 : Fin 1)

/-! ## The vectors read at an entry -/

/-- The bone-length row at lane `r`: the length of column `r` of the three rows. -/
theorem lenRow_apply (d : FVec Ideal S3x4096 .f32) (r : Fin 4096) :
    lenRow d (ix2 (0 : Fin 1) r) = Spec.bone fun k => d (ix2 k r) := by
  unfold lenRow Spec.bone
  show Ideal.sqrt _ = Ideal.sqrt _
  refine congrArg Ideal.sqrt ?_
  refine (shapeCast_a_1a_apply _ shapeCasts_S4096_S1x4096 (0 : Fin 1) r).trans ?_
  refine (Ideal.multiReduction_add_single (mulf d d) 0x00000000#32 reduces_S3x4096_S4096 (.inl rfl) rfl (ix1 r)).trans ?_
  refine Finset.sum_congr rfl fun k _ => ?_
  have e : reduces_S3x4096_S4096.lift (ix1 r) k = ix2 k r := by
    funext a; apply Fin.ext
    match a with
    | ⟨0, _⟩ => rfl
    | ⟨1, _⟩ => rfl
  rw [e]
  rfl

/-- The 19 input rows at `(k, r)`: input `k` of the network on column `r` of the four pieces. -/
theorem inRows_apply (rot : Vec Ideal S9x4096 .f32) (pos : Vec Ideal S3x4096 .f32) (len : FVec Ideal S1x4096 .f32)
    (prev : Vec Ideal S6x4096 .f32) (k : Fin 19) (r : Fin 4096) :
    inRows rot pos len prev (ix2 k r)
      = Spec.feats (fun a => rot (ix2 a r)) (fun a => pos (ix2 a r)) (len (ix2 (0 : Fin 1) r)) (fun a => prev (ix2 a r)) k := by
  unfold inRows
  by_cases h9 : k.val < 9
  · rw [Spec.feats_rot _ _ _ _ k h9]
    exact concatenate_apply_piece (t := S19x4096) (0 : Fin 2) [⟨S9x4096, rot⟩, ⟨S3x4096, pos⟩, ⟨S1x4096, len⟩, ⟨S6x4096, prev⟩] concatenates_S9x4096_S3x4096_S1x4096_S6x4096_S19x4096_d0 (ix2 k r)
      0 (by simp) S9x4096 rot rfl rfl 0 rfl (ix2 (⟨k.val, h9⟩ : Fin 9) r)
      (fun b hb => by match b with | ⟨0, _⟩ => exact absurd rfl hb | ⟨1, _⟩ => rfl)
      (Nat.zero_add _)
  by_cases h12 : k.val < 12
  · rw [Spec.feats_pos _ _ _ _ k (by omega) h12]
    exact concatenate_apply_piece (t := S19x4096) (0 : Fin 2) [⟨S9x4096, rot⟩, ⟨S3x4096, pos⟩, ⟨S1x4096, len⟩, ⟨S6x4096, prev⟩] concatenates_S9x4096_S3x4096_S1x4096_S6x4096_S19x4096_d0 (ix2 k r)
      1 (by simp) S3x4096 pos rfl rfl 9 rfl (ix2 (⟨k.val - 9, by omega⟩ : Fin 3) r)
      (fun b hb => by match b with | ⟨0, _⟩ => exact absurd rfl hb | ⟨1, _⟩ => rfl)
      (by show 9 + (k.val - 9) = k.val; omega)
  by_cases h13 : k.val < 13
  · rw [Spec.feats_len _ _ _ _ k (by omega)]
    exact concatenate_apply_piece (t := S19x4096) (0 : Fin 2) [⟨S9x4096, rot⟩, ⟨S3x4096, pos⟩, ⟨S1x4096, len⟩, ⟨S6x4096, prev⟩] concatenates_S9x4096_S3x4096_S1x4096_S6x4096_S19x4096_d0 (ix2 k r)
      2 (by simp) S1x4096 len rfl rfl 12 rfl (ix2 (0 : Fin 1) r)
      (fun b hb => by match b with | ⟨0, _⟩ => exact absurd rfl hb | ⟨1, _⟩ => rfl)
      (by show 12 + 0 = k.val; omega)
  · rw [Spec.feats_prev _ _ _ _ k (by omega)]
    exact concatenate_apply_piece (t := S19x4096) (0 : Fin 2) [⟨S9x4096, rot⟩, ⟨S3x4096, pos⟩, ⟨S1x4096, len⟩, ⟨S6x4096, prev⟩] concatenates_S9x4096_S3x4096_S1x4096_S6x4096_S19x4096_d0 (ix2 k r)
      3 (by simp) S6x4096 prev rfl rfl 13 rfl (ix2 (⟨k.val - 13, by have := k.isLt; omega⟩ : Fin 6) r)
      (fun b hb => by match b with | ⟨0, _⟩ => exact absurd rfl hb | ⟨1, _⟩ => rfl)
      (by show 13 + (k.val - 13) = k.val; omega)

/-- A joint's network at `(f, r)`: output `f` of the per-row network on column `r` of its input rows, with joint-0
    slabs of the weight and bias arrays as the layers. -/
theorem net_apply (w1 : FVec Ideal S1x19x19 .bf16) (b1 : FVec Ideal S1x19x1 .f32) (w2 : FVec Ideal S1x6x19 .bf16)
    (b2 : FVec Ideal S1x6x1 .f32) (x : FVec Ideal S19x4096 .f32) (f : Fin 6) (r : Fin 4096) :
    net w1 b1 w2 b2 x (ix2 f r)
      = Spec.joint (fun a k => w1 (ix3 (0 : Fin 1) a k)) (fun a => b1 (ix3 (0 : Fin 1) a (0 : Fin 1)))
          (fun a k => w2 (ix3 (0 : Fin 1) a k)) (fun a => b2 (ix3 (0 : Fin 1) a (0 : Fin 1))) (fun k => x (ix2 k r)) f := by
  unfold net Spec.joint Spec.layer
  rw [shapeCast_self]
  simp only [matmul]
  rw [addf_apply,
    PlainProduct.matmul_zero_entry dot_S6x19_S19x4096_S6x4096_1_0_0_1_n_n rfl rfl l0_6x19
      (fun j q => dot_S6x19_S19x4096_S6x4096_1_0_0_1_n_n.lhsIdx_val_of_single rfl j q)
      (fun j q => dot_S6x19_S19x4096_S6x4096_1_0_0_1_n_n.rhsIdx_val_of_single rfl j q) r1_6x19,
    broadcastTo_a1_ab_apply, shapeCast_1a1_a1_apply]
  refine congrArg (· + _) (Finset.sum_congr rfl fun k _ => ?_)
  rw [shapeCast_1ab_ab_apply, truncf_apply, maximumf_apply, addf_apply,
    PlainProduct.matmul_zero_entry dot_S19x19_S19x4096_S19x4096_1_0_0_1_n_n rfl rfl l0_19x19
      (fun j q => dot_S19x19_S19x4096_S19x4096_1_0_0_1_n_n.lhsIdx_val_of_single rfl j q)
      (fun j q => dot_S19x19_S19x4096_S19x4096_1_0_0_1_n_n.rhsIdx_val_of_single rfl j q) r1_19x19,
    broadcastTo_a1_ab_apply, shapeCast_1a1_a1_apply, broadcast_apply]
  refine congrArg (_ * ·) (congrArg₂ max (congrArg (· + _) (Finset.sum_congr rfl fun i _ => ?_)) rfl)
  rw [shapeCast_1ab_ab_apply, truncf_apply]

/-- The global-feature rows at `(f, r)`: the two partial products over the 216 rotation rows and the 72 position rows
    of column `r`, added, plus the bias. -/
theorem globalRows_apply (wa : FVec Ideal S6x216 .bf16) (rot : FVec Ideal S216x4096 .f32) (wb : FVec Ideal S6x72 .bf16)
    (pos : FVec Ideal S72x4096 .f32) (b : FVec Ideal S6x1 .f32) (f : Fin 6) (r : Fin 4096) :
    (globalRows (F := Ideal) wa rot wb pos b (ix2 f r) : EReal)
      = (∑ k : Fin 216, (wa (ix2 f k) : EReal) * (rot (ix2 k r) : EReal))
        + (∑ k : Fin 72, (wb (ix2 f k) : EReal) * (pos (ix2 k r) : EReal)) + (b (ix2 f (0 : Fin 1)) : EReal) := by
  unfold globalRows
  simp only [matmul]
  rw [addf_apply, addf_apply,
    PlainProduct.matmul_zero_entry dot_S6x216_S216x4096_S6x4096_1_0_0_1_n_n rfl rfl l0_6x216
      (fun j q => dot_S6x216_S216x4096_S6x4096_1_0_0_1_n_n.lhsIdx_val_of_single rfl j q)
      (fun j q => dot_S6x216_S216x4096_S6x4096_1_0_0_1_n_n.rhsIdx_val_of_single rfl j q) r1_6x216,
    PlainProduct.matmul_zero_entry dot_S6x72_S72x4096_S6x4096_1_0_0_1_n_n rfl rfl l0_6x72
      (fun j q => dot_S6x72_S72x4096_S6x4096_1_0_0_1_n_n.lhsIdx_val_of_single rfl j q)
      (fun j q => dot_S6x72_S72x4096_S6x4096_1_0_0_1_n_n.rhsIdx_val_of_single rfl j q) r1_6x72,
    broadcastTo_a1_ab_apply, shapeCast_self, shapeCast_self, shapeCast_self]
  rfl

/-- A joint's stored rows at `(f, r)`: output `f` of the per-row network, fed column `r` of the rotation rows, of the
    position rows, of the parent's rows, and the length of column `r` of the bone rows `d`. -/
theorem jointRows_apply (rot : Vec Ideal S9x4096 .f32) (pos : Vec Ideal S3x4096 .f32) (d : FVec Ideal S3x4096 .f32)
    (prev : Vec Ideal S6x4096 .f32) (w1 : FVec Ideal S1x19x19 .bf16) (b1 : FVec Ideal S1x19x1 .f32)
    (w2 : FVec Ideal S1x6x19 .bf16) (b2 : FVec Ideal S1x6x1 .f32) (f : Fin 6) (r : Fin 4096) :
    net w1 b1 w2 b2 (inRows rot pos (lenRow d) prev) (ix2 f r)
      = Spec.joint (fun a k => w1 (ix3 (0 : Fin 1) a k)) (fun a => b1 (ix3 (0 : Fin 1) a (0 : Fin 1)))
          (fun a k => w2 (ix3 (0 : Fin 1) a k)) (fun a => b2 (ix3 (0 : Fin 1) a (0 : Fin 1)))
          (Spec.feats (fun a => rot (ix2 a r)) (fun a => pos (ix2 a r)) (Spec.bone fun k => d (ix2 k r))
            (fun a => prev (ix2 a r))) f := by
  rw [net_apply]
  refine Spec.joint_congr (fun _ _ => rfl) (fun _ => rfl) (fun _ _ => rfl) (fun _ => rfl) (fun k => ?_) f
  rw [inRows_apply, lenRow_apply]

end Cert.KernelIdeal.Rows

end
-- ==== Proof.Pieces.lean ====
/-
  Reading a rank-two scratch array that was filled a few rows at a time.

  A body that writes a scratch array [M, n] in slabs of consecutive rows leaves, as its contents, the list of the
  slabs written (newest first); what a later load of some rows reads is the canonical contents of that list at those rows.
  Three facts are used. A load of rows `o, …, o+k-1` reads, at local row `a`, the canonical contents at row `o + a`. When
  the whole array was written in one piece the canonical contents are that piece. And for an array of 24 slabs of 6 rows,
  written in order, "slab `j` holds the numbers `R j` at lane `r`, for every slab written so far" is preserved by writing
  the next slab, provided the new slab holds `R k`: rows of earlier slabs lie outside the new slab's rectangle, rows of
  the new slab read its payload.
-/
import Idealize.ShloMosaic.Lib.Pipeline.RowLoads

noncomputable section

namespace Cert.Pieces

open Idealize.ShloMosaic Idealize.ShloMosaic.ValueIdx

variable {Val : EltTy → Type} [∀ e, Nonempty (Val e)] {sig : RefSig} {κ : Kind} {sp : Space} {e : EltTy} {m n : ℕ}

/-- A load of `k` rows from row `o` reads, at `(a, r)`, the canonical contents of the pieces at row `o + a`. -/
theorem readCov_rows_apply {k : ℕ} (v : View sig κ sp (⟨2, ![m, n]⟩ : Shape) e)
    (L : List (View.Piece Val (⟨2, ![m, n]⟩ : Shape) e)) (o : ℕ)
    (inb : ∀ a, (![o, 0] : Fin 2 → Nat) a + (⟨2, ![k, n]⟩ : Shape).size a ≤ (⟨2, ![m, n]⟩ : Shape).size a)
    (a : Fin k) (r : Fin n) (q : Fin m) (hq : q.val = o + a.val) :
    v.readCov L (Rect.unit (s := (⟨2, ![m, n]⟩ : Shape)) ![o, 0] (⟨2, ![k, n]⟩ : Shape).size inb).toLoadRect (ix2 a r)
      = View.canon L (ix2 q r) := by
  rw [View.readCov_eq_canon']
  refine congrArg (View.canon L) ?_
  funext ax; apply Fin.ext
  fin_cases ax
  · show o + 1 * a.val = q.val; omega
  · show 0 + 1 * r.val = r.val; omega

/-- When the array was written whole, in one piece, those canonical contents are the piece. -/
theorem canon_whole (P : (⟨2, ![m, n]⟩ : Shape).Idx → Val e)
    (inbW : ∀ a, (![0, 0] : Fin 2 → Nat) a + (⟨2, ![m, n]⟩ : Shape).size a ≤ (⟨2, ![m, n]⟩ : Shape).size a) :
    View.canon [(⟨Rect.unit (s := (⟨2, ![m, n]⟩ : Shape)) ![0, 0] (⟨2, ![m, n]⟩ : Shape).size inbW, P⟩ :
      View.Piece Val (⟨2, ![m, n]⟩ : Shape) e)] = P :=
  View.canon_unit_zero (by funext a; fin_cases a <;> rfl) inbW P

/-- Slab `j` (rows `6 j, …, 6 j + 5`) of the pieces' canonical contents holds `R j` at lane `r`, for every `j < k`. -/
def SlabsAre (L : List (View.Piece Val (⟨2, ![144, n]⟩ : Shape) e)) (r : Fin n) (k : ℕ) (R : Fin 24 → Fin 6 → Val e) : Prop :=
  ∀ j : Fin 24, j.val < k → ∀ f : Fin 6,
    View.canon L (ix2 (⟨6 * j.val + f.val, by have := j.isLt; have := f.isLt; omega⟩ : Fin 144) r) = R j f

theorem SlabsAre.zero (L : List (View.Piece Val (⟨2, ![144, n]⟩ : Shape) e)) (r : Fin n) (R : Fin 24 → Fin 6 → Val e) :
    SlabsAre L r 0 R := fun _ h => absurd h (Nat.not_lt_zero _)

/-- Writing slab `k` with a payload that holds `R k` at lane `r` extends the statement from `k` slabs to `k + 1`. -/
theorem SlabsAre.step (L : List (View.Piece Val (⟨2, ![144, n]⟩ : Shape) e)) (r : Fin n) (k : ℕ) (hk : k < 24)
    (R : Fin 24 → Fin 6 → Val e) (o : ℕ) (ho : o = 6 * k)
    (inb : ∀ a, (![o, 0] : Fin 2 → Nat) a + (⟨2, ![6, n]⟩ : Shape).size a ≤ (⟨2, ![144, n]⟩ : Shape).size a)
    (pay : (⟨2, ![6, n]⟩ : Shape).Idx → Val e) (hL : SlabsAre L r k R)
    (hpay : ∀ f : Fin 6, pay (ix2 f r) = R ⟨k, hk⟩ f) :
    SlabsAre ((⟨Rect.unit (s := (⟨2, ![144, n]⟩ : Shape)) ![o, 0] (⟨2, ![6, n]⟩ : Shape).size inb, pay⟩ :
      View.Piece Val (⟨2, ![144, n]⟩ : Shape) e) :: L) r (k + 1) R := by
  intro j hj f
  by_cases hjk : j.val = k
  · obtain rfl : j = ⟨k, hk⟩ := Fin.ext hjk
    have he : (ix2 (⟨6 * k + f.val, by have := f.isLt; omega⟩ : Fin 144) r : (⟨2, ![144, n]⟩ : Shape).Idx)
        = (Rect.unit (s := (⟨2, ![144, n]⟩ : Shape)) ![o, 0] (⟨2, ![6, n]⟩ : Shape).size inb).emb (ix2 f r) := by
      funext ax; apply Fin.ext
      fin_cases ax
      · show 6 * k + f.val = o + 1 * f.val; omega
      · show r.val = 0 + 1 * r.val; omega
    rw [he, View.canon_cons_emb]
    exact hpay f
  · have hlt : j.val < k := by omega
    rw [View.canon_cons_of_not_mem _ L]
    · exact hL j hlt f
    · intro hm
      have h0 := ((Rect.mem_set_unit (inb := inb)).mp hm) (0 : Fin 2)
      have h1 : o ≤ 6 * j.val + f.val := h0.1
      have := f.isLt
      omega

end Cert.Pieces

end
-- ==== Proof.KernelChain.lean ====
/-
  The kernel's block: what one grid point leaves in its output block, joint by joint.

  At a grid point the body transposes its two input blocks into scratch (batch on the lanes), computes the six
  global-feature rows, and then runs the 24 joints in order. Joint `j` reads its 9 rotation rows and 3 position rows and
  its parent's 3 position rows out of the transposed scratch, its parent's 6 output rows out of the output scratch — the
  parent's slab was written by an earlier joint and no later store touches it — and writes its own 6 output rows as slab
  `j` of the output scratch. The output block is that scratch transposed back.

  So, lane by lane: if `R` solves the row's recurrence (`Cert.Spec.Solves`) for the row's data read off the input
  blocks at lane `r` (`blockRow`), then after joint `j`'s store slabs `0, …, j` of the output scratch hold
  `R 0, …, R j` at lane `r` — by induction along the stores, each step being one joint's network read at an entry — and
  the output block holds `R j f` at `(r, 6 j + f)`.
-/
import proofs.«147313_j28467043238534_2_alg».proof.Proof.Gen.KernelIdeal.Frame
import proofs.«147313_j28467043238534_2_alg».proof.Proof.KernelRows
import proofs.«147313_j28467043238534_2_alg».proof.Proof.Pieces
import proofs.«147313_j28467043238534_2_alg».proof.Proof.Spec

noncomputable section

namespace Cert.KernelIdeal.Chain

open Cert.KernelIdeal Cert.KernelIdeal.Gen
open Idealize.ShloMosaic Idealize.ShloMosaic.ValueIdx

/-! ## The row's data, read off the input blocks at a lane -/

/-- Lane `r`'s data: row `r` of the rotation block [4096, 216] and of the position block [4096, 72] (joint-major), the
    global layer's two weight blocks against those rows plus its bias, and the joints' layers. -/
def blockRow (x0 : S4096x216.Idx → EReal) (x1 : S4096x72.Idx → EReal) (x2 : S6x216.Idx → EReal) (x3 : S6x72.Idx → EReal)
    (x4 : S6x1.Idx → EReal) (x5 : S24x19x19.Idx → EReal) (x6 : S24x19x1.Idx → EReal) (x7 : S24x6x19.Idx → EReal)
    (x8 : S24x6x1.Idx → EReal) (r : Fin 4096) : Spec.Row where
  rot j a := x0 (ix2 r (⟨9 * j.val + a.val, by have := j.isLt; have := a.isLt; omega⟩ : Fin 216))
  pos j a := x1 (ix2 r (⟨3 * j.val + a.val, by have := j.isLt; have := a.isLt; omega⟩ : Fin 72))
  glob f := (∑ k : Fin 216, x2 (ix2 f k) * x0 (ix2 r k)) + (∑ k : Fin 72, x3 (ix2 f k) * x1 (ix2 r k)) + x4 (ix2 f (0 : Fin 1))
  W1 j a k := x5 (ix3 j a k)
  b1 j a := x6 (ix3 j a (0 : Fin 1))
  W2 j a k := x7 (ix3 j a k)
  b2 j a := x8 (ix3 j a (0 : Fin 1))

/-! ## The printed payloads are the joint's rows -/

section Payloads

variable {F : FTy → Type} [FloatOps F]

theorem pay1_eq (X : Vec F S4096x216 .f32) :
    k0_pay1 X = shapeCast S216x4096 (transpose S216x4096 [1, 0] (shapeCast S4096x216 X shapeCasts_S4096x216_S4096x216)
      transposes_S4096x216_p1_0_S216x4096) shapeCasts_S216x4096_S216x4096 := rfl

theorem pay2_eq (X : Vec F S4096x72 .f32) :
    k0_pay2 X = shapeCast S72x4096 (transpose S72x4096 [1, 0] (shapeCast S4096x72 X shapeCasts_S4096x72_S4096x72)
      transposes_S4096x72_p1_0_S72x4096) shapeCasts_S72x4096_S72x4096 := rfl

theorem pay52_eq (X : Vec F S144x4096 .f32) :
    k0_pay52 X = transpose S4096x144 [1, 0] X transposes_S144x4096_p1_0_S4096x144 := rfl

end Payloads

/-! ## Loads of the input blocks and of the transposed scratch -/

/-- A load of an input block's buffer, which holds the block `X`, reads `X` at the rectangle's indices. -/
theorem readAt_unread {s : Shape} {e : EltTy} (arg : Memref sig .tc .vmem s e) (harg : arg.IsWhole) (X : s.Idx → Elt Ideal e)
    (B : Rect s) (i : B.shape.Idx) :
    View.readAt (Elt Ideal) arg.view B.toLoadRect (harg.unread X) i = X (B.idx i) := by
  show View.ld (arg.view.read (Elt Ideal) (harg.unread X)) B i = _
  rw [harg.read_unread]

/-- A load of the whole buffer reads the block. -/
theorem readAt_unread_whole {s : Shape} {e : EltTy} (arg : Memref sig .tc .vmem s e) (harg : arg.IsWhole) (X : s.Idx → Elt Ideal e)
    {off : Fin s.rank → Nat} (hz : off = fun _ => 0) (inb : ∀ a, off a + s.size a ≤ s.size a) :
    View.readAt (Elt Ideal) arg.view (Rect.unit off s.size inb).toLoadRect (harg.unread X) = X := by
  show View.ld (arg.view.read (Elt Ideal) (harg.unread X)) (Rect.unit off s.size inb) = X
  rw [harg.read_unread, View.ld_unit_zero hz]

/-- Slab `o` of a stacked array [24, n1, n2], loaded as [1, n1, n2], reads the array at `(o, a, k)`. -/
theorem slab3 {n1 n2 : ℕ} {e : EltTy} (arg : Memref sig .tc .vmem (⟨3, ![24, n1, n2]⟩ : Shape) e) (harg : arg.IsWhole)
    (X : (⟨3, ![24, n1, n2]⟩ : Shape).Idx → Elt Ideal e) (o : ℕ)
    (inb : ∀ a, (![o, 0, 0] : Fin 3 → Nat) a + (⟨3, ![1, n1, n2]⟩ : Shape).size a ≤ (⟨3, ![24, n1, n2]⟩ : Shape).size a)
    (a : Fin n1) (k : Fin n2) (q : Fin 24) (hq : q.val = o) :
    View.readAt (Elt Ideal) arg.view
        (Rect.unit (s := (⟨3, ![24, n1, n2]⟩ : Shape)) ![o, 0, 0] (⟨3, ![1, n1, n2]⟩ : Shape).size inb).toLoadRect (harg.unread X)
        (ix3 (0 : Fin 1) a k)
      = X (ix3 q a k) := by
  rw [readAt_unread]
  refine congrArg X ?_
  funext ax; apply Fin.ext
  fin_cases ax
  · show o + 1 * 0 = q.val; omega
  · show 0 + 1 * a.val = a.val; omega
  · show 0 + 1 * k.val = k.val; omega

/-- Rows `o, …` of the transposed rotation scratch: at `(a, r)`, the rotation block at `(r, o + a)`. -/
theorem rotRows {k : ℕ} (c : Dev nD) (arg1 : Memref sig .tc .vmem S4096x216 .f32) (harg1 : arg1.IsWhole)
    (arg11 : Memref sig .tc .vmem S216x4096 .f32) (x0 : Vec Ideal S4096x216 .f32) (o : ℕ)
    (inb : ∀ a, (![o, 0] : Fin 2 → Nat) a + (⟨2, ![k, 4096]⟩ : Shape).size a ≤ (⟨2, ![216, 4096]⟩ : Shape).size a)
    (a : Fin k) (r : Fin 4096) (q : Fin 216) (hq : q.val = o + a.val) :
    arg11.view.readCov (kernelRun0_A.sl.HS0_1 c arg1 harg1 x0)
        (Rect.unit (s := (⟨2, ![216, 4096]⟩ : Shape)) ![o, 0] (⟨2, ![k, 4096]⟩ : Shape).size inb).toLoadRect (ix2 a r)
      = x0 (ix2 r q) := by
  rw [Pieces.readCov_rows_apply _ _ o inb a r q hq]
  unfold kernelRun0_A.sl.HS0_1
  rw [Pieces.canon_whole, pay1_eq, shapeCast_self, transpose_ix2_apply, shapeCast_self,
    readAt_unread_whole arg1 harg1 x0 (by funext i; fin_cases i <;> rfl)]

/-- Rows `o, …` of the transposed position scratch: at `(a, r)`, the position block at `(r, o + a)`. -/
theorem posRows {k : ℕ} (c : Dev nD) (arg2 : Memref sig .tc .vmem S4096x72 .f32) (harg2 : arg2.IsWhole)
    (arg12 : Memref sig .tc .vmem S72x4096 .f32) (x1 : Vec Ideal S4096x72 .f32) (o : ℕ)
    (inb : ∀ a, (![o, 0] : Fin 2 → Nat) a + (⟨2, ![k, 4096]⟩ : Shape).size a ≤ (⟨2, ![72, 4096]⟩ : Shape).size a)
    (a : Fin k) (r : Fin 4096) (q : Fin 72) (hq : q.val = o + a.val) :
    arg12.view.readCov (kernelRun0_A.sl.HS1_1 c arg2 harg2 x1)
        (Rect.unit (s := (⟨2, ![72, 4096]⟩ : Shape)) ![o, 0] (⟨2, ![k, 4096]⟩ : Shape).size inb).toLoadRect (ix2 a r)
      = x1 (ix2 r q) := by
  rw [Pieces.readCov_rows_apply _ _ o inb a r q hq]
  unfold kernelRun0_A.sl.HS1_1
  rw [Pieces.canon_whole, pay2_eq, shapeCast_self, transpose_ix2_apply, shapeCast_self,
    readAt_unread_whole arg2 harg2 x1 (by funext i; fin_cases i <;> rfl)]

end Cert.KernelIdeal.Chain

end
-- ==== Proof.KernelJoints.lean ====
/-
  The 24 joints of the kernel's block, one after the other.

  For each joint: the printed payload of its store is the joint's rows (`Rows.net` on `Rows.inRows`) of the loads it names,
  and after its store every slab written so far holds its joint's outputs at lane `r` — the previous joint's statement,
  extended by `Pieces.SlabsAre.step`: the new slab's payload, read at an entry, is the per-row network on the joint's own
  rotation and position rows, its parent's position rows and its parent's slab, which is the recurrence's equation for that
  joint. The joints differ only in which rows and which parent they read.
-/
import proofs.«147313_j28467043238534_2_alg».proof.Proof.KernelChain

noncomputable section

namespace Cert.KernelIdeal.Chain

open Cert.KernelIdeal Cert.KernelIdeal.Gen
open Idealize.ShloMosaic Idealize.ShloMosaic.ValueIdx

/-! ## The printed payloads are the joint's rows -/

section Payloads

variable {F : FTy → Type} [FloatOps F]

theorem pay_joint0 (wa : Vec F S6x216 .bf16) (rotall : Vec F S216x4096 .f32) (wb : Vec F S6x72 .bf16) (posall : Vec F S72x4096 .f32)
    (b : Vec F S6x1 .f32) (A : Vec F S9x4096 .f32) (B : Vec F S3x4096 .f32) (W1 : Vec F S1x19x19 .bf16) (B1 : Vec F S1x19x1 .f32)
    (W2 : Vec F S1x6x19 .bf16) (B2 : Vec F S1x6x1 .f32) :
    k0_pay5 (k0_pay3 wa rotall wb posall b) A B (k0_pay4 B) W1 B1 W2 B2
      = Rows.net W1 B1 W2 B2 (Rows.inRows A B (Rows.lenRow B) (Rows.globalRows wa rotall wb posall b)) := rfl
theorem pay_joint1 (A : Vec F S9x4096 .f32) (B C : Vec F S3x4096 .f32) (D : Vec F S6x4096 .f32) (W1 : Vec F S1x19x19 .bf16)
    (B1 : Vec F S1x19x1 .f32) (W2 : Vec F S1x6x19 .bf16) (B2 : Vec F S1x6x1 .f32) :
    k0_pay7 (k0_pay6 A B C D) W1 B1 W2 B2 = Rows.net W1 B1 W2 B2 (Rows.inRows A B (Rows.lenRow (subf B C)) D) := rfl
theorem pay_joint2 (A : Vec F S9x4096 .f32) (B C : Vec F S3x4096 .f32) (D : Vec F S6x4096 .f32) (W1 : Vec F S1x19x19 .bf16)
    (B1 : Vec F S1x19x1 .f32) (W2 : Vec F S1x6x19 .bf16) (B2 : Vec F S1x6x1 .f32) :
    k0_pay9 (k0_pay8 A B C D) W1 B1 W2 B2 = Rows.net W1 B1 W2 B2 (Rows.inRows A B (Rows.lenRow (subf B C)) D) := rfl
theorem pay_joint3 (A : Vec F S9x4096 .f32) (B C : Vec F S3x4096 .f32) (D : Vec F S6x4096 .f32) (W1 : Vec F S1x19x19 .bf16)
    (B1 : Vec F S1x19x1 .f32) (W2 : Vec F S1x6x19 .bf16) (B2 : Vec F S1x6x1 .f32) :
    k0_pay11 (k0_pay10 A B C D) W1 B1 W2 B2 = Rows.net W1 B1 W2 B2 (Rows.inRows A B (Rows.lenRow (subf B C)) D) := rfl
theorem pay_joint4 (A : Vec F S9x4096 .f32) (B C : Vec F S3x4096 .f32) (D : Vec F S6x4096 .f32) (W1 : Vec F S1x19x19 .bf16)
    (B1 : Vec F S1x19x1 .f32) (W2 : Vec F S1x6x19 .bf16) (B2 : Vec F S1x6x1 .f32) :
    k0_pay14 (k0_pay12 W1) (k0_pay13 A B C D) B1 W2 B2 = Rows.net W1 B1 W2 B2 (Rows.inRows A B (Rows.lenRow (subf B C)) D) := rfl
theorem pay_joint5 (A : Vec F S9x4096 .f32) (B C : Vec F S3x4096 .f32) (D : Vec F S6x4096 .f32) (W1 : Vec F S1x19x19 .bf16)
    (B1 : Vec F S1x19x1 .f32) (W2 : Vec F S1x6x19 .bf16) (B2 : Vec F S1x6x1 .f32) :
    k0_pay16 (k0_pay15 A B C D W1) B1 W2 B2 = Rows.net W1 B1 W2 B2 (Rows.inRows A B (Rows.lenRow (subf B C)) D) := rfl
theorem pay_joint6 (A : Vec F S9x4096 .f32) (B C : Vec F S3x4096 .f32) (D : Vec F S6x4096 .f32) (W1 : Vec F S1x19x19 .bf16)
    (B1 : Vec F S1x19x1 .f32) (W2 : Vec F S1x6x19 .bf16) (B2 : Vec F S1x6x1 .f32) :
    k0_pay18 (k0_pay17 A B C D W1) B1 W2 B2 = Rows.net W1 B1 W2 B2 (Rows.inRows A B (Rows.lenRow (subf B C)) D) := rfl
theorem pay_joint7 (A : Vec F S9x4096 .f32) (B C : Vec F S3x4096 .f32) (D : Vec F S6x4096 .f32) (W1 : Vec F S1x19x19 .bf16)
    (B1 : Vec F S1x19x1 .f32) (W2 : Vec F S1x6x19 .bf16) (B2 : Vec F S1x6x1 .f32) :
    k0_pay20 (k0_pay19 A B C D W1) B1 W2 B2 = Rows.net W1 B1 W2 B2 (Rows.inRows A B (Rows.lenRow (subf B C)) D) := rfl
theorem pay_joint8 (A : Vec F S9x4096 .f32) (B C : Vec F S3x4096 .f32) (D : Vec F S6x4096 .f32) (W1 : Vec F S1x19x19 .bf16)
    (B1 : Vec F S1x19x1 .f32) (W2 : Vec F S1x6x19 .bf16) (B2 : Vec F S1x6x1 .f32) :
    k0_pay23 (k0_pay21 A B C D W1) (k0_pay22 B1) W2 B2 = Rows.net W1 B1 W2 B2 (Rows.inRows A B (Rows.lenRow (subf B C)) D) := rfl
theorem pay_joint9 (A : Vec F S9x4096 .f32) (B C : Vec F S3x4096 .f32) (D : Vec F S6x4096 .f32) (W1 : Vec F S1x19x19 .bf16)
    (B1 : Vec F S1x19x1 .f32) (W2 : Vec F S1x6x19 .bf16) (B2 : Vec F S1x6x1 .f32) :
    k0_pay25 (k0_pay24 A B C D W1 B1) (FloatOps.ofBits .f32 0x00000000#32) W2 B2 = Rows.net W1 B1 W2 B2 (Rows.inRows A B (Rows.lenRow (subf B C)) D) := rfl
theorem pay_joint10 (A : Vec F S9x4096 .f32) (B C : Vec F S3x4096 .f32) (D : Vec F S6x4096 .f32) (W1 : Vec F S1x19x19 .bf16)
    (B1 : Vec F S1x19x1 .f32) (W2 : Vec F S1x6x19 .bf16) (B2 : Vec F S1x6x1 .f32) :
    k0_pay27 (k0_pay26 A B C D W1 B1) W2 B2 = Rows.net W1 B1 W2 B2 (Rows.inRows A B (Rows.lenRow (subf B C)) D) := rfl
theorem pay_joint11 (A : Vec F S9x4096 .f32) (B C : Vec F S3x4096 .f32) (D : Vec F S6x4096 .f32) (W1 : Vec F S1x19x19 .bf16)
    (B1 : Vec F S1x19x1 .f32) (W2 : Vec F S1x6x19 .bf16) (B2 : Vec F S1x6x1 .f32) :
    k0_pay29 (k0_pay28 A B C D W1 B1) W2 B2 = Rows.net W1 B1 W2 B2 (Rows.inRows A B (Rows.lenRow (subf B C)) D) := rfl
theorem pay_joint12 (A : Vec F S9x4096 .f32) (B C : Vec F S3x4096 .f32) (D : Vec F S6x4096 .f32) (W1 : Vec F S1x19x19 .bf16)
    (B1 : Vec F S1x19x1 .f32) (W2 : Vec F S1x6x19 .bf16) (B2 : Vec F S1x6x1 .f32) :
    k0_pay31 (k0_pay30 A B C D W1 B1) W2 B2 = Rows.net W1 B1 W2 B2 (Rows.inRows A B (Rows.lenRow (subf B C)) D) := rfl
theorem pay_joint13 (A : Vec F S9x4096 .f32) (B C : Vec F S3x4096 .f32) (D : Vec F S6x4096 .f32) (W1 : Vec F S1x19x19 .bf16)
    (B1 : Vec F S1x19x1 .f32) (W2 : Vec F S1x6x19 .bf16) (B2 : Vec F S1x6x1 .f32) :
    k0_pay34 (k0_pay32 W2) (k0_pay33 A B C D W1 B1) B2 = Rows.net W1 B1 W2 B2 (Rows.inRows A B (Rows.lenRow (subf B C)) D) := rfl
theorem pay_joint14 (A : Vec F S9x4096 .f32) (B C : Vec F S3x4096 .f32) (D : Vec F S6x4096 .f32) (W1 : Vec F S1x19x19 .bf16)
    (B1 : Vec F S1x19x1 .f32) (W2 : Vec F S1x6x19 .bf16) (B2 : Vec F S1x6x1 .f32) :
    k0_pay36 (k0_pay35 A B C D W1 B1 W2) B2 = Rows.net W1 B1 W2 B2 (Rows.inRows A B (Rows.lenRow (subf B C)) D) := rfl
theorem pay_joint15 (A : Vec F S9x4096 .f32) (B C : Vec F S3x4096 .f32) (D : Vec F S6x4096 .f32) (W1 : Vec F S1x19x19 .bf16)
    (B1 : Vec F S1x19x1 .f32) (W2 : Vec F S1x6x19 .bf16) (B2 : Vec F S1x6x1 .f32) :
    k0_pay38 (k0_pay37 A B C D W1 B1 W2) B2 = Rows.net W1 B1 W2 B2 (Rows.inRows A B (Rows.lenRow (subf B C)) D) := rfl
theorem pay_joint16 (A : Vec F S9x4096 .f32) (B C : Vec F S3x4096 .f32) (D : Vec F S6x4096 .f32) (W1 : Vec F S1x19x19 .bf16)
    (B1 : Vec F S1x19x1 .f32) (W2 : Vec F S1x6x19 .bf16) (B2 : Vec F S1x6x1 .f32) :
    k0_pay40 (k0_pay39 A B C D W1 B1 W2) B2 = Rows.net W1 B1 W2 B2 (Rows.inRows A B (Rows.lenRow (subf B C)) D) := rfl
theorem pay_joint17 (A : Vec F S9x4096 .f32) (B C : Vec F S3x4096 .f32) (D : Vec F S6x4096 .f32) (W1 : Vec F S1x19x19 .bf16)
    (B1 : Vec F S1x19x1 .f32) (W2 : Vec F S1x6x19 .bf16) (B2 : Vec F S1x6x1 .f32) :
    k0_pay43 (k0_pay41 A B C D W1 B1 W2) (k0_pay42 B2) = Rows.net W1 B1 W2 B2 (Rows.inRows A B (Rows.lenRow (subf B C)) D) := rfl
theorem pay_joint18 (A : Vec F S9x4096 .f32) (B C : Vec F S3x4096 .f32) (D : Vec F S6x4096 .f32) (W1 : Vec F S1x19x19 .bf16)
    (B1 : Vec F S1x19x1 .f32) (W2 : Vec F S1x6x19 .bf16) (B2 : Vec F S1x6x1 .f32) :
    k0_pay45 (k0_pay44 A B C D W1 B1 W2 B2) = Rows.net W1 B1 W2 B2 (Rows.inRows A B (Rows.lenRow (subf B C)) D) := rfl
theorem pay_joint19 (A : Vec F S9x4096 .f32) (B C : Vec F S3x4096 .f32) (D : Vec F S6x4096 .f32) (W1 : Vec F S1x19x19 .bf16)
    (B1 : Vec F S1x19x1 .f32) (W2 : Vec F S1x6x19 .bf16) (B2 : Vec F S1x6x1 .f32) :
    k0_pay47 (k0_pay46 A B C D W1 B1 W2 B2) = Rows.net W1 B1 W2 B2 (Rows.inRows A B (Rows.lenRow (subf B C)) D) := rfl
theorem pay_joint20 (A : Vec F S9x4096 .f32) (B C : Vec F S3x4096 .f32) (D : Vec F S6x4096 .f32) (W1 : Vec F S1x19x19 .bf16)
    (B1 : Vec F S1x19x1 .f32) (W2 : Vec F S1x6x19 .bf16) (B2 : Vec F S1x6x1 .f32) :
    k0_pay48 A B C D W1 B1 W2 B2 = Rows.net W1 B1 W2 B2 (Rows.inRows A B (Rows.lenRow (subf B C)) D) := rfl
theorem pay_joint21 (A : Vec F S9x4096 .f32) (B C : Vec F S3x4096 .f32) (D : Vec F S6x4096 .f32) (W1 : Vec F S1x19x19 .bf16)
    (B1 : Vec F S1x19x1 .f32) (W2 : Vec F S1x6x19 .bf16) (B2 : Vec F S1x6x1 .f32) :
    k0_pay49 A B C D W1 B1 W2 B2 = Rows.net W1 B1 W2 B2 (Rows.inRows A B (Rows.lenRow (subf B C)) D) := rfl
theorem pay_joint22 (A : Vec F S9x4096 .f32) (B C : Vec F S3x4096 .f32) (D : Vec F S6x4096 .f32) (W1 : Vec F S1x19x19 .bf16)
    (B1 : Vec F S1x19x1 .f32) (W2 : Vec F S1x6x19 .bf16) (B2 : Vec F S1x6x1 .f32) :
    k0_pay50 A B C D W1 B1 W2 B2 = Rows.net W1 B1 W2 B2 (Rows.inRows A B (Rows.lenRow (subf B C)) D) := rfl
theorem pay_joint23 (A : Vec F S9x4096 .f32) (B C : Vec F S3x4096 .f32) (D : Vec F S6x4096 .f32) (W1 : Vec F S1x19x19 .bf16)
    (B1 : Vec F S1x19x1 .f32) (W2 : Vec F S1x6x19 .bf16) (B2 : Vec F S1x6x1 .f32) :
    k0_pay51 A B C D W1 B1 W2 B2 = Rows.net W1 B1 W2 B2 (Rows.inRows A B (Rows.lenRow (subf B C)) D) := rfl

end Payloads

/-! ## Along the stores: every slab written so far holds its joint's outputs -/

/-- After the root's store: slab 0 holds the root's outputs. -/
theorem slabs_1 (c : Dev nD) (arg1 : Memref sig .tc .vmem S4096x216 .f32) (harg1 : arg1.IsWhole) (arg2 : Memref sig .tc .vmem S4096x72 .f32) (harg2 : arg2.IsWhole)
    (arg3 : Memref sig .tc .vmem S6x216 .bf16) (harg3 : arg3.IsWhole) (arg4 : Memref sig .tc .vmem S6x72 .bf16) (harg4 : arg4.IsWhole)
    (arg5 : Memref sig .tc .vmem S6x1 .f32) (harg5 : arg5.IsWhole) (arg6 : Memref sig .tc .vmem S24x19x19 .bf16) (harg6 : arg6.IsWhole)
    (arg7 : Memref sig .tc .vmem S24x19x1 .f32) (harg7 : arg7.IsWhole) (arg8 : Memref sig .tc .vmem S24x6x19 .bf16) (harg8 : arg8.IsWhole)
    (arg9 : Memref sig .tc .vmem S24x6x1 .f32) (harg9 : arg9.IsWhole)
    (arg11 : Memref sig .tc .vmem S216x4096 .f32) (arg12 : Memref sig .tc .vmem S72x4096 .f32)
    (x0 : Vec Ideal S4096x216 .f32) (x1 : Vec Ideal S4096x72 .f32) (x2 : Vec Ideal S6x216 .bf16) (x3 : Vec Ideal S6x72 .bf16)
    (x4 : Vec Ideal S6x1 .f32) (x5 : Vec Ideal S24x19x19 .bf16) (x6 : Vec Ideal S24x19x1 .f32) (x7 : Vec Ideal S24x6x19 .bf16)
    (x8 : Vec Ideal S24x6x1 .f32)
    (r : Fin 4096) (R : Fin 24 → Fin 6 → EReal) (hS : Spec.Solves (blockRow x0 x1 x2 x3 x4 x5 x6 x7 x8 r) R) :
    Pieces.SlabsAre (kernelRun0_A.sl.HS2_1 c arg1 harg1 arg2 harg2 arg3 harg3 arg4 harg4 arg5 harg5 arg6 harg6 arg7 harg7 arg8 harg8 arg9 harg9 arg11 arg12 x0 x1 x2 x3 x4 x5 x6 x7 x8) r 1 R := by
  unfold kernelRun0_A.sl.HS2_1
  refine Pieces.SlabsAre.step (Val := Elt Ideal) (e := .f32) [] r 0 (by decide) R 0 (by decide) _ _ (Pieces.SlabsAre.zero (Val := Elt Ideal) (e := .f32) _ r R) fun f => ?_
  unfold kernelRun0_A.sl.r kernelRun0_A.sl.r_1
  rw [pay_joint0, Rows.jointRows_apply, show R (⟨0, by decide⟩ : Fin 24) = R 0 from rfl, hS.root]
  refine Spec.joint_congr (fun a k => ?_) (fun a => ?_) (fun a k => ?_) (fun a => ?_)
    (Spec.feats_congr (fun a => ?_) (fun a => ?_) (Spec.bone_congr fun k => ?_) (fun a => ?_)) f
  · exact slab3 arg6 harg6 x5 0 _ a k (0 : Fin 24) rfl
  · exact slab3 arg7 harg7 x6 0 _ a (0 : Fin 1) (0 : Fin 24) rfl
  · exact slab3 arg8 harg8 x7 0 _ a k (0 : Fin 24) rfl
  · exact slab3 arg9 harg9 x8 0 _ a (0 : Fin 1) (0 : Fin 24) rfl
  · unfold kernelRun0_A.sl.v27
    exact rotRows c arg1 harg1 arg11 x0 0 _ a r _ (by show 9 * 0 + a.val = 0 + a.val; omega)
  · unfold kernelRun0_A.sl.v28
    exact posRows c arg2 harg2 arg12 x1 0 _ a r _ (by show 3 * 0 + a.val = 0 + a.val; omega)
  · unfold kernelRun0_A.sl.v28
    exact posRows c arg2 harg2 arg12 x1 0 _ k r _ (by show 3 * 0 + k.val = 0 + k.val; omega)
  · rw [Rows.globalRows_apply]
    unfold kernelRun0_A.sl.v14 kernelRun0_A.sl.v19
    refine congrArg₂ (· + ·) (congrArg₂ (· + ·) (Finset.sum_congr rfl fun k _ => ?_) (Finset.sum_congr rfl fun k _ => ?_)) ?_
    · rw [readAt_unread_whole arg3 harg3 x2 (by funext i; fin_cases i <;> rfl), rotRows c arg1 harg1 arg11 x0 0 _ k r k (by omega)]
    · rw [readAt_unread_whole arg4 harg4 x3 (by funext i; fin_cases i <;> rfl), posRows c arg2 harg2 arg12 x1 0 _ k r k (by omega)]
    · rw [readAt_unread_whole arg5 harg5 x4 (by funext i; fin_cases i <;> rfl)]

/-- After joint 1's store: slabs 0–1 hold their joints' outputs (joint 1 from its parent 0's slab). -/
theorem slabs_2 (c : Dev nD) (arg1 : Memref sig .tc .vmem S4096x216 .f32) (harg1 : arg1.IsWhole) (arg2 : Memref sig .tc .vmem S4096x72 .f32) (harg2 : arg2.IsWhole)
    (arg3 : Memref sig .tc .vmem S6x216 .bf16) (harg3 : arg3.IsWhole) (arg4 : Memref sig .tc .vmem S6x72 .bf16) (harg4 : arg4.IsWhole)
    (arg5 : Memref sig .tc .vmem S6x1 .f32) (harg5 : arg5.IsWhole) (arg6 : Memref sig .tc .vmem S24x19x19 .bf16) (harg6 : arg6.IsWhole)
    (arg7 : Memref sig .tc .vmem S24x19x1 .f32) (harg7 : arg7.IsWhole) (arg8 : Memref sig .tc .vmem S24x6x19 .bf16) (harg8 : arg8.IsWhole)
    (arg9 : Memref sig .tc .vmem S24x6x1 .f32) (harg9 : arg9.IsWhole)
    (arg11 : Memref sig .tc .vmem S216x4096 .f32) (arg12 : Memref sig .tc .vmem S72x4096 .f32) (arg13 : Memref sig .tc .vmem S144x4096 .f32)
    (x0 : Vec Ideal S4096x216 .f32) (x1 : Vec Ideal S4096x72 .f32) (x2 : Vec Ideal S6x216 .bf16) (x3 : Vec Ideal S6x72 .bf16)
    (x4 : Vec Ideal S6x1 .f32) (x5 : Vec Ideal S24x19x19 .bf16) (x6 : Vec Ideal S24x19x1 .f32) (x7 : Vec Ideal S24x6x19 .bf16)
    (x8 : Vec Ideal S24x6x1 .f32)
    (r : Fin 4096) (R : Fin 24 → Fin 6 → EReal) (hS : Spec.Solves (blockRow x0 x1 x2 x3 x4 x5 x6 x7 x8 r) R) :
    Pieces.SlabsAre (kernelRun0_A.sl.HS2_2 c arg1 harg1 arg2 harg2 arg3 harg3 arg4 harg4 arg5 harg5 arg6 harg6 arg7 harg7 arg8 harg8 arg9 harg9 arg11 arg12 arg13 x0 x1 x2 x3 x4 x5 x6 x7 x8) r 2 R := by
  have hL := slabs_1 c arg1 harg1 arg2 harg2 arg3 harg3 arg4 harg4 arg5 harg5 arg6 harg6 arg7 harg7 arg8 harg8 arg9 harg9 arg11 arg12 x0 x1 x2 x3 x4 x5 x6 x7 x8 r R hS
  unfold kernelRun0_A.sl.HS2_2
  refine Pieces.SlabsAre.step (Val := Elt Ideal) (e := .f32) _ r 1 (by decide) R 6 (by decide) _ _ hL fun f => ?_
  unfold kernelRun0_A.sl.r_2
  rw [pay_joint1, Rows.jointRows_apply, hS.child (⟨1, by decide⟩ : Fin 24) (by decide)]
  refine Spec.joint_congr (fun a k => ?_) (fun a => ?_) (fun a k => ?_) (fun a => ?_)
    (Spec.feats_congr (fun a => ?_) (fun a => ?_) (Spec.bone_congr fun k => ?_) (fun a => ?_)) f
  · exact slab3 arg6 harg6 x5 1 _ a k (⟨1, by decide⟩ : Fin 24) rfl
  · exact slab3 arg7 harg7 x6 1 _ a (0 : Fin 1) (⟨1, by decide⟩ : Fin 24) rfl
  · exact slab3 arg8 harg8 x7 1 _ a k (⟨1, by decide⟩ : Fin 24) rfl
  · exact slab3 arg9 harg9 x8 1 _ a (0 : Fin 1) (⟨1, by decide⟩ : Fin 24) rfl
  · unfold kernelRun0_A.sl.v55
    exact rotRows c arg1 harg1 arg11 x0 9 _ a r _ rfl
  · unfold kernelRun0_A.sl.v56
    exact posRows c arg2 harg2 arg12 x1 3 _ a r _ rfl
  · unfold kernelRun0_A.sl.v56 kernelRun0_A.sl.v28
    exact congrArg₂ (· - ·) (posRows c arg2 harg2 arg12 x1 3 _ k r _ rfl) (posRows c arg2 harg2 arg12 x1 0 _ k r _ rfl)
  · unfold kernelRun0_A.sl.v63
    rw [Pieces.readCov_rows_apply _ _ 0 _ a r (⟨0 + a.val, by have := a.isLt; omega⟩ : Fin 144) rfl]
    exact hL (⟨0, by decide⟩ : Fin 24) (by decide) a

/-- After joint 2's store: slabs 0–2 hold their joints' outputs (joint 2 from its parent 0's slab). -/
theorem slabs_3 (c : Dev nD) (arg1 : Memref sig .tc .vmem S4096x216 .f32) (harg1 : arg1.IsWhole) (arg2 : Memref sig .tc .vmem S4096x72 .f32) (harg2 : arg2.IsWhole)
    (arg3 : Memref sig .tc .vmem S6x216 .bf16) (harg3 : arg3.IsWhole) (arg4 : Memref sig .tc .vmem S6x72 .bf16) (harg4 : arg4.IsWhole)
    (arg5 : Memref sig .tc .vmem S6x1 .f32) (harg5 : arg5.IsWhole) (arg6 : Memref sig .tc .vmem S24x19x19 .bf16) (harg6 : arg6.IsWhole)
    (arg7 : Memref sig .tc .vmem S24x19x1 .f32) (harg7 : arg7.IsWhole) (arg8 : Memref sig .tc .vmem S24x6x19 .bf16) (harg8 : arg8.IsWhole)
    (arg9 : Memref sig .tc .vmem S24x6x1 .f32) (harg9 : arg9.IsWhole)
    (arg11 : Memref sig .tc .vmem S216x4096 .f32) (arg12 : Memref sig .tc .vmem S72x4096 .f32) (arg13 : Memref sig .tc .vmem S144x4096 .f32)
    (x0 : Vec Ideal S4096x216 .f32) (x1 : Vec Ideal S4096x72 .f32) (x2 : Vec Ideal S6x216 .bf16) (x3 : Vec Ideal S6x72 .bf16)
    (x4 : Vec Ideal S6x1 .f32) (x5 : Vec Ideal S24x19x19 .bf16) (x6 : Vec Ideal S24x19x1 .f32) (x7 : Vec Ideal S24x6x19 .bf16)
    (x8 : Vec Ideal S24x6x1 .f32)
    (r : Fin 4096) (R : Fin 24 → Fin 6 → EReal) (hS : Spec.Solves (blockRow x0 x1 x2 x3 x4 x5 x6 x7 x8 r) R) :
    Pieces.SlabsAre (kernelRun0_A.sl.HS2_3 c arg1 harg1 arg2 harg2 arg3 harg3 arg4 harg4 arg5 harg5 arg6 harg6 arg7 harg7 arg8 harg8 arg9 harg9 arg11 arg12 arg13 x0 x1 x2 x3 x4 x5 x6 x7 x8) r 3 R := by
  have hL := slabs_2 c arg1 harg1 arg2 harg2 arg3 harg3 arg4 harg4 arg5 harg5 arg6 harg6 arg7 harg7 arg8 harg8 arg9 harg9 arg11 arg12 arg13 x0 x1 x2 x3 x4 x5 x6 x7 x8 r R hS
  unfold kernelRun0_A.sl.HS2_3
  refine Pieces.SlabsAre.step (Val := Elt Ideal) (e := .f32) _ r 2 (by decide) R 12 (by decide) _ _ hL fun f => ?_
  unfold kernelRun0_A.sl.r_3
  rw [pay_joint2, Rows.jointRows_apply, hS.child (⟨2, by decide⟩ : Fin 24) (by decide)]
  refine Spec.joint_congr (fun a k => ?_) (fun a => ?_) (fun a k => ?_) (fun a => ?_)
    (Spec.feats_congr (fun a => ?_) (fun a => ?_) (Spec.bone_congr fun k => ?_) (fun a => ?_)) f
  · exact slab3 arg6 harg6 x5 2 _ a k (⟨2, by decide⟩ : Fin 24) rfl
  · exact slab3 arg7 harg7 x6 2 _ a (0 : Fin 1) (⟨2, by decide⟩ : Fin 24) rfl
  · exact slab3 arg8 harg8 x7 2 _ a k (⟨2, by decide⟩ : Fin 24) rfl
  · exact slab3 arg9 harg9 x8 2 _ a (0 : Fin 1) (⟨2, by decide⟩ : Fin 24) rfl
  · unfold kernelRun0_A.sl.v86
    exact rotRows c arg1 harg1 arg11 x0 18 _ a r _ rfl
  · unfold kernelRun0_A.sl.v87
    exact posRows c arg2 harg2 arg12 x1 6 _ a r _ rfl
  · unfold kernelRun0_A.sl.v87 kernelRun0_A.sl.v28
    exact congrArg₂ (· - ·) (posRows c arg2 harg2 arg12 x1 6 _ k r _ rfl) (posRows c arg2 harg2 arg12 x1 0 _ k r _ rfl)
  · unfold kernelRun0_A.sl.v94
    rw [Pieces.readCov_rows_apply _ _ 0 _ a r (⟨0 + a.val, by have := a.isLt; omega⟩ : Fin 144) rfl]
    exact hL (⟨0, by decide⟩ : Fin 24) (by decide) a

/-- After joint 3's store: slabs 0–3 hold their joints' outputs (joint 3 from its parent 0's slab). -/
theorem slabs_4 (c : Dev nD) (arg1 : Memref sig .tc .vmem S4096x216 .f32) (harg1 : arg1.IsWhole) (arg2 : Memref sig .tc .vmem S4096x72 .f32) (harg2 : arg2.IsWhole)
    (arg3 : Memref sig .tc .vmem S6x216 .bf16) (harg3 : arg3.IsWhole) (arg4 : Memref sig .tc .vmem S6x72 .bf16) (harg4 : arg4.IsWhole)
    (arg5 : Memref sig .tc .vmem S6x1 .f32) (harg5 : arg5.IsWhole) (arg6 : Memref sig .tc .vmem S24x19x19 .bf16) (harg6 : arg6.IsWhole)
    (arg7 : Memref sig .tc .vmem S24x19x1 .f32) (harg7 : arg7.IsWhole) (arg8 : Memref sig .tc .vmem S24x6x19 .bf16) (harg8 : arg8.IsWhole)
    (arg9 : Memref sig .tc .vmem S24x6x1 .f32) (harg9 : arg9.IsWhole)
    (arg11 : Memref sig .tc .vmem S216x4096 .f32) (arg12 : Memref sig .tc .vmem S72x4096 .f32) (arg13 : Memref sig .tc .vmem S144x4096 .f32)
    (x0 : Vec Ideal S4096x216 .f32) (x1 : Vec Ideal S4096x72 .f32) (x2 : Vec Ideal S6x216 .bf16) (x3 : Vec Ideal S6x72 .bf16)
    (x4 : Vec Ideal S6x1 .f32) (x5 : Vec Ideal S24x19x19 .bf16) (x6 : Vec Ideal S24x19x1 .f32) (x7 : Vec Ideal S24x6x19 .bf16)
    (x8 : Vec Ideal S24x6x1 .f32)
    (r : Fin 4096) (R : Fin 24 → Fin 6 → EReal) (hS : Spec.Solves (blockRow x0 x1 x2 x3 x4 x5 x6 x7 x8 r) R) :
    Pieces.SlabsAre (kernelRun0_A.sl.HS2_4 c arg1 harg1 arg2 harg2 arg3 harg3 arg4 harg4 arg5 harg5 arg6 harg6 arg7 harg7 arg8 harg8 arg9 harg9 arg11 arg12 arg13 x0 x1 x2 x3 x4 x5 x6 x7 x8) r 4 R := by
  have hL := slabs_3 c arg1 harg1 arg2 harg2 arg3 harg3 arg4 harg4 arg5 harg5 arg6 harg6 arg7 harg7 arg8 harg8 arg9 harg9 arg11 arg12 arg13 x0 x1 x2 x3 x4 x5 x6 x7 x8 r R hS
  unfold kernelRun0_A.sl.HS2_4
  refine Pieces.SlabsAre.step (Val := Elt Ideal) (e := .f32) _ r 3 (by decide) R 18 (by decide) _ _ hL fun f => ?_
  unfold kernelRun0_A.sl.r_4 kernelRun0_A.sl.r_5
  rw [pay_joint3, Rows.jointRows_apply, hS.child (⟨3, by decide⟩ : Fin 24) (by decide)]
  refine Spec.joint_congr (fun a k => ?_) (fun a => ?_) (fun a k => ?_) (fun a => ?_)
    (Spec.feats_congr (fun a => ?_) (fun a => ?_) (Spec.bone_congr fun k => ?_) (fun a => ?_)) f
  · exact slab3 arg6 harg6 x5 3 _ a k (⟨3, by decide⟩ : Fin 24) rfl
  · exact slab3 arg7 harg7 x6 3 _ a (0 : Fin 1) (⟨3, by decide⟩ : Fin 24) rfl
  · exact slab3 arg8 harg8 x7 3 _ a k (⟨3, by decide⟩ : Fin 24) rfl
  · exact slab3 arg9 harg9 x8 3 _ a (0 : Fin 1) (⟨3, by decide⟩ : Fin 24) rfl
  · unfold kernelRun0_A.sl.v117
    exact rotRows c arg1 harg1 arg11 x0 27 _ a r _ rfl
  · unfold kernelRun0_A.sl.v118
    exact posRows c arg2 harg2 arg12 x1 9 _ a r _ rfl
  · unfold kernelRun0_A.sl.v118 kernelRun0_A.sl.v28
    exact congrArg₂ (· - ·) (posRows c arg2 harg2 arg12 x1 9 _ k r _ rfl) (posRows c arg2 harg2 arg12 x1 0 _ k r _ rfl)
  · unfold kernelRun0_A.sl.v125
    rw [Pieces.readCov_rows_apply _ _ 0 _ a r (⟨0 + a.val, by have := a.isLt; omega⟩ : Fin 144) rfl]
    exact hL (⟨0, by decide⟩ : Fin 24) (by decide) a

/-- After joint 4's store: slabs 0–4 hold their joints' outputs (joint 4 from its parent 1's slab). -/
theorem slabs_5 (c : Dev nD) (arg1 : Memref sig .tc .vmem S4096x216 .f32) (harg1 : arg1.IsWhole) (arg2 : Memref sig .tc .vmem S4096x72 .f32) (harg2 : arg2.IsWhole)
    (arg3 : Memref sig .tc .vmem S6x216 .bf16) (harg3 : arg3.IsWhole) (arg4 : Memref sig .tc .vmem S6x72 .bf16) (harg4 : arg4.IsWhole)
    (arg5 : Memref sig .tc .vmem S6x1 .f32) (harg5 : arg5.IsWhole) (arg6 : Memref sig .tc .vmem S24x19x19 .bf16) (harg6 : arg6.IsWhole)
    (arg7 : Memref sig .tc .vmem S24x19x1 .f32) (harg7 : arg7.IsWhole) (arg8 : Memref sig .tc .vmem S24x6x19 .bf16) (harg8 : arg8.IsWhole)
    (arg9 : Memref sig .tc .vmem S24x6x1 .f32) (harg9 : arg9.IsWhole)
    (arg11 : Memref sig .tc .vmem S216x4096 .f32) (arg12 : Memref sig .tc .vmem S72x4096 .f32) (arg13 : Memref sig .tc .vmem S144x4096 .f32)
    (x0 : Vec Ideal S4096x216 .f32) (x1 : Vec Ideal S4096x72 .f32) (x2 : Vec Ideal S6x216 .bf16) (x3 : Vec Ideal S6x72 .bf16)
    (x4 : Vec Ideal S6x1 .f32) (x5 : Vec Ideal S24x19x19 .bf16) (x6 : Vec Ideal S24x19x1 .f32) (x7 : Vec Ideal S24x6x19 .bf16)
    (x8 : Vec Ideal S24x6x1 .f32)
    (r : Fin 4096) (R : Fin 24 → Fin 6 → EReal) (hS : Spec.Solves (blockRow x0 x1 x2 x3 x4 x5 x6 x7 x8 r) R) :
    Pieces.SlabsAre (kernelRun0_A.sl.HS2_5 c arg1 harg1 arg2 harg2 arg3 harg3 arg4 harg4 arg5 harg5 arg6 harg6 arg7 harg7 arg8 harg8 arg9 harg9 arg11 arg12 arg13 x0 x1 x2 x3 x4 x5 x6 x7 x8) r 5 R := by
  have hL := slabs_4 c arg1 harg1 arg2 harg2 arg3 harg3 arg4 harg4 arg5 harg5 arg6 harg6 arg7 harg7 arg8 harg8 arg9 harg9 arg11 arg12 arg13 x0 x1 x2 x3 x4 x5 x6 x7 x8 r R hS
  unfold kernelRun0_A.sl.HS2_5
  refine Pieces.SlabsAre.step (Val := Elt Ideal) (e := .f32) _ r 4 (by decide) R 24 (by decide) _ _ hL fun f => ?_
  unfold kernelRun0_A.sl.r_6 kernelRun0_A.sl.r_7
  rw [pay_joint4, Rows.jointRows_apply, hS.child (⟨4, by decide⟩ : Fin 24) (by decide)]
  refine Spec.joint_congr (fun a k => ?_) (fun a => ?_) (fun a k => ?_) (fun a => ?_)
    (Spec.feats_congr (fun a => ?_) (fun a => ?_) (Spec.bone_congr fun k => ?_) (fun a => ?_)) f
  · exact slab3 arg6 harg6 x5 4 _ a k (⟨4, by decide⟩ : Fin 24) rfl
  · exact slab3 arg7 harg7 x6 4 _ a (0 : Fin 1) (⟨4, by decide⟩ : Fin 24) rfl
  · exact slab3 arg8 harg8 x7 4 _ a k (⟨4, by decide⟩ : Fin 24) rfl
  · exact slab3 arg9 harg9 x8 4 _ a (0 : Fin 1) (⟨4, by decide⟩ : Fin 24) rfl
  · unfold kernelRun0_A.sl.v148
    exact rotRows c arg1 harg1 arg11 x0 36 _ a r _ rfl
  · unfold kernelRun0_A.sl.v149
    exact posRows c arg2 harg2 arg12 x1 12 _ a r _ rfl
  · unfold kernelRun0_A.sl.v149 kernelRun0_A.sl.v56
    exact congrArg₂ (· - ·) (posRows c arg2 harg2 arg12 x1 12 _ k r _ rfl) (posRows c arg2 harg2 arg12 x1 3 _ k r _ rfl)
  · unfold kernelRun0_A.sl.v156
    rw [Pieces.readCov_rows_apply _ _ 6 _ a r (⟨6 + a.val, by have := a.isLt; omega⟩ : Fin 144) rfl]
    exact hL (⟨1, by decide⟩ : Fin 24) (by decide) a

/-- After joint 5's store: slabs 0–5 hold their joints' outputs (joint 5 from its parent 2's slab). -/
theorem slabs_6 (c : Dev nD) (arg1 : Memref sig .tc .vmem S4096x216 .f32) (harg1 : arg1.IsWhole) (arg2 : Memref sig .tc .vmem S4096x72 .f32) (harg2 : arg2.IsWhole)
    (arg3 : Memref sig .tc .vmem S6x216 .bf16) (harg3 : arg3.IsWhole) (arg4 : Memref sig .tc .vmem S6x72 .bf16) (harg4 : arg4.IsWhole)
    (arg5 : Memref sig .tc .vmem S6x1 .f32) (harg5 : arg5.IsWhole) (arg6 : Memref sig .tc .vmem S24x19x19 .bf16) (harg6 : arg6.IsWhole)
    (arg7 : Memref sig .tc .vmem S24x19x1 .f32) (harg7 : arg7.IsWhole) (arg8 : Memref sig .tc .vmem S24x6x19 .bf16) (harg8 : arg8.IsWhole)
    (arg9 : Memref sig .tc .vmem S24x6x1 .f32) (harg9 : arg9.IsWhole)
    (arg11 : Memref sig .tc .vmem S216x4096 .f32) (arg12 : Memref sig .tc .vmem S72x4096 .f32) (arg13 : Memref sig .tc .vmem S144x4096 .f32)
    (x0 : Vec Ideal S4096x216 .f32) (x1 : Vec Ideal S4096x72 .f32) (x2 : Vec Ideal S6x216 .bf16) (x3 : Vec Ideal S6x72 .bf16)
    (x4 : Vec Ideal S6x1 .f32) (x5 : Vec Ideal S24x19x19 .bf16) (x6 : Vec Ideal S24x19x1 .f32) (x7 : Vec Ideal S24x6x19 .bf16)
    (x8 : Vec Ideal S24x6x1 .f32)
    (r : Fin 4096) (R : Fin 24 → Fin 6 → EReal) (hS : Spec.Solves (blockRow x0 x1 x2 x3 x4 x5 x6 x7 x8 r) R) :
    Pieces.SlabsAre (kernelRun0_A.sl.HS2_6 c arg1 harg1 arg2 harg2 arg3 harg3 arg4 harg4 arg5 harg5 arg6 harg6 arg7 harg7 arg8 harg8 arg9 harg9 arg11 arg12 arg13 x0 x1 x2 x3 x4 x5 x6 x7 x8) r 6 R := by
  have hL := slabs_5 c arg1 harg1 arg2 harg2 arg3 harg3 arg4 harg4 arg5 harg5 arg6 harg6 arg7 harg7 arg8 harg8 arg9 harg9 arg11 arg12 arg13 x0 x1 x2 x3 x4 x5 x6 x7 x8 r R hS
  unfold kernelRun0_A.sl.HS2_6
  refine Pieces.SlabsAre.step (Val := Elt Ideal) (e := .f32) _ r 5 (by decide) R 30 (by decide) _ _ hL fun f => ?_
  unfold kernelRun0_A.sl.r_8
  rw [pay_joint5, Rows.jointRows_apply, hS.child (⟨5, by decide⟩ : Fin 24) (by decide)]
  refine Spec.joint_congr (fun a k => ?_) (fun a => ?_) (fun a k => ?_) (fun a => ?_)
    (Spec.feats_congr (fun a => ?_) (fun a => ?_) (Spec.bone_congr fun k => ?_) (fun a => ?_)) f
  · exact slab3 arg6 harg6 x5 5 _ a k (⟨5, by decide⟩ : Fin 24) rfl
  · exact slab3 arg7 harg7 x6 5 _ a (0 : Fin 1) (⟨5, by decide⟩ : Fin 24) rfl
  · exact slab3 arg8 harg8 x7 5 _ a k (⟨5, by decide⟩ : Fin 24) rfl
  · exact slab3 arg9 harg9 x8 5 _ a (0 : Fin 1) (⟨5, by decide⟩ : Fin 24) rfl
  · unfold kernelRun0_A.sl.v179
    exact rotRows c arg1 harg1 arg11 x0 45 _ a r _ rfl
  · unfold kernelRun0_A.sl.v180
    exact posRows c arg2 harg2 arg12 x1 15 _ a r _ rfl
  · unfold kernelRun0_A.sl.v180 kernelRun0_A.sl.v87
    exact congrArg₂ (· - ·) (posRows c arg2 harg2 arg12 x1 15 _ k r _ rfl) (posRows c arg2 harg2 arg12 x1 6 _ k r _ rfl)
  · unfold kernelRun0_A.sl.v187
    rw [Pieces.readCov_rows_apply _ _ 12 _ a r (⟨12 + a.val, by have := a.isLt; omega⟩ : Fin 144) rfl]
    exact hL (⟨2, by decide⟩ : Fin 24) (by decide) a

/-- After joint 6's store: slabs 0–6 hold their joints' outputs (joint 6 from its parent 3's slab). -/
theorem slabs_7 (c : Dev nD) (arg1 : Memref sig .tc .vmem S4096x216 .f32) (harg1 : arg1.IsWhole) (arg2 : Memref sig .tc .vmem S4096x72 .f32) (harg2 : arg2.IsWhole)
    (arg3 : Memref sig .tc .vmem S6x216 .bf16) (harg3 : arg3.IsWhole) (arg4 : Memref sig .tc .vmem S6x72 .bf16) (harg4 : arg4.IsWhole)
    (arg5 : Memref sig .tc .vmem S6x1 .f32) (harg5 : arg5.IsWhole) (arg6 : Memref sig .tc .vmem S24x19x19 .bf16) (harg6 : arg6.IsWhole)
    (arg7 : Memref sig .tc .vmem S24x19x1 .f32) (harg7 : arg7.IsWhole) (arg8 : Memref sig .tc .vmem S24x6x19 .bf16) (harg8 : arg8.IsWhole)
    (arg9 : Memref sig .tc .vmem S24x6x1 .f32) (harg9 : arg9.IsWhole)
    (arg11 : Memref sig .tc .vmem S216x4096 .f32) (arg12 : Memref sig .tc .vmem S72x4096 .f32) (arg13 : Memref sig .tc .vmem S144x4096 .f32)
    (x0 : Vec Ideal S4096x216 .f32) (x1 : Vec Ideal S4096x72 .f32) (x2 : Vec Ideal S6x216 .bf16) (x3 : Vec Ideal S6x72 .bf16)
    (x4 : Vec Ideal S6x1 .f32) (x5 : Vec Ideal S24x19x19 .bf16) (x6 : Vec Ideal S24x19x1 .f32) (x7 : Vec Ideal S24x6x19 .bf16)
    (x8 : Vec Ideal S24x6x1 .f32)
    (r : Fin 4096) (R : Fin 24 → Fin 6 → EReal) (hS : Spec.Solves (blockRow x0 x1 x2 x3 x4 x5 x6 x7 x8 r) R) :
    Pieces.SlabsAre (kernelRun0_A.sl.HS2_7 c arg1 harg1 arg2 harg2 arg3 harg3 arg4 harg4 arg5 harg5 arg6 harg6 arg7 harg7 arg8 harg8 arg9 harg9 arg11 arg12 arg13 x0 x1 x2 x3 x4 x5 x6 x7 x8) r 7 R := by
  have hL := slabs_6 c arg1 harg1 arg2 harg2 arg3 harg3 arg4 harg4 arg5 harg5 arg6 harg6 arg7 harg7 arg8 harg8 arg9 harg9 arg11 arg12 arg13 x0 x1 x2 x3 x4 x5 x6 x7 x8 r R hS
  unfold kernelRun0_A.sl.HS2_7
  refine Pieces.SlabsAre.step (Val := Elt Ideal) (e := .f32) _ r 6 (by decide) R 36 (by decide) _ _ hL fun f => ?_
  unfold kernelRun0_A.sl.r_9
  rw [pay_joint6, Rows.jointRows_apply, hS.child (⟨6, by decide⟩ : Fin 24) (by decide)]
  refine Spec.joint_congr (fun a k => ?_) (fun a => ?_) (fun a k => ?_) (fun a => ?_)
    (Spec.feats_congr (fun a => ?_) (fun a => ?_) (Spec.bone_congr fun k => ?_) (fun a => ?_)) f
  · exact slab3 arg6 harg6 x5 6 _ a k (⟨6, by decide⟩ : Fin 24) rfl
  · exact slab3 arg7 harg7 x6 6 _ a (0 : Fin 1) (⟨6, by decide⟩ : Fin 24) rfl
  · exact slab3 arg8 harg8 x7 6 _ a k (⟨6, by decide⟩ : Fin 24) rfl
  · exact slab3 arg9 harg9 x8 6 _ a (0 : Fin 1) (⟨6, by decide⟩ : Fin 24) rfl
  · unfold kernelRun0_A.sl.v210
    exact rotRows c arg1 harg1 arg11 x0 54 _ a r _ rfl
  · unfold kernelRun0_A.sl.v211
    exact posRows c arg2 harg2 arg12 x1 18 _ a r _ rfl
  · unfold kernelRun0_A.sl.v211 kernelRun0_A.sl.v118
    exact congrArg₂ (· - ·) (posRows c arg2 harg2 arg12 x1 18 _ k r _ rfl) (posRows c arg2 harg2 arg12 x1 9 _ k r _ rfl)
  · unfold kernelRun0_A.sl.v218
    rw [Pieces.readCov_rows_apply _ _ 18 _ a r (⟨18 + a.val, by have := a.isLt; omega⟩ : Fin 144) rfl]
    exact hL (⟨3, by decide⟩ : Fin 24) (by decide) a

/-- After joint 7's store: slabs 0–7 hold their joints' outputs (joint 7 from its parent 4's slab). -/
theorem slabs_8 (c : Dev nD) (arg1 : Memref sig .tc .vmem S4096x216 .f32) (harg1 : arg1.IsWhole) (arg2 : Memref sig .tc .vmem S4096x72 .f32) (harg2 : arg2.IsWhole)
    (arg3 : Memref sig .tc .vmem S6x216 .bf16) (harg3 : arg3.IsWhole) (arg4 : Memref sig .tc .vmem S6x72 .bf16) (harg4 : arg4.IsWhole)
    (arg5 : Memref sig .tc .vmem S6x1 .f32) (harg5 : arg5.IsWhole) (arg6 : Memref sig .tc .vmem S24x19x19 .bf16) (harg6 : arg6.IsWhole)
    (arg7 : Memref sig .tc .vmem S24x19x1 .f32) (harg7 : arg7.IsWhole) (arg8 : Memref sig .tc .vmem S24x6x19 .bf16) (harg8 : arg8.IsWhole)
    (arg9 : Memref sig .tc .vmem S24x6x1 .f32) (harg9 : arg9.IsWhole)
    (arg11 : Memref sig .tc .vmem S216x4096 .f32) (arg12 : Memref sig .tc .vmem S72x4096 .f32) (arg13 : Memref sig .tc .vmem S144x4096 .f32)
    (x0 : Vec Ideal S4096x216 .f32) (x1 : Vec Ideal S4096x72 .f32) (x2 : Vec Ideal S6x216 .bf16) (x3 : Vec Ideal S6x72 .bf16)
    (x4 : Vec Ideal S6x1 .f32) (x5 : Vec Ideal S24x19x19 .bf16) (x6 : Vec Ideal S24x19x1 .f32) (x7 : Vec Ideal S24x6x19 .bf16)
    (x8 : Vec Ideal S24x6x1 .f32)
    (r : Fin 4096) (R : Fin 24 → Fin 6 → EReal) (hS : Spec.Solves (blockRow x0 x1 x2 x3 x4 x5 x6 x7 x8 r) R) :
    Pieces.SlabsAre (kernelRun0_A.sl.HS2_8 c arg1 harg1 arg2 harg2 arg3 harg3 arg4 harg4 arg5 harg5 arg6 harg6 arg7 harg7 arg8 harg8 arg9 harg9 arg11 arg12 arg13 x0 x1 x2 x3 x4 x5 x6 x7 x8) r 8 R := by
  have hL := slabs_7 c arg1 harg1 arg2 harg2 arg3 harg3 arg4 harg4 arg5 harg5 arg6 harg6 arg7 harg7 arg8 harg8 arg9 harg9 arg11 arg12 arg13 x0 x1 x2 x3 x4 x5 x6 x7 x8 r R hS
  unfold kernelRun0_A.sl.HS2_8
  refine Pieces.SlabsAre.step (Val := Elt Ideal) (e := .f32) _ r 7 (by decide) R 42 (by decide) _ _ hL fun f => ?_
  unfold kernelRun0_A.sl.r_10 kernelRun0_A.sl.r_11
  rw [pay_joint7, Rows.jointRows_apply, hS.child (⟨7, by decide⟩ : Fin 24) (by decide)]
  refine Spec.joint_congr (fun a k => ?_) (fun a => ?_) (fun a k => ?_) (fun a => ?_)
    (Spec.feats_congr (fun a => ?_) (fun a => ?_) (Spec.bone_congr fun k => ?_) (fun a => ?_)) f
  · exact slab3 arg6 harg6 x5 7 _ a k (⟨7, by decide⟩ : Fin 24) rfl
  · exact slab3 arg7 harg7 x6 7 _ a (0 : Fin 1) (⟨7, by decide⟩ : Fin 24) rfl
  · exact slab3 arg8 harg8 x7 7 _ a k (⟨7, by decide⟩ : Fin 24) rfl
  · exact slab3 arg9 harg9 x8 7 _ a (0 : Fin 1) (⟨7, by decide⟩ : Fin 24) rfl
  · unfold kernelRun0_A.sl.v241
    exact rotRows c arg1 harg1 arg11 x0 63 _ a r _ rfl
  · unfold kernelRun0_A.sl.v242
    exact posRows c arg2 harg2 arg12 x1 21 _ a r _ rfl
  · unfold kernelRun0_A.sl.v242 kernelRun0_A.sl.v149
    exact congrArg₂ (· - ·) (posRows c arg2 harg2 arg12 x1 21 _ k r _ rfl) (posRows c arg2 harg2 arg12 x1 12 _ k r _ rfl)
  · unfold kernelRun0_A.sl.v249
    rw [Pieces.readCov_rows_apply _ _ 24 _ a r (⟨24 + a.val, by have := a.isLt; omega⟩ : Fin 144) rfl]
    exact hL (⟨4, by decide⟩ : Fin 24) (by decide) a

/-- After joint 8's store: slabs 0–8 hold their joints' outputs (joint 8 from its parent 5's slab). -/
theorem slabs_9 (c : Dev nD) (arg1 : Memref sig .tc .vmem S4096x216 .f32) (harg1 : arg1.IsWhole) (arg2 : Memref sig .tc .vmem S4096x72 .f32) (harg2 : arg2.IsWhole)
    (arg3 : Memref sig .tc .vmem S6x216 .bf16) (harg3 : arg3.IsWhole) (arg4 : Memref sig .tc .vmem S6x72 .bf16) (harg4 : arg4.IsWhole)
    (arg5 : Memref sig .tc .vmem S6x1 .f32) (harg5 : arg5.IsWhole) (arg6 : Memref sig .tc .vmem S24x19x19 .bf16) (harg6 : arg6.IsWhole)
    (arg7 : Memref sig .tc .vmem S24x19x1 .f32) (harg7 : arg7.IsWhole) (arg8 : Memref sig .tc .vmem S24x6x19 .bf16) (harg8 : arg8.IsWhole)
    (arg9 : Memref sig .tc .vmem S24x6x1 .f32) (harg9 : arg9.IsWhole)
    (arg11 : Memref sig .tc .vmem S216x4096 .f32) (arg12 : Memref sig .tc .vmem S72x4096 .f32) (arg13 : Memref sig .tc .vmem S144x4096 .f32)
    (x0 : Vec Ideal S4096x216 .f32) (x1 : Vec Ideal S4096x72 .f32) (x2 : Vec Ideal S6x216 .bf16) (x3 : Vec Ideal S6x72 .bf16)
    (x4 : Vec Ideal S6x1 .f32) (x5 : Vec Ideal S24x19x19 .bf16) (x6 : Vec Ideal S24x19x1 .f32) (x7 : Vec Ideal S24x6x19 .bf16)
    (x8 : Vec Ideal S24x6x1 .f32)
    (r : Fin 4096) (R : Fin 24 → Fin 6 → EReal) (hS : Spec.Solves (blockRow x0 x1 x2 x3 x4 x5 x6 x7 x8 r) R) :
    Pieces.SlabsAre (kernelRun0_A.sl.HS2_9 c arg1 harg1 arg2 harg2 arg3 harg3 arg4 harg4 arg5 harg5 arg6 harg6 arg7 harg7 arg8 harg8 arg9 harg9 arg11 arg12 arg13 x0 x1 x2 x3 x4 x5 x6 x7 x8) r 9 R := by
  have hL := slabs_8 c arg1 harg1 arg2 harg2 arg3 harg3 arg4 harg4 arg5 harg5 arg6 harg6 arg7 harg7 arg8 harg8 arg9 harg9 arg11 arg12 arg13 x0 x1 x2 x3 x4 x5 x6 x7 x8 r R hS
  unfold kernelRun0_A.sl.HS2_9
  refine Pieces.SlabsAre.step (Val := Elt Ideal) (e := .f32) _ r 8 (by decide) R 48 (by decide) _ _ hL fun f => ?_
  unfold kernelRun0_A.sl.r_12 kernelRun0_A.sl.r_13
  rw [pay_joint8, Rows.jointRows_apply, hS.child (⟨8, by decide⟩ : Fin 24) (by decide)]
  refine Spec.joint_congr (fun a k => ?_) (fun a => ?_) (fun a k => ?_) (fun a => ?_)
    (Spec.feats_congr (fun a => ?_) (fun a => ?_) (Spec.bone_congr fun k => ?_) (fun a => ?_)) f
  · exact slab3 arg6 harg6 x5 8 _ a k (⟨8, by decide⟩ : Fin 24) rfl
  · exact slab3 arg7 harg7 x6 8 _ a (0 : Fin 1) (⟨8, by decide⟩ : Fin 24) rfl
  · exact slab3 arg8 harg8 x7 8 _ a k (⟨8, by decide⟩ : Fin 24) rfl
  · exact slab3 arg9 harg9 x8 8 _ a (0 : Fin 1) (⟨8, by decide⟩ : Fin 24) rfl
  · unfold kernelRun0_A.sl.v272
    exact rotRows c arg1 harg1 arg11 x0 72 _ a r _ rfl
  · unfold kernelRun0_A.sl.v273
    exact posRows c arg2 harg2 arg12 x1 24 _ a r _ rfl
  · unfold kernelRun0_A.sl.v273 kernelRun0_A.sl.v180
    exact congrArg₂ (· - ·) (posRows c arg2 harg2 arg12 x1 24 _ k r _ rfl) (posRows c arg2 harg2 arg12 x1 15 _ k r _ rfl)
  · unfold kernelRun0_A.sl.v280
    rw [Pieces.readCov_rows_apply _ _ 30 _ a r (⟨30 + a.val, by have := a.isLt; omega⟩ : Fin 144) rfl]
    exact hL (⟨5, by decide⟩ : Fin 24) (by decide) a

/-- After joint 9's store: slabs 0–9 hold their joints' outputs (joint 9 from its parent 6's slab). -/
theorem slabs_10 (c : Dev nD) (arg1 : Memref sig .tc .vmem S4096x216 .f32) (harg1 : arg1.IsWhole) (arg2 : Memref sig .tc .vmem S4096x72 .f32) (harg2 : arg2.IsWhole)
    (arg3 : Memref sig .tc .vmem S6x216 .bf16) (harg3 : arg3.IsWhole) (arg4 : Memref sig .tc .vmem S6x72 .bf16) (harg4 : arg4.IsWhole)
    (arg5 : Memref sig .tc .vmem S6x1 .f32) (harg5 : arg5.IsWhole) (arg6 : Memref sig .tc .vmem S24x19x19 .bf16) (harg6 : arg6.IsWhole)
    (arg7 : Memref sig .tc .vmem S24x19x1 .f32) (harg7 : arg7.IsWhole) (arg8 : Memref sig .tc .vmem S24x6x19 .bf16) (harg8 : arg8.IsWhole)
    (arg9 : Memref sig .tc .vmem S24x6x1 .f32) (harg9 : arg9.IsWhole)
    (arg11 : Memref sig .tc .vmem S216x4096 .f32) (arg12 : Memref sig .tc .vmem S72x4096 .f32) (arg13 : Memref sig .tc .vmem S144x4096 .f32)
    (x0 : Vec Ideal S4096x216 .f32) (x1 : Vec Ideal S4096x72 .f32) (x2 : Vec Ideal S6x216 .bf16) (x3 : Vec Ideal S6x72 .bf16)
    (x4 : Vec Ideal S6x1 .f32) (x5 : Vec Ideal S24x19x19 .bf16) (x6 : Vec Ideal S24x19x1 .f32) (x7 : Vec Ideal S24x6x19 .bf16)
    (x8 : Vec Ideal S24x6x1 .f32)
    (r : Fin 4096) (R : Fin 24 → Fin 6 → EReal) (hS : Spec.Solves (blockRow x0 x1 x2 x3 x4 x5 x6 x7 x8 r) R) :
    Pieces.SlabsAre (kernelRun0_A.sl.HS2_10 c arg1 harg1 arg2 harg2 arg3 harg3 arg4 harg4 arg5 harg5 arg6 harg6 arg7 harg7 arg8 harg8 arg9 harg9 arg11 arg12 arg13 x0 x1 x2 x3 x4 x5 x6 x7 x8) r 10 R := by
  have hL := slabs_9 c arg1 harg1 arg2 harg2 arg3 harg3 arg4 harg4 arg5 harg5 arg6 harg6 arg7 harg7 arg8 harg8 arg9 harg9 arg11 arg12 arg13 x0 x1 x2 x3 x4 x5 x6 x7 x8 r R hS
  unfold kernelRun0_A.sl.HS2_10
  refine Pieces.SlabsAre.step (Val := Elt Ideal) (e := .f32) _ r 9 (by decide) R 54 (by decide) _ _ hL fun f => ?_
  unfold kernelRun0_A.sl.r_14 kernelRun0_A.sl.cst_240
  rw [pay_joint9, Rows.jointRows_apply, hS.child (⟨9, by decide⟩ : Fin 24) (by decide)]
  refine Spec.joint_congr (fun a k => ?_) (fun a => ?_) (fun a k => ?_) (fun a => ?_)
    (Spec.feats_congr (fun a => ?_) (fun a => ?_) (Spec.bone_congr fun k => ?_) (fun a => ?_)) f
  · exact slab3 arg6 harg6 x5 9 _ a k (⟨9, by decide⟩ : Fin 24) rfl
  · exact slab3 arg7 harg7 x6 9 _ a (0 : Fin 1) (⟨9, by decide⟩ : Fin 24) rfl
  · exact slab3 arg8 harg8 x7 9 _ a k (⟨9, by decide⟩ : Fin 24) rfl
  · exact slab3 arg9 harg9 x8 9 _ a (0 : Fin 1) (⟨9, by decide⟩ : Fin 24) rfl
  · unfold kernelRun0_A.sl.v303
    exact rotRows c arg1 harg1 arg11 x0 81 _ a r _ rfl
  · unfold kernelRun0_A.sl.v304
    exact posRows c arg2 harg2 arg12 x1 27 _ a r _ rfl
  · unfold kernelRun0_A.sl.v304 kernelRun0_A.sl.v211
    exact congrArg₂ (· - ·) (posRows c arg2 harg2 arg12 x1 27 _ k r _ rfl) (posRows c arg2 harg2 arg12 x1 18 _ k r _ rfl)
  · unfold kernelRun0_A.sl.v311
    rw [Pieces.readCov_rows_apply _ _ 36 _ a r (⟨36 + a.val, by have := a.isLt; omega⟩ : Fin 144) rfl]
    exact hL (⟨6, by decide⟩ : Fin 24) (by decide) a

/-- After joint 10's store: slabs 0–10 hold their joints' outputs (joint 10 from its parent 7's slab). -/
theorem slabs_11 (c : Dev nD) (arg1 : Memref sig .tc .vmem S4096x216 .f32) (harg1 : arg1.IsWhole) (arg2 : Memref sig .tc .vmem S4096x72 .f32) (harg2 : arg2.IsWhole)
    (arg3 : Memref sig .tc .vmem S6x216 .bf16) (harg3 : arg3.IsWhole) (arg4 : Memref sig .tc .vmem S6x72 .bf16) (harg4 : arg4.IsWhole)
    (arg5 : Memref sig .tc .vmem S6x1 .f32) (harg5 : arg5.IsWhole) (arg6 : Memref sig .tc .vmem S24x19x19 .bf16) (harg6 : arg6.IsWhole)
    (arg7 : Memref sig .tc .vmem S24x19x1 .f32) (harg7 : arg7.IsWhole) (arg8 : Memref sig .tc .vmem S24x6x19 .bf16) (harg8 : arg8.IsWhole)
    (arg9 : Memref sig .tc .vmem S24x6x1 .f32) (harg9 : arg9.IsWhole)
    (arg11 : Memref sig .tc .vmem S216x4096 .f32) (arg12 : Memref sig .tc .vmem S72x4096 .f32) (arg13 : Memref sig .tc .vmem S144x4096 .f32)
    (x0 : Vec Ideal S4096x216 .f32) (x1 : Vec Ideal S4096x72 .f32) (x2 : Vec Ideal S6x216 .bf16) (x3 : Vec Ideal S6x72 .bf16)
    (x4 : Vec Ideal S6x1 .f32) (x5 : Vec Ideal S24x19x19 .bf16) (x6 : Vec Ideal S24x19x1 .f32) (x7 : Vec Ideal S24x6x19 .bf16)
    (x8 : Vec Ideal S24x6x1 .f32)
    (r : Fin 4096) (R : Fin 24 → Fin 6 → EReal) (hS : Spec.Solves (blockRow x0 x1 x2 x3 x4 x5 x6 x7 x8 r) R) :
    Pieces.SlabsAre (kernelRun0_A.sl.HS2_11 c arg1 harg1 arg2 harg2 arg3 harg3 arg4 harg4 arg5 harg5 arg6 harg6 arg7 harg7 arg8 harg8 arg9 harg9 arg11 arg12 arg13 x0 x1 x2 x3 x4 x5 x6 x7 x8) r 11 R := by
  have hL := slabs_10 c arg1 harg1 arg2 harg2 arg3 harg3 arg4 harg4 arg5 harg5 arg6 harg6 arg7 harg7 arg8 harg8 arg9 harg9 arg11 arg12 arg13 x0 x1 x2 x3 x4 x5 x6 x7 x8 r R hS
  unfold kernelRun0_A.sl.HS2_11
  refine Pieces.SlabsAre.step (Val := Elt Ideal) (e := .f32) _ r 10 (by decide) R 60 (by decide) _ _ hL fun f => ?_
  unfold kernelRun0_A.sl.r_15
  rw [pay_joint10, Rows.jointRows_apply, hS.child (⟨10, by decide⟩ : Fin 24) (by decide)]
  refine Spec.joint_congr (fun a k => ?_) (fun a => ?_) (fun a k => ?_) (fun a => ?_)
    (Spec.feats_congr (fun a => ?_) (fun a => ?_) (Spec.bone_congr fun k => ?_) (fun a => ?_)) f
  · exact slab3 arg6 harg6 x5 10 _ a k (⟨10, by decide⟩ : Fin 24) rfl
  · exact slab3 arg7 harg7 x6 10 _ a (0 : Fin 1) (⟨10, by decide⟩ : Fin 24) rfl
  · exact slab3 arg8 harg8 x7 10 _ a k (⟨10, by decide⟩ : Fin 24) rfl
  · exact slab3 arg9 harg9 x8 10 _ a (0 : Fin 1) (⟨10, by decide⟩ : Fin 24) rfl
  · unfold kernelRun0_A.sl.v334
    exact rotRows c arg1 harg1 arg11 x0 90 _ a r _ rfl
  · unfold kernelRun0_A.sl.v335
    exact posRows c arg2 harg2 arg12 x1 30 _ a r _ rfl
  · unfold kernelRun0_A.sl.v335 kernelRun0_A.sl.v242
    exact congrArg₂ (· - ·) (posRows c arg2 harg2 arg12 x1 30 _ k r _ rfl) (posRows c arg2 harg2 arg12 x1 21 _ k r _ rfl)
  · unfold kernelRun0_A.sl.v342
    rw [Pieces.readCov_rows_apply _ _ 42 _ a r (⟨42 + a.val, by have := a.isLt; omega⟩ : Fin 144) rfl]
    exact hL (⟨7, by decide⟩ : Fin 24) (by decide) a

/-- After joint 11's store: slabs 0–11 hold their joints' outputs (joint 11 from its parent 8's slab). -/
theorem slabs_12 (c : Dev nD) (arg1 : Memref sig .tc .vmem S4096x216 .f32) (harg1 : arg1.IsWhole) (arg2 : Memref sig .tc .vmem S4096x72 .f32) (harg2 : arg2.IsWhole)
    (arg3 : Memref sig .tc .vmem S6x216 .bf16) (harg3 : arg3.IsWhole) (arg4 : Memref sig .tc .vmem S6x72 .bf16) (harg4 : arg4.IsWhole)
    (arg5 : Memref sig .tc .vmem S6x1 .f32) (harg5 : arg5.IsWhole) (arg6 : Memref sig .tc .vmem S24x19x19 .bf16) (harg6 : arg6.IsWhole)
    (arg7 : Memref sig .tc .vmem S24x19x1 .f32) (harg7 : arg7.IsWhole) (arg8 : Memref sig .tc .vmem S24x6x19 .bf16) (harg8 : arg8.IsWhole)
    (arg9 : Memref sig .tc .vmem S24x6x1 .f32) (harg9 : arg9.IsWhole)
    (arg11 : Memref sig .tc .vmem S216x4096 .f32) (arg12 : Memref sig .tc .vmem S72x4096 .f32) (arg13 : Memref sig .tc .vmem S144x4096 .f32)
    (x0 : Vec Ideal S4096x216 .f32) (x1 : Vec Ideal S4096x72 .f32) (x2 : Vec Ideal S6x216 .bf16) (x3 : Vec Ideal S6x72 .bf16)
    (x4 : Vec Ideal S6x1 .f32) (x5 : Vec Ideal S24x19x19 .bf16) (x6 : Vec Ideal S24x19x1 .f32) (x7 : Vec Ideal S24x6x19 .bf16)
    (x8 : Vec Ideal S24x6x1 .f32)
    (r : Fin 4096) (R : Fin 24 → Fin 6 → EReal) (hS : Spec.Solves (blockRow x0 x1 x2 x3 x4 x5 x6 x7 x8 r) R) :
    Pieces.SlabsAre (kernelRun0_A.sl.HS2_12 c arg1 harg1 arg2 harg2 arg3 harg3 arg4 harg4 arg5 harg5 arg6 harg6 arg7 harg7 arg8 harg8 arg9 harg9 arg11 arg12 arg13 x0 x1 x2 x3 x4 x5 x6 x7 x8) r 12 R := by
  have hL := slabs_11 c arg1 harg1 arg2 harg2 arg3 harg3 arg4 harg4 arg5 harg5 arg6 harg6 arg7 harg7 arg8 harg8 arg9 harg9 arg11 arg12 arg13 x0 x1 x2 x3 x4 x5 x6 x7 x8 r R hS
  unfold kernelRun0_A.sl.HS2_12
  refine Pieces.SlabsAre.step (Val := Elt Ideal) (e := .f32) _ r 11 (by decide) R 66 (by decide) _ _ hL fun f => ?_
  unfold kernelRun0_A.sl.r_16
  rw [pay_joint11, Rows.jointRows_apply, hS.child (⟨11, by decide⟩ : Fin 24) (by decide)]
  refine Spec.joint_congr (fun a k => ?_) (fun a => ?_) (fun a k => ?_) (fun a => ?_)
    (Spec.feats_congr (fun a => ?_) (fun a => ?_) (Spec.bone_congr fun k => ?_) (fun a => ?_)) f
  · exact slab3 arg6 harg6 x5 11 _ a k (⟨11, by decide⟩ : Fin 24) rfl
  · exact slab3 arg7 harg7 x6 11 _ a (0 : Fin 1) (⟨11, by decide⟩ : Fin 24) rfl
  · exact slab3 arg8 harg8 x7 11 _ a k (⟨11, by decide⟩ : Fin 24) rfl
  · exact slab3 arg9 harg9 x8 11 _ a (0 : Fin 1) (⟨11, by decide⟩ : Fin 24) rfl
  · unfold kernelRun0_A.sl.v365
    exact rotRows c arg1 harg1 arg11 x0 99 _ a r _ rfl
  · unfold kernelRun0_A.sl.v366
    exact posRows c arg2 harg2 arg12 x1 33 _ a r _ rfl
  · unfold kernelRun0_A.sl.v366 kernelRun0_A.sl.v273
    exact congrArg₂ (· - ·) (posRows c arg2 harg2 arg12 x1 33 _ k r _ rfl) (posRows c arg2 harg2 arg12 x1 24 _ k r _ rfl)
  · unfold kernelRun0_A.sl.v373
    rw [Pieces.readCov_rows_apply _ _ 48 _ a r (⟨48 + a.val, by have := a.isLt; omega⟩ : Fin 144) rfl]
    exact hL (⟨8, by decide⟩ : Fin 24) (by decide) a

/-- After joint 12's store: slabs 0–12 hold their joints' outputs (joint 12 from its parent 9's slab). -/
theorem slabs_13 (c : Dev nD) (arg1 : Memref sig .tc .vmem S4096x216 .f32) (harg1 : arg1.IsWhole) (arg2 : Memref sig .tc .vmem S4096x72 .f32) (harg2 : arg2.IsWhole)
    (arg3 : Memref sig .tc .vmem S6x216 .bf16) (harg3 : arg3.IsWhole) (arg4 : Memref sig .tc .vmem S6x72 .bf16) (harg4 : arg4.IsWhole)
    (arg5 : Memref sig .tc .vmem S6x1 .f32) (harg5 : arg5.IsWhole) (arg6 : Memref sig .tc .vmem S24x19x19 .bf16) (harg6 : arg6.IsWhole)
    (arg7 : Memref sig .tc .vmem S24x19x1 .f32) (harg7 : arg7.IsWhole) (arg8 : Memref sig .tc .vmem S24x6x19 .bf16) (harg8 : arg8.IsWhole)
    (arg9 : Memref sig .tc .vmem S24x6x1 .f32) (harg9 : arg9.IsWhole)
    (arg11 : Memref sig .tc .vmem S216x4096 .f32) (arg12 : Memref sig .tc .vmem S72x4096 .f32) (arg13 : Memref sig .tc .vmem S144x4096 .f32)
    (x0 : Vec Ideal S4096x216 .f32) (x1 : Vec Ideal S4096x72 .f32) (x2 : Vec Ideal S6x216 .bf16) (x3 : Vec Ideal S6x72 .bf16)
    (x4 : Vec Ideal S6x1 .f32) (x5 : Vec Ideal S24x19x19 .bf16) (x6 : Vec Ideal S24x19x1 .f32) (x7 : Vec Ideal S24x6x19 .bf16)
    (x8 : Vec Ideal S24x6x1 .f32)
    (r : Fin 4096) (R : Fin 24 → Fin 6 → EReal) (hS : Spec.Solves (blockRow x0 x1 x2 x3 x4 x5 x6 x7 x8 r) R) :
    Pieces.SlabsAre (kernelRun0_A.sl.HS2_13 c arg1 harg1 arg2 harg2 arg3 harg3 arg4 harg4 arg5 harg5 arg6 harg6 arg7 harg7 arg8 harg8 arg9 harg9 arg11 arg12 arg13 x0 x1 x2 x3 x4 x5 x6 x7 x8) r 13 R := by
  have hL := slabs_12 c arg1 harg1 arg2 harg2 arg3 harg3 arg4 harg4 arg5 harg5 arg6 harg6 arg7 harg7 arg8 harg8 arg9 harg9 arg11 arg12 arg13 x0 x1 x2 x3 x4 x5 x6 x7 x8 r R hS
  unfold kernelRun0_A.sl.HS2_13
  refine Pieces.SlabsAre.step (Val := Elt Ideal) (e := .f32) _ r 12 (by decide) R 72 (by decide) _ _ hL fun f => ?_
  unfold kernelRun0_A.sl.r_17 kernelRun0_A.sl.r_18
  rw [pay_joint12, Rows.jointRows_apply, hS.child (⟨12, by decide⟩ : Fin 24) (by decide)]
  refine Spec.joint_congr (fun a k => ?_) (fun a => ?_) (fun a k => ?_) (fun a => ?_)
    (Spec.feats_congr (fun a => ?_) (fun a => ?_) (Spec.bone_congr fun k => ?_) (fun a => ?_)) f
  · exact slab3 arg6 harg6 x5 12 _ a k (⟨12, by decide⟩ : Fin 24) rfl
  · exact slab3 arg7 harg7 x6 12 _ a (0 : Fin 1) (⟨12, by decide⟩ : Fin 24) rfl
  · exact slab3 arg8 harg8 x7 12 _ a k (⟨12, by decide⟩ : Fin 24) rfl
  · exact slab3 arg9 harg9 x8 12 _ a (0 : Fin 1) (⟨12, by decide⟩ : Fin 24) rfl
  · unfold kernelRun0_A.sl.v396
    exact rotRows c arg1 harg1 arg11 x0 108 _ a r _ rfl
  · unfold kernelRun0_A.sl.v397
    exact posRows c arg2 harg2 arg12 x1 36 _ a r _ rfl
  · unfold kernelRun0_A.sl.v397 kernelRun0_A.sl.v304
    exact congrArg₂ (· - ·) (posRows c arg2 harg2 arg12 x1 36 _ k r _ rfl) (posRows c arg2 harg2 arg12 x1 27 _ k r _ rfl)
  · unfold kernelRun0_A.sl.v404
    rw [Pieces.readCov_rows_apply _ _ 54 _ a r (⟨54 + a.val, by have := a.isLt; omega⟩ : Fin 144) rfl]
    exact hL (⟨9, by decide⟩ : Fin 24) (by decide) a

/-- After joint 13's store: slabs 0–13 hold their joints' outputs (joint 13 from its parent 9's slab). -/
theorem slabs_14 (c : Dev nD) (arg1 : Memref sig .tc .vmem S4096x216 .f32) (harg1 : arg1.IsWhole) (arg2 : Memref sig .tc .vmem S4096x72 .f32) (harg2 : arg2.IsWhole)
    (arg3 : Memref sig .tc .vmem S6x216 .bf16) (harg3 : arg3.IsWhole) (arg4 : Memref sig .tc .vmem S6x72 .bf16) (harg4 : arg4.IsWhole)
    (arg5 : Memref sig .tc .vmem S6x1 .f32) (harg5 : arg5.IsWhole) (arg6 : Memref sig .tc .vmem S24x19x19 .bf16) (harg6 : arg6.IsWhole)
    (arg7 : Memref sig .tc .vmem S24x19x1 .f32) (harg7 : arg7.IsWhole) (arg8 : Memref sig .tc .vmem S24x6x19 .bf16) (harg8 : arg8.IsWhole)
    (arg9 : Memref sig .tc .vmem S24x6x1 .f32) (harg9 : arg9.IsWhole)
    (arg11 : Memref sig .tc .vmem S216x4096 .f32) (arg12 : Memref sig .tc .vmem S72x4096 .f32) (arg13 : Memref sig .tc .vmem S144x4096 .f32)
    (x0 : Vec Ideal S4096x216 .f32) (x1 : Vec Ideal S4096x72 .f32) (x2 : Vec Ideal S6x216 .bf16) (x3 : Vec Ideal S6x72 .bf16)
    (x4 : Vec Ideal S6x1 .f32) (x5 : Vec Ideal S24x19x19 .bf16) (x6 : Vec Ideal S24x19x1 .f32) (x7 : Vec Ideal S24x6x19 .bf16)
    (x8 : Vec Ideal S24x6x1 .f32)
    (r : Fin 4096) (R : Fin 24 → Fin 6 → EReal) (hS : Spec.Solves (blockRow x0 x1 x2 x3 x4 x5 x6 x7 x8 r) R) :
    Pieces.SlabsAre (kernelRun0_A.sl.HS2_14 c arg1 harg1 arg2 harg2 arg3 harg3 arg4 harg4 arg5 harg5 arg6 harg6 arg7 harg7 arg8 harg8 arg9 harg9 arg11 arg12 arg13 x0 x1 x2 x3 x4 x5 x6 x7 x8) r 14 R := by
  have hL := slabs_13 c arg1 harg1 arg2 harg2 arg3 harg3 arg4 harg4 arg5 harg5 arg6 harg6 arg7 harg7 arg8 harg8 arg9 harg9 arg11 arg12 arg13 x0 x1 x2 x3 x4 x5 x6 x7 x8 r R hS
  unfold kernelRun0_A.sl.HS2_14
  refine Pieces.SlabsAre.step (Val := Elt Ideal) (e := .f32) _ r 13 (by decide) R 78 (by decide) _ _ hL fun f => ?_
  unfold kernelRun0_A.sl.r_19 kernelRun0_A.sl.r_20
  rw [pay_joint13, Rows.jointRows_apply, hS.child (⟨13, by decide⟩ : Fin 24) (by decide)]
  refine Spec.joint_congr (fun a k => ?_) (fun a => ?_) (fun a k => ?_) (fun a => ?_)
    (Spec.feats_congr (fun a => ?_) (fun a => ?_) (Spec.bone_congr fun k => ?_) (fun a => ?_)) f
  · exact slab3 arg6 harg6 x5 13 _ a k (⟨13, by decide⟩ : Fin 24) rfl
  · exact slab3 arg7 harg7 x6 13 _ a (0 : Fin 1) (⟨13, by decide⟩ : Fin 24) rfl
  · exact slab3 arg8 harg8 x7 13 _ a k (⟨13, by decide⟩ : Fin 24) rfl
  · exact slab3 arg9 harg9 x8 13 _ a (0 : Fin 1) (⟨13, by decide⟩ : Fin 24) rfl
  · unfold kernelRun0_A.sl.v427
    exact rotRows c arg1 harg1 arg11 x0 117 _ a r _ rfl
  · unfold kernelRun0_A.sl.v428
    exact posRows c arg2 harg2 arg12 x1 39 _ a r _ rfl
  · unfold kernelRun0_A.sl.v428 kernelRun0_A.sl.v304
    exact congrArg₂ (· - ·) (posRows c arg2 harg2 arg12 x1 39 _ k r _ rfl) (posRows c arg2 harg2 arg12 x1 27 _ k r _ rfl)
  · unfold kernelRun0_A.sl.v435
    rw [Pieces.readCov_rows_apply _ _ 54 _ a r (⟨54 + a.val, by have := a.isLt; omega⟩ : Fin 144) rfl]
    exact hL (⟨9, by decide⟩ : Fin 24) (by decide) a

/-- After joint 14's store: slabs 0–14 hold their joints' outputs (joint 14 from its parent 9's slab). -/
theorem slabs_15 (c : Dev nD) (arg1 : Memref sig .tc .vmem S4096x216 .f32) (harg1 : arg1.IsWhole) (arg2 : Memref sig .tc .vmem S4096x72 .f32) (harg2 : arg2.IsWhole)
    (arg3 : Memref sig .tc .vmem S6x216 .bf16) (harg3 : arg3.IsWhole) (arg4 : Memref sig .tc .vmem S6x72 .bf16) (harg4 : arg4.IsWhole)
    (arg5 : Memref sig .tc .vmem S6x1 .f32) (harg5 : arg5.IsWhole) (arg6 : Memref sig .tc .vmem S24x19x19 .bf16) (harg6 : arg6.IsWhole)
    (arg7 : Memref sig .tc .vmem S24x19x1 .f32) (harg7 : arg7.IsWhole) (arg8 : Memref sig .tc .vmem S24x6x19 .bf16) (harg8 : arg8.IsWhole)
    (arg9 : Memref sig .tc .vmem S24x6x1 .f32) (harg9 : arg9.IsWhole)
    (arg11 : Memref sig .tc .vmem S216x4096 .f32) (arg12 : Memref sig .tc .vmem S72x4096 .f32) (arg13 : Memref sig .tc .vmem S144x4096 .f32)
    (x0 : Vec Ideal S4096x216 .f32) (x1 : Vec Ideal S4096x72 .f32) (x2 : Vec Ideal S6x216 .bf16) (x3 : Vec Ideal S6x72 .bf16)
    (x4 : Vec Ideal S6x1 .f32) (x5 : Vec Ideal S24x19x19 .bf16) (x6 : Vec Ideal S24x19x1 .f32) (x7 : Vec Ideal S24x6x19 .bf16)
    (x8 : Vec Ideal S24x6x1 .f32)
    (r : Fin 4096) (R : Fin 24 → Fin 6 → EReal) (hS : Spec.Solves (blockRow x0 x1 x2 x3 x4 x5 x6 x7 x8 r) R) :
    Pieces.SlabsAre (kernelRun0_A.sl.HS2_15 c arg1 harg1 arg2 harg2 arg3 harg3 arg4 harg4 arg5 harg5 arg6 harg6 arg7 harg7 arg8 harg8 arg9 harg9 arg11 arg12 arg13 x0 x1 x2 x3 x4 x5 x6 x7 x8) r 15 R := by
  have hL := slabs_14 c arg1 harg1 arg2 harg2 arg3 harg3 arg4 harg4 arg5 harg5 arg6 harg6 arg7 harg7 arg8 harg8 arg9 harg9 arg11 arg12 arg13 x0 x1 x2 x3 x4 x5 x6 x7 x8 r R hS
  unfold kernelRun0_A.sl.HS2_15
  refine Pieces.SlabsAre.step (Val := Elt Ideal) (e := .f32) _ r 14 (by decide) R 84 (by decide) _ _ hL fun f => ?_
  unfold kernelRun0_A.sl.r_21
  rw [pay_joint14, Rows.jointRows_apply, hS.child (⟨14, by decide⟩ : Fin 24) (by decide)]
  refine Spec.joint_congr (fun a k => ?_) (fun a => ?_) (fun a k => ?_) (fun a => ?_)
    (Spec.feats_congr (fun a => ?_) (fun a => ?_) (Spec.bone_congr fun k => ?_) (fun a => ?_)) f
  · exact slab3 arg6 harg6 x5 14 _ a k (⟨14, by decide⟩ : Fin 24) rfl
  · exact slab3 arg7 harg7 x6 14 _ a (0 : Fin 1) (⟨14, by decide⟩ : Fin 24) rfl
  · exact slab3 arg8 harg8 x7 14 _ a k (⟨14, by decide⟩ : Fin 24) rfl
  · exact slab3 arg9 harg9 x8 14 _ a (0 : Fin 1) (⟨14, by decide⟩ : Fin 24) rfl
  · unfold kernelRun0_A.sl.v458
    exact rotRows c arg1 harg1 arg11 x0 126 _ a r _ rfl
  · unfold kernelRun0_A.sl.v459
    exact posRows c arg2 harg2 arg12 x1 42 _ a r _ rfl
  · unfold kernelRun0_A.sl.v459 kernelRun0_A.sl.v304
    exact congrArg₂ (· - ·) (posRows c arg2 harg2 arg12 x1 42 _ k r _ rfl) (posRows c arg2 harg2 arg12 x1 27 _ k r _ rfl)
  · unfold kernelRun0_A.sl.v466
    rw [Pieces.readCov_rows_apply _ _ 54 _ a r (⟨54 + a.val, by have := a.isLt; omega⟩ : Fin 144) rfl]
    exact hL (⟨9, by decide⟩ : Fin 24) (by decide) a

/-- After joint 15's store: slabs 0–15 hold their joints' outputs (joint 15 from its parent 12's slab). -/
theorem slabs_16 (c : Dev nD) (arg1 : Memref sig .tc .vmem S4096x216 .f32) (harg1 : arg1.IsWhole) (arg2 : Memref sig .tc .vmem S4096x72 .f32) (harg2 : arg2.IsWhole)
    (arg3 : Memref sig .tc .vmem S6x216 .bf16) (harg3 : arg3.IsWhole) (arg4 : Memref sig .tc .vmem S6x72 .bf16) (harg4 : arg4.IsWhole)
    (arg5 : Memref sig .tc .vmem S6x1 .f32) (harg5 : arg5.IsWhole) (arg6 : Memref sig .tc .vmem S24x19x19 .bf16) (harg6 : arg6.IsWhole)
    (arg7 : Memref sig .tc .vmem S24x19x1 .f32) (harg7 : arg7.IsWhole) (arg8 : Memref sig .tc .vmem S24x6x19 .bf16) (harg8 : arg8.IsWhole)
    (arg9 : Memref sig .tc .vmem S24x6x1 .f32) (harg9 : arg9.IsWhole)
    (arg11 : Memref sig .tc .vmem S216x4096 .f32) (arg12 : Memref sig .tc .vmem S72x4096 .f32) (arg13 : Memref sig .tc .vmem S144x4096 .f32)
    (x0 : Vec Ideal S4096x216 .f32) (x1 : Vec Ideal S4096x72 .f32) (x2 : Vec Ideal S6x216 .bf16) (x3 : Vec Ideal S6x72 .bf16)
    (x4 : Vec Ideal S6x1 .f32) (x5 : Vec Ideal S24x19x19 .bf16) (x6 : Vec Ideal S24x19x1 .f32) (x7 : Vec Ideal S24x6x19 .bf16)
    (x8 : Vec Ideal S24x6x1 .f32)
    (r : Fin 4096) (R : Fin 24 → Fin 6 → EReal) (hS : Spec.Solves (blockRow x0 x1 x2 x3 x4 x5 x6 x7 x8 r) R) :
    Pieces.SlabsAre (kernelRun0_A.sl.HS2_16 c arg1 harg1 arg2 harg2 arg3 harg3 arg4 harg4 arg5 harg5 arg6 harg6 arg7 harg7 arg8 harg8 arg9 harg9 arg11 arg12 arg13 x0 x1 x2 x3 x4 x5 x6 x7 x8) r 16 R := by
  have hL := slabs_15 c arg1 harg1 arg2 harg2 arg3 harg3 arg4 harg4 arg5 harg5 arg6 harg6 arg7 harg7 arg8 harg8 arg9 harg9 arg11 arg12 arg13 x0 x1 x2 x3 x4 x5 x6 x7 x8 r R hS
  unfold kernelRun0_A.sl.HS2_16
  refine Pieces.SlabsAre.step (Val := Elt Ideal) (e := .f32) _ r 15 (by decide) R 90 (by decide) _ _ hL fun f => ?_
  unfold kernelRun0_A.sl.r_22
  rw [pay_joint15, Rows.jointRows_apply, hS.child (⟨15, by decide⟩ : Fin 24) (by decide)]
  refine Spec.joint_congr (fun a k => ?_) (fun a => ?_) (fun a k => ?_) (fun a => ?_)
    (Spec.feats_congr (fun a => ?_) (fun a => ?_) (Spec.bone_congr fun k => ?_) (fun a => ?_)) f
  · exact slab3 arg6 harg6 x5 15 _ a k (⟨15, by decide⟩ : Fin 24) rfl
  · exact slab3 arg7 harg7 x6 15 _ a (0 : Fin 1) (⟨15, by decide⟩ : Fin 24) rfl
  · exact slab3 arg8 harg8 x7 15 _ a k (⟨15, by decide⟩ : Fin 24) rfl
  · exact slab3 arg9 harg9 x8 15 _ a (0 : Fin 1) (⟨15, by decide⟩ : Fin 24) rfl
  · unfold kernelRun0_A.sl.v489
    exact rotRows c arg1 harg1 arg11 x0 135 _ a r _ rfl
  · unfold kernelRun0_A.sl.v490
    exact posRows c arg2 harg2 arg12 x1 45 _ a r _ rfl
  · unfold kernelRun0_A.sl.v490 kernelRun0_A.sl.v397
    exact congrArg₂ (· - ·) (posRows c arg2 harg2 arg12 x1 45 _ k r _ rfl) (posRows c arg2 harg2 arg12 x1 36 _ k r _ rfl)
  · unfold kernelRun0_A.sl.v497
    rw [Pieces.readCov_rows_apply _ _ 72 _ a r (⟨72 + a.val, by have := a.isLt; omega⟩ : Fin 144) rfl]
    exact hL (⟨12, by decide⟩ : Fin 24) (by decide) a

/-- After joint 16's store: slabs 0–16 hold their joints' outputs (joint 16 from its parent 13's slab). -/
theorem slabs_17 (c : Dev nD) (arg1 : Memref sig .tc .vmem S4096x216 .f32) (harg1 : arg1.IsWhole) (arg2 : Memref sig .tc .vmem S4096x72 .f32) (harg2 : arg2.IsWhole)
    (arg3 : Memref sig .tc .vmem S6x216 .bf16) (harg3 : arg3.IsWhole) (arg4 : Memref sig .tc .vmem S6x72 .bf16) (harg4 : arg4.IsWhole)
    (arg5 : Memref sig .tc .vmem S6x1 .f32) (harg5 : arg5.IsWhole) (arg6 : Memref sig .tc .vmem S24x19x19 .bf16) (harg6 : arg6.IsWhole)
    (arg7 : Memref sig .tc .vmem S24x19x1 .f32) (harg7 : arg7.IsWhole) (arg8 : Memref sig .tc .vmem S24x6x19 .bf16) (harg8 : arg8.IsWhole)
    (arg9 : Memref sig .tc .vmem S24x6x1 .f32) (harg9 : arg9.IsWhole)
    (arg11 : Memref sig .tc .vmem S216x4096 .f32) (arg12 : Memref sig .tc .vmem S72x4096 .f32) (arg13 : Memref sig .tc .vmem S144x4096 .f32)
    (x0 : Vec Ideal S4096x216 .f32) (x1 : Vec Ideal S4096x72 .f32) (x2 : Vec Ideal S6x216 .bf16) (x3 : Vec Ideal S6x72 .bf16)
    (x4 : Vec Ideal S6x1 .f32) (x5 : Vec Ideal S24x19x19 .bf16) (x6 : Vec Ideal S24x19x1 .f32) (x7 : Vec Ideal S24x6x19 .bf16)
    (x8 : Vec Ideal S24x6x1 .f32)
    (r : Fin 4096) (R : Fin 24 → Fin 6 → EReal) (hS : Spec.Solves (blockRow x0 x1 x2 x3 x4 x5 x6 x7 x8 r) R) :
    Pieces.SlabsAre (kernelRun0_A.sl.HS2_17 c arg1 harg1 arg2 harg2 arg3 harg3 arg4 harg4 arg5 harg5 arg6 harg6 arg7 harg7 arg8 harg8 arg9 harg9 arg11 arg12 arg13 x0 x1 x2 x3 x4 x5 x6 x7 x8) r 17 R := by
  have hL := slabs_16 c arg1 harg1 arg2 harg2 arg3 harg3 arg4 harg4 arg5 harg5 arg6 harg6 arg7 harg7 arg8 harg8 arg9 harg9 arg11 arg12 arg13 x0 x1 x2 x3 x4 x5 x6 x7 x8 r R hS
  unfold kernelRun0_A.sl.HS2_17
  refine Pieces.SlabsAre.step (Val := Elt Ideal) (e := .f32) _ r 16 (by decide) R 96 (by decide) _ _ hL fun f => ?_
  unfold kernelRun0_A.sl.r_23 kernelRun0_A.sl.r_24
  rw [pay_joint16, Rows.jointRows_apply, hS.child (⟨16, by decide⟩ : Fin 24) (by decide)]
  refine Spec.joint_congr (fun a k => ?_) (fun a => ?_) (fun a k => ?_) (fun a => ?_)
    (Spec.feats_congr (fun a => ?_) (fun a => ?_) (Spec.bone_congr fun k => ?_) (fun a => ?_)) f
  · exact slab3 arg6 harg6 x5 16 _ a k (⟨16, by decide⟩ : Fin 24) rfl
  · exact slab3 arg7 harg7 x6 16 _ a (0 : Fin 1) (⟨16, by decide⟩ : Fin 24) rfl
  · exact slab3 arg8 harg8 x7 16 _ a k (⟨16, by decide⟩ : Fin 24) rfl
  · exact slab3 arg9 harg9 x8 16 _ a (0 : Fin 1) (⟨16, by decide⟩ : Fin 24) rfl
  · unfold kernelRun0_A.sl.v520
    exact rotRows c arg1 harg1 arg11 x0 144 _ a r _ rfl
  · unfold kernelRun0_A.sl.v521
    exact posRows c arg2 harg2 arg12 x1 48 _ a r _ rfl
  · unfold kernelRun0_A.sl.v521 kernelRun0_A.sl.v428
    exact congrArg₂ (· - ·) (posRows c arg2 harg2 arg12 x1 48 _ k r _ rfl) (posRows c arg2 harg2 arg12 x1 39 _ k r _ rfl)
  · unfold kernelRun0_A.sl.v528
    rw [Pieces.readCov_rows_apply _ _ 78 _ a r (⟨78 + a.val, by have := a.isLt; omega⟩ : Fin 144) rfl]
    exact hL (⟨13, by decide⟩ : Fin 24) (by decide) a

/-- After joint 17's store: slabs 0–17 hold their joints' outputs (joint 17 from its parent 14's slab). -/
theorem slabs_18 (c : Dev nD) (arg1 : Memref sig .tc .vmem S4096x216 .f32) (harg1 : arg1.IsWhole) (arg2 : Memref sig .tc .vmem S4096x72 .f32) (harg2 : arg2.IsWhole)
    (arg3 : Memref sig .tc .vmem S6x216 .bf16) (harg3 : arg3.IsWhole) (arg4 : Memref sig .tc .vmem S6x72 .bf16) (harg4 : arg4.IsWhole)
    (arg5 : Memref sig .tc .vmem S6x1 .f32) (harg5 : arg5.IsWhole) (arg6 : Memref sig .tc .vmem S24x19x19 .bf16) (harg6 : arg6.IsWhole)
    (arg7 : Memref sig .tc .vmem S24x19x1 .f32) (harg7 : arg7.IsWhole) (arg8 : Memref sig .tc .vmem S24x6x19 .bf16) (harg8 : arg8.IsWhole)
    (arg9 : Memref sig .tc .vmem S24x6x1 .f32) (harg9 : arg9.IsWhole)
    (arg11 : Memref sig .tc .vmem S216x4096 .f32) (arg12 : Memref sig .tc .vmem S72x4096 .f32) (arg13 : Memref sig .tc .vmem S144x4096 .f32)
    (x0 : Vec Ideal S4096x216 .f32) (x1 : Vec Ideal S4096x72 .f32) (x2 : Vec Ideal S6x216 .bf16) (x3 : Vec Ideal S6x72 .bf16)
    (x4 : Vec Ideal S6x1 .f32) (x5 : Vec Ideal S24x19x19 .bf16) (x6 : Vec Ideal S24x19x1 .f32) (x7 : Vec Ideal S24x6x19 .bf16)
    (x8 : Vec Ideal S24x6x1 .f32)
    (r : Fin 4096) (R : Fin 24 → Fin 6 → EReal) (hS : Spec.Solves (blockRow x0 x1 x2 x3 x4 x5 x6 x7 x8 r) R) :
    Pieces.SlabsAre (kernelRun0_A.sl.HS2_18 c arg1 harg1 arg2 harg2 arg3 harg3 arg4 harg4 arg5 harg5 arg6 harg6 arg7 harg7 arg8 harg8 arg9 harg9 arg11 arg12 arg13 x0 x1 x2 x3 x4 x5 x6 x7 x8) r 18 R := by
  have hL := slabs_17 c arg1 harg1 arg2 harg2 arg3 harg3 arg4 harg4 arg5 harg5 arg6 harg6 arg7 harg7 arg8 harg8 arg9 harg9 arg11 arg12 arg13 x0 x1 x2 x3 x4 x5 x6 x7 x8 r R hS
  unfold kernelRun0_A.sl.HS2_18
  refine Pieces.SlabsAre.step (Val := Elt Ideal) (e := .f32) _ r 17 (by decide) R 102 (by decide) _ _ hL fun f => ?_
  unfold kernelRun0_A.sl.r_25 kernelRun0_A.sl.r_26
  rw [pay_joint17, Rows.jointRows_apply, hS.child (⟨17, by decide⟩ : Fin 24) (by decide)]
  refine Spec.joint_congr (fun a k => ?_) (fun a => ?_) (fun a k => ?_) (fun a => ?_)
    (Spec.feats_congr (fun a => ?_) (fun a => ?_) (Spec.bone_congr fun k => ?_) (fun a => ?_)) f
  · exact slab3 arg6 harg6 x5 17 _ a k (⟨17, by decide⟩ : Fin 24) rfl
  · exact slab3 arg7 harg7 x6 17 _ a (0 : Fin 1) (⟨17, by decide⟩ : Fin 24) rfl
  · exact slab3 arg8 harg8 x7 17 _ a k (⟨17, by decide⟩ : Fin 24) rfl
  · exact slab3 arg9 harg9 x8 17 _ a (0 : Fin 1) (⟨17, by decide⟩ : Fin 24) rfl
  · unfold kernelRun0_A.sl.v551
    exact rotRows c arg1 harg1 arg11 x0 153 _ a r _ rfl
  · unfold kernelRun0_A.sl.v552
    exact posRows c arg2 harg2 arg12 x1 51 _ a r _ rfl
  · unfold kernelRun0_A.sl.v552 kernelRun0_A.sl.v459
    exact congrArg₂ (· - ·) (posRows c arg2 harg2 arg12 x1 51 _ k r _ rfl) (posRows c arg2 harg2 arg12 x1 42 _ k r _ rfl)
  · unfold kernelRun0_A.sl.v559
    rw [Pieces.readCov_rows_apply _ _ 84 _ a r (⟨84 + a.val, by have := a.isLt; omega⟩ : Fin 144) rfl]
    exact hL (⟨14, by decide⟩ : Fin 24) (by decide) a

/-- After joint 18's store: slabs 0–18 hold their joints' outputs (joint 18 from its parent 16's slab). -/
theorem slabs_19 (c : Dev nD) (arg1 : Memref sig .tc .vmem S4096x216 .f32) (harg1 : arg1.IsWhole) (arg2 : Memref sig .tc .vmem S4096x72 .f32) (harg2 : arg2.IsWhole)
    (arg3 : Memref sig .tc .vmem S6x216 .bf16) (harg3 : arg3.IsWhole) (arg4 : Memref sig .tc .vmem S6x72 .bf16) (harg4 : arg4.IsWhole)
    (arg5 : Memref sig .tc .vmem S6x1 .f32) (harg5 : arg5.IsWhole) (arg6 : Memref sig .tc .vmem S24x19x19 .bf16) (harg6 : arg6.IsWhole)
    (arg7 : Memref sig .tc .vmem S24x19x1 .f32) (harg7 : arg7.IsWhole) (arg8 : Memref sig .tc .vmem S24x6x19 .bf16) (harg8 : arg8.IsWhole)
    (arg9 : Memref sig .tc .vmem S24x6x1 .f32) (harg9 : arg9.IsWhole)
    (arg11 : Memref sig .tc .vmem S216x4096 .f32) (arg12 : Memref sig .tc .vmem S72x4096 .f32) (arg13 : Memref sig .tc .vmem S144x4096 .f32)
    (x0 : Vec Ideal S4096x216 .f32) (x1 : Vec Ideal S4096x72 .f32) (x2 : Vec Ideal S6x216 .bf16) (x3 : Vec Ideal S6x72 .bf16)
    (x4 : Vec Ideal S6x1 .f32) (x5 : Vec Ideal S24x19x19 .bf16) (x6 : Vec Ideal S24x19x1 .f32) (x7 : Vec Ideal S24x6x19 .bf16)
    (x8 : Vec Ideal S24x6x1 .f32)
    (r : Fin 4096) (R : Fin 24 → Fin 6 → EReal) (hS : Spec.Solves (blockRow x0 x1 x2 x3 x4 x5 x6 x7 x8 r) R) :
    Pieces.SlabsAre (kernelRun0_A.sl.HS2_19 c arg1 harg1 arg2 harg2 arg3 harg3 arg4 harg4 arg5 harg5 arg6 harg6 arg7 harg7 arg8 harg8 arg9 harg9 arg11 arg12 arg13 x0 x1 x2 x3 x4 x5 x6 x7 x8) r 19 R := by
  have hL := slabs_18 c arg1 harg1 arg2 harg2 arg3 harg3 arg4 harg4 arg5 harg5 arg6 harg6 arg7 harg7 arg8 harg8 arg9 harg9 arg11 arg12 arg13 x0 x1 x2 x3 x4 x5 x6 x7 x8 r R hS
  unfold kernelRun0_A.sl.HS2_19
  refine Pieces.SlabsAre.step (Val := Elt Ideal) (e := .f32) _ r 18 (by decide) R 108 (by decide) _ _ hL fun f => ?_
  unfold kernelRun0_A.sl.r_27
  rw [pay_joint18, Rows.jointRows_apply, hS.child (⟨18, by decide⟩ : Fin 24) (by decide)]
  refine Spec.joint_congr (fun a k => ?_) (fun a => ?_) (fun a k => ?_) (fun a => ?_)
    (Spec.feats_congr (fun a => ?_) (fun a => ?_) (Spec.bone_congr fun k => ?_) (fun a => ?_)) f
  · exact slab3 arg6 harg6 x5 18 _ a k (⟨18, by decide⟩ : Fin 24) rfl
  · exact slab3 arg7 harg7 x6 18 _ a (0 : Fin 1) (⟨18, by decide⟩ : Fin 24) rfl
  · exact slab3 arg8 harg8 x7 18 _ a k (⟨18, by decide⟩ : Fin 24) rfl
  · exact slab3 arg9 harg9 x8 18 _ a (0 : Fin 1) (⟨18, by decide⟩ : Fin 24) rfl
  · unfold kernelRun0_A.sl.v582
    exact rotRows c arg1 harg1 arg11 x0 162 _ a r _ rfl
  · unfold kernelRun0_A.sl.v583
    exact posRows c arg2 harg2 arg12 x1 54 _ a r _ rfl
  · unfold kernelRun0_A.sl.v583 kernelRun0_A.sl.v521
    exact congrArg₂ (· - ·) (posRows c arg2 harg2 arg12 x1 54 _ k r _ rfl) (posRows c arg2 harg2 arg12 x1 48 _ k r _ rfl)
  · unfold kernelRun0_A.sl.v590
    rw [Pieces.readCov_rows_apply _ _ 96 _ a r (⟨96 + a.val, by have := a.isLt; omega⟩ : Fin 144) rfl]
    exact hL (⟨16, by decide⟩ : Fin 24) (by decide) a

/-- After joint 19's store: slabs 0–19 hold their joints' outputs (joint 19 from its parent 17's slab). -/
theorem slabs_20 (c : Dev nD) (arg1 : Memref sig .tc .vmem S4096x216 .f32) (harg1 : arg1.IsWhole) (arg2 : Memref sig .tc .vmem S4096x72 .f32) (harg2 : arg2.IsWhole)
    (arg3 : Memref sig .tc .vmem S6x216 .bf16) (harg3 : arg3.IsWhole) (arg4 : Memref sig .tc .vmem S6x72 .bf16) (harg4 : arg4.IsWhole)
    (arg5 : Memref sig .tc .vmem S6x1 .f32) (harg5 : arg5.IsWhole) (arg6 : Memref sig .tc .vmem S24x19x19 .bf16) (harg6 : arg6.IsWhole)
    (arg7 : Memref sig .tc .vmem S24x19x1 .f32) (harg7 : arg7.IsWhole) (arg8 : Memref sig .tc .vmem S24x6x19 .bf16) (harg8 : arg8.IsWhole)
    (arg9 : Memref sig .tc .vmem S24x6x1 .f32) (harg9 : arg9.IsWhole)
    (arg11 : Memref sig .tc .vmem S216x4096 .f32) (arg12 : Memref sig .tc .vmem S72x4096 .f32) (arg13 : Memref sig .tc .vmem S144x4096 .f32)
    (x0 : Vec Ideal S4096x216 .f32) (x1 : Vec Ideal S4096x72 .f32) (x2 : Vec Ideal S6x216 .bf16) (x3 : Vec Ideal S6x72 .bf16)
    (x4 : Vec Ideal S6x1 .f32) (x5 : Vec Ideal S24x19x19 .bf16) (x6 : Vec Ideal S24x19x1 .f32) (x7 : Vec Ideal S24x6x19 .bf16)
    (x8 : Vec Ideal S24x6x1 .f32)
    (r : Fin 4096) (R : Fin 24 → Fin 6 → EReal) (hS : Spec.Solves (blockRow x0 x1 x2 x3 x4 x5 x6 x7 x8 r) R) :
    Pieces.SlabsAre (kernelRun0_A.sl.HS2_20 c arg1 harg1 arg2 harg2 arg3 harg3 arg4 harg4 arg5 harg5 arg6 harg6 arg7 harg7 arg8 harg8 arg9 harg9 arg11 arg12 arg13 x0 x1 x2 x3 x4 x5 x6 x7 x8) r 20 R := by
  have hL := slabs_19 c arg1 harg1 arg2 harg2 arg3 harg3 arg4 harg4 arg5 harg5 arg6 harg6 arg7 harg7 arg8 harg8 arg9 harg9 arg11 arg12 arg13 x0 x1 x2 x3 x4 x5 x6 x7 x8 r R hS
  unfold kernelRun0_A.sl.HS2_20
  refine Pieces.SlabsAre.step (Val := Elt Ideal) (e := .f32) _ r 19 (by decide) R 114 (by decide) _ _ hL fun f => ?_
  unfold kernelRun0_A.sl.r_28
  rw [pay_joint19, Rows.jointRows_apply, hS.child (⟨19, by decide⟩ : Fin 24) (by decide)]
  refine Spec.joint_congr (fun a k => ?_) (fun a => ?_) (fun a k => ?_) (fun a => ?_)
    (Spec.feats_congr (fun a => ?_) (fun a => ?_) (Spec.bone_congr fun k => ?_) (fun a => ?_)) f
  · exact slab3 arg6 harg6 x5 19 _ a k (⟨19, by decide⟩ : Fin 24) rfl
  · exact slab3 arg7 harg7 x6 19 _ a (0 : Fin 1) (⟨19, by decide⟩ : Fin 24) rfl
  · exact slab3 arg8 harg8 x7 19 _ a k (⟨19, by decide⟩ : Fin 24) rfl
  · exact slab3 arg9 harg9 x8 19 _ a (0 : Fin 1) (⟨19, by decide⟩ : Fin 24) rfl
  · unfold kernelRun0_A.sl.v613
    exact rotRows c arg1 harg1 arg11 x0 171 _ a r _ rfl
  · unfold kernelRun0_A.sl.v614
    exact posRows c arg2 harg2 arg12 x1 57 _ a r _ rfl
  · unfold kernelRun0_A.sl.v614 kernelRun0_A.sl.v552
    exact congrArg₂ (· - ·) (posRows c arg2 harg2 arg12 x1 57 _ k r _ rfl) (posRows c arg2 harg2 arg12 x1 51 _ k r _ rfl)
  · unfold kernelRun0_A.sl.v621
    rw [Pieces.readCov_rows_apply _ _ 102 _ a r (⟨102 + a.val, by have := a.isLt; omega⟩ : Fin 144) rfl]
    exact hL (⟨17, by decide⟩ : Fin 24) (by decide) a

/-- After joint 20's store: slabs 0–20 hold their joints' outputs (joint 20 from its parent 18's slab). -/
theorem slabs_21 (c : Dev nD) (arg1 : Memref sig .tc .vmem S4096x216 .f32) (harg1 : arg1.IsWhole) (arg2 : Memref sig .tc .vmem S4096x72 .f32) (harg2 : arg2.IsWhole)
    (arg3 : Memref sig .tc .vmem S6x216 .bf16) (harg3 : arg3.IsWhole) (arg4 : Memref sig .tc .vmem S6x72 .bf16) (harg4 : arg4.IsWhole)
    (arg5 : Memref sig .tc .vmem S6x1 .f32) (harg5 : arg5.IsWhole) (arg6 : Memref sig .tc .vmem S24x19x19 .bf16) (harg6 : arg6.IsWhole)
    (arg7 : Memref sig .tc .vmem S24x19x1 .f32) (harg7 : arg7.IsWhole) (arg8 : Memref sig .tc .vmem S24x6x19 .bf16) (harg8 : arg8.IsWhole)
    (arg9 : Memref sig .tc .vmem S24x6x1 .f32) (harg9 : arg9.IsWhole)
    (arg11 : Memref sig .tc .vmem S216x4096 .f32) (arg12 : Memref sig .tc .vmem S72x4096 .f32) (arg13 : Memref sig .tc .vmem S144x4096 .f32)
    (x0 : Vec Ideal S4096x216 .f32) (x1 : Vec Ideal S4096x72 .f32) (x2 : Vec Ideal S6x216 .bf16) (x3 : Vec Ideal S6x72 .bf16)
    (x4 : Vec Ideal S6x1 .f32) (x5 : Vec Ideal S24x19x19 .bf16) (x6 : Vec Ideal S24x19x1 .f32) (x7 : Vec Ideal S24x6x19 .bf16)
    (x8 : Vec Ideal S24x6x1 .f32)
    (r : Fin 4096) (R : Fin 24 → Fin 6 → EReal) (hS : Spec.Solves (blockRow x0 x1 x2 x3 x4 x5 x6 x7 x8 r) R) :
    Pieces.SlabsAre (kernelRun0_A.sl.HS2_21 c arg1 harg1 arg2 harg2 arg3 harg3 arg4 harg4 arg5 harg5 arg6 harg6 arg7 harg7 arg8 harg8 arg9 harg9 arg11 arg12 arg13 x0 x1 x2 x3 x4 x5 x6 x7 x8) r 21 R := by
  have hL := slabs_20 c arg1 harg1 arg2 harg2 arg3 harg3 arg4 harg4 arg5 harg5 arg6 harg6 arg7 harg7 arg8 harg8 arg9 harg9 arg11 arg12 arg13 x0 x1 x2 x3 x4 x5 x6 x7 x8 r R hS
  unfold kernelRun0_A.sl.HS2_21
  refine Pieces.SlabsAre.step (Val := Elt Ideal) (e := .f32) _ r 20 (by decide) R 120 (by decide) _ _ hL fun f => ?_
  unfold kernelRun0_A.sl.r_29
  rw [pay_joint20, Rows.jointRows_apply, hS.child (⟨20, by decide⟩ : Fin 24) (by decide)]
  refine Spec.joint_congr (fun a k => ?_) (fun a => ?_) (fun a k => ?_) (fun a => ?_)
    (Spec.feats_congr (fun a => ?_) (fun a => ?_) (Spec.bone_congr fun k => ?_) (fun a => ?_)) f
  · exact slab3 arg6 harg6 x5 20 _ a k (⟨20, by decide⟩ : Fin 24) rfl
  · exact slab3 arg7 harg7 x6 20 _ a (0 : Fin 1) (⟨20, by decide⟩ : Fin 24) rfl
  · exact slab3 arg8 harg8 x7 20 _ a k (⟨20, by decide⟩ : Fin 24) rfl
  · exact slab3 arg9 harg9 x8 20 _ a (0 : Fin 1) (⟨20, by decide⟩ : Fin 24) rfl
  · unfold kernelRun0_A.sl.v644
    exact rotRows c arg1 harg1 arg11 x0 180 _ a r _ rfl
  · unfold kernelRun0_A.sl.v645
    exact posRows c arg2 harg2 arg12 x1 60 _ a r _ rfl
  · unfold kernelRun0_A.sl.v645 kernelRun0_A.sl.v583
    exact congrArg₂ (· - ·) (posRows c arg2 harg2 arg12 x1 60 _ k r _ rfl) (posRows c arg2 harg2 arg12 x1 54 _ k r _ rfl)
  · unfold kernelRun0_A.sl.v652
    rw [Pieces.readCov_rows_apply _ _ 108 _ a r (⟨108 + a.val, by have := a.isLt; omega⟩ : Fin 144) rfl]
    exact hL (⟨18, by decide⟩ : Fin 24) (by decide) a

/-- After joint 21's store: slabs 0–21 hold their joints' outputs (joint 21 from its parent 19's slab). -/
theorem slabs_22 (c : Dev nD) (arg1 : Memref sig .tc .vmem S4096x216 .f32) (harg1 : arg1.IsWhole) (arg2 : Memref sig .tc .vmem S4096x72 .f32) (harg2 : arg2.IsWhole)
    (arg3 : Memref sig .tc .vmem S6x216 .bf16) (harg3 : arg3.IsWhole) (arg4 : Memref sig .tc .vmem S6x72 .bf16) (harg4 : arg4.IsWhole)
    (arg5 : Memref sig .tc .vmem S6x1 .f32) (harg5 : arg5.IsWhole) (arg6 : Memref sig .tc .vmem S24x19x19 .bf16) (harg6 : arg6.IsWhole)
    (arg7 : Memref sig .tc .vmem S24x19x1 .f32) (harg7 : arg7.IsWhole) (arg8 : Memref sig .tc .vmem S24x6x19 .bf16) (harg8 : arg8.IsWhole)
    (arg9 : Memref sig .tc .vmem S24x6x1 .f32) (harg9 : arg9.IsWhole)
    (arg11 : Memref sig .tc .vmem S216x4096 .f32) (arg12 : Memref sig .tc .vmem S72x4096 .f32) (arg13 : Memref sig .tc .vmem S144x4096 .f32)
    (x0 : Vec Ideal S4096x216 .f32) (x1 : Vec Ideal S4096x72 .f32) (x2 : Vec Ideal S6x216 .bf16) (x3 : Vec Ideal S6x72 .bf16)
    (x4 : Vec Ideal S6x1 .f32) (x5 : Vec Ideal S24x19x19 .bf16) (x6 : Vec Ideal S24x19x1 .f32) (x7 : Vec Ideal S24x6x19 .bf16)
    (x8 : Vec Ideal S24x6x1 .f32)
    (r : Fin 4096) (R : Fin 24 → Fin 6 → EReal) (hS : Spec.Solves (blockRow x0 x1 x2 x3 x4 x5 x6 x7 x8 r) R) :
    Pieces.SlabsAre (kernelRun0_A.sl.HS2_22 c arg1 harg1 arg2 harg2 arg3 harg3 arg4 harg4 arg5 harg5 arg6 harg6 arg7 harg7 arg8 harg8 arg9 harg9 arg11 arg12 arg13 x0 x1 x2 x3 x4 x5 x6 x7 x8) r 22 R := by
  have hL := slabs_21 c arg1 harg1 arg2 harg2 arg3 harg3 arg4 harg4 arg5 harg5 arg6 harg6 arg7 harg7 arg8 harg8 arg9 harg9 arg11 arg12 arg13 x0 x1 x2 x3 x4 x5 x6 x7 x8 r R hS
  unfold kernelRun0_A.sl.HS2_22
  refine Pieces.SlabsAre.step (Val := Elt Ideal) (e := .f32) _ r 21 (by decide) R 126 (by decide) _ _ hL fun f => ?_
  skip
  rw [pay_joint21, Rows.jointRows_apply, hS.child (⟨21, by decide⟩ : Fin 24) (by decide)]
  refine Spec.joint_congr (fun a k => ?_) (fun a => ?_) (fun a k => ?_) (fun a => ?_)
    (Spec.feats_congr (fun a => ?_) (fun a => ?_) (Spec.bone_congr fun k => ?_) (fun a => ?_)) f
  · exact slab3 arg6 harg6 x5 21 _ a k (⟨21, by decide⟩ : Fin 24) rfl
  · exact slab3 arg7 harg7 x6 21 _ a (0 : Fin 1) (⟨21, by decide⟩ : Fin 24) rfl
  · exact slab3 arg8 harg8 x7 21 _ a k (⟨21, by decide⟩ : Fin 24) rfl
  · exact slab3 arg9 harg9 x8 21 _ a (0 : Fin 1) (⟨21, by decide⟩ : Fin 24) rfl
  · unfold kernelRun0_A.sl.v675
    exact rotRows c arg1 harg1 arg11 x0 189 _ a r _ rfl
  · unfold kernelRun0_A.sl.v676
    exact posRows c arg2 harg2 arg12 x1 63 _ a r _ rfl
  · unfold kernelRun0_A.sl.v676 kernelRun0_A.sl.v614
    exact congrArg₂ (· - ·) (posRows c arg2 harg2 arg12 x1 63 _ k r _ rfl) (posRows c arg2 harg2 arg12 x1 57 _ k r _ rfl)
  · unfold kernelRun0_A.sl.v683
    rw [Pieces.readCov_rows_apply _ _ 114 _ a r (⟨114 + a.val, by have := a.isLt; omega⟩ : Fin 144) rfl]
    exact hL (⟨19, by decide⟩ : Fin 24) (by decide) a

/-- After joint 22's store: slabs 0–22 hold their joints' outputs (joint 22 from its parent 20's slab). -/
theorem slabs_23 (c : Dev nD) (arg1 : Memref sig .tc .vmem S4096x216 .f32) (harg1 : arg1.IsWhole) (arg2 : Memref sig .tc .vmem S4096x72 .f32) (harg2 : arg2.IsWhole)
    (arg3 : Memref sig .tc .vmem S6x216 .bf16) (harg3 : arg3.IsWhole) (arg4 : Memref sig .tc .vmem S6x72 .bf16) (harg4 : arg4.IsWhole)
    (arg5 : Memref sig .tc .vmem S6x1 .f32) (harg5 : arg5.IsWhole) (arg6 : Memref sig .tc .vmem S24x19x19 .bf16) (harg6 : arg6.IsWhole)
    (arg7 : Memref sig .tc .vmem S24x19x1 .f32) (harg7 : arg7.IsWhole) (arg8 : Memref sig .tc .vmem S24x6x19 .bf16) (harg8 : arg8.IsWhole)
    (arg9 : Memref sig .tc .vmem S24x6x1 .f32) (harg9 : arg9.IsWhole)
    (arg11 : Memref sig .tc .vmem S216x4096 .f32) (arg12 : Memref sig .tc .vmem S72x4096 .f32) (arg13 : Memref sig .tc .vmem S144x4096 .f32)
    (x0 : Vec Ideal S4096x216 .f32) (x1 : Vec Ideal S4096x72 .f32) (x2 : Vec Ideal S6x216 .bf16) (x3 : Vec Ideal S6x72 .bf16)
    (x4 : Vec Ideal S6x1 .f32) (x5 : Vec Ideal S24x19x19 .bf16) (x6 : Vec Ideal S24x19x1 .f32) (x7 : Vec Ideal S24x6x19 .bf16)
    (x8 : Vec Ideal S24x6x1 .f32)
    (r : Fin 4096) (R : Fin 24 → Fin 6 → EReal) (hS : Spec.Solves (blockRow x0 x1 x2 x3 x4 x5 x6 x7 x8 r) R) :
    Pieces.SlabsAre (kernelRun0_A.sl.HS2_23 c arg1 harg1 arg2 harg2 arg3 harg3 arg4 harg4 arg5 harg5 arg6 harg6 arg7 harg7 arg8 harg8 arg9 harg9 arg11 arg12 arg13 x0 x1 x2 x3 x4 x5 x6 x7 x8) r 23 R := by
  have hL := slabs_22 c arg1 harg1 arg2 harg2 arg3 harg3 arg4 harg4 arg5 harg5 arg6 harg6 arg7 harg7 arg8 harg8 arg9 harg9 arg11 arg12 arg13 x0 x1 x2 x3 x4 x5 x6 x7 x8 r R hS
  unfold kernelRun0_A.sl.HS2_23
  refine Pieces.SlabsAre.step (Val := Elt Ideal) (e := .f32) _ r 22 (by decide) R 132 (by decide) _ _ hL fun f => ?_
  skip
  rw [pay_joint22, Rows.jointRows_apply, hS.child (⟨22, by decide⟩ : Fin 24) (by decide)]
  refine Spec.joint_congr (fun a k => ?_) (fun a => ?_) (fun a k => ?_) (fun a => ?_)
    (Spec.feats_congr (fun a => ?_) (fun a => ?_) (Spec.bone_congr fun k => ?_) (fun a => ?_)) f
  · exact slab3 arg6 harg6 x5 22 _ a k (⟨22, by decide⟩ : Fin 24) rfl
  · exact slab3 arg7 harg7 x6 22 _ a (0 : Fin 1) (⟨22, by decide⟩ : Fin 24) rfl
  · exact slab3 arg8 harg8 x7 22 _ a k (⟨22, by decide⟩ : Fin 24) rfl
  · exact slab3 arg9 harg9 x8 22 _ a (0 : Fin 1) (⟨22, by decide⟩ : Fin 24) rfl
  · unfold kernelRun0_A.sl.v706
    exact rotRows c arg1 harg1 arg11 x0 198 _ a r _ rfl
  · unfold kernelRun0_A.sl.v707
    exact posRows c arg2 harg2 arg12 x1 66 _ a r _ rfl
  · unfold kernelRun0_A.sl.v707 kernelRun0_A.sl.v645
    exact congrArg₂ (· - ·) (posRows c arg2 harg2 arg12 x1 66 _ k r _ rfl) (posRows c arg2 harg2 arg12 x1 60 _ k r _ rfl)
  · unfold kernelRun0_A.sl.v714
    rw [Pieces.readCov_rows_apply _ _ 120 _ a r (⟨120 + a.val, by have := a.isLt; omega⟩ : Fin 144) rfl]
    exact hL (⟨20, by decide⟩ : Fin 24) (by decide) a

/-- After joint 23's store: slabs 0–23 hold their joints' outputs (joint 23 from its parent 21's slab). -/
theorem slabs_24 (c : Dev nD) (arg1 : Memref sig .tc .vmem S4096x216 .f32) (harg1 : arg1.IsWhole) (arg2 : Memref sig .tc .vmem S4096x72 .f32) (harg2 : arg2.IsWhole)
    (arg3 : Memref sig .tc .vmem S6x216 .bf16) (harg3 : arg3.IsWhole) (arg4 : Memref sig .tc .vmem S6x72 .bf16) (harg4 : arg4.IsWhole)
    (arg5 : Memref sig .tc .vmem S6x1 .f32) (harg5 : arg5.IsWhole) (arg6 : Memref sig .tc .vmem S24x19x19 .bf16) (harg6 : arg6.IsWhole)
    (arg7 : Memref sig .tc .vmem S24x19x1 .f32) (harg7 : arg7.IsWhole) (arg8 : Memref sig .tc .vmem S24x6x19 .bf16) (harg8 : arg8.IsWhole)
    (arg9 : Memref sig .tc .vmem S24x6x1 .f32) (harg9 : arg9.IsWhole)
    (arg11 : Memref sig .tc .vmem S216x4096 .f32) (arg12 : Memref sig .tc .vmem S72x4096 .f32) (arg13 : Memref sig .tc .vmem S144x4096 .f32)
    (x0 : Vec Ideal S4096x216 .f32) (x1 : Vec Ideal S4096x72 .f32) (x2 : Vec Ideal S6x216 .bf16) (x3 : Vec Ideal S6x72 .bf16)
    (x4 : Vec Ideal S6x1 .f32) (x5 : Vec Ideal S24x19x19 .bf16) (x6 : Vec Ideal S24x19x1 .f32) (x7 : Vec Ideal S24x6x19 .bf16)
    (x8 : Vec Ideal S24x6x1 .f32)
    (r : Fin 4096) (R : Fin 24 → Fin 6 → EReal) (hS : Spec.Solves (blockRow x0 x1 x2 x3 x4 x5 x6 x7 x8 r) R) :
    Pieces.SlabsAre (kernelRun0_A.sl.HS2_24 c arg1 harg1 arg2 harg2 arg3 harg3 arg4 harg4 arg5 harg5 arg6 harg6 arg7 harg7 arg8 harg8 arg9 harg9 arg11 arg12 arg13 x0 x1 x2 x3 x4 x5 x6 x7 x8) r 24 R := by
  have hL := slabs_23 c arg1 harg1 arg2 harg2 arg3 harg3 arg4 harg4 arg5 harg5 arg6 harg6 arg7 harg7 arg8 harg8 arg9 harg9 arg11 arg12 arg13 x0 x1 x2 x3 x4 x5 x6 x7 x8 r R hS
  unfold kernelRun0_A.sl.HS2_24
  refine Pieces.SlabsAre.step (Val := Elt Ideal) (e := .f32) _ r 23 (by decide) R 138 (by decide) _ _ hL fun f => ?_
  skip
  rw [pay_joint23, Rows.jointRows_apply, hS.child (⟨23, by decide⟩ : Fin 24) (by decide)]
  refine Spec.joint_congr (fun a k => ?_) (fun a => ?_) (fun a k => ?_) (fun a => ?_)
    (Spec.feats_congr (fun a => ?_) (fun a => ?_) (Spec.bone_congr fun k => ?_) (fun a => ?_)) f
  · exact slab3 arg6 harg6 x5 23 _ a k (⟨23, by decide⟩ : Fin 24) rfl
  · exact slab3 arg7 harg7 x6 23 _ a (0 : Fin 1) (⟨23, by decide⟩ : Fin 24) rfl
  · exact slab3 arg8 harg8 x7 23 _ a k (⟨23, by decide⟩ : Fin 24) rfl
  · exact slab3 arg9 harg9 x8 23 _ a (0 : Fin 1) (⟨23, by decide⟩ : Fin 24) rfl
  · unfold kernelRun0_A.sl.v
    exact rotRows c arg1 harg1 arg11 x0 207 _ a r _ rfl
  · unfold kernelRun0_A.sl.v738
    exact posRows c arg2 harg2 arg12 x1 69 _ a r _ rfl
  · unfold kernelRun0_A.sl.v738 kernelRun0_A.sl.v676
    exact congrArg₂ (· - ·) (posRows c arg2 harg2 arg12 x1 69 _ k r _ rfl) (posRows c arg2 harg2 arg12 x1 63 _ k r _ rfl)
  · unfold kernelRun0_A.sl.v745
    rw [Pieces.readCov_rows_apply _ _ 126 _ a r (⟨126 + a.val, by have := a.isLt; omega⟩ : Fin 144) rfl]
    exact hL (⟨21, by decide⟩ : Fin 24) (by decide) a

end Cert.KernelIdeal.Chain

end
-- ==== Proof.KernelBlock.lean ====
/-
  The kernel's output block, entry by entry.

  The block a grid point writes back is the output scratch transposed: entry `(r, 6 j + f)` of the block is row `6 j + f`,
  lane `r`, of the scratch, which after the last joint's store holds output `f` of joint `j` for the batch row on lane `r`.
-/
import proofs.«147313_j28467043238534_2_alg».proof.Proof.KernelJoints

noncomputable section

namespace Cert.KernelIdeal.Chain

open Cert.KernelIdeal Cert.KernelIdeal.Gen
open Idealize.ShloMosaic Idealize.ShloMosaic.ValueIdx

/-- The output block at `(r, 6 j + f)` is `R j f`: the block is the output scratch transposed, and slab `j` of that
    scratch holds `R j` at lane `r`. -/
theorem out_apply (c : Dev nD) (arg1 : Memref sig .tc .vmem S4096x216 .f32) (harg1 : arg1.IsWhole) (arg2 : Memref sig .tc .vmem S4096x72 .f32) (harg2 : arg2.IsWhole)
    (arg3 : Memref sig .tc .vmem S6x216 .bf16) (harg3 : arg3.IsWhole) (arg4 : Memref sig .tc .vmem S6x72 .bf16) (harg4 : arg4.IsWhole)
    (arg5 : Memref sig .tc .vmem S6x1 .f32) (harg5 : arg5.IsWhole) (arg6 : Memref sig .tc .vmem S24x19x19 .bf16) (harg6 : arg6.IsWhole)
    (arg7 : Memref sig .tc .vmem S24x19x1 .f32) (harg7 : arg7.IsWhole) (arg8 : Memref sig .tc .vmem S24x6x19 .bf16) (harg8 : arg8.IsWhole)
    (arg9 : Memref sig .tc .vmem S24x6x1 .f32) (harg9 : arg9.IsWhole)
    (arg10 : Memref sig .tc .vmem S4096x144 .f32) (harg10 : arg10.IsWhole)
    (arg11 : Memref sig .tc .vmem S216x4096 .f32) (harg11 : arg11.IsWhole) (arg12 : Memref sig .tc .vmem S72x4096 .f32) (harg12 : arg12.IsWhole)
    (arg13 : Memref sig .tc .vmem S144x4096 .f32) (harg13 : arg13.IsWhole) (i : grid0.Coords)
    (x0 : Vec Ideal S4096x216 .f32) (x1 : Vec Ideal S4096x72 .f32) (x2 : Vec Ideal S6x216 .bf16) (x3 : Vec Ideal S6x72 .bf16)
    (x4 : Vec Ideal S6x1 .f32) (x5 : Vec Ideal S24x19x19 .bf16) (x6 : Vec Ideal S24x19x1 .f32) (x7 : Vec Ideal S24x6x19 .bf16)
    (x8 : Vec Ideal S24x6x1 .f32)
    (r : Fin 4096) (R : Fin 24 → Fin 6 → EReal) (hS : Spec.Solves (blockRow x0 x1 x2 x3 x4 x5 x6 x7 x8 r) R) (j : Fin 24) (f : Fin 6) :
    out0_A_9 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8
        (ix2 r (⟨6 * j.val + f.val, by have := j.isLt; have := f.isLt; omega⟩ : Fin 144))
      = R j f := by
  unfold out0_A_9
  rw [View.read_writes_junk_eq_canon]
  unfold kernelRun0_A
  dsimp only
  rw [Pieces.canon_whole]
  unfold kernelRun0_A.sl.r_30
  rw [pay52_eq, transpose_ix2_apply]
  unfold kernelRun0_A.sl.v768
  rw [Pieces.readCov_rows_apply _ _ 0 _ (⟨6 * j.val + f.val, by have := j.isLt; have := f.isLt; omega⟩ : Fin 144) r
    (⟨6 * j.val + f.val, by have := j.isLt; have := f.isLt; omega⟩ : Fin 144) (by omega)]
  exact slabs_24 c arg1 harg1 arg2 harg2 arg3 harg3 arg4 harg4 arg5 harg5 arg6 harg6 arg7 harg7 arg8 harg8 arg9 harg9 arg11 arg12 arg13 x0 x1 x2 x3 x4 x5 x6 x7 x8 r R hS j j.isLt f

end Cert.KernelIdeal.Chain

end
-- ==== Proof.KernelArray.lean ====
/-
  From blocks to the array: what the kernel's result array holds after the run.

  The grid has 32 points; point `t` stages rows `4096 t, …, 4096 t + 4095` of the flattened rotation array [131072, 216]
  and position array [131072, 72] — reshapes of the arguments made on the host — and the whole of the weight arrays (the
  first layer's weights cut into its rotation and position parts, biases reshaped to columns; changes of float format are the
  identity here), and writes back rows `4096 t, …` of the result [131072, 144]. Lane `r` of point `t` is batch row
  `b = 4096 t + r`, and the data the body reads at that lane is batch row `b`'s data (`Cert.Spec.rowOf`). Hence, if `G`
  is a function on the result's indices whose row `b`, cut into 24 groups of 6, solves row `b`'s recurrence for every `b`,
  then what each point writes back is its block of `G`; the 32 blocks cover the array, so the array ends equal to `G`.
-/
import proofs.«147313_j28467043238534_2_alg».proof.Proof.Gen.KernelIdeal.Value
import proofs.«147313_j28467043238534_2_alg».proof.Proof.KernelBlock
import proofs.«147313_j28467043238534_2_alg».proof.Proof.Spec
import Idealize.ShloMosaic.Lib.StableHlo.Run
import Idealize.ShloMosaic.Lib.ValueLayout

noncomputable section

namespace Cert.KernelIdeal.Array

open Cert.KernelIdeal Cert.KernelIdeal.Gen
open Idealize.ShloMosaic Idealize.ShloMosaic.ValueIdx Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-! ## The index maps, decided over the 32 points -/

/-- Windows 0, 1 (the batch-major inputs) and 9 (the output) take block `t` of their first axis at point `t`; every weight
    window stays at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = 0 ∧ win0_5.index t (1 : Fin 3) = 0 ∧ win0_5.index t (2 : Fin 3) = 0
    ∧ win0_6.index t (0 : Fin 3) = 0 ∧ win0_6.index t (1 : Fin 3) = 0 ∧ win0_6.index t (2 : Fin 3) = 0
    ∧ win0_7.index t (0 : Fin 3) = 0 ∧ win0_7.index t (1 : Fin 3) = 0 ∧ win0_7.index t (2 : Fin 3) = 0
    ∧ win0_8.index t (0 : Fin 3) = 0 ∧ win0_8.index t (1 : Fin 3) = 0 ∧ win0_8.index t (2 : Fin 3) = 0
    ∧ win0_9.index t (0 : Fin 2) = t.val ∧ win0_9.index t (1 : Fin 2) = 0 :=
  (by decide +kernel : ∀ t : Fin grid0.N, _)

/-! ## The arrays the windows stage, as the host operations leave them -/

theorem V_v0 (c : Dev nD) : (V m c main_v0 : S131072x216.Idx → EReal)
    = shapeCast S131072x216 (m ((c : Thread nD τ).loc main_arg0)) shapeCasts_S131072x24x9_S131072x216 := by
  dsimp only [Gen.V, Gen.hostOps0]; after_results; rfl
theorem V_v1 (c : Dev nD) : (V m c main_v1 : S131072x72.Idx → EReal)
    = shapeCast S131072x72 (m ((c : Thread nD τ).loc main_arg1)) shapeCasts_S131072x24x3_S131072x72 := by
  dsimp only [Gen.V, Gen.hostOps0]; after_results; rfl
theorem V_v3 (c : Dev nD) : (V m c main_v3 : S6x216.Idx → EReal)
    = extractStridedSlice S6x216 ![0, 0] (m ((c : Thread nD τ).loc main_arg2)) slices_S6x288_S6x216_0_0 := by
  dsimp only [Gen.V, Gen.hostOps0]; after_results; rfl
theorem V_v5 (c : Dev nD) : (V m c main_v5 : S6x72.Idx → EReal)
    = extractStridedSlice S6x72 ![0, 216] (m ((c : Thread nD τ).loc main_arg2)) slices_S6x288_S6x72_0_216 := by
  dsimp only [Gen.V, Gen.hostOps0]; after_results; rfl
theorem V_v6 (c : Dev nD) : (V m c main_v6 : S6x1.Idx → EReal) = shapeCast S6x1 (m ((c : Thread nD τ).loc main_arg3)) shapeCasts_S6_S6x1 := by
  dsimp only [Gen.V, Gen.hostOps0]; after_results; rfl
theorem V_v7 (c : Dev nD) : (V m c main_v7 : S24x19x19.Idx → EReal) = (m ((c : Thread nD τ).loc main_arg4)) := by
  dsimp only [Gen.V, Gen.hostOps0]; after_results; rfl
theorem V_v8 (c : Dev nD) : (V m c main_v8 : S24x19x1.Idx → EReal) = shapeCast S24x19x1 (m ((c : Thread nD τ).loc main_arg5)) shapeCasts_S24x19_S24x19x1 := by
  dsimp only [Gen.V, Gen.hostOps0]; after_results; rfl
theorem V_v9 (c : Dev nD) : (V m c main_v9 : S24x6x19.Idx → EReal) = (m ((c : Thread nD τ).loc main_arg6)) := by
  dsimp only [Gen.V, Gen.hostOps0]; after_results; rfl
theorem V_v10 (c : Dev nD) : (V m c main_v10 : S24x6x1.Idx → EReal) = shapeCast S24x6x1 (m ((c : Thread nD τ).loc main_arg7)) shapeCasts_S24x6_S24x6x1 := by
  dsimp only [Gen.V, Gen.hostOps0]; after_results; rfl

/-! ## The blocks at a point, read at coordinates -/

/-- Batch row of lane `r` at point `t`. -/
def brow (t : Fin cfg0.N) (r : Fin 4096) : Fin 131072 :=
  ⟨4096 * t.val + r.val, by have := t.isLt; have hN : cfg0.N = 32 := N_0; have := r.isLt; omega⟩

theorem blk0 (c : Dev nD) (t : Fin cfg0.N) (r : Fin 4096) (k : Fin 216) :
    iblk m c 0 t (ix2 r k)
      = (m ((c : Thread nD τ).loc main_arg0)) (ix3 (brow t r) (⟨k.val / 9, by have := k.isLt; omega⟩ : Fin 24) (⟨k.val % 9, Nat.mod_lt _ (by decide)⟩ : Fin 9)) := by
  obtain ⟨e0, e1, -⟩ := idx_facts t
  show (V m c main_v0 : S131072x216.Idx → EReal) (((cfg0.win 0).blk t).view.emb (ix2 r k)) = _
  rw [V_v0]
  refine shapeCast_apply (s := S131072x24x9) (t := S131072x216) _ _ _ _ ?_
  rw [Shape.rowMajor_val_three, Shape.rowMajor_val_two]
  show ((4096 * t.val + r.val) * 24 + k.val / 9) * 9 + k.val % 9
    = (win0_0.index t (0 : Fin 2) * 4096 + 1 * r.val) * 216 + (win0_0.index t (1 : Fin 2) * 216 + 1 * k.val)
  rw [e0, e1]; omega

theorem blk1 (c : Dev nD) (t : Fin cfg0.N) (r : Fin 4096) (k : Fin 72) :
    iblk m c 1 t (ix2 r k)
      = (m ((c : Thread nD τ).loc main_arg1)) (ix3 (brow t r) (⟨k.val / 3, by have := k.isLt; omega⟩ : Fin 24) (⟨k.val % 3, Nat.mod_lt _ (by decide)⟩ : Fin 3)) := by
  obtain ⟨-, -, e0, e1, -⟩ := idx_facts t
  show (V m c main_v1 : S131072x72.Idx → EReal) (((cfg0.win 1).blk t).view.emb (ix2 r k)) = _
  rw [V_v1]
  refine shapeCast_apply (s := S131072x24x3) (t := S131072x72) _ _ _ _ ?_
  rw [Shape.rowMajor_val_three, Shape.rowMajor_val_two]
  show ((4096 * t.val + r.val) * 24 + k.val / 3) * 3 + k.val % 3
    = (win0_1.index t (0 : Fin 2) * 4096 + 1 * r.val) * 72 + (win0_1.index t (1 : Fin 2) * 72 + 1 * k.val)
  rw [e0, e1]; omega

theorem blk2 (c : Dev nD) (t : Fin cfg0.N) (f : Fin 6) (k : Fin 216) :
    iblk m c 2 t (ix2 f k) = (m ((c : Thread nD τ).loc main_arg2)) (ix2 f (⟨k.val, by have := k.isLt; omega⟩ : Fin 288)) := by
  obtain ⟨-, -, -, -, e0, e1, -⟩ := idx_facts t
  show (V m c main_v3 : S6x216.Idx → EReal) (((cfg0.win 2).blk t).view.emb (ix2 f k)) = _
  rw [V_v3]
  refine extractStridedSlice_apply _ _ _ _ _ fun ax => ?_
  match ax with
  | ⟨0, _⟩ => show f.val = 0 + (win0_2.index t (0 : Fin 2) * 6 + 1 * f.val); rw [e0]; omega
  | ⟨1, _⟩ => show k.val = 0 + (win0_2.index t (1 : Fin 2) * 216 + 1 * k.val); rw [e1]; omega

theorem blk3 (c : Dev nD) (t : Fin cfg0.N) (f : Fin 6) (k : Fin 72) :
    iblk m c 3 t (ix2 f k) = (m ((c : Thread nD τ).loc main_arg2)) (ix2 f (⟨216 + k.val, by have := k.isLt; omega⟩ : Fin 288)) := by
  obtain ⟨-, -, -, -, -, -, e0, e1, -⟩ := idx_facts t
  show (V m c main_v5 : S6x72.Idx → EReal) (((cfg0.win 3).blk t).view.emb (ix2 f k)) = _
  rw [V_v5]
  refine extractStridedSlice_apply _ _ _ _ _ fun ax => ?_
  match ax with
  | ⟨0, _⟩ => show f.val = 0 + (win0_3.index t (0 : Fin 2) * 6 + 1 * f.val); rw [e0]; omega
  | ⟨1, _⟩ => show 216 + k.val = 216 + (win0_3.index t (1 : Fin 2) * 72 + 1 * k.val); rw [e1]; omega

theorem blk4 (c : Dev nD) (t : Fin cfg0.N) (f : Fin 6) :
    iblk m c 4 t (ix2 f (0 : Fin 1)) = (m ((c : Thread nD τ).loc main_arg3)) (ix1 f) := by
  obtain ⟨-, -, -, -, -, -, -, -, e0, e1, -⟩ := idx_facts t
  show (V m c main_v6 : S6x1.Idx → EReal) (((cfg0.win 4).blk t).view.emb (ix2 f (0 : Fin 1))) = _
  rw [V_v6]
  refine shapeCast_apply (s := S6) (t := S6x1) _ _ _ _ ?_
  rw [Shape.rowMajor_val_two, Shape.rowMajor_val_one]
  show f.val = (win0_4.index t (0 : Fin 2) * 6 + 1 * f.val) * 1 + (win0_4.index t (1 : Fin 2) * 1 + 1 * 0)
  rw [e0, e1]; omega

theorem blk5 (c : Dev nD) (t : Fin cfg0.N) (j : Fin 24) (a k : Fin 19) :
    iblk m c 5 t (ix3 j a k) = (m ((c : Thread nD τ).loc main_arg4)) (ix3 j a k) := by
  obtain ⟨-, -, -, -, -, -, -, -, -, -, e0, e1, e2, -⟩ := idx_facts t
  show (V m c main_v7 : S24x19x19.Idx → EReal) (((cfg0.win 5).blk t).view.emb (ix3 j a k)) = _
  rw [V_v7]
  refine congrArg _ (funext fun ax => Fin.ext ?_)
  match ax with
  | ⟨0, _⟩ => show win0_5.index t (0 : Fin 3) * 24 + 1 * j.val = j.val; rw [e0]; omega
  | ⟨1, _⟩ => show win0_5.index t (1 : Fin 3) * 19 + 1 * a.val = a.val; rw [e1]; omega
  | ⟨2, _⟩ => show win0_5.index t (2 : Fin 3) * 19 + 1 * k.val = k.val; rw [e2]; omega

theorem blk6 (c : Dev nD) (t : Fin cfg0.N) (j : Fin 24) (a : Fin 19) :
    iblk m c 6 t (ix3 j a (0 : Fin 1)) = (m ((c : Thread nD τ).loc main_arg5)) (ix2 j a) := by
  obtain ⟨-, -, -, -, -, -, -, -, -, -, -, -, -, e0, e1, e2, -⟩ := idx_facts t
  show (V m c main_v8 : S24x19x1.Idx → EReal) (((cfg0.win 6).blk t).view.emb (ix3 j a (0 : Fin 1))) = _
  rw [V_v8]
  refine shapeCast_apply (s := S24x19) (t := S24x19x1) _ _ _ _ ?_
  rw [Shape.rowMajor_val_two, Shape.rowMajor_val_three]
  show j.val * 19 + a.val
    = ((win0_6.index t (0 : Fin 3) * 24 + 1 * j.val) * 19 + (win0_6.index t (1 : Fin 3) * 19 + 1 * a.val)) * 1
      + (win0_6.index t (2 : Fin 3) * 1 + 1 * 0)
  rw [e0, e1, e2]; omega

theorem blk7 (c : Dev nD) (t : Fin cfg0.N) (j : Fin 24) (a : Fin 6) (k : Fin 19) :
    iblk m c 7 t (ix3 j a k) = (m ((c : Thread nD τ).loc main_arg6)) (ix3 j a k) := by
  obtain ⟨-, -, -, -, -, -, -, -, -, -, -, -, -, -, -, -, e0, e1, e2, -⟩ := idx_facts t
  show (V m c main_v9 : S24x6x19.Idx → EReal) (((cfg0.win 7).blk t).view.emb (ix3 j a k)) = _
  rw [V_v9]
  refine congrArg _ (funext fun ax => Fin.ext ?_)
  match ax with
  | ⟨0, _⟩ => show win0_7.index t (0 : Fin 3) * 24 + 1 * j.val = j.val; rw [e0]; omega
  | ⟨1, _⟩ => show win0_7.index t (1 : Fin 3) * 6 + 1 * a.val = a.val; rw [e1]; omega
  | ⟨2, _⟩ => show win0_7.index t (2 : Fin 3) * 19 + 1 * k.val = k.val; rw [e2]; omega

theorem blk8 (c : Dev nD) (t : Fin cfg0.N) (j : Fin 24) (a : Fin 6) :
    iblk m c 8 t (ix3 j a (0 : Fin 1)) = (m ((c : Thread nD τ).loc main_arg7)) (ix2 j a) := by
  obtain ⟨-, -, -, -, -, -, -, -, -, -, -, -, -, -, -, -, -, -, -, e0, e1, e2, -⟩ := idx_facts t
  show (V m c main_v10 : S24x6x1.Idx → EReal) (((cfg0.win 8).blk t).view.emb (ix3 j a (0 : Fin 1))) = _
  rw [V_v10]
  refine shapeCast_apply (s := S24x6) (t := S24x6x1) _ _ _ _ ?_
  rw [Shape.rowMajor_val_two, Shape.rowMajor_val_three]
  show j.val * 6 + a.val
    = ((win0_8.index t (0 : Fin 3) * 24 + 1 * j.val) * 6 + (win0_8.index t (1 : Fin 3) * 6 + 1 * a.val)) * 1
      + (win0_8.index t (2 : Fin 3) * 1 + 1 * 0)
  rw [e0, e1, e2]; omega

/-- The data the body reads at lane `r` of point `t` is batch row `4096 t + r`'s data. -/
theorem blockRow_eq (c : Dev nD) (t : Fin cfg0.N) (r : Fin 4096) :
    Chain.blockRow (iblk m c 0 t) (iblk m c 1 t) (iblk m c 2 t) (iblk m c 3 t) (iblk m c 4 t) (iblk m c 5 t) (iblk m c 6 t)
        (iblk m c 7 t) (iblk m c 8 t) r
      = Spec.rowOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (brow t r) := by
  unfold Chain.blockRow Spec.rowOf
  congr 1
  · funext j a
    rw [blk0]
    refine congrArg _ (congrArg₂ (ix3 (brow t r)) (Fin.ext ?_) (Fin.ext ?_))
    · show (9 * j.val + a.val) / 9 = j.val; have := a.isLt; omega
    · show (9 * j.val + a.val) % 9 = a.val; have := a.isLt; omega
  · funext j a
    rw [blk1]
    refine congrArg _ (congrArg₂ (ix3 (brow t r)) (Fin.ext ?_) (Fin.ext ?_))
    · show (3 * j.val + a.val) / 3 = j.val; have := a.isLt; omega
    · show (3 * j.val + a.val) % 3 = a.val; have := a.isLt; omega
  · funext f
    refine congrArg₂ (· + ·) (congrArg₂ (· + ·) (Finset.sum_congr rfl fun k _ => ?_) (Finset.sum_congr rfl fun k _ => ?_)) ?_
    · rw [blk2, blk0]
    · rw [blk3, blk1]
    · exact blk4 m c t f
  · funext j a k; exact blk5 m c t j a k
  · funext j a; exact blk6 m c t j a
  · funext j a k; exact blk7 m c t j a k
  · funext j a; exact blk8 m c t j a

/-! ## What a point writes back, the cover, the array -/

section Final

variable (G : Dev nD → S131072x144.Idx → EReal)
variable (hG : ∀ (c : Dev nD) (b : Fin 131072), Spec.Solves (Spec.rowOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) b)
  (fun j f => G c (ix2 b (⟨6 * j.val + f.val, by have := j.isLt; have := f.isLt; omega⟩ : Fin 144))))

include hG in
/-- What point `t` writes back is its block of `G`. -/
theorem flushed_eq (c : Dev nD) (t : Fin cfg0.N) :
    (dats m 0 c).flushed 9 t = ((cfg0.win 9).blk t).view.read (Elt Ideal) (G c) := by
  rw [Value.flushed9_A]
  obtain ⟨e0, e1⟩ := (idx_facts t).2.2.2.2.2.2.2.2.2.2.2.2.2.2.2.2.2.2.2.2.2.2
  funext y
  have h0 : (y 0).val < 4096 := (y 0).isLt
  have h1 : (y 1).val < 144 := (y 1).isLt
  have hy : y = ix2 (⟨(y 0).val, h0⟩ : Fin 4096)
      (⟨6 * ((⟨(y 1).val / 6, by omega⟩ : Fin 24)).val + ((⟨(y 1).val % 6, Nat.mod_lt _ (by decide)⟩ : Fin 6)).val, by
        show 6 * ((y 1).val / 6) + (y 1).val % 6 < 144; omega⟩ : Fin 144) := by
    funext a; apply Fin.ext
    match a with
    | ⟨0, _⟩ => rfl
    | ⟨1, _⟩ => show (y 1).val = 6 * ((y 1).val / 6) + (y 1).val % 6; omega
  show out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) y = G c (((cfg0.win 9).blk t).view.emb y)
  have hS := hG c (brow t ⟨(y 0).val, h0⟩)
  rw [← blockRow_eq m c t ⟨(y 0).val, h0⟩] at hS
  have key := Chain.out_apply c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (grid0.coords t) (iblk m c 0 t) (iblk m c 1 t) (iblk m c 2 t) (iblk m c 3 t) (iblk m c 4 t) (iblk m c 5 t) (iblk m c 6 t) (iblk m c 7 t) (iblk m c 8 t) ⟨(y 0).val, h0⟩ _ hS
    (⟨(y 1).val / 6, by omega⟩ : Fin 24) (⟨(y 1).val % 6, Nat.mod_lt _ (by decide)⟩ : Fin 6)
  rw [← hy] at key
  rw [key]
  refine congrArg (G c) (funext fun a => Fin.ext ?_)
  match a with
  | ⟨0, _⟩ => show 4096 * t.val + (y 0).val = win0_9.index t (0 : Fin 2) * 4096 + 1 * (y 0).val; rw [e0]; omega
  | ⟨1, _⟩ => show 6 * ((y 1).val / 6) + (y 1).val % 6 = win0_9.index t (1 : Fin 2) * 144 + 1 * (y 1).val; rw [e1]; omega

/-- An index of the result is in point `t`'s block iff its row is among rows `4096 t, …, 4096 t + 4095`. -/
theorem mem_blk (t : Fin cfg0.N) (i : S131072x144.Idx) :
    i ∈ ((cfg0.win 9).blk t).view.set ↔ ∀ a : Fin 2, win0_9.index t a * S4096x144.size a ≤ (i a).val
      ∧ (i a).val < win0_9.index t a * S4096x144.size a + S4096x144.size a := by
  show i ∈ ((View.whole main_v11).slice (win0_9.rect t)).set ↔ _
  rw [View.set_slice_whole, Rect.mem_set_unit]
  exact Iff.rfl

/-- Every index of the result is in the block of the point its row falls in. -/
theorem cover (i : S131072x144.Idx) :
    ∃ t : Fin cfg0.N, (cfg0.win 9).flush t = true ∧ i ∈ ((cfg0.win 9).blk t).view.set := by
  have hi0 : (i 0).val < 131072 := (i 0).isLt
  have hi1 : (i 1).val < 144 := (i 1).isLt
  let t : Fin cfg0.N := Fin.cast N_0.symm (⟨(i 0).val / 4096, by omega⟩ : Fin 32)
  have ht : t.val = (i 0).val / 4096 := rfl
  obtain ⟨e0, e1⟩ := (idx_facts t).2.2.2.2.2.2.2.2.2.2.2.2.2.2.2.2.2.2.2.2.2.2
  refine ⟨t, flush0_9 t, ?_⟩
  rw [mem_blk]
  intro a
  match a with
  | ⟨0, _⟩ =>
    show win0_9.index t (0 : Fin 2) * 4096 ≤ (i 0).val ∧ (i 0).val < win0_9.index t (0 : Fin 2) * 4096 + 4096
    rw [e0, ht]; omega
  | ⟨1, _⟩ =>
    show win0_9.index t (1 : Fin 2) * 144 ≤ (i 1).val ∧ (i 1).val < win0_9.index t (1 : Fin 2) * 144 + 144
    rw [e1]; omega

include hG in
/-- The result array after the run is `G`. -/
theorem final (c : Dev nD) : (dats m 0 c).arrAt 9 cfg0.N = G c :=
  (dats m 0 c).arrAt_eq_of_cover 9 (G c) (fun t _ => flushed_eq m G hG c t) cover

include hG in
/-- The kernel's run: every weakly fair execution ends with the result array at `G` and the arguments unchanged. -/
theorem run : θ_run defs (onTc (τ := τ) (main (F := Ideal))) ⟨m, fun _ => 0, ρ⟩ fun r => ∀ c : Dev nD,
      r.2.mem ((c : Thread nD τ).loc main_v11) = G c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m G hG c), (h c).2⟩) (Value.run_blocks m ρ)

end Final

end Cert.KernelIdeal.Array

end
-- ==== Proof.LibHostProduct.lean ====
/-
  A plain matrix product computed on the host, read at one entry.

  For a matrix `l` of shape `[M, K]` and a matrix `r` of shape `[K, N]`, contracted over `l`'s second axis and `r`'s first,
  the host's product has no accumulator: its entry `(p, c)` on the extended reals is `∑ k, l[p, k] · r[k, c]`. The
  contraction index has a single axis of extent `K` and is traded for its one coordinate `k`, and the operand indices at
  the output index `(p, c)` and contraction coordinate `k` are `(p, k)` and `(k, c)`.

  The dimension numbers enter only through six facts, which a caller proves for its own record: the contraction shape
  has rank one (`hr`) and extent `K` (`hs`), and the four coordinates of the two operand indices (`hl0`, `hl1`, `hr0`,
  `hr1`). The operands' float formats are arbitrary.
-/
import Idealize.ShloMosaic.Lib.ValueIdx
import Idealize.ShloMosaic.PureOps.Ideal.Laws

noncomputable section

namespace Cert.HostProduct

open Idealize.ShloMosaic Idealize.ShloMosaic.ValueIdx

/-- Entry `(p, c)` of the host's `[M, K]` by `[K, N]` product is `∑ k, l[p, k] · r[k, c]`, for any dimension numbers `D`
    whose contraction has the one axis of extent `K` and whose operand indices read `(p, k)` and `(k, c)`. -/
theorem dotGeneral_entry {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q (0 : Fin 2)).val = (j (0 : Fin 2)).val)
    (hl1 : ∀ (j : (⟨2, ![M, N]⟩ : Shape).Idx) (q : D.contr.Idx), (D.lhsIdx j q (1 : Fin 2)).val = (q ⟨0, by omega⟩).val)
    (hr0 : ∀ (j : (⟨2, ![M, N]⟩ : Shape).Idx) (q : D.contr.Idx), (D.rhsIdx j q (0 : Fin 2)).val = (q ⟨0, by omega⟩).val)
    (hr1 : ∀ (j : (⟨2, ![M, N]⟩ : Shape).Idx) (q : D.contr.Idx), (D.rhsIdx j q (1 : Fin 2)).val = (j (1 : Fin 2)).val)
    {φ₁ φ₂ : FTy} (l : FVec Ideal ⟨2, ![M, K]⟩ φ₁) (r : FVec Ideal ⟨2, ![K, N]⟩ φ₂) (p : Fin M) (c : Fin N) :
    Host.dotGeneral (F := Ideal) D none l r (ix2 p c) = ∑ k : Fin K, l (ix2 p k) * r (ix2 k c) := by
  show FloatOps.dotGeneral D none .single l r (ix2 p c) = _
  rw [Ideal.dotGeneral_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k :=
    funext fun a => Fin.ext (by
      match a with
      | ⟨0, _⟩ => exact hl0 (ix2 p c) _
      | ⟨1, _⟩ => exact (hl1 (ix2 p c) _).trans hk)
  have er : D.rhsIdx (ix2 p c) ((contrEquiv1 D K hr hs).symm k) = ix2 k c :=
    funext fun a => Fin.ext (by
      match a with
      | ⟨0, _⟩ => exact (hr0 (ix2 p c) _).trans hk
      | ⟨1, _⟩ => exact hr1 (ix2 p c) _)
  rw [el, er]

end Cert.HostProduct

end
-- ==== Proof.LibHostLayout.lean ====
/-
  The host's broadcasts of a vector along the rows or along the columns of a matrix, read at an entry.

  A length-a vector placed as an a × 1 column and that column repeated across b columns holds, at (p, c), the vector's
  entry p. A length-b vector placed as a 1 × b row and that row repeated down a rows holds, at (p, c), the vector's
  entry c. These are the forms a per-row quantity (a row maximum, a row sum) and a bias take when they are combined
  with a matrix entry by entry.
-/
import Idealize.ShloMosaic.Lib.Pipeline.Value
import Idealize.ShloMosaic.Lib.ValueIdx

namespace Cert.HostLayout

open Idealize.ShloMosaic Idealize.ShloMosaic.ValueIdx

variable {α : Type}

/-- An `[a]` array broadcast in dimension 0 to `[a, 1]` reads, at `(p, u)`, the operand at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- An `[a, 1]` column broadcast in dimensions (0, 1) to `[a, b]` reads, at `(p, c)`, the column's entry `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A `[b]` array broadcast in dimension 1 to `[1, b]` reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- A `[1, b]` row broadcast in dimensions (0, 1) to `[a, b]` reads, at `(p, c)`, the row's entry `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ =>
    show (0 : ℕ) = if (1 : ℕ) = 1 then 0 else p.val
    rw [if_pos rfl]
  | ⟨1, _⟩ =>
    show c.val = if b = 1 then 0 else c.val
    split
    · have := c.isLt; omega
    · rfl

/-- A rank-0 array broadcast to any shape reads, everywhere, its one entry. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 fun ax => ax.elim0

end Cert.HostLayout
-- ==== Proof.RefSlabs.lean ====
/-
  Layout facts about the reference program's slabs, each generic in the offset.

  Joint o's data are cut out of the argument arrays by a unit-extent slice at offset o followed by a reshape that drops
  the unit axis: along the middle axis of the per-row arrays [B, 24, n], along the leading axis of the per-joint layer
  arrays [24, a, b] and [24, a]. Read at an index, each such slab is the source array at the same coordinates with o put
  back on the cut axis. A concatenation of matrices side by side, read at a column, is the piece holding that column read
  at the column less the widths of the pieces before it.
-/
import Idealize.ShloMosaic.Lib.ValueLayout

namespace Cert.RefLayout

open Idealize.ShloMosaic Idealize.ShloMosaic.ValueIdx

variable {α : Type}

/-! ## The unit-extent slices exist at every offset inside the cut axis -/

/-- A unit slab along the middle axis of a rank-3 array, at any offset below the extent. -/
theorem slices_mid {n0 n1 n2 : ℕ} (o : ℕ) (ho : o < n1) :
    (⟨3, ![n0, n1, n2]⟩ : Shape).Slices ![0, o, 0] ⟨3, ![n0, 1, n2]⟩ :=
  ⟨rfl, fun a => by
    match a with
    | ⟨0, _⟩ => show 0 + n0 ≤ n0; omega
    | ⟨1, _⟩ => show o + 1 ≤ n1; omega
    | ⟨2, _⟩ => show 0 + n2 ≤ n2; omega⟩

/-- A unit slab along the leading axis of a rank-3 array, at any offset below the extent. -/
theorem slices_lead3 {n0 n1 n2 : ℕ} (o : ℕ) (ho : o < n0) :
    (⟨3, ![n0, n1, n2]⟩ : Shape).Slices ![o, 0, 0] ⟨3, ![1, n1, n2]⟩ :=
  ⟨rfl, fun a => by
    match a with
    | ⟨0, _⟩ => show o + 1 ≤ n0; omega
    | ⟨1, _⟩ => show 0 + n1 ≤ n1; omega
    | ⟨2, _⟩ => show 0 + n2 ≤ n2; omega⟩

/-- A single row of a matrix, at any offset below the number of rows. -/
theorem slices_lead2 {n0 n1 : ℕ} (o : ℕ) (ho : o < n0) :
    (⟨2, ![n0, n1]⟩ : Shape).Slices ![o, 0] ⟨2, ![1, n1]⟩ :=
  ⟨rfl, fun a => by
    match a with
    | ⟨0, _⟩ => show o + 1 ≤ n0; omega
    | ⟨1, _⟩ => show 0 + n1 ≤ n1; omega⟩

/-! ## The slabs read at an index -/

/-- The slab at offset `o` of the middle axis of an `[n0, n1, n2]` array, as an `[n0, n2]` matrix, holds at `(a, e)` the
    array's entry `(a, o, e)`. -/
theorem slab_mid_apply {n0 n1 n2 : ℕ} (o : ℕ) (ho : o < n1) (X : (⟨3, ![n0, n1, n2]⟩ : Shape).Idx → α)
    (h : (⟨3, ![n0, n1, n2]⟩ : Shape).Slices ![0, o, 0] ⟨3, ![n0, 1, n2]⟩)
    (hc : (⟨3, ![n0, 1, n2]⟩ : Shape).ShapeCasts ⟨2, ![n0, n2]⟩) (a : Fin n0) (e : Fin n2) :
    shapeCast ⟨2, ![n0, n2]⟩ (extractStridedSlice ⟨3, ![n0, 1, n2]⟩ ![0, o, 0] X h) hc (ix2 a e)
      = X (ix3 a (⟨o, ho⟩ : Fin n1) e) := by
  refine (shapeCast_apply _ hc (ix2 a e) (ix3 a (0 : Fin 1) e) ?_).trans ?_
  · rw [Shape.rowMajor_val_three, Shape.rowMajor_val_two]
    show (a.val * 1 + 0) * n2 + e.val = a.val * n2 + e.val
    rw [Nat.mul_one, Nat.add_zero]
  · exact slice3_axis1_apply o X h a (0 : Fin 1) e ⟨o, ho⟩ rfl

/-- The slab at offset `o` of the leading axis of an `[n0, n1, n2]` array, as an `[n1, n2]` matrix, holds at `(i, j)` the
    array's entry `(o, i, j)`. -/
theorem slab_lead3_apply {n0 n1 n2 : ℕ} (o : ℕ) (ho : o < n0) (X : (⟨3, ![n0, n1, n2]⟩ : Shape).Idx → α)
    (h : (⟨3, ![n0, n1, n2]⟩ : Shape).Slices ![o, 0, 0] ⟨3, ![1, n1, n2]⟩)
    (hc : (⟨3, ![1, n1, n2]⟩ : Shape).ShapeCasts ⟨2, ![n1, n2]⟩) (i : Fin n1) (j : Fin n2) :
    shapeCast ⟨2, ![n1, n2]⟩ (extractStridedSlice ⟨3, ![1, n1, n2]⟩ ![o, 0, 0] X h) hc (ix2 i j)
      = X (ix3 (⟨o, ho⟩ : Fin n0) i j) := by
  refine (shapeCast_1ab_ab_apply _ hc i j).trans ?_
  exact extractStridedSlice_apply _ X h _ _ (fun ax => by
    match ax with
    | ⟨0, _⟩ => rfl
    | ⟨1, _⟩ => exact (Nat.zero_add _).symm
    | ⟨2, _⟩ => exact (Nat.zero_add _).symm)

/-- Row `o` of an `[n0, n1]` matrix, as a vector, holds at `i` the matrix's entry `(o, i)`. -/
theorem slab_lead2_apply {n0 n1 : ℕ} (o : ℕ) (ho : o < n0) (X : (⟨2, ![n0, n1]⟩ : Shape).Idx → α)
    (h : (⟨2, ![n0, n1]⟩ : Shape).Slices ![o, 0] ⟨2, ![1, n1]⟩)
    (hc : (⟨2, ![1, n1]⟩ : Shape).ShapeCasts ⟨1, ![n1]⟩) (i : Fin n1) :
    shapeCast ⟨1, ![n1]⟩ (extractStridedSlice ⟨2, ![1, n1]⟩ ![o, 0] X h) hc (ix1 i)
      = X (ix2 (⟨o, ho⟩ : Fin n0) i) := by
  refine (shapeCast_1a_a_apply _ hc i).trans ?_
  exact slice2_axis0_apply o X h (0 : Fin 1) i ⟨o, ho⟩ rfl

/-! ## Matrices laid side by side -/

/-- A concatenation of `[B, nᵢ]` matrices along the columns, read at `(b, col)`: if the pieces before piece `k` have
    `pre` columns in all and `col = pre + c` with `c` a column of piece `k`, it is piece `k` at `(b, c)`. -/
theorem concat_cols_apply {B N : ℕ} (xs : List ((s : Shape) × (s.Idx → α)))
    (h : Shape.Concatenates (xs.map (·.1)) ⟨2, ![B, N]⟩ 1)
    (k : ℕ) (hk : k < xs.length) (n : ℕ) (x₁ : (⟨2, ![B, n]⟩ : Shape).Idx → α)
    (hxk : xs[k] = ⟨⟨2, ![B, n]⟩, x₁⟩) (pre : ℕ)
    (hpre : (((xs.take k).map (·.1)).map fun s =>
      if h : s.rank = (⟨2, ![B, N]⟩ : Shape).rank then s.size ((1 : Fin (⟨2, ![B, N]⟩ : Shape).rank).cast h.symm) else 0).sum = pre)
    (b : Fin B) (c : Fin n) (col : Fin N) (hc : pre + c.val = col.val) :
    concatenate ⟨2, ![B, N]⟩ 1 xs h (ix2 b col) = x₁ (ix2 b c) :=
  concatenate_apply_piece 1 xs h (ix2 b col) k hk ⟨2, ![B, n]⟩ x₁ hxk rfl pre hpre (ix2 b c)
    (fun a => by
      match a with
      | ⟨0, _⟩ => exact fun _ => rfl
      | ⟨1, _⟩ => exact fun hne => absurd rfl hne)
    hc

end Cert.RefLayout
-- ==== Proof.RefJoint.lean ====
/-
  One joint's network in the reference program, read at one entry.

  The reference computes a joint's six outputs for all batch rows at once: it lays the joint's rotation slab [B, 9], its
  position slab [B, 3], the bone-length column [B, 1] and the inherited six columns [B, 6] side by side into a [B, 19]
  matrix, multiplies by the transposed first layer, adds the bias row, takes the maximum with zero, multiplies by the
  transposed second layer and adds the second bias row. The bone-length column is the square root of the row sums of the
  squared entries of a [B, 3] matrix of bone vectors.

  Here those operations are composed once, as a function of the slabs, and read at the entry (b, f): the result is the
  per-row network of the specification applied to row b's 19 features. The only algebra is the commutation of each product
  under the two sums (the program multiplies the feature by the weight, the specification the weight by the feature) and
  the initial zero of the row sum.
-/
import proofs.«147313_j28467043238534_2_alg».proof.Proof.Gen.ReferenceIdeal
import Idealize.ShloMosaic.Lib.Pipeline.Value
import Idealize.ShloMosaic.Lib.ValueIdx
import Idealize.ShloMosaic.PureOps.Ideal.Laws
import proofs.«147313_j28467043238534_2_alg».proof.Proof.LibHostProduct
import proofs.«147313_j28467043238534_2_alg».proof.Proof.LibHostLayout
import proofs.«147313_j28467043238534_2_alg».proof.Proof.Spec
import proofs.«147313_j28467043238534_2_alg».proof.Proof.RefSlabs

noncomputable section

namespace Cert.ReferenceIdeal.Chain

open Cert.ReferenceIdeal Cert.ReferenceIdeal.Gen Idealize.ShloMosaic Idealize.ShloMosaic.ValueIdx

/-! ## The three products' dimension numbers

Each of the program's three matrix products contracts the left operand's second axis with the right operand's first: at
the output index `(p, c)` and contraction coordinate `k` the operands are read at `(p, k)` and `(k, c)`. -/

theorem globDot_lhs0 (i : S131072x6.Idx) (q : dot_S131072x288_S288x6_S131072x6_1_0_0_1_n_n.contr.Idx) :
    (dot_S131072x288_S288x6_S131072x6_1_0_0_1_n_n.lhsIdx i q 0).val = (i 0).val := by
  unfold DotDims.lhsIdx
  rw [dif_neg (show ¬(0 : Fin S131072x288.rank) ∈ dot_S131072x288_S288x6_S131072x6_1_0_0_1_n_n.lhsBatch by decide), dif_pos (show (0 : Fin S131072x288.rank) ∈ dot_S131072x288_S288x6_S131072x6_1_0_0_1_n_n.lhsNonContracting by decide)]
  rfl
theorem globDot_lhs1 (i : S131072x6.Idx) (q : dot_S131072x288_S288x6_S131072x6_1_0_0_1_n_n.contr.Idx) :
    (dot_S131072x288_S288x6_S131072x6_1_0_0_1_n_n.lhsIdx i q 1).val = (q ⟨0, by decide⟩).val :=
  dot_S131072x288_S288x6_S131072x6_1_0_0_1_n_n.lhsIdx_val_of_single rfl i q
theorem globDot_rhs0 (i : S131072x6.Idx) (q : dot_S131072x288_S288x6_S131072x6_1_0_0_1_n_n.contr.Idx) :
    (dot_S131072x288_S288x6_S131072x6_1_0_0_1_n_n.rhsIdx i q 0).val = (q ⟨0, by decide⟩).val :=
  dot_S131072x288_S288x6_S131072x6_1_0_0_1_n_n.rhsIdx_val_of_single rfl i q
theorem globDot_rhs1 (i : S131072x6.Idx) (q : dot_S131072x288_S288x6_S131072x6_1_0_0_1_n_n.contr.Idx) :
    (dot_S131072x288_S288x6_S131072x6_1_0_0_1_n_n.rhsIdx i q 1).val = (i 1).val := by
  unfold DotDims.rhsIdx
  rw [dif_neg (show ¬(1 : Fin S288x6.rank) ∈ dot_S131072x288_S288x6_S131072x6_1_0_0_1_n_n.rhsBatch by decide), dif_pos (show (1 : Fin S288x6.rank) ∈ dot_S131072x288_S288x6_S131072x6_1_0_0_1_n_n.rhsNonContracting by decide)]
  rfl
theorem firstDot_lhs0 (i : S131072x19.Idx) (q : dot_S131072x19_S19x19_S131072x19_1_0_0_1_n_n.contr.Idx) :
    (dot_S131072x19_S19x19_S131072x19_1_0_0_1_n_n.lhsIdx i q 0).val = (i 0).val := by
  unfold DotDims.lhsIdx
  rw [dif_neg (show ¬(0 : Fin S131072x19.rank) ∈ dot_S131072x19_S19x19_S131072x19_1_0_0_1_n_n.lhsBatch by decide), dif_pos (show (0 : Fin S131072x19.rank) ∈ dot_S131072x19_S19x19_S131072x19_1_0_0_1_n_n.lhsNonContracting by decide)]
  rfl
theorem firstDot_lhs1 (i : S131072x19.Idx) (q : dot_S131072x19_S19x19_S131072x19_1_0_0_1_n_n.contr.Idx) :
    (dot_S131072x19_S19x19_S131072x19_1_0_0_1_n_n.lhsIdx i q 1).val = (q ⟨0, by decide⟩).val :=
  dot_S131072x19_S19x19_S131072x19_1_0_0_1_n_n.lhsIdx_val_of_single rfl i q
theorem firstDot_rhs0 (i : S131072x19.Idx) (q : dot_S131072x19_S19x19_S131072x19_1_0_0_1_n_n.contr.Idx) :
    (dot_S131072x19_S19x19_S131072x19_1_0_0_1_n_n.rhsIdx i q 0).val = (q ⟨0, by decide⟩).val :=
  dot_S131072x19_S19x19_S131072x19_1_0_0_1_n_n.rhsIdx_val_of_single rfl i q
theorem firstDot_rhs1 (i : S131072x19.Idx) (q : dot_S131072x19_S19x19_S131072x19_1_0_0_1_n_n.contr.Idx) :
    (dot_S131072x19_S19x19_S131072x19_1_0_0_1_n_n.rhsIdx i q 1).val = (i 1).val := by
  unfold DotDims.rhsIdx
  rw [dif_neg (show ¬(1 : Fin S19x19.rank) ∈ dot_S131072x19_S19x19_S131072x19_1_0_0_1_n_n.rhsBatch by decide), dif_pos (show (1 : Fin S19x19.rank) ∈ dot_S131072x19_S19x19_S131072x19_1_0_0_1_n_n.rhsNonContracting by decide)]
  rfl
theorem secondDot_lhs0 (i : S131072x6.Idx) (q : dot_S131072x19_S19x6_S131072x6_1_0_0_1_n_n.contr.Idx) :
    (dot_S131072x19_S19x6_S131072x6_1_0_0_1_n_n.lhsIdx i q 0).val = (i 0).val := by
  unfold DotDims.lhsIdx
  rw [dif_neg (show ¬(0 : Fin S131072x19.rank) ∈ dot_S131072x19_S19x6_S131072x6_1_0_0_1_n_n.lhsBatch by decide), dif_pos (show (0 : Fin S131072x19.rank) ∈ dot_S131072x19_S19x6_S131072x6_1_0_0_1_n_n.lhsNonContracting by decide)]
  rfl
theorem secondDot_lhs1 (i : S131072x6.Idx) (q : dot_S131072x19_S19x6_S131072x6_1_0_0_1_n_n.contr.Idx) :
    (dot_S131072x19_S19x6_S131072x6_1_0_0_1_n_n.lhsIdx i q 1).val = (q ⟨0, by decide⟩).val :=
  dot_S131072x19_S19x6_S131072x6_1_0_0_1_n_n.lhsIdx_val_of_single rfl i q
theorem secondDot_rhs0 (i : S131072x6.Idx) (q : dot_S131072x19_S19x6_S131072x6_1_0_0_1_n_n.contr.Idx) :
    (dot_S131072x19_S19x6_S131072x6_1_0_0_1_n_n.rhsIdx i q 0).val = (q ⟨0, by decide⟩).val :=
  dot_S131072x19_S19x6_S131072x6_1_0_0_1_n_n.rhsIdx_val_of_single rfl i q
theorem secondDot_rhs1 (i : S131072x6.Idx) (q : dot_S131072x19_S19x6_S131072x6_1_0_0_1_n_n.contr.Idx) :
    (dot_S131072x19_S19x6_S131072x6_1_0_0_1_n_n.rhsIdx i q 1).val = (i 1).val := by
  unfold DotDims.rhsIdx
  rw [dif_neg (show ¬(1 : Fin S19x6.rank) ∈ dot_S131072x19_S19x6_S131072x6_1_0_0_1_n_n.rhsBatch by decide), dif_pos (show (1 : Fin S19x6.rank) ∈ dot_S131072x19_S19x6_S131072x6_1_0_0_1_n_n.rhsNonContracting by decide)]
  rfl

/-! ## An affine layer applied to every row -/

/-- A `[B, K]` matrix times the transpose of an `[N, K]` weight matrix, plus an `[N]` bias repeated down the rows, is at
    `(b, f)` the affine layer of the specification applied to row `b`: `∑ k, w[f, k] · X[b, k] + bias[f]`. -/
theorem affine_apply {B K N : ℕ} (D : DotDims ⟨2, ![B, K]⟩ ⟨2, ![K, N]⟩ ⟨2, ![B, N]⟩)
    (hr : D.contr.rank = 1) (hs : D.contr.size ⟨0, by omega⟩ = K)
    (hl0 : ∀ (j : (⟨2, ![B, N]⟩ : Shape).Idx) (q : D.contr.Idx), (D.lhsIdx j q (0 : Fin 2)).val = (j (0 : Fin 2)).val)
    (hl1 : ∀ (j : (⟨2, ![B, N]⟩ : Shape).Idx) (q : D.contr.Idx), (D.lhsIdx j q (1 : Fin 2)).val = (q ⟨0, by omega⟩).val)
    (hr0 : ∀ (j : (⟨2, ![B, N]⟩ : Shape).Idx) (q : D.contr.Idx), (D.rhsIdx j q (0 : Fin 2)).val = (q ⟨0, by omega⟩).val)
    (hr1 : ∀ (j : (⟨2, ![B, N]⟩ : Shape).Idx) (q : D.contr.Idx), (D.rhsIdx j q (1 : Fin 2)).val = (j (1 : Fin 2)).val)
    (X : FVec Ideal ⟨2, ![B, K]⟩ .f32) (w : FVec Ideal ⟨2, ![N, K]⟩ .f32) (bias : FVec Ideal ⟨1, ![N]⟩ .f32)
    (ht : (⟨2, ![N, K]⟩ : Shape).Transposes [1, 0] ⟨2, ![K, N]⟩)
    (h1 : (⟨1, ![N]⟩ : Shape).BroadcastsInDim ⟨2, ![1, N]⟩ ![1])
    (h2 : (⟨2, ![1, N]⟩ : Shape).BroadcastsInDim ⟨2, ![B, N]⟩ ![0, 1]) (b : Fin B) (f : Fin N) :
    addf (Host.dotGeneral (F := Ideal) D none X (transpose ⟨2, ![K, N]⟩ [1, 0] w ht))
        (broadcastInDim ⟨2, ![B, N]⟩ ![0, 1] h2 (broadcastInDim ⟨2, ![1, N]⟩ ![1] h1 bias)) (ix2 b f)
      = Cert.Spec.layer (fun a k => w (ix2 a k)) (fun a => bias (ix1 a)) (fun k => X (ix2 b k)) f := by
  show Host.dotGeneral (F := Ideal) D none X (transpose ⟨2, ![K, N]⟩ [1, 0] w ht) (ix2 b f)
      + broadcastInDim ⟨2, ![B, N]⟩ ![0, 1] h2 (broadcastInDim ⟨2, ![1, N]⟩ ![1] h1 bias) (ix2 b f) = _
  rw [Cert.HostProduct.dotGeneral_entry D hr hs hl0 hl1 hr0 hr1, Cert.HostLayout.broadcastInDim_1b_ab_apply,
    Cert.HostLayout.broadcastInDim_b_1b_apply]
  unfold Cert.Spec.layer
  refine congrArg (· + bias (ix1 f)) (Finset.sum_congr rfl fun k _ => ?_)
  rw [transpose_ix2_apply, mul_comm]

/-! ## The bone-length column -/

/-- The sum along each row of a `[B, 3]` matrix, started from the zero word. -/
theorem rowSum_apply (y : FVec Ideal S131072x3 .f32) (b : Fin 131072) :
    Host.reduceAdd (F := Ideal) y (constant (F := Ideal) S_ .f32 0x00000000#32) reducesTo_S131072x3_S131072_d1 h_S_ (ix1 b)
      = ∑ k : Fin 3, y (ix2 b k) := by
  simp only [Host.reduceAdd, Ideal.hostReduceAdd_def]
  rw [Ideal.hostReduceAdd_single reducesTo_S131072x3_S131072_d1 (by decide), constant_apply, Ideal.ofBits_zero_f32,
    zero_add]
  refine Finset.sum_congr rfl fun k _ => ?_
  exact congrArg y (funext fun a => Fin.ext (by match a with | ⟨0, _⟩ => rfl | ⟨1, _⟩ => rfl))

/-- The column of Euclidean lengths of the rows of a `[B, 3]` matrix of bone vectors. -/
def lenCol (d : FVec Ideal S131072x3 .f32) : FVec Ideal S131072x1 .f32 :=
  Host.sqrt (F := Ideal) (broadcastInDim S131072x1 ![0] bcast_S131072_S131072x1_0
    (Host.reduceAdd (F := Ideal) (mulf d d) (constant (F := Ideal) S_ .f32 0x00000000#32)
      reducesTo_S131072x3_S131072_d1 h_S_))

/-- Row `b` of the length column is the length of row `b` of the bone vectors. -/
theorem lenCol_apply (d : FVec Ideal S131072x3 .f32) (b : Fin 131072) :
    lenCol d (ix2 b (0 : Fin 1)) = Cert.Spec.bone (fun k => d (ix2 b k)) := by
  unfold lenCol Cert.Spec.bone
  simp only [Host.sqrt, Ideal.hostUnary_sqrt_def]
  rw [Cert.HostLayout.broadcastInDim_a_a1_apply, rowSum_apply]
  rfl

/-! ## The 19 features -/

/-- The four slabs laid side by side hold, in row `b`, the 19 features of the specification. -/
theorem feat_apply (rot : FVec Ideal S131072x9 .f32) (pos : FVec Ideal S131072x3 .f32) (len : FVec Ideal S131072x1 .f32)
    (prev : FVec Ideal S131072x6 .f32) (b : Fin 131072) (m : Fin 19) :
    concatenate S131072x19 1 [⟨S131072x9, rot⟩, ⟨S131072x3, pos⟩, ⟨S131072x1, len⟩, ⟨S131072x6, prev⟩]
        concatenates_S131072x9_S131072x3_S131072x1_S131072x6_S131072x19_d1 (ix2 b m)
      = Cert.Spec.feats (fun a => rot (ix2 b a)) (fun a => pos (ix2 b a)) (len (ix2 b (0 : Fin 1)))
          (fun a => prev (ix2 b a)) m := by
  by_cases h9 : m.val < 9
  · rw [Cert.Spec.feats_rot _ _ _ _ m h9]
    exact Cert.RefLayout.concat_cols_apply _ _ 0 (by show (0 : ℕ) < 4; decide) 9 rot rfl 0 rfl b ⟨m.val, h9⟩ m (Nat.zero_add _)
  · by_cases h12 : m.val < 12
    · rw [Cert.Spec.feats_pos _ _ _ _ m (by omega) h12]
      exact Cert.RefLayout.concat_cols_apply _ _ 1 (by show (1 : ℕ) < 4; decide) 3 pos rfl 9 rfl b ⟨m.val - 9, by omega⟩ m
        (by show 9 + (m.val - 9) = m.val; omega)
    · by_cases h13 : m.val < 13
      · rw [Cert.Spec.feats_len _ _ _ _ m (by omega)]
        exact Cert.RefLayout.concat_cols_apply _ _ 2 (by show (2 : ℕ) < 4; decide) 1 len rfl 12 rfl b (0 : Fin 1) m
          (by show 12 + 0 = m.val; omega)
      · rw [Cert.Spec.feats_prev _ _ _ _ m (by omega)]
        exact Cert.RefLayout.concat_cols_apply _ _ 3 (by show (3 : ℕ) < 4; decide) 6 prev rfl 13 rfl b
          ⟨m.val - 13, by have := m.isLt; omega⟩ m (by show 13 + (m.val - 13) = m.val; omega)

/-! ## The network on the four slabs -/

/-- The hidden layer: the features times the transposed first layer plus its bias, then the maximum with zero. -/
def hidden (X : FVec Ideal S131072x19 .f32) (w1 : FVec Ideal S19x19 .f32) (b1 : FVec Ideal S19 .f32) :
    FVec Ideal S131072x19 .f32 :=
  maximumf
    (addf
      (Host.dotGeneral (F := Ideal) dot_S131072x19_S19x19_S131072x19_1_0_0_1_n_n none X
        (transpose S19x19 [1, 0] w1 transposes_S19x19_S19x19_1_0))
      (broadcastInDim S131072x19 ![0, 1] bcast_S1x19_S131072x19_0_1 (broadcastInDim S1x19 ![1] bcast_S19_S1x19_1 b1)))
    (broadcastInDim S131072x19 ![] bcast_S_S131072x19 (constant (F := Ideal) S_ .f32 0x00000000#32))

/-- A joint's network on its four slabs and its two layers. -/
def net (rot : FVec Ideal S131072x9 .f32) (pos : FVec Ideal S131072x3 .f32) (len : FVec Ideal S131072x1 .f32)
    (prev : FVec Ideal S131072x6 .f32) (w1 : FVec Ideal S19x19 .f32) (b1 : FVec Ideal S19 .f32)
    (w2 : FVec Ideal S6x19 .f32) (b2 : FVec Ideal S6 .f32) : FVec Ideal S131072x6 .f32 :=
  addf
    (Host.dotGeneral (F := Ideal) dot_S131072x19_S19x6_S131072x6_1_0_0_1_n_n none
      (hidden
        (concatenate S131072x19 1 [⟨S131072x9, rot⟩, ⟨S131072x3, pos⟩, ⟨S131072x1, len⟩, ⟨S131072x6, prev⟩]
          concatenates_S131072x9_S131072x3_S131072x1_S131072x6_S131072x19_d1)
        w1 b1)
      (transpose S19x6 [1, 0] w2 transposes_S6x19_S19x6_1_0))
    (broadcastInDim S131072x6 ![0, 1] bcast_S1x6_S131072x6_0_1 (broadcastInDim S1x6 ![1] bcast_S6_S1x6_1 b2))

/-- The hidden layer at `(b, k)`: the rectified first affine layer of row `b`. -/
theorem hidden_apply (X : FVec Ideal S131072x19 .f32) (w1 : FVec Ideal S19x19 .f32) (b1 : FVec Ideal S19 .f32)
    (b : Fin 131072) (k : Fin 19) :
    hidden X w1 b1 (ix2 b k)
      = max (Cert.Spec.layer (fun a m => w1 (ix2 a m)) (fun a => b1 (ix1 a)) (fun m => X (ix2 b m)) k)
          Cert.Spec.zeroWord := by
  unfold hidden
  show max (addf _ _ (ix2 b k)) (broadcastInDim S131072x19 ![] bcast_S_S131072x19
    (constant (F := Ideal) S_ .f32 0x00000000#32) (ix2 b k)) = _
  rw [affine_apply dot_S131072x19_S19x19_S131072x19_1_0_0_1_n_n rfl rfl firstDot_lhs0 firstDot_lhs1
    firstDot_rhs0 firstDot_rhs1, Cert.HostLayout.broadcastInDim_scalar_apply]
  rfl

/-- The network at `(b, f)` is the specification's joint network on row `b`'s features. -/
theorem net_apply (rot : FVec Ideal S131072x9 .f32) (pos : FVec Ideal S131072x3 .f32) (len : FVec Ideal S131072x1 .f32)
    (prev : FVec Ideal S131072x6 .f32) (w1 : FVec Ideal S19x19 .f32) (b1 : FVec Ideal S19 .f32)
    (w2 : FVec Ideal S6x19 .f32) (b2 : FVec Ideal S6 .f32) (b : Fin 131072) (f : Fin 6) :
    net rot pos len prev w1 b1 w2 b2 (ix2 b f)
      = Cert.Spec.joint (fun a k => w1 (ix2 a k)) (fun a => b1 (ix1 a)) (fun a k => w2 (ix2 a k)) (fun a => b2 (ix1 a))
          (Cert.Spec.feats (fun a => rot (ix2 b a)) (fun a => pos (ix2 b a)) (len (ix2 b (0 : Fin 1)))
            (fun a => prev (ix2 b a))) f := by
  unfold net Cert.Spec.joint
  rw [affine_apply dot_S131072x19_S19x6_S131072x6_1_0_0_1_n_n rfl rfl secondDot_lhs0 secondDot_lhs1
    secondDot_rhs0 secondDot_rhs1]
  refine congrArg (fun x => Cert.Spec.layer _ _ x f) (funext fun k => ?_)
  rw [hidden_apply]
  refine congrArg (fun x => max (Cert.Spec.layer _ _ x k) Cert.Spec.zeroWord) (funext fun m => ?_)
  exact feat_apply rot pos len prev b m

end Cert.ReferenceIdeal.Chain

end
-- ==== Proof.RefTree.lean ====
/-
  A joint's data cut out of the argument arrays, the global features, and the result's columns.

  Joint o's slabs are the unit-extent slices at offset o of the argument arrays with the unit axis dropped; its output is
  the joint network on those slabs. The global features are the rows' 288 rotation and position entries — the two per-row
  arrays flattened and laid side by side — times the transposed global layer plus its bias. The result lays the 24 joints'
  six columns side by side, joints 0–15 as one block of 96 columns and joints 16–23 as one of 48: column 6 j + f of the
  result is entry f of joint j's output.
-/
import proofs.«147313_j28467043238534_2_alg».proof.Proof.RefJoint

noncomputable section

namespace Cert.ReferenceIdeal.Chain

open Cert.ReferenceIdeal Cert.ReferenceIdeal.Gen Idealize.ShloMosaic Idealize.ShloMosaic.ValueIdx

/-! ## A joint's slabs of the argument arrays -/

/-- Joint `o`'s rotation entries for every row. -/
def rotAt (o : ℕ) (ho : o < 24) (x0 : FVec Ideal S131072x24x9 .f32) : FVec Ideal S131072x9 .f32 :=
  shapeCast S131072x9 (extractStridedSlice S131072x1x9 ![0, o, 0] x0 (Cert.RefLayout.slices_mid o ho))
    shapeCasts_S131072x1x9_S131072x9

/-- Joint `o`'s position entries for every row. -/
def posAt (o : ℕ) (ho : o < 24) (x1 : FVec Ideal S131072x24x3 .f32) : FVec Ideal S131072x3 .f32 :=
  shapeCast S131072x3 (extractStridedSlice S131072x1x3 ![0, o, 0] x1 (Cert.RefLayout.slices_mid o ho))
    shapeCasts_S131072x1x3_S131072x3

/-- Joint `o`'s first weight matrix. -/
def w1At (o : ℕ) (ho : o < 24) (x4 : FVec Ideal S24x19x19 .f32) : FVec Ideal S19x19 .f32 :=
  shapeCast S19x19 (extractStridedSlice S1x19x19 ![o, 0, 0] x4 (Cert.RefLayout.slices_lead3 o ho))
    shapeCasts_S1x19x19_S19x19

/-- Joint `o`'s first bias. -/
def b1At (o : ℕ) (ho : o < 24) (x5 : FVec Ideal S24x19 .f32) : FVec Ideal S19 .f32 :=
  shapeCast S19 (extractStridedSlice S1x19 ![o, 0] x5 (Cert.RefLayout.slices_lead2 o ho)) shapeCasts_S1x19_S19

/-- Joint `o`'s second weight matrix. -/
def w2At (o : ℕ) (ho : o < 24) (x6 : FVec Ideal S24x6x19 .f32) : FVec Ideal S6x19 .f32 :=
  shapeCast S6x19 (extractStridedSlice S1x6x19 ![o, 0, 0] x6 (Cert.RefLayout.slices_lead3 o ho))
    shapeCasts_S1x6x19_S6x19

/-- Joint `o`'s second bias. -/
def b2At (o : ℕ) (ho : o < 24) (x7 : FVec Ideal S24x6 .f32) : FVec Ideal S6 .f32 :=
  shapeCast S6 (extractStridedSlice S1x6 ![o, 0] x7 (Cert.RefLayout.slices_lead2 o ho)) shapeCasts_S1x6_S6

theorem rotAt_apply (o : ℕ) (ho : o < 24) (x0 : FVec Ideal S131072x24x9 .f32) (b : Fin 131072) (a : Fin 9) :
    rotAt o ho x0 (ix2 b a) = x0 (ix3 b (⟨o, ho⟩ : Fin 24) a) :=
  Cert.RefLayout.slab_mid_apply o ho x0 _ _ b a

theorem posAt_apply (o : ℕ) (ho : o < 24) (x1 : FVec Ideal S131072x24x3 .f32) (b : Fin 131072) (a : Fin 3) :
    posAt o ho x1 (ix2 b a) = x1 (ix3 b (⟨o, ho⟩ : Fin 24) a) :=
  Cert.RefLayout.slab_mid_apply o ho x1 _ _ b a

theorem w1At_apply (o : ℕ) (ho : o < 24) (x4 : FVec Ideal S24x19x19 .f32) (a k : Fin 19) :
    w1At o ho x4 (ix2 a k) = x4 (ix3 (⟨o, ho⟩ : Fin 24) a k) :=
  Cert.RefLayout.slab_lead3_apply o ho x4 _ _ a k

theorem b1At_apply (o : ℕ) (ho : o < 24) (x5 : FVec Ideal S24x19 .f32) (a : Fin 19) :
    b1At o ho x5 (ix1 a) = x5 (ix2 (⟨o, ho⟩ : Fin 24) a) :=
  Cert.RefLayout.slab_lead2_apply o ho x5 _ _ a

theorem w2At_apply (o : ℕ) (ho : o < 24) (x6 : FVec Ideal S24x6x19 .f32) (a : Fin 6) (k : Fin 19) :
    w2At o ho x6 (ix2 a k) = x6 (ix3 (⟨o, ho⟩ : Fin 24) a k) :=
  Cert.RefLayout.slab_lead3_apply o ho x6 _ _ a k

theorem b2At_apply (o : ℕ) (ho : o < 24) (x7 : FVec Ideal S24x6 .f32) (a : Fin 6) :
    b2At o ho x7 (ix1 a) = x7 (ix2 (⟨o, ho⟩ : Fin 24) a) :=
  Cert.RefLayout.slab_lead2_apply o ho x7 _ _ a

/-! ## A joint's output from its slabs -/

/-- Joint `o`'s six output columns, from the matrix `d` of bone vectors and the six inherited columns `prev`. -/
def jointAt (o : ℕ) (ho : o < 24) (d : FVec Ideal S131072x3 .f32) (x0 : FVec Ideal S131072x24x9 .f32)
    (x1 : FVec Ideal S131072x24x3 .f32) (x4 : FVec Ideal S24x19x19 .f32) (x5 : FVec Ideal S24x19 .f32)
    (x6 : FVec Ideal S24x6x19 .f32) (x7 : FVec Ideal S24x6 .f32) (prev : FVec Ideal S131072x6 .f32) :
    FVec Ideal S131072x6 .f32 :=
  net (rotAt o ho x0) (posAt o ho x1) (lenCol d) prev (w1At o ho x4) (b1At o ho x5) (w2At o ho x6) (b2At o ho x7)

/-- Joint `o`'s output at `(b, f)` is the specification's network of joint `o` on row `b`. -/
theorem jointAt_apply (o : ℕ) (ho : o < 24) (d : FVec Ideal S131072x3 .f32) (x0 : FVec Ideal S131072x24x9 .f32)
    (x1 : FVec Ideal S131072x24x3 .f32) (x4 : FVec Ideal S24x19x19 .f32) (x5 : FVec Ideal S24x19 .f32)
    (x6 : FVec Ideal S24x6x19 .f32) (x7 : FVec Ideal S24x6 .f32) (prev : FVec Ideal S131072x6 .f32)
    (b : Fin 131072) (f : Fin 6) :
    jointAt o ho d x0 x1 x4 x5 x6 x7 prev (ix2 b f)
      = Cert.Spec.joint (fun a k => x4 (ix3 (⟨o, ho⟩ : Fin 24) a k)) (fun a => x5 (ix2 (⟨o, ho⟩ : Fin 24) a))
          (fun a k => x6 (ix3 (⟨o, ho⟩ : Fin 24) a k)) (fun a => x7 (ix2 (⟨o, ho⟩ : Fin 24) a))
          (Cert.Spec.feats (fun a => x0 (ix3 b (⟨o, ho⟩ : Fin 24) a)) (fun a => x1 (ix3 b (⟨o, ho⟩ : Fin 24) a))
            (Cert.Spec.bone (fun k => d (ix2 b k))) (fun a => prev (ix2 b a))) f := by
  unfold jointAt
  rw [net_apply, lenCol_apply]
  simp only [rotAt_apply, posAt_apply, w1At_apply, b1At_apply, w2At_apply, b2At_apply]

/-! ## The global features -/

/-- The flattened rotations: column `k` of row `b` is entry `k % 9` of joint `k / 9`. -/
theorem flatRot_apply (x0 : FVec Ideal S131072x24x9 .f32) (b : Fin 131072) (k : Fin 216) :
    shapeCast S131072x216 x0 shapeCasts_S131072x24x9_S131072x216 (ix2 b k)
      = x0 (ix3 b (⟨k.val / 9, by have := k.isLt; omega⟩ : Fin 24) (⟨k.val % 9, Nat.mod_lt _ (by decide)⟩ : Fin 9)) :=
  shapeCast_apply x0 _ _ _ (by
    rw [Shape.rowMajor_val_three, Shape.rowMajor_val_two]
    show (b.val * 24 + k.val / 9) * 9 + k.val % 9 = b.val * 216 + k.val
    omega)

/-- The flattened positions: column `k` of row `b` is entry `k % 3` of joint `k / 3`. -/
theorem flatPos_apply (x1 : FVec Ideal S131072x24x3 .f32) (b : Fin 131072) (k : Fin 72) :
    shapeCast S131072x72 x1 shapeCasts_S131072x24x3_S131072x72 (ix2 b k)
      = x1 (ix3 b (⟨k.val / 3, by have := k.isLt; omega⟩ : Fin 24) (⟨k.val % 3, Nat.mod_lt _ (by decide)⟩ : Fin 3)) :=
  shapeCast_apply x1 _ _ _ (by
    rw [Shape.rowMajor_val_three, Shape.rowMajor_val_two]
    show (b.val * 24 + k.val / 3) * 3 + k.val % 3 = b.val * 72 + k.val
    omega)

/-- The global features for every row: the flattened rotations and positions side by side, times the transposed global
    layer, plus its bias. -/
def globArr (x0 : FVec Ideal S131072x24x9 .f32) (x1 : FVec Ideal S131072x24x3 .f32) (x2 : FVec Ideal S6x288 .f32)
    (x3 : FVec Ideal S6 .f32) : FVec Ideal S131072x6 .f32 :=
  addf
    (Host.dotGeneral (F := Ideal) dot_S131072x288_S288x6_S131072x6_1_0_0_1_n_n none
      (concatenate S131072x288 1
        [⟨S131072x216, shapeCast S131072x216 x0 shapeCasts_S131072x24x9_S131072x216⟩,
          ⟨S131072x72, shapeCast S131072x72 x1 shapeCasts_S131072x24x3_S131072x72⟩]
        concatenates_S131072x216_S131072x72_S131072x288_d1)
      (transpose S288x6 [1, 0] x2 transposes_S6x288_S288x6_1_0))
    (broadcastInDim S131072x6 ![0, 1] bcast_S1x6_S131072x6_0_1 (broadcastInDim S1x6 ![1] bcast_S6_S1x6_1 x3))

/-- The global features at `(b, f)` are the specification's: the sum over the 288 columns splits into the 216 rotation
    columns and the 72 position columns. -/
theorem glob_apply (x0 : FVec Ideal S131072x24x9 .f32) (x1 : FVec Ideal S131072x24x3 .f32) (x2 : FVec Ideal S6x288 .f32)
    (x3 : FVec Ideal S6 .f32) (x4 : FVec Ideal S24x19x19 .f32) (x5 : FVec Ideal S24x19 .f32)
    (x6 : FVec Ideal S24x6x19 .f32) (x7 : FVec Ideal S24x6 .f32)
    (b : Fin 131072) (f : Fin 6) :
    globArr x0 x1 x2 x3 (ix2 b f) = (Cert.Spec.rowOf x0 x1 x2 x3 x4 x5 x6 x7 b).glob f := by
  unfold globArr
  rw [affine_apply dot_S131072x288_S288x6_S131072x6_1_0_0_1_n_n rfl rfl globDot_lhs0 globDot_lhs1
    globDot_rhs0 globDot_rhs1]
  unfold Cert.Spec.layer
  rw [Cert.Spec.sum_288]
  refine congrArg₂ (· + ·) (congrArg₂ (· + ·) (Finset.sum_congr rfl fun k _ => ?_)
    (Finset.sum_congr rfl fun k _ => ?_)) rfl
  · refine congrArg (x2 (ix2 f _) * ·) ?_
    refine Eq.trans (Cert.RefLayout.concat_cols_apply _ _ 0 (by show (0 : ℕ) < 2; decide) 216 _ rfl 0 rfl b k _ (Nat.zero_add _)) ?_
    exact flatRot_apply x0 b k
  · refine congrArg (x2 (ix2 f _) * ·) ?_
    refine Eq.trans (Cert.RefLayout.concat_cols_apply _ _ 1 (by show (1 : ℕ) < 2; decide) 72 _ rfl 216 rfl b k _ rfl) ?_
    exact flatPos_apply x1 b k

/-! ## The result's columns -/

/-- The 24 joints' outputs laid side by side as the program does: joints 0–15, then joints 16–23. -/
def resultOf (o : Fin 24 → FVec Ideal S131072x6 .f32) : FVec Ideal S131072x144 .f32 :=
  concatenate S131072x144 1
    [⟨S131072x96, concatenate S131072x96 1
        (List.ofFn fun n : Fin 16 => (⟨S131072x6, o ⟨n.val, by have := n.isLt; omega⟩⟩ : (s : Shape) × (s.Idx → Ideal .f32)))
        concatenates_S131072x6_S131072x6_S131072x6_S131072x6_S131072x6_S131072x6_S131072x6_S131072x6_S131072x6_S131072x6_S131072x6_S131072x6_S131072x6_S131072x6_S131072x6_S131072x6_S131072x96_d1⟩,
      ⟨S131072x48, concatenate S131072x48 1
        (List.ofFn fun n : Fin 8 => (⟨S131072x6, o ⟨16 + n.val, by have := n.isLt; omega⟩⟩ : (s : Shape) × (s.Idx → Ideal .f32)))
        concatenates_S131072x6_S131072x6_S131072x6_S131072x6_S131072x6_S131072x6_S131072x6_S131072x6_S131072x48_d1⟩]
    concatenates_S131072x96_S131072x48_S131072x144_d1

/-- Column `6 j + f` of the result is entry `f` of joint `j`'s output. -/
theorem resultOf_apply (o : Fin 24 → FVec Ideal S131072x6 .f32) (b : Fin 131072) (j : Fin 24) (f : Fin 6) :
    resultOf o (ix2 b (⟨6 * j.val + f.val, by have := j.isLt; have := f.isLt; omega⟩ : Fin 144)) = o j (ix2 b f) := by
  unfold resultOf
  by_cases h : j.val < 16
  · refine Eq.trans (Cert.RefLayout.concat_cols_apply _ _ 0 (by show (0 : ℕ) < 2; decide) 96 _ rfl 0 rfl b
      (⟨6 * j.val + f.val, by have := f.isLt; omega⟩ : Fin 96) _ (Nat.zero_add _)) ?_
    refine Eq.trans (concatenate_ofFn_apply (t := S131072x96) (s₁ := S131072x6) 1
      (fun n : Fin 16 => o ⟨n.val, by have := n.isLt; omega⟩) _ rfl 6 rfl _ (⟨j.val, h⟩ : Fin 16)
      (by show (6 * j.val + f.val) / 6 = j.val; have := f.isLt; omega) (ix2 b f)
      (by show f.val = (6 * j.val + f.val) % 6; have := f.isLt; omega)
      (fun a => by
        match a with
        | ⟨0, _⟩ => exact fun _ => rfl
        | ⟨1, _⟩ => exact fun hne => absurd rfl hne)) ?_
    rfl
  · refine Eq.trans (Cert.RefLayout.concat_cols_apply _ _ 1 (by show (1 : ℕ) < 2; decide) 48 _ rfl 96 rfl b
      (⟨6 * (j.val - 16) + f.val, by have := j.isLt; have := f.isLt; omega⟩ : Fin 48) _
      (by show 96 + (6 * (j.val - 16) + f.val) = 6 * j.val + f.val; omega)) ?_
    refine Eq.trans (concatenate_ofFn_apply (t := S131072x48) (s₁ := S131072x6) 1
      (fun n : Fin 8 => o ⟨16 + n.val, by have := n.isLt; omega⟩) _ rfl 6 rfl _
      (⟨j.val - 16, by have := j.isLt; omega⟩ : Fin 8)
      (by show (6 * (j.val - 16) + f.val) / 6 = j.val - 16; have := f.isLt; omega) (ix2 b f)
      (by show f.val = (6 * (j.val - 16) + f.val) % 6; have := f.isLt; omega)
      (fun a => by
        match a with
        | ⟨0, _⟩ => exact fun _ => rfl
        | ⟨1, _⟩ => exact fun hne => absurd rfl hne)) ?_
    exact congrArg (fun i : Fin 24 => o i (ix2 b f)) (Fin.ext (by show 16 + (j.val - 16) = j.val; omega))

end Cert.ReferenceIdeal.Chain

end
-- ==== Proof.RefLines.lean ====
/-
  Lines of operations run one after the other.

  The buffer contents after a concatenation of lines are the contents after the second line, started from the contents
  after the first; after a list of lines joined end to end they are the fold of the lines over the contents. A property
  of every operation of every line is a property of every operation of the joined list.
-/
import Idealize.ShloMosaic.Lib.StableHlo.Run

noncomputable section

namespace Cert.ReferenceIdeal.Hand

open Idealize.ShloMosaic Idealize.ShloMosaic.StableHlo

variable {τ : Topo} {sig : RefSig} {Val : EltTy → Type}

/-- Two lines one after the other: the second from where the first ends. -/
theorem after_app : ∀ (l₁ l₂ : List (HloOp τ sig Val)) (V : Valuation τ sig Val),
    after (l₁ ++ l₂) V = after l₂ (after l₁ V)
  | [], _, _ => rfl
  | op :: l₁, l₂, V => by
    show after (l₁ ++ l₂) (op.result V) = after l₂ (after l₁ (op.result V))
    exact after_app l₁ l₂ _

/-- A list of lines joined end to end: the fold of the lines over the contents. -/
theorem after_flatten : ∀ (ls : List (List (HloOp τ sig Val))) (V : Valuation τ sig Val),
    after ls.flatten V = ls.foldl (fun W l => after l W) V
  | [], _ => rfl
  | l :: ls, V => by
    rw [List.flatten_cons, after_app, after_flatten ls]
    rfl

/-- What holds of every element of every list holds of every element of the lists joined end to end. -/
theorem forall_flatten {α : Type} {p : α → Prop} : ∀ (ls : List (List α)), (∀ l ∈ ls, l.Forall p) → ls.flatten.Forall p
  | [], _ => trivial
  | l :: ls, h => List.forall_iff_forall_mem.2 fun x hx => by
      rw [List.flatten_cons, List.mem_append] at hx
      rcases hx with hx | hx
      · exact List.forall_iff_forall_mem.1 (h l List.mem_cons_self) x hx
      · exact List.forall_iff_forall_mem.1 (forall_flatten ls fun l' hl' => h l' (List.mem_cons_of_mem _ hl')) x hx

end Cert.ReferenceIdeal.Hand

end
-- ==== Proof.RefWindows.lean ====
/-
  The reference program as the list of its 824 operations, cut into windows: the global features (8 operations), one
  window per joint in program order (31 operations for the root, 34 for every other joint) and the final three
  concatenations. For each window: the buffers it writes, and that every operation touches TensorCore buffers only and
  determines its result. For each joint's window, from any buffer contents: the joint's output buffer afterwards holds the
  joint network on the joint's slabs of the argument buffers, on the bone vectors, and on the buffer inherited (the parent's
  output buffer; for the root the global features' buffer). Every weakly fair execution of the program ends with every
  buffer at the fold of the operations over the launch contents.
-/
import proofs.«147313_j28467043238534_2_alg».proof.Proof.Gen.ReferenceIdeal
import Idealize.ShloMosaic.Lib.StableHlo.Run
import proofs.«147313_j28467043238534_2_alg».proof.Proof.RefTree
import proofs.«147313_j28467043238534_2_alg».proof.Proof.RefLines

noncomputable section

namespace Cert.ReferenceIdeal.Hand

open Cert.ReferenceIdeal Cert.ReferenceIdeal.Gen Cert.ReferenceIdeal.Chain Idealize.ShloMosaic Idealize.ShloMosaic.TcCoe Idealize.SL.Sem Idealize.ShloMosaic.StableHlo

variable {F : FTy → Type} [FloatOps F]

abbrev winG : List (HloOp τ sig (Elt F)) :=
  [ reshape main_arg0 main_v0 rfl shapeCasts_S131072x24x9_S131072x216,
    reshape main_arg1 main_v1 rfl shapeCasts_S131072x24x3_S131072x72,
    binary main_v0 main_v1 main_v2 ((fun a b => concatenate S131072x288 1 [⟨S131072x216, a⟩, ⟨S131072x72, b⟩] concatenates_S131072x216_S131072x72_S131072x288_d1) : (⟨S131072x216, .f32⟩ : BufTy).Contents (Elt F) → (⟨S131072x72, .f32⟩ : BufTy).Contents (Elt F) → (⟨S131072x288, .f32⟩ : BufTy).Contents (Elt F)),
    unary main_arg2 main_v3 ((transpose S288x6 [1, 0] · transposes_S6x288_S288x6_1_0) : (⟨S6x288, .f32⟩ : BufTy).Contents (Elt F) → (⟨S288x6, .f32⟩ : BufTy).Contents (Elt F)),
    binary main_v2 main_v3 main_v4 ((fun l r => Host.dotGeneral dot_S131072x288_S288x6_S131072x6_1_0_0_1_n_n none l r) : (⟨S131072x288, .f32⟩ : BufTy).Contents (Elt F) → (⟨S288x6, .f32⟩ : BufTy).Contents (Elt F) → (⟨S131072x6, .f32⟩ : BufTy).Contents (Elt F)),
    unary main_arg3 main_v5 (broadcastInDim S1x6 ![1] bcast_S6_S1x6_1 : (⟨S6, .f32⟩ : BufTy).Contents (Elt F) → (⟨S1x6, .f32⟩ : BufTy).Contents (Elt F)),
    unary main_v5 main_v6 (broadcastInDim S131072x6 ![0, 1] bcast_S1x6_S131072x6_0_1 : (⟨S1x6, .f32⟩ : BufTy).Contents (Elt F) → (⟨S131072x6, .f32⟩ : BufTy).Contents (Elt F)),
    binary main_v4 main_v6 main_v7 (addf : (⟨S131072x6, .f32⟩ : BufTy).Contents (Elt F) → (⟨S131072x6, .f32⟩ : BufTy).Contents (Elt F) → (⟨S131072x6, .f32⟩ : BufTy).Contents (Elt F)) ]

abbrev winG_W : List (Ref sig .tc) := [main_v0, main_v1, main_v2, main_v3, main_v4, main_v5, main_v6, main_v7]

theorem winG_ok : (winG : List (HloOp τ sig (Elt F))).Forall fun op => op.bufs ⊆ tcRefs τ sig ∧ op.fresh = ∅ :=
  ⟨⟨reshape_bufs_sub .., rfl⟩, ⟨reshape_bufs_sub .., rfl⟩, ⟨binary_bufs_sub .., rfl⟩, ⟨unary_bufs_sub .., rfl⟩, ⟨binary_bufs_sub .., rfl⟩, ⟨unary_bufs_sub .., rfl⟩, ⟨unary_bufs_sub .., rfl⟩, ⟨binary_bufs_sub .., rfl⟩⟩

theorem winG_writes : (winG : List (HloOp τ sig (Elt F))).Forall fun op =>
    op.writes ⊆ (winG_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

abbrev win0 : List (HloOp τ sig (Elt F)) :=
  [ unary main_arg0 main_v8 ((extractStridedSlice S131072x1x9 ![0, 0, 0] · slices_S131072x24x9_S131072x1x9_0_0_0) : (⟨S131072x24x9, .f32⟩ : BufTy).Contents (Elt F) → (⟨S131072x1x9, .f32⟩ : BufTy).Contents (Elt F)),
    reshape main_v8 main_v9 rfl shapeCasts_S131072x1x9_S131072x9,
    unary main_arg1 main_v10 ((extractStridedSlice S131072x1x3 ![0, 0, 0] · slices_S131072x24x3_S131072x1x3_0_0_0) : (⟨S131072x24x3, .f32⟩ : BufTy).Contents (Elt F) → (⟨S131072x1x3, .f32⟩ : BufTy).Contents (Elt F)),
    reshape main_v10 main_v11 rfl shapeCasts_S131072x1x3_S131072x3,
    TRef.binary (TRef.of (T := ⟨S131072x3, .f32⟩) main_v11) (TRef.of (T := ⟨S131072x3, .f32⟩) main_v11) (TRef.of (T := ⟨S131072x3, .f32⟩) main_call0_v0) mulf,
    TRef.nullary (TRef.of (T := ⟨S_, .f32⟩) main_call0_cst) (constant S_ .f32 0x00000000#32),
    TRef.binary (TRef.of (T := ⟨S131072x3, .f32⟩) main_call0_v0) (TRef.of (T := ⟨S_, .f32⟩) main_call0_cst) (TRef.of (T := ⟨S131072, .f32⟩) main_call0_v1) (fun x v => Host.reduceAdd x v reducesTo_S131072x3_S131072_d1 h_S_),
    TRef.unary (TRef.of (T := ⟨S131072, .f32⟩) main_call0_v1) (TRef.of (T := ⟨S131072x1, .f32⟩) main_call0_v2) (broadcastInDim S131072x1 ![0] bcast_S131072_S131072x1_0),
    TRef.unary (TRef.of (T := ⟨S131072x1, .f32⟩) main_call0_v2) (TRef.of (T := ⟨S131072x1, .f32⟩) main_v12) Host.sqrt,
    nary ![main_v9, main_v11, main_v12, main_v7] main_v13 (fun u => concatenate S131072x19 1 [⟨S131072x9, u 0⟩, ⟨S131072x3, u 1⟩, ⟨S131072x1, u 2⟩, ⟨S131072x6, u 3⟩] concatenates_S131072x9_S131072x3_S131072x1_S131072x6_S131072x19_d1),
    unary main_arg4 main_v14 ((extractStridedSlice S1x19x19 ![0, 0, 0] · slices_S24x19x19_S1x19x19_0_0_0) : (⟨S24x19x19, .f32⟩ : BufTy).Contents (Elt F) → (⟨S1x19x19, .f32⟩ : BufTy).Contents (Elt F)),
    reshape main_v14 main_v15 rfl shapeCasts_S1x19x19_S19x19,
    unary main_v15 main_v16 ((transpose S19x19 [1, 0] · transposes_S19x19_S19x19_1_0) : (⟨S19x19, .f32⟩ : BufTy).Contents (Elt F) → (⟨S19x19, .f32⟩ : BufTy).Contents (Elt F)),
    binary main_v13 main_v16 main_v17 ((fun l r => Host.dotGeneral dot_S131072x19_S19x19_S131072x19_1_0_0_1_n_n none l r) : (⟨S131072x19, .f32⟩ : BufTy).Contents (Elt F) → (⟨S19x19, .f32⟩ : BufTy).Contents (Elt F) → (⟨S131072x19, .f32⟩ : BufTy).Contents (Elt F)),
    unary main_arg5 main_v18 ((extractStridedSlice S1x19 ![0, 0] · slices_S24x19_S1x19_0_0) : (⟨S24x19, .f32⟩ : BufTy).Contents (Elt F) → (⟨S1x19, .f32⟩ : BufTy).Contents (Elt F)),
    reshape main_v18 main_v19 rfl shapeCasts_S1x19_S19,
    unary main_v19 main_v20 (broadcastInDim S1x19 ![1] bcast_S19_S1x19_1 : (⟨S19, .f32⟩ : BufTy).Contents (Elt F) → (⟨S1x19, .f32⟩ : BufTy).Contents (Elt F)),
    unary main_v20 main_v21 (broadcastInDim S131072x19 ![0, 1] bcast_S1x19_S131072x19_0_1 : (⟨S1x19, .f32⟩ : BufTy).Contents (Elt F) → (⟨S131072x19, .f32⟩ : BufTy).Contents (Elt F)),
    binary main_v17 main_v21 main_v22 (addf : (⟨S131072x19, .f32⟩ : BufTy).Contents (Elt F) → (⟨S131072x19, .f32⟩ : BufTy).Contents (Elt F) → (⟨S131072x19, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S131072x19, .f32⟩) main_call1_v0) (broadcastInDim S131072x19 ![] bcast_S_S131072x19),
    TRef.binary (TRef.of (T := ⟨S131072x19, .f32⟩) main_v22) (TRef.of (T := ⟨S131072x19, .f32⟩) main_call1_v0) (TRef.of (T := ⟨S131072x19, .f32⟩) main_v23) maximumf,
    unary main_arg6 main_v24 ((extractStridedSlice S1x6x19 ![0, 0, 0] · slices_S24x6x19_S1x6x19_0_0_0) : (⟨S24x6x19, .f32⟩ : BufTy).Contents (Elt F) → (⟨S1x6x19, .f32⟩ : BufTy).Contents (Elt F)),
    reshape main_v24 main_v25 rfl shapeCasts_S1x6x19_S6x19,
    unary main_v25 main_v26 ((transpose S19x6 [1, 0] · transposes_S6x19_S19x6_1_0) : (⟨S6x19, .f32⟩ : BufTy).Contents (Elt F) → (⟨S19x6, .f32⟩ : BufTy).Contents (Elt F)),
    binary main_v23 main_v26 main_v27 ((fun l r => Host.dotGeneral dot_S131072x19_S19x6_S131072x6_1_0_0_1_n_n none l r) : (⟨S131072x19, .f32⟩ : BufTy).Contents (Elt F) → (⟨S19x6, .f32⟩ : BufTy).Contents (Elt F) → (⟨S131072x6, .f32⟩ : BufTy).Contents (Elt F)),
    unary main_arg7 main_v28 ((extractStridedSlice S1x6 ![0, 0] · slices_S24x6_S1x6_0_0) : (⟨S24x6, .f32⟩ : BufTy).Contents (Elt F) → (⟨S1x6, .f32⟩ : BufTy).Contents (Elt F)),
    reshape main_v28 main_v29 rfl shapeCasts_S1x6_S6,
    unary main_v29 main_v30 (broadcastInDim S1x6 ![1] bcast_S6_S1x6_1 : (⟨S6, .f32⟩ : BufTy).Contents (Elt F) → (⟨S1x6, .f32⟩ : BufTy).Contents (Elt F)),
    unary main_v30 main_v31 (broadcastInDim S131072x6 ![0, 1] bcast_S1x6_S131072x6_0_1 : (⟨S1x6, .f32⟩ : BufTy).Contents (Elt F) → (⟨S131072x6, .f32⟩ : BufTy).Contents (Elt F)),
    binary main_v27 main_v31 main_v32 (addf : (⟨S131072x6, .f32⟩ : BufTy).Contents (Elt F) → (⟨S131072x6, .f32⟩ : BufTy).Contents (Elt F) → (⟨S131072x6, .f32⟩ : BufTy).Contents (Elt F)) ]

abbrev win0_W : List (Ref sig .tc) := [main_v8, main_v9, main_v10, main_v11, main_call0_v0, main_call0_cst, main_call0_v1, main_call0_v2, main_v12, main_v13, main_v14, main_v15, main_v16, main_v17, main_v18, main_v19, main_v20, main_v21, main_v22, main_call1_cst, main_call1_v0, main_v23, main_v24, main_v25, main_v26, main_v27, main_v28, main_v29, main_v30, main_v31, main_v32]

theorem win0_ok : (win0 : List (HloOp τ sig (Elt F))).Forall fun op => op.bufs ⊆ tcRefs τ sig ∧ op.fresh = ∅ :=
  ⟨⟨unary_bufs_sub .., rfl⟩, ⟨reshape_bufs_sub .., rfl⟩, ⟨unary_bufs_sub .., rfl⟩, ⟨reshape_bufs_sub .., rfl⟩, ⟨binary_bufs_sub .., rfl⟩, ⟨nullary_bufs_sub .., rfl⟩, ⟨binary_bufs_sub .., rfl⟩, ⟨unary_bufs_sub .., rfl⟩, ⟨unary_bufs_sub .., rfl⟩, ⟨nary_bufs_sub .., rfl⟩, ⟨unary_bufs_sub .., rfl⟩, ⟨reshape_bufs_sub .., rfl⟩, ⟨unary_bufs_sub .., rfl⟩, ⟨binary_bufs_sub .., rfl⟩, ⟨unary_bufs_sub .., rfl⟩, ⟨reshape_bufs_sub .., rfl⟩, ⟨unary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨unary_bufs_sub .., rfl⟩, ⟨reshape_bufs_sub .., rfl⟩, ⟨unary_bufs_sub .., rfl⟩, ⟨binary_bufs_sub .., rfl⟩, ⟨unary_bufs_sub .., rfl⟩, ⟨reshape_bufs_sub .., rfl⟩, ⟨unary_bufs_sub .., rfl⟩, ⟨unary_bufs_sub .., rfl⟩, ⟨binary_bufs_sub .., rfl⟩⟩

theorem win0_writes : (win0 : List (HloOp τ sig (Elt F))).Forall fun op =>
    op.writes ⊆ (win0_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

abbrev win1 : List (HloOp τ sig (Elt F)) :=
  [ unary main_arg0 main_v33 ((extractStridedSlice S131072x1x9 ![0, 1, 0] · slices_S131072x24x9_S131072x1x9_0_1_0) : (⟨S131072x24x9, .f32⟩ : BufTy).Contents (Elt F) → (⟨S131072x1x9, .f32⟩ : BufTy).Contents (Elt F)),
    reshape main_v33 main_v34 rfl shapeCasts_S131072x1x9_S131072x9,
    unary main_arg1 main_v35 ((extractStridedSlice S131072x1x3 ![0, 1, 0] · slices_S131072x24x3_S131072x1x3_0_1_0) : (⟨S131072x24x3, .f32⟩ : BufTy).Contents (Elt F) → (⟨S131072x1x3, .f32⟩ : BufTy).Contents (Elt F)),
    reshape main_v35 main_v36 rfl shapeCasts_S131072x1x3_S131072x3,
    unary main_arg1 main_v37 ((extractStridedSlice S131072x1x3 ![0, 0, 0] · slices_S131072x24x3_S131072x1x3_0_0_0) : (⟨S131072x24x3, .f32⟩ : BufTy).Contents (Elt F) → (⟨S131072x1x3, .f32⟩ : BufTy).Contents (Elt F)),
    reshape main_v37 main_v38 rfl shapeCasts_S131072x1x3_S131072x3,
    binary main_v36 main_v38 main_v39 (subf : (⟨S131072x3, .f32⟩ : BufTy).Contents (Elt F) → (⟨S131072x3, .f32⟩ : BufTy).Contents (Elt F) → (⟨S131072x3, .f32⟩ : BufTy).Contents (Elt F)),
    TRef.binary (TRef.of (T := ⟨S131072x3, .f32⟩) main_v39) (TRef.of (T := ⟨S131072x3, .f32⟩) main_v39) (TRef.of (T := ⟨S131072x3, .f32⟩) main_call2_v0) mulf,
    TRef.nullary (TRef.of (T := ⟨S_, .f32⟩) main_call2_cst) (constant S_ .f32 0x00000000#32),
    TRef.binary (TRef.of (T := ⟨S131072x3, .f32⟩) main_call2_v0) (TRef.of (T := ⟨S_, .f32⟩) main_call2_cst) (TRef.of (T := ⟨S131072, .f32⟩) main_call2_v1) (fun x v => Host.reduceAdd x v reducesTo_S131072x3_S131072_d1 h_S_),
    TRef.unary (TRef.of (T := ⟨S131072, .f32⟩) main_call2_v1) (TRef.of (T := ⟨S131072x1, .f32⟩) main_call2_v2) (broadcastInDim S131072x1 ![0] bcast_S131072_S131072x1_0),
    TRef.unary (TRef.of (T := ⟨S131072x1, .f32⟩) main_call2_v2) (TRef.of (T := ⟨S131072x1, .f32⟩) main_v40) Host.sqrt,
    nary ![main_v34, main_v36, main_v40, main_v32] main_v41 (fun u => concatenate S131072x19 1 [⟨S131072x9, u 0⟩, ⟨S131072x3, u 1⟩, ⟨S131072x1, u 2⟩, ⟨S131072x6, u 3⟩] concatenates_S131072x9_S131072x3_S131072x1_S131072x6_S131072x19_d1),
    unary main_arg4 main_v42 ((extractStridedSlice S1x19x19 ![1, 0, 0] · slices_S24x19x19_S1x19x19_1_0_0) : (⟨S24x19x19, .f32⟩ : BufTy).Contents (Elt F) → (⟨S1x19x19, .f32⟩ : BufTy).Contents (Elt F)),
    reshape main_v42 main_v43 rfl shapeCasts_S1x19x19_S19x19,
    unary main_v43 main_v44 ((transpose S19x19 [1, 0] · transposes_S19x19_S19x19_1_0) : (⟨S19x19, .f32⟩ : BufTy).Contents (Elt F) → (⟨S19x19, .f32⟩ : BufTy).Contents (Elt F)),
    binary main_v41 main_v44 main_v45 ((fun l r => Host.dotGeneral dot_S131072x19_S19x19_S131072x19_1_0_0_1_n_n none l r) : (⟨S131072x19, .f32⟩ : BufTy).Contents (Elt F) → (⟨S19x19, .f32⟩ : BufTy).Contents (Elt F) → (⟨S131072x19, .f32⟩ : BufTy).Contents (Elt F)),
    unary main_arg5 main_v46 ((extractStridedSlice S1x19 ![1, 0] · slices_S24x19_S1x19_1_0) : (⟨S24x19, .f32⟩ : BufTy).Contents (Elt F) → (⟨S1x19, .f32⟩ : BufTy).Contents (Elt F)),
    reshape main_v46 main_v47 rfl shapeCasts_S1x19_S19,
    unary main_v47 main_v48 (broadcastInDim S1x19 ![1] bcast_S19_S1x19_1 : (⟨S19, .f32⟩ : BufTy).Contents (Elt F) → (⟨S1x19, .f32⟩ : BufTy).Contents (Elt F)),
    unary main_v48 main_v49 (broadcastInDim S131072x19 ![0, 1] bcast_S1x19_S131072x19_0_1 : (⟨S1x19, .f32⟩ : BufTy).Contents (Elt F) → (⟨S131072x19, .f32⟩ : BufTy).Contents (Elt F)),
    binary main_v45 main_v49 main_v50 (addf : (⟨S131072x19, .f32⟩ : BufTy).Contents (Elt F) → (⟨S131072x19, .f32⟩ : BufTy).Contents (Elt F) → (⟨S131072x19, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S131072x19, .f32⟩) main_call3_v0) (broadcastInDim S131072x19 ![] bcast_S_S131072x19),
    TRef.binary (TRef.of (T := ⟨S131072x19, .f32⟩) main_v50) (TRef.of (T := ⟨S131072x19, .f32⟩) main_call3_v0) (TRef.of (T := ⟨S131072x19, .f32⟩) main_v51) maximumf,
    unary main_arg6 main_v52 ((extractStridedSlice S1x6x19 ![1, 0, 0] · slices_S24x6x19_S1x6x19_1_0_0) : (⟨S24x6x19, .f32⟩ : BufTy).Contents (Elt F) → (⟨S1x6x19, .f32⟩ : BufTy).Contents (Elt F)),
    reshape main_v52 main_v53 rfl shapeCasts_S1x6x19_S6x19,
    unary main_v53 main_v54 ((transpose S19x6 [1, 0] · transposes_S6x19_S19x6_1_0) : (⟨S6x19, .f32⟩ : BufTy).Contents (Elt F) → (⟨S19x6, .f32⟩ : BufTy).Contents (Elt F)),
    binary main_v51 main_v54 main_v55 ((fun l r => Host.dotGeneral dot_S131072x19_S19x6_S131072x6_1_0_0_1_n_n none l r) : (⟨S131072x19, .f32⟩ : BufTy).Contents (Elt F) → (⟨S19x6, .f32⟩ : BufTy).Contents (Elt F) → (⟨S131072x6, .f32⟩ : BufTy).Contents (Elt F)),
    unary main_arg7 main_v56 ((extractStridedSlice S1x6 ![1, 0] · slices_S24x6_S1x6_1_0) : (⟨S24x6, .f32⟩ : BufTy).Contents (Elt F) → (⟨S1x6, .f32⟩ : BufTy).Contents (Elt F)),
    reshape main_v56 main_v57 rfl shapeCasts_S1x6_S6,
    unary main_v57 main_v58 (broadcastInDim S1x6 ![1] bcast_S6_S1x6_1 : (⟨S6, .f32⟩ : BufTy).Contents (Elt F) → (⟨S1x6, .f32⟩ : BufTy).Contents (Elt F)),
    unary main_v58 main_v59 (broadcastInDim S131072x6 ![0, 1] bcast_S1x6_S131072x6_0_1 : (⟨S1x6, .f32⟩ : BufTy).Contents (Elt F) → (⟨S131072x6, .f32⟩ : BufTy).Contents (Elt F)),
    binary main_v55 main_v59 main_v60 (addf : (⟨S131072x6, .f32⟩ : BufTy).Contents (Elt F) → (⟨S131072x6, .f32⟩ : BufTy).Contents (Elt F) → (⟨S131072x6, .f32⟩ : BufTy).Contents (Elt F)) ]

abbrev win1_W : List (Ref sig .tc) := [main_v33, main_v34, main_v35, main_v36, main_v37, main_v38, main_v39, main_call2_v0, main_call2_cst, main_call2_v1, main_call2_v2, main_v40, main_v41, main_v42, main_v43, main_v44, main_v45, main_v46, main_v47, main_v48, main_v49, main_v50, main_call3_cst, main_call3_v0, main_v51, main_v52, main_v53, main_v54, main_v55, main_v56, main_v57, main_v58, main_v59, main_v60]

theorem win1_ok : (win1 : List (HloOp τ sig (Elt F))).Forall fun op => op.bufs ⊆ tcRefs τ sig ∧ op.fresh = ∅ :=
  ⟨⟨unary_bufs_sub .., rfl⟩, ⟨reshape_bufs_sub .., rfl⟩, ⟨unary_bufs_sub .., rfl⟩, ⟨reshape_bufs_sub .., rfl⟩, ⟨unary_bufs_sub .., rfl⟩, ⟨reshape_bufs_sub .., rfl⟩, ⟨binary_bufs_sub .., rfl⟩, ⟨binary_bufs_sub .., rfl⟩, ⟨nullary_bufs_sub .., rfl⟩, ⟨binary_bufs_sub .., rfl⟩, ⟨unary_bufs_sub .., rfl⟩, ⟨unary_bufs_sub .., rfl⟩, ⟨nary_bufs_sub .., rfl⟩, ⟨unary_bufs_sub .., rfl⟩, ⟨reshape_bufs_sub .., rfl⟩, ⟨unary_bufs_sub .., rfl⟩, ⟨binary_bufs_sub .., rfl⟩, ⟨unary_bufs_sub .., rfl⟩, ⟨reshape_bufs_sub .., rfl⟩, ⟨unary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨unary_bufs_sub .., rfl⟩, ⟨reshape_bufs_sub .., rfl⟩, ⟨unary_bufs_sub .., rfl⟩, ⟨binary_bufs_sub .., rfl⟩, ⟨unary_bufs_sub .., rfl⟩, ⟨reshape_bufs_sub .., rfl⟩, ⟨unary_bufs_sub .., rfl⟩, ⟨unary_bufs_sub .., rfl⟩, ⟨binary_bufs_sub .., rfl⟩⟩

theorem win1_writes : (win1 : List (HloOp τ sig (Elt F))).Forall fun op =>
    op.writes ⊆ (win1_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

abbrev win2 : List (HloOp τ sig (Elt F)) :=
  [ unary main_arg0 main_v61 ((extractStridedSlice S131072x1x9 ![0, 2, 0] · slices_S131072x24x9_S131072x1x9_0_2_0) : (⟨S131072x24x9, .f32⟩ : BufTy).Contents (Elt F) → (⟨S131072x1x9, .f32⟩ : BufTy).Contents (Elt F)),
    reshape main_v61 main_v62 rfl shapeCasts_S131072x1x9_S131072x9,
    unary main_arg1 main_v63 ((extractStridedSlice S131072x1x3 ![0, 2, 0] · slices_S131072x24x3_S131072x1x3_0_2_0) : (⟨S131072x24x3, .f32⟩ : BufTy).Contents (Elt F) → (⟨S131072x1x3, .f32⟩ : BufTy).Contents (Elt F)),
    reshape main_v63 main_v64 rfl shapeCasts_S131072x1x3_S131072x3,
    unary main_arg1 main_v65 ((extractStridedSlice S131072x1x3 ![0, 0, 0] · slices_S131072x24x3_S131072x1x3_0_0_0) : (⟨S131072x24x3, .f32⟩ : BufTy).Contents (Elt F) → (⟨S131072x1x3, .f32⟩ : BufTy).Contents (Elt F)),
    reshape main_v65 main_v66 rfl shapeCasts_S131072x1x3_S131072x3,
    binary main_v64 main_v66 main_v67 (subf : (⟨S131072x3, .f32⟩ : BufTy).Contents (Elt F) → (⟨S131072x3, .f32⟩ : BufTy).Contents (Elt F) → (⟨S131072x3, .f32⟩ : BufTy).Contents (Elt F)),
    TRef.binary (TRef.of (T := ⟨S131072x3, .f32⟩) main_v67) (TRef.of (T := ⟨S131072x3, .f32⟩) main_v67) (TRef.of (T := ⟨S131072x3, .f32⟩) main_call4_v0) mulf,
    TRef.nullary (TRef.of (T := ⟨S_, .f32⟩) main_call4_cst) (constant S_ .f32 0x00000000#32),
    TRef.binary (TRef.of (T := ⟨S131072x3, .f32⟩) main_call4_v0) (TRef.of (T := ⟨S_, .f32⟩) main_call4_cst) (TRef.of (T := ⟨S131072, .f32⟩) main_call4_v1) (fun x v => Host.reduceAdd x v reducesTo_S131072x3_S131072_d1 h_S_),
    TRef.unary (TRef.of (T := ⟨S131072, .f32⟩) main_call4_v1) (TRef.of (T := ⟨S131072x1, .f32⟩) main_call4_v2) (broadcastInDim S131072x1 ![0] bcast_S131072_S131072x1_0),
    TRef.unary (TRef.of (T := ⟨S131072x1, .f32⟩) main_call4_v2) (TRef.of (T := ⟨S131072x1, .f32⟩) main_v68) Host.sqrt,
    nary ![main_v62, main_v64, main_v68, main_v32] main_v69 (fun u => concatenate S131072x19 1 [⟨S131072x9, u 0⟩, ⟨S131072x3, u 1⟩, ⟨S131072x1, u 2⟩, ⟨S131072x6, u 3⟩] concatenates_S131072x9_S131072x3_S131072x1_S131072x6_S131072x19_d1),
    unary main_arg4 main_v70 ((extractStridedSlice S1x19x19 ![2, 0, 0] · slices_S24x19x19_S1x19x19_2_0_0) : (⟨S24x19x19, .f32⟩ : BufTy).Contents (Elt F) → (⟨S1x19x19, .f32⟩ : BufTy).Contents (Elt F)),
    reshape main_v70 main_v71 rfl shapeCasts_S1x19x19_S19x19,
    unary main_v71 main_v72 ((transpose S19x19 [1, 0] · transposes_S19x19_S19x19_1_0) : (⟨S19x19, .f32⟩ : BufTy).Contents (Elt F) → (⟨S19x19, .f32⟩ : BufTy).Contents (Elt F)),
    binary main_v69 main_v72 main_v73 ((fun l r => Host.dotGeneral dot_S131072x19_S19x19_S131072x19_1_0_0_1_n_n none l r) : (⟨S131072x19, .f32⟩ : BufTy).Contents (Elt F) → (⟨S19x19, .f32⟩ : BufTy).Contents (Elt F) → (⟨S131072x19, .f32⟩ : BufTy).Contents (Elt F)),
    unary main_arg5 main_v74 ((extractStridedSlice S1x19 ![2, 0] · slices_S24x19_S1x19_2_0) : (⟨S24x19, .f32⟩ : BufTy).Contents (Elt F) → (⟨S1x19, .f32⟩ : BufTy).Contents (Elt F)),
    reshape main_v74 main_v75 rfl shapeCasts_S1x19_S19,
    unary main_v75 main_v76 (broadcastInDim S1x19 ![1] bcast_S19_S1x19_1 : (⟨S19, .f32⟩ : BufTy).Contents (Elt F) → (⟨S1x19, .f32⟩ : BufTy).Contents (Elt F)),
    unary main_v76 main_v77 (broadcastInDim S131072x19 ![0, 1] bcast_S1x19_S131072x19_0_1 : (⟨S1x19, .f32⟩ : BufTy).Contents (Elt F) → (⟨S131072x19, .f32⟩ : BufTy).Contents (Elt F)),
    binary main_v73 main_v77 main_v78 (addf : (⟨S131072x19, .f32⟩ : BufTy).Contents (Elt F) → (⟨S131072x19, .f32⟩ : BufTy).Contents (Elt F) → (⟨S131072x19, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S131072x19, .f32⟩) main_call5_v0) (broadcastInDim S131072x19 ![] bcast_S_S131072x19),
    TRef.binary (TRef.of (T := ⟨S131072x19, .f32⟩) main_v78) (TRef.of (T := ⟨S131072x19, .f32⟩) main_call5_v0) (TRef.of (T := ⟨S131072x19, .f32⟩) main_v79) maximumf,
    unary main_arg6 main_v80 ((extractStridedSlice S1x6x19 ![2, 0, 0] · slices_S24x6x19_S1x6x19_2_0_0) : (⟨S24x6x19, .f32⟩ : BufTy).Contents (Elt F) → (⟨S1x6x19, .f32⟩ : BufTy).Contents (Elt F)),
    reshape main_v80 main_v81 rfl shapeCasts_S1x6x19_S6x19,
    unary main_v81 main_v82 ((transpose S19x6 [1, 0] · transposes_S6x19_S19x6_1_0) : (⟨S6x19, .f32⟩ : BufTy).Contents (Elt F) → (⟨S19x6, .f32⟩ : BufTy).Contents (Elt F)),
    binary main_v79 main_v82 main_v83 ((fun l r => Host.dotGeneral dot_S131072x19_S19x6_S131072x6_1_0_0_1_n_n none l r) : (⟨S131072x19, .f32⟩ : BufTy).Contents (Elt F) → (⟨S19x6, .f32⟩ : BufTy).Contents (Elt F) → (⟨S131072x6, .f32⟩ : BufTy).Contents (Elt F)),
    unary main_arg7 main_v84 ((extractStridedSlice S1x6 ![2, 0] · slices_S24x6_S1x6_2_0) : (⟨S24x6, .f32⟩ : BufTy).Contents (Elt F) → (⟨S1x6, .f32⟩ : BufTy).Contents (Elt F)),
    reshape main_v84 main_v85 rfl shapeCasts_S1x6_S6,
    unary main_v85 main_v86 (broadcastInDim S1x6 ![1] bcast_S6_S1x6_1 : (⟨S6, .f32⟩ : BufTy).Contents (Elt F) → (⟨S1x6, .f32⟩ : BufTy).Contents (Elt F)),
    unary main_v86 main_v87 (broadcastInDim S131072x6 ![0, 1] bcast_S1x6_S131072x6_0_1 : (⟨S1x6, .f32⟩ : BufTy).Contents (Elt F) → (⟨S131072x6, .f32⟩ : BufTy).Contents (Elt F)),
    binary main_v83 main_v87 main_v88 (addf : (⟨S131072x6, .f32⟩ : BufTy).Contents (Elt F) → (⟨S131072x6, .f32⟩ : BufTy).Contents (Elt F) → (⟨S131072x6, .f32⟩ : BufTy).Contents (Elt F)) ]

abbrev win2_W : List (Ref sig .tc) := [main_v61, main_v62, main_v63, main_v64, main_v65, main_v66, main_v67, main_call4_v0, main_call4_cst, main_call4_v1, main_call4_v2, main_v68, main_v69, main_v70, main_v71, main_v72, main_v73, main_v74, main_v75, main_v76, main_v77, main_v78, main_call5_cst, main_call5_v0, main_v79, main_v80, main_v81, main_v82, main_v83, main_v84, main_v85, main_v86, main_v87, main_v88]

theorem win2_ok : (win2 : List (HloOp τ sig (Elt F))).Forall fun op => op.bufs ⊆ tcRefs τ sig ∧ op.fresh = ∅ :=
  ⟨⟨unary_bufs_sub .., rfl⟩, ⟨reshape_bufs_sub .., rfl⟩, ⟨unary_bufs_sub .., rfl⟩, ⟨reshape_bufs_sub .., rfl⟩, ⟨unary_bufs_sub .., rfl⟩, ⟨reshape_bufs_sub .., rfl⟩, ⟨binary_bufs_sub .., rfl⟩, ⟨binary_bufs_sub .., rfl⟩, ⟨nullary_bufs_sub .., rfl⟩, ⟨binary_bufs_sub .., rfl⟩, ⟨unary_bufs_sub .., rfl⟩, ⟨unary_bufs_sub .., rfl⟩, ⟨nary_bufs_sub .., rfl⟩, ⟨unary_bufs_sub .., rfl⟩, ⟨reshape_bufs_sub .., rfl⟩, ⟨unary_bufs_sub .., rfl⟩, ⟨binary_bufs_sub .., rfl⟩, ⟨unary_bufs_sub .., rfl⟩, ⟨reshape_bufs_sub .., rfl⟩, ⟨unary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨unary_bufs_sub .., rfl⟩, ⟨reshape_bufs_sub .., rfl⟩, ⟨unary_bufs_sub .., rfl⟩, ⟨binary_bufs_sub .., rfl⟩, ⟨unary_bufs_sub .., rfl⟩, ⟨reshape_bufs_sub .., rfl⟩, ⟨unary_bufs_sub .., rfl⟩, ⟨unary_bufs_sub .., rfl⟩, ⟨binary_bufs_sub .., rfl⟩⟩

theorem win2_writes : (win2 : List (HloOp τ sig (Elt F))).Forall fun op =>
    op.writes ⊆ (win2_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

abbrev win3 : List (HloOp τ sig (Elt F)) :=
  [ unary main_arg0 main_v89 ((extractStridedSlice S131072x1x9 ![0, 3, 0] · slices_S131072x24x9_S131072x1x9_0_3_0) : (⟨S131072x24x9, .f32⟩ : BufTy).Contents (Elt F) → (⟨S131072x1x9, .f32⟩ : BufTy).Contents (Elt F)),
    reshape main_v89 main_v90 rfl shapeCasts_S131072x1x9_S131072x9,
    unary main_arg1 main_v91 ((extractStridedSlice S131072x1x3 ![0, 3, 0] · slices_S131072x24x3_S131072x1x3_0_3_0) : (⟨S131072x24x3, .f32⟩ : BufTy).Contents (Elt F) → (⟨S131072x1x3, .f32⟩ : BufTy).Contents (Elt F)),
    reshape main_v91 main_v92 rfl shapeCasts_S131072x1x3_S131072x3,
    unary main_arg1 main_v93 ((extractStridedSlice S131072x1x3 ![0, 0, 0] · slices_S131072x24x3_S131072x1x3_0_0_0) : (⟨S131072x24x3, .f32⟩ : BufTy).Contents (Elt F) → (⟨S131072x1x3, .f32⟩ : BufTy).Contents (Elt F)),
    reshape main_v93 main_v94 rfl shapeCasts_S131072x1x3_S131072x3,
    binary main_v92 main_v94 main_v95 (subf : (⟨S131072x3, .f32⟩ : BufTy).Contents (Elt F) → (⟨S131072x3, .f32⟩ : BufTy).Contents (Elt F) → (⟨S131072x3, .f32⟩ : BufTy).Contents (Elt F)),
    TRef.binary (TRef.of (T := ⟨S131072x3, .f32⟩) main_v95) (TRef.of (T := ⟨S131072x3, .f32⟩) main_v95) (TRef.of (T := ⟨S131072x3, .f32⟩) main_call6_v0) mulf,
    TRef.nullary (TRef.of (T := ⟨S_, .f32⟩) main_call6_cst) (constant S_ .f32 0x00000000#32),
    TRef.binary (TRef.of (T := ⟨S131072x3, .f32⟩) main_call6_v0) (TRef.of (T := ⟨S_, .f32⟩) main_call6_cst) (TRef.of (T := ⟨S131072, .f32⟩) main_call6_v1) (fun x v => Host.reduceAdd x v reducesTo_S131072x3_S131072_d1 h_S_),
    TRef.unary (TRef.of (T := ⟨S131072, .f32⟩) main_call6_v1) (TRef.of (T := ⟨S131072x1, .f32⟩) main_call6_v2) (broadcastInDim S131072x1 ![0] bcast_S131072_S131072x1_0),
    TRef.unary (TRef.of (T := ⟨S131072x1, .f32⟩) main_call6_v2) (TRef.of (T := ⟨S131072x1, .f32⟩) main_v96) Host.sqrt,
    nary ![main_v90, main_v92, main_v96, main_v32] main_v97 (fun u => concatenate S131072x19 1 [⟨S131072x9, u 0⟩, ⟨S131072x3, u 1⟩, ⟨S131072x1, u 2⟩, ⟨S131072x6, u 3⟩] concatenates_S131072x9_S131072x3_S131072x1_S131072x6_S131072x19_d1),
    unary main_arg4 main_v98 ((extractStridedSlice S1x19x19 ![3, 0, 0] · slices_S24x19x19_S1x19x19_3_0_0) : (⟨S24x19x19, .f32⟩ : BufTy).Contents (Elt F) → (⟨S1x19x19, .f32⟩ : BufTy).Contents (Elt F)),
    reshape main_v98 main_v99 rfl shapeCasts_S1x19x19_S19x19,
    unary main_v99 main_v100 ((transpose S19x19 [1, 0] · transposes_S19x19_S19x19_1_0) : (⟨S19x19, .f32⟩ : BufTy).Contents (Elt F) → (⟨S19x19, .f32⟩ : BufTy).Contents (Elt F)),
    binary main_v97 main_v100 main_v101 ((fun l r => Host.dotGeneral dot_S131072x19_S19x19_S131072x19_1_0_0_1_n_n none l r) : (⟨S131072x19, .f32⟩ : BufTy).Contents (Elt F) → (⟨S19x19, .f32⟩ : BufTy).Contents (Elt F) → (⟨S131072x19, .f32⟩ : BufTy).Contents (Elt F)),
    unary main_arg5 main_v102 ((extractStridedSlice S1x19 ![3, 0] · slices_S24x19_S1x19_3_0) : (⟨S24x19, .f32⟩ : BufTy).Contents (Elt F) → (⟨S1x19, .f32⟩ : BufTy).Contents (Elt F)),
    reshape main_v102 main_v103 rfl shapeCasts_S1x19_S19,
    unary main_v103 main_v104 (broadcastInDim S1x19 ![1] bcast_S19_S1x19_1 : (⟨S19, .f32⟩ : BufTy).Contents (Elt F) → (⟨S1x19, .f32⟩ : BufTy).Contents (Elt F)),
    unary main_v104 main_v105 (broadcastInDim S131072x19 ![0, 1] bcast_S1x19_S131072x19_0_1 : (⟨S1x19, .f32⟩ : BufTy).Contents (Elt F) → (⟨S131072x19, .f32⟩ : BufTy).Contents (Elt F)),
    binary main_v101 main_v105 main_v106 (addf : (⟨S131072x19, .f32⟩ : BufTy).Contents (Elt F) → (⟨S131072x19, .f32⟩ : BufTy).Contents (Elt F) → (⟨S131072x19, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S131072x19, .f32⟩) main_call7_v0) (broadcastInDim S131072x19 ![] bcast_S_S131072x19),
    TRef.binary (TRef.of (T := ⟨S131072x19, .f32⟩) main_v106) (TRef.of (T := ⟨S131072x19, .f32⟩) main_call7_v0) (TRef.of (T := ⟨S131072x19, .f32⟩) main_v107) maximumf,
    unary main_arg6 main_v108 ((extractStridedSlice S1x6x19 ![3, 0, 0] · slices_S24x6x19_S1x6x19_3_0_0) : (⟨S24x6x19, .f32⟩ : BufTy).Contents (Elt F) → (⟨S1x6x19, .f32⟩ : BufTy).Contents (Elt F)),
    reshape main_v108 main_v109 rfl shapeCasts_S1x6x19_S6x19,
    unary main_v109 main_v110 ((transpose S19x6 [1, 0] · transposes_S6x19_S19x6_1_0) : (⟨S6x19, .f32⟩ : BufTy).Contents (Elt F) → (⟨S19x6, .f32⟩ : BufTy).Contents (Elt F)),
    binary main_v107 main_v110 main_v111 ((fun l r => Host.dotGeneral dot_S131072x19_S19x6_S131072x6_1_0_0_1_n_n none l r) : (⟨S131072x19, .f32⟩ : BufTy).Contents (Elt F) → (⟨S19x6, .f32⟩ : BufTy).Contents (Elt F) → (⟨S131072x6, .f32⟩ : BufTy).Contents (Elt F)),
    unary main_arg7 main_v112 ((extractStridedSlice S1x6 ![3, 0] · slices_S24x6_S1x6_3_0) : (⟨S24x6, .f32⟩ : BufTy).Contents (Elt F) → (⟨S1x6, .f32⟩ : BufTy).Contents (Elt F)),
    reshape main_v112 main_v113 rfl shapeCasts_S1x6_S6,
    unary main_v113 main_v114 (broadcastInDim S1x6 ![1] bcast_S6_S1x6_1 : (⟨S6, .f32⟩ : BufTy).Contents (Elt F) → (⟨S1x6, .f32⟩ : BufTy).Contents (Elt F)),
    unary main_v114 main_v115 (broadcastInDim S131072x6 ![0, 1] bcast_S1x6_S131072x6_0_1 : (⟨S1x6, .f32⟩ : BufTy).Contents (Elt F) → (⟨S131072x6, .f32⟩ : BufTy).Contents (Elt F)),
    binary main_v111 main_v115 main_v116 (addf : (⟨S131072x6, .f32⟩ : BufTy).Contents (Elt F) → (⟨S131072x6, .f32⟩ : BufTy).Contents (Elt F) → (⟨S131072x6, .f32⟩ : BufTy).Contents (Elt F)) ]

abbrev win3_W : List (Ref sig .tc) := [main_v89, main_v90, main_v91, main_v92, main_v93, main_v94, main_v95, main_call6_v0, main_call6_cst, main_call6_v1, main_call6_v2, main_v96, main_v97, main_v98, main_v99, main_v100, main_v101, main_v102, main_v103, main_v104, main_v105, main_v106, main_call7_cst, main_call7_v0, main_v107, main_v108, main_v109, main_v110, main_v111, main_v112, main_v113, main_v114, main_v115, main_v116]

theorem win3_ok : (win3 : List (HloOp τ sig (Elt F))).Forall fun op => op.bufs ⊆ tcRefs τ sig ∧ op.fresh = ∅ :=
  ⟨⟨unary_bufs_sub .., rfl⟩, ⟨reshape_bufs_sub .., rfl⟩, ⟨unary_bufs_sub .., rfl⟩, ⟨reshape_bufs_sub .., rfl⟩, ⟨unary_bufs_sub .., rfl⟩, ⟨reshape_bufs_sub .., rfl⟩, ⟨binary_bufs_sub .., rfl⟩, ⟨binary_bufs_sub .., rfl⟩, ⟨nullary_bufs_sub .., rfl⟩, ⟨binary_bufs_sub .., rfl⟩, ⟨unary_bufs_sub .., rfl⟩, ⟨unary_bufs_sub .., rfl⟩, ⟨nary_bufs_sub .., rfl⟩, ⟨unary_bufs_sub .., rfl⟩, ⟨reshape_bufs_sub .., rfl⟩, ⟨unary_bufs_sub .., rfl⟩, ⟨binary_bufs_sub .., rfl⟩, ⟨unary_bufs_sub .., rfl⟩, ⟨reshape_bufs_sub .., rfl⟩, ⟨unary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨unary_bufs_sub .., rfl⟩, ⟨reshape_bufs_sub .., rfl⟩, ⟨unary_bufs_sub .., rfl⟩, ⟨binary_bufs_sub .., rfl⟩, ⟨unary_bufs_sub .., rfl⟩, ⟨reshape_bufs_sub .., rfl⟩, ⟨unary_bufs_sub .., rfl⟩, ⟨unary_bufs_sub .., rfl⟩, ⟨binary_bufs_sub .., rfl⟩⟩

theorem win3_writes : (win3 : List (HloOp τ sig (Elt F))).Forall fun op =>
    op.writes ⊆ (win3_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

abbrev win4 : List (HloOp τ sig (Elt F)) :=
  [ unary main_arg0 main_v117 ((extractStridedSlice S131072x1x9 ![0, 4, 0] · slices_S131072x24x9_S131072x1x9_0_4_0) : (⟨S131072x24x9, .f32⟩ : BufTy).Contents (Elt F) → (⟨S131072x1x9, .f32⟩ : BufTy).Contents (Elt F)),
    reshape main_v117 main_v118 rfl shapeCasts_S131072x1x9_S131072x9,
    unary main_arg1 main_v119 ((extractStridedSlice S131072x1x3 ![0, 4, 0] · slices_S131072x24x3_S131072x1x3_0_4_0) : (⟨S131072x24x3, .f32⟩ : BufTy).Contents (Elt F) → (⟨S131072x1x3, .f32⟩ : BufTy).Contents (Elt F)),
    reshape main_v119 main_v120 rfl shapeCasts_S131072x1x3_S131072x3,
    unary main_arg1 main_v121 ((extractStridedSlice S131072x1x3 ![0, 1, 0] · slices_S131072x24x3_S131072x1x3_0_1_0) : (⟨S131072x24x3, .f32⟩ : BufTy).Contents (Elt F) → (⟨S131072x1x3, .f32⟩ : BufTy).Contents (Elt F)),
    reshape main_v121 main_v122 rfl shapeCasts_S131072x1x3_S131072x3,
    binary main_v120 main_v122 main_v123 (subf : (⟨S131072x3, .f32⟩ : BufTy).Contents (Elt F) → (⟨S131072x3, .f32⟩ : BufTy).Contents (Elt F) → (⟨S131072x3, .f32⟩ : BufTy).Contents (Elt F)),
    TRef.binary (TRef.of (T := ⟨S131072x3, .f32⟩) main_v123) (TRef.of (T := ⟨S131072x3, .f32⟩) main_v123) (TRef.of (T := ⟨S131072x3, .f32⟩) main_call8_v0) mulf,
    TRef.nullary (TRef.of (T := ⟨S_, .f32⟩) main_call8_cst) (constant S_ .f32 0x00000000#32),
    TRef.binary (TRef.of (T := ⟨S131072x3, .f32⟩) main_call8_v0) (TRef.of (T := ⟨S_, .f32⟩) main_call8_cst) (TRef.of (T := ⟨S131072, .f32⟩) main_call8_v1) (fun x v => Host.reduceAdd x v reducesTo_S131072x3_S131072_d1 h_S_),
    TRef.unary (TRef.of (T := ⟨S131072, .f32⟩) main_call8_v1) (TRef.of (T := ⟨S131072x1, .f32⟩) main_call8_v2) (broadcastInDim S131072x1 ![0] bcast_S131072_S131072x1_0),
    TRef.unary (TRef.of (T := ⟨S131072x1, .f32⟩) main_call8_v2) (TRef.of (T := ⟨S131072x1, .f32⟩) main_v124) Host.sqrt,
    nary ![main_v118, main_v120, main_v124, main_v60] main_v125 (fun u => concatenate S131072x19 1 [⟨S131072x9, u 0⟩, ⟨S131072x3, u 1⟩, ⟨S131072x1, u 2⟩, ⟨S131072x6, u 3⟩] concatenates_S131072x9_S131072x3_S131072x1_S131072x6_S131072x19_d1),
    unary main_arg4 main_v126 ((extractStridedSlice S1x19x19 ![4, 0, 0] · slices_S24x19x19_S1x19x19_4_0_0) : (⟨S24x19x19, .f32⟩ : BufTy).Contents (Elt F) → (⟨S1x19x19, .f32⟩ : BufTy).Contents (Elt F)),
    reshape main_v126 main_v127 rfl shapeCasts_S1x19x19_S19x19,
    unary main_v127 main_v128 ((transpose S19x19 [1, 0] · transposes_S19x19_S19x19_1_0) : (⟨S19x19, .f32⟩ : BufTy).Contents (Elt F) → (⟨S19x19, .f32⟩ : BufTy).Contents (Elt F)),
    binary main_v125 main_v128 main_v129 ((fun l r => Host.dotGeneral dot_S131072x19_S19x19_S131072x19_1_0_0_1_n_n none l r) : (⟨S131072x19, .f32⟩ : BufTy).Contents (Elt F) → (⟨S19x19, .f32⟩ : BufTy).Contents (Elt F) → (⟨S131072x19, .f32⟩ : BufTy).Contents (Elt F)),
    unary main_arg5 main_v130 ((extractStridedSlice S1x19 ![4, 0] · slices_S24x19_S1x19_4_0) : (⟨S24x19, .f32⟩ : BufTy).Contents (Elt F) → (⟨S1x19, .f32⟩ : BufTy).Contents (Elt F)),
    reshape main_v130 main_v131 rfl shapeCasts_S1x19_S19,
    unary main_v131 main_v132 (broadcastInDim S1x19 ![1] bcast_S19_S1x19_1 : (⟨S19, .f32⟩ : BufTy).Contents (Elt F) → (⟨S1x19, .f32⟩ : BufTy).Contents (Elt F)),
    unary main_v132 main_v133 (broadcastInDim S131072x19 ![0, 1] bcast_S1x19_S131072x19_0_1 : (⟨S1x19, .f32⟩ : BufTy).Contents (Elt F) → (⟨S131072x19, .f32⟩ : BufTy).Contents (Elt F)),
    binary main_v129 main_v133 main_v134 (addf : (⟨S131072x19, .f32⟩ : BufTy).Contents (Elt F) → (⟨S131072x19, .f32⟩ : BufTy).Contents (Elt F) → (⟨S131072x19, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S131072x19, .f32⟩) main_call9_v0) (broadcastInDim S131072x19 ![] bcast_S_S131072x19),
    TRef.binary (TRef.of (T := ⟨S131072x19, .f32⟩) main_v134) (TRef.of (T := ⟨S131072x19, .f32⟩) main_call9_v0) (TRef.of (T := ⟨S131072x19, .f32⟩) main_v135) maximumf,
    unary main_arg6 main_v136 ((extractStridedSlice S1x6x19 ![4, 0, 0] · slices_S24x6x19_S1x6x19_4_0_0) : (⟨S24x6x19, .f32⟩ : BufTy).Contents (Elt F) → (⟨S1x6x19, .f32⟩ : BufTy).Contents (Elt F)),
    reshape main_v136 main_v137 rfl shapeCasts_S1x6x19_S6x19,
    unary main_v137 main_v138 ((transpose S19x6 [1, 0] · transposes_S6x19_S19x6_1_0) : (⟨S6x19, .f32⟩ : BufTy).Contents (Elt F) → (⟨S19x6, .f32⟩ : BufTy).Contents (Elt F)),
    binary main_v135 main_v138 main_v139 ((fun l r => Host.dotGeneral dot_S131072x19_S19x6_S131072x6_1_0_0_1_n_n none l r) : (⟨S131072x19, .f32⟩ : BufTy).Contents (Elt F) → (⟨S19x6, .f32⟩ : BufTy).Contents (Elt F) → (⟨S131072x6, .f32⟩ : BufTy).Contents (Elt F)),
    unary main_arg7 main_v140 ((extractStridedSlice S1x6 ![4, 0] · slices_S24x6_S1x6_4_0) : (⟨S24x6, .f32⟩ : BufTy).Contents (Elt F) → (⟨S1x6, .f32⟩ : BufTy).Contents (Elt F)),
    reshape main_v140 main_v141 rfl shapeCasts_S1x6_S6,
    unary main_v141 main_v142 (broadcastInDim S1x6 ![1] bcast_S6_S1x6_1 : (⟨S6, .f32⟩ : BufTy).Contents (Elt F) → (⟨S1x6, .f32⟩ : BufTy).Contents (Elt F)),
    unary main_v142 main_v143 (broadcastInDim S131072x6 ![0, 1] bcast_S1x6_S131072x6_0_1 : (⟨S1x6, .f32⟩ : BufTy).Contents (Elt F) → (⟨S131072x6, .f32⟩ : BufTy).Contents (Elt F)),
    binary main_v139 main_v143 main_v144 (addf : (⟨S131072x6, .f32⟩ : BufTy).Contents (Elt F) → (⟨S131072x6, .f32⟩ : BufTy).Contents (Elt F) → (⟨S131072x6, .f32⟩ : BufTy).Contents (Elt F)) ]

abbrev win4_W : List (Ref sig .tc) := [main_v117, main_v118, main_v119, main_v120, main_v121, main_v122, main_v123, main_call8_v0, main_call8_cst, main_call8_v1, main_call8_v2, main_v124, main_v125, main_v126, main_v127, main_v128, main_v129, main_v130, main_v131, main_v132, main_v133, main_v134, main_call9_cst, main_call9_v0, main_v135, main_v136, main_v137, main_v138, main_v139, main_v140, main_v141, main_v142, main_v143, main_v144]

theorem win4_ok : (win4 : List (HloOp τ sig (Elt F))).Forall fun op => op.bufs ⊆ tcRefs τ sig ∧ op.fresh = ∅ :=
  ⟨⟨unary_bufs_sub .., rfl⟩, ⟨reshape_bufs_sub .., rfl⟩, ⟨unary_bufs_sub .., rfl⟩, ⟨reshape_bufs_sub .., rfl⟩, ⟨unary_bufs_sub .., rfl⟩, ⟨reshape_bufs_sub .., rfl⟩, ⟨binary_bufs_sub .., rfl⟩, ⟨binary_bufs_sub .., rfl⟩, ⟨nullary_bufs_sub .., rfl⟩, ⟨binary_bufs_sub .., rfl⟩, ⟨unary_bufs_sub .., rfl⟩, ⟨unary_bufs_sub .., rfl⟩, ⟨nary_bufs_sub .., rfl⟩, ⟨unary_bufs_sub .., rfl⟩, ⟨reshape_bufs_sub .., rfl⟩, ⟨unary_bufs_sub .., rfl⟩, ⟨binary_bufs_sub .., rfl⟩, ⟨unary_bufs_sub .., rfl⟩, ⟨reshape_bufs_sub .., rfl⟩, ⟨unary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨unary_bufs_sub .., rfl⟩, ⟨reshape_bufs_sub .., rfl⟩, ⟨unary_bufs_sub .., rfl⟩, ⟨binary_bufs_sub .., rfl⟩, ⟨unary_bufs_sub .., rfl⟩, ⟨reshape_bufs_sub .., rfl⟩, ⟨unary_bufs_sub .., rfl⟩, ⟨unary_bufs_sub .., rfl⟩, ⟨binary_bufs_sub .., rfl⟩⟩

theorem win4_writes : (win4 : List (HloOp τ sig (Elt F))).Forall fun op =>
    op.writes ⊆ (win4_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

abbrev win5 : List (HloOp τ sig (Elt F)) :=
  [ unary main_arg0 main_v145 ((extractStridedSlice S131072x1x9 ![0, 5, 0] · slices_S131072x24x9_S131072x1x9_0_5_0) : (⟨S131072x24x9, .f32⟩ : BufTy).Contents (Elt F) → (⟨S131072x1x9, .f32⟩ : BufTy).Contents (Elt F)),
    reshape main_v145 main_v146 rfl shapeCasts_S131072x1x9_S131072x9,
    unary main_arg1 main_v147 ((extractStridedSlice S131072x1x3 ![0, 5, 0] · slices_S131072x24x3_S131072x1x3_0_5_0) : (⟨S131072x24x3, .f32⟩ : BufTy).Contents (Elt F) → (⟨S131072x1x3, .f32⟩ : BufTy).Contents (Elt F)),
    reshape main_v147 main_v148 rfl shapeCasts_S131072x1x3_S131072x3,
    unary main_arg1 main_v149 ((extractStridedSlice S131072x1x3 ![0, 2, 0] · slices_S131072x24x3_S131072x1x3_0_2_0) : (⟨S131072x24x3, .f32⟩ : BufTy).Contents (Elt F) → (⟨S131072x1x3, .f32⟩ : BufTy).Contents (Elt F)),
    reshape main_v149 main_v150 rfl shapeCasts_S131072x1x3_S131072x3,
    binary main_v148 main_v150 main_v151 (subf : (⟨S131072x3, .f32⟩ : BufTy).Contents (Elt F) → (⟨S131072x3, .f32⟩ : BufTy).Contents (Elt F) → (⟨S131072x3, .f32⟩ : BufTy).Contents (Elt F)),
    TRef.binary (TRef.of (T := ⟨S131072x3, .f32⟩) main_v151) (TRef.of (T := ⟨S131072x3, .f32⟩) main_v151) (TRef.of (T := ⟨S131072x3, .f32⟩) main_call10_v0) mulf,
    TRef.nullary (TRef.of (T := ⟨S_, .f32⟩) main_call10_cst) (constant S_ .f32 0x00000000#32),
    TRef.binary (TRef.of (T := ⟨S131072x3, .f32⟩) main_call10_v0) (TRef.of (T := ⟨S_, .f32⟩) main_call10_cst) (TRef.of (T := ⟨S131072, .f32⟩) main_call10_v1) (fun x v => Host.reduceAdd x v reducesTo_S131072x3_S131072_d1 h_S_),
    TRef.unary (TRef.of (T := ⟨S131072, .f32⟩) main_call10_v1) (TRef.of (T := ⟨S131072x1, .f32⟩) main_call10_v2) (broadcastInDim S131072x1 ![0] bcast_S131072_S131072x1_0),
    TRef.unary (TRef.of (T := ⟨S131072x1, .f32⟩) main_call10_v2) (TRef.of (T := ⟨S131072x1, .f32⟩) main_v152) Host.sqrt,
    nary ![main_v146, main_v148, main_v152, main_v88] main_v153 (fun u => concatenate S131072x19 1 [⟨S131072x9, u 0⟩, ⟨S131072x3, u 1⟩, ⟨S131072x1, u 2⟩, ⟨S131072x6, u 3⟩] concatenates_S131072x9_S131072x3_S131072x1_S131072x6_S131072x19_d1),
    unary main_arg4 main_v154 ((extractStridedSlice S1x19x19 ![5, 0, 0] · slices_S24x19x19_S1x19x19_5_0_0) : (⟨S24x19x19, .f32⟩ : BufTy).Contents (Elt F) → (⟨S1x19x19, .f32⟩ : BufTy).Contents (Elt F)),
    reshape main_v154 main_v155 rfl shapeCasts_S1x19x19_S19x19,
    unary main_v155 main_v156 ((transpose S19x19 [1, 0] · transposes_S19x19_S19x19_1_0) : (⟨S19x19, .f32⟩ : BufTy).Contents (Elt F) → (⟨S19x19, .f32⟩ : BufTy).Contents (Elt F)),
    binary main_v153 main_v156 main_v157 ((fun l r => Host.dotGeneral dot_S131072x19_S19x19_S131072x19_1_0_0_1_n_n none l r) : (⟨S131072x19, .f32⟩ : BufTy).Contents (Elt F) → (⟨S19x19, .f32⟩ : BufTy).Contents (Elt F) → (⟨S131072x19, .f32⟩ : BufTy).Contents (Elt F)),
    unary main_arg5 main_v158 ((extractStridedSlice S1x19 ![5, 0] · slices_S24x19_S1x19_5_0) : (⟨S24x19, .f32⟩ : BufTy).Contents (Elt F) → (⟨S1x19, .f32⟩ : BufTy).Contents (Elt F)),
    reshape main_v158 main_v159 rfl shapeCasts_S1x19_S19,
    unary main_v159 main_v160 (broadcastInDim S1x19 ![1] bcast_S19_S1x19_1 : (⟨S19, .f32⟩ : BufTy).Contents (Elt F) → (⟨S1x19, .f32⟩ : BufTy).Contents (Elt F)),
    unary main_v160 main_v161 (broadcastInDim S131072x19 ![0, 1] bcast_S1x19_S131072x19_0_1 : (⟨S1x19, .f32⟩ : BufTy).Contents (Elt F) → (⟨S131072x19, .f32⟩ : BufTy).Contents (Elt F)),
    binary main_v157 main_v161 main_v162 (addf : (⟨S131072x19, .f32⟩ : BufTy).Contents (Elt F) → (⟨S131072x19, .f32⟩ : BufTy).Contents (Elt F) → (⟨S131072x19, .f32⟩ : BufTy).Contents (Elt F)),
    TRef.nullary (TRef.of (T := ⟨S_, .f32⟩) main_call11_cst) (constant S_ .f32 0x00000000#32),
    TRef.unary (TRef.of (T := ⟨S_, .f32⟩) main_call11_cst) (TRef.of (T := ⟨S131072x19, .f32⟩) main_call11_v0) (broadcastInDim S131072x19 ![] bcast_S_S131072x19),
    TRef.binary (TRef.of (T := ⟨S131072x19, .f32⟩) main_v162) (TRef.of (T := ⟨S131072x19, .f32⟩) main_call11_v0) (TRef.of (T := ⟨S131072x19, .f32⟩) main_v163) maximumf,
    unary main_arg6 main_v164 ((extractStridedSlice S1x6x19 ![5, 0, 0] · slices_S24x6x19_S1x6x19_5_0_0) : (⟨S24x6x19, .f32⟩ : BufTy).Contents (Elt F) → (⟨S1x6x19, .f32⟩ : BufTy).Contents (Elt F)),
    reshape main_v164 main_v165 rfl shapeCasts_S1x6x19_S6x19,
    unary main_v165 main_v166 ((transpose S19x6 [1, 0] · transposes_S6x19_S19x6_1_0) : (⟨S6x19, .f32⟩ : BufTy).Contents (Elt F) → (⟨S19x6, .f32⟩ : BufTy).Contents (Elt F)),
    binary main_v163 main_v166 main_v167 ((fun l r => Host.dotGeneral dot_S131072x19_S19x6_S131072x6_1_0_0_1_n_n none l r) : (⟨S131072x19, .f32⟩ : BufTy).Contents (Elt F) → (⟨S19x6, .f32⟩ : BufTy).Contents (Elt F) → (⟨S131072x6, .f32⟩ : BufTy).Contents (Elt F)),
    unary main_arg7 main_v168 ((extractStridedSlice S1x6 ![5, 0] · slices_S24x6_S1x6_5_0) : (⟨S24x6, .f32⟩ : BufTy).Contents (Elt F) → (⟨S1x6, .f32⟩ : BufTy).Contents (Elt F)),
    reshape main_v168 main_v169 rfl shapeCasts_S1x6_S6,
    unary main_v169 main_v170 (broadcastInDim S1x6 ![1] bcast_S6_S1x6_1 : (⟨S6, .f32⟩ : BufTy).Contents (Elt F) → (⟨S1x6, .f32⟩ : BufTy).Contents (Elt F)),
    unary main_v170 main_v171 (broadcastInDim S131072x6 ![0, 1] bcast_S1x6_S131072x6_0_1 : (⟨S1x6, .f32⟩ : BufTy).Contents (Elt F) → (⟨S131072x6, .f32⟩ : BufTy).Contents (Elt F)),
    binary main_v167 main_v171 main_v172 (addf : (⟨S131072x6, .f32⟩ : BufTy).Contents (Elt F) → (⟨S131072x6, .f32⟩ : BufTy).Contents (Elt F) → (⟨S131072x6, .f32⟩ : BufTy).Contents (Elt F)) ]

abbrev win5_W : List (Ref sig .tc) := [main_v145, main_v146, main_v147, main_v148, main_v149, main_v150, main_v151, main_call10_v0, main_call10_cst, main_call10_v1, main_call10_v2, main_v152, main_v153, main_v154, main_v155, main_v156, main_v157, main_v158, main_v159, main_v160, main_v161, main_v162, main_call11_cst, main_call11_v0, main_v163, main_v164, main_v165, main_v166, main_v167, main_v168, main_v169, main_v170, main_v171, main_v172]

theorem win5_ok : (win5 : List (HloOp τ sig (Elt F))).Forall fun op => op.bufs ⊆ tcRefs τ sig ∧ op.fresh = ∅ :=
  ⟨⟨unary_bufs_sub .., rfl⟩, ⟨reshape_bufs_sub .., rfl⟩, ⟨unary_bufs_sub .., rfl⟩, ⟨reshape_bufs_sub .., rfl⟩, ⟨unary_bufs_sub .., rfl⟩, ⟨reshape_bufs_sub .., rfl⟩, ⟨binary_bufs_sub .., rfl⟩, ⟨binary_bufs_sub .., rfl⟩, ⟨nullary_bufs_sub .., rfl⟩, ⟨binary_bufs_sub .., rfl⟩, ⟨unary_bufs_sub .., rfl⟩, ⟨unary_bufs_sub .., rfl⟩, ⟨nary_bufs_sub .., rfl⟩, ⟨unary_bufs_sub .., rfl⟩, ⟨reshape_bufs_sub .., rfl⟩, ⟨unary_bufs_sub .., rfl⟩, ⟨binary_bufs_sub .., rfl⟩, ⟨unary_bufs_sub .., rfl⟩, ⟨reshape_bufs_sub .., rfl⟩, ⟨unary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨unary_bufs_sub .., rfl⟩, ⟨reshape_bufs_sub .., rfl⟩, ⟨unary_bufs_sub .., rfl⟩, ⟨binary_bufs_sub .., rfl⟩, ⟨unary_bufs_sub .., rfl⟩, ⟨reshape_bufs_sub .., rfl⟩, ⟨unary_bufs_sub .., rfl⟩, ⟨unary_bufs_sub .., rfl⟩, ⟨binary_bufs_sub .., rfl⟩⟩

theorem win5_writes : (win5 : List (HloOp τ sig (Elt F))).Forall fun op =>
    op.writes ⊆ (win5_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

abbrev win6 : List (HloOp τ sig (Elt F)) :=
  [ unary main_arg0 main_v173 ((extractStridedSlice S131072x1x9 ![0, 6, 0] · slices_S131072x24x9_S131072x1x9_0_6_0) : (⟨S131072x24x9, .f32⟩ : BufTy).Contents (Elt F) → (⟨S131072x1x9, .f32⟩ : BufTy).Contents (Elt F)),
    reshape main_v173 main_v174 rfl shapeCasts_S131072x1x9_S131072x9,
    unary main_arg1 main_v175 ((extractStridedSlice S131072x1x3 ![0, 6, 0] · slices_S131072x24x3_S131072x1x3_0_6_0) : (⟨S131072x24x3, .f32⟩ : BufTy).Contents (Elt F) → (⟨S131072x1x3, .f32⟩ : BufTy).Contents (Elt F)),
    reshape main_v175 main_v176 rfl shapeCasts_S131072x1x3_S131072x3,
    unary main_arg1 main_v177 ((extractStridedSlice S131072x1x3 ![0, 3, 0] · slices_S131072x24x3_S131072x1x3_0_3_0) : (⟨S131072x24x3, .f32⟩ : BufTy).Contents (Elt F) → (⟨S131072x1x3, .f32⟩ : BufTy).Contents (Elt F)),
    reshape main_v177 main_v178 rfl shapeCasts_S131072x1x3_S131072x3,
    binary main_v176 main_v178 main_v179 (subf : (⟨S131072x3, .f32⟩ : BufTy).Contents (Elt F) → (⟨S131072x3, .f32⟩ : BufTy).Contents (Elt F) → (⟨S131072x3, .f32⟩ : BufTy).Contents (Elt F)),
    TRef.binary (TRef.of (T := ⟨S131072x3, .f32⟩) main_v179) (TRef.of (T := ⟨S131072x3, .f32⟩) main_v179) (TRef.of (T := ⟨S131072x3, .f32⟩) main_call12_v0) mulf,
    TRef.nullary (TRef.of (T := ⟨S_, .f32⟩) main_call12_cst) (constant S_ .f32 0x00000000#32),
    TRef.binary (TRef.of (T := ⟨S131072x3, .f32⟩) main_call12_v0) (TRef.of (T := ⟨S_, .f32⟩) main_call12_cst) (TRef.of (T := ⟨S131072, .f32⟩) main_call12_v1) (fun x v => Host.reduceAdd x v reducesTo_S131072x3_S131072_d1 h_S_),
    TRef.unary (TRef.of (T := ⟨S131072, .f32⟩) main_call12_v1) (TRef.of (T := ⟨S131072x1, .f32⟩) main_call12_v2) (broadcastInDim S131072x1 ![0] bcast_S131072_S131072x1_0),
    TRef.unary (TRef.of (T := ⟨S131072x1, .f32⟩) main_call12_v2) (TRef.of (T := ⟨S131072x1, .f32⟩) main_v180) Host.sqrt,
    nary ![main_v174, main_v176, main_v180, main_v116] main_v181 (fun u => concatenate S131072x19 1 [⟨S131072x9, u 0⟩, ⟨S131072x3, u 1⟩, ⟨S131072x1, u 2⟩, ⟨S131072x6, u 3⟩] concatenates_S131072x9_S131072x3_S131072x1_S131072x6_S131072x19_d1),
    unary main_arg4 main_v182 ((extractStridedSlice S1x19x19 ![6, 0, 0] · slices_S24x19x19_S1x19x19_6_0_0) : (⟨S24x19x19, .f32⟩ : BufTy).Contents (Elt F) → (⟨S1x19x19, .f32⟩ : BufTy).Contents (Elt F)),
    reshape main_v182 main_v183 rfl shapeCasts_S1x19x19_S19x19,
    unary main_v183 main_v184 ((transpose S19x19 [1, 0] · transposes_S19x19_S19x19_1_0) : (⟨S19x19, .f32⟩ : BufTy).Contents (Elt F) → (⟨S19x19, .f32⟩ : BufTy).Contents (Elt F)),
    binary main_v181 main_v184 main_v185 ((fun l r => Host.dotGeneral dot_S131072x19_S19x19_S131072x19_1_0_0_1_n_n none l r) : (⟨S131072x19, .f32⟩ : BufTy).Contents (Elt F) → (⟨S19x19, .f32⟩ : BufTy).Contents (Elt F) → (⟨S131072x19, .f32⟩ : BufTy).Contents (Elt F)),
    unary main_arg5 main_v186 ((extractStridedSlice S1x19 ![6, 0] · slices_S24x19_S1x19_6_0) : (⟨S24x19, .f32⟩ : BufTy).Contents (Elt F) → (⟨S1x19, .f32⟩ : BufTy).Contents (Elt F)),
    reshape main_v186 main_v187 rfl shapeCasts_S1x19_S19,
    unary main_v187 main_v188 (broadcastInDim S1x19 ![1] bcast_S19_S1x19_1 : (⟨S19, .f32⟩ : BufTy).Contents (Elt F) → (⟨S1x19, .f32⟩ : BufTy).Contents (Elt F)),
    unary main_v188 main_v189 (broadcastInDim S131072x19 ![0, 1] bcast_S1x19_S131072x19_0_1 : (⟨S1x19, .f32⟩ : BufTy).Contents (Elt F) → (⟨S131072x19, .f32⟩ : BufTy).Contents (Elt F)),
    binary main_v185 main_v189 main_v190 (addf : (⟨S131072x19, .f32⟩ : BufTy).Contents (Elt F) → (⟨S131072x19, .f32⟩ : BufTy).Contents (Elt F) → (⟨S131072x19, .f32⟩ : BufTy).Contents (Elt F)),
    TRef.nullary (TRef.of (T := ⟨S_, .f32⟩) main_call13_cst) (constant S_ .f32 0x00000000#32),
    TRef.unary (TRef.of (T := ⟨S_, .f32⟩) main_call13_cst) (TRef.of (T := ⟨S131072x19, .f32⟩) main_call13_v0) (broadcastInDim S131072x19 ![] bcast_S_S131072x19),
    TRef.binary (TRef.of (T := ⟨S131072x19, .f32⟩) main_v190) (TRef.of (T := ⟨S131072x19, .f32⟩) main_call13_v0) (TRef.of (T := ⟨S131072x19, .f32⟩) main_v191) maximumf,
    unary main_arg6 main_v192 ((extractStridedSlice S1x6x19 ![6, 0, 0] · slices_S24x6x19_S1x6x19_6_0_0) : (⟨S24x6x19, .f32⟩ : BufTy).Contents (Elt F) → (⟨S1x6x19, .f32⟩ : BufTy).Contents (Elt F)),
    reshape main_v192 main_v193 rfl shapeCasts_S1x6x19_S6x19,
    unary main_v193 main_v194 ((transpose S19x6 [1, 0] · transposes_S6x19_S19x6_1_0) : (⟨S6x19, .f32⟩ : BufTy).Contents (Elt F) → (⟨S19x6, .f32⟩ : BufTy).Contents (Elt F)),
    binary main_v191 main_v194 main_v195 ((fun l r => Host.dotGeneral dot_S131072x19_S19x6_S131072x6_1_0_0_1_n_n none l r) : (⟨S131072x19, .f32⟩ : BufTy).Contents (Elt F) → (⟨S19x6, .f32⟩ : BufTy).Contents (Elt F) → (⟨S131072x6, .f32⟩ : BufTy).Contents (Elt F)),
    unary main_arg7 main_v196 ((extractStridedSlice S1x6 ![6, 0] · slices_S24x6_S1x6_6_0) : (⟨S24x6, .f32⟩ : BufTy).Contents (Elt F) → (⟨S1x6, .f32⟩ : BufTy).Contents (Elt F)),
    reshape main_v196 main_v197 rfl shapeCasts_S1x6_S6,
    unary main_v197 main_v198 (broadcastInDim S1x6 ![1] bcast_S6_S1x6_1 : (⟨S6, .f32⟩ : BufTy).Contents (Elt F) → (⟨S1x6, .f32⟩ : BufTy).Contents (Elt F)),
    unary main_v198 main_v199 (broadcastInDim S131072x6 ![0, 1] bcast_S1x6_S131072x6_0_1 : (⟨S1x6, .f32⟩ : BufTy).Contents (Elt F) → (⟨S131072x6, .f32⟩ : BufTy).Contents (Elt F)),
    binary main_v195 main_v199 main_v200 (addf : (⟨S131072x6, .f32⟩ : BufTy).Contents (Elt F) → (⟨S131072x6, .f32⟩ : BufTy).Contents (Elt F) → (⟨S131072x6, .f32⟩ : BufTy).Contents (Elt F)) ]

abbrev win6_W : List (Ref sig .tc) := [main_v173, main_v174, main_v175, main_v176, main_v177, main_v178, main_v179, main_call12_v0, main_call12_cst, main_call12_v1, main_call12_v2, main_v180, main_v181, main_v182, main_v183, main_v184, main_v185, main_v186, main_v187, main_v188, main_v189, main_v190, main_call13_cst, main_call13_v0, main_v191, main_v192, main_v193, main_v194, main_v195, main_v196, main_v197, main_v198, main_v199, main_v200]

theorem win6_ok : (win6 : List (HloOp τ sig (Elt F))).Forall fun op => op.bufs ⊆ tcRefs τ sig ∧ op.fresh = ∅ :=
  ⟨⟨unary_bufs_sub .., rfl⟩, ⟨reshape_bufs_sub .., rfl⟩, ⟨unary_bufs_sub .., rfl⟩, ⟨reshape_bufs_sub .., rfl⟩, ⟨unary_bufs_sub .., rfl⟩, ⟨reshape_bufs_sub .., rfl⟩, ⟨binary_bufs_sub .., rfl⟩, ⟨binary_bufs_sub .., rfl⟩, ⟨nullary_bufs_sub .., rfl⟩, ⟨binary_bufs_sub .., rfl⟩, ⟨unary_bufs_sub .., rfl⟩, ⟨unary_bufs_sub .., rfl⟩, ⟨nary_bufs_sub .., rfl⟩, ⟨unary_bufs_sub .., rfl⟩, ⟨reshape_bufs_sub .., rfl⟩, ⟨unary_bufs_sub .., rfl⟩, ⟨binary_bufs_sub .., rfl⟩, ⟨unary_bufs_sub .., rfl⟩, ⟨reshape_bufs_sub .., rfl⟩, ⟨unary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨unary_bufs_sub .., rfl⟩, ⟨reshape_bufs_sub .., rfl⟩, ⟨unary_bufs_sub .., rfl⟩, ⟨binary_bufs_sub .., rfl⟩, ⟨unary_bufs_sub .., rfl⟩, ⟨reshape_bufs_sub .., rfl⟩, ⟨unary_bufs_sub .., rfl⟩, ⟨unary_bufs_sub .., rfl⟩, ⟨binary_bufs_sub .., rfl⟩⟩

theorem win6_writes : (win6 : List (HloOp τ sig (Elt F))).Forall fun op =>
    op.writes ⊆ (win6_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

abbrev win7 : List (HloOp τ sig (Elt F)) :=
  [ unary main_arg0 main_v201 ((extractStridedSlice S131072x1x9 ![0, 7, 0] · slices_S131072x24x9_S131072x1x9_0_7_0) : (⟨S131072x24x9, .f32⟩ : BufTy).Contents (Elt F) → (⟨S131072x1x9, .f32⟩ : BufTy).Contents (Elt F)),
    reshape main_v201 main_v202 rfl shapeCasts_S131072x1x9_S131072x9,
    unary main_arg1 main_v203 ((extractStridedSlice S131072x1x3 ![0, 7, 0] · slices_S131072x24x3_S131072x1x3_0_7_0) : (⟨S131072x24x3, .f32⟩ : BufTy).Contents (Elt F) → (⟨S131072x1x3, .f32⟩ : BufTy).Contents (Elt F)),
    reshape main_v203 main_v204 rfl shapeCasts_S131072x1x3_S131072x3,
    unary main_arg1 main_v205 ((extractStridedSlice S131072x1x3 ![0, 4, 0] · slices_S131072x24x3_S131072x1x3_0_4_0) : (⟨S131072x24x3, .f32⟩ : BufTy).Contents (Elt F) → (⟨S131072x1x3, .f32⟩ : BufTy).Contents (Elt F)),
    reshape main_v205 main_v206 rfl shapeCasts_S131072x1x3_S131072x3,
    binary main_v204 main_v206 main_v207 (subf : (⟨S131072x3, .f32⟩ : BufTy).Contents (Elt F) → (⟨S131072x3, .f32⟩ : BufTy).Contents (Elt F) → (⟨S131072x3, .f32⟩ : BufTy).Contents (Elt F)),
    TRef.binary (TRef.of (T := ⟨S131072x3, .f32⟩) main_v207) (TRef.of (T := ⟨S131072x3, .f32⟩) main_v207) (TRef.of (T := ⟨S131072x3, .f32⟩) main_call14_v0) mulf,
    TRef.nullary (TRef.of (T := ⟨S_, .f32⟩) main_call14_cst) (constant S_ .f32 0x00000000#32),
    TRef.binary (TRef.of (T := ⟨S131072x3, .f32⟩) main_call14_v0) (TRef.of (T := ⟨S_, .f32⟩) main_call14_cst) (TRef.of (T := ⟨S131072, .f32⟩) main_call14_v1) (fun x v => Host.reduceAdd x v reducesTo_S131072x3_S131072_d1 h_S_),
    TRef.unary (TRef.of (T := ⟨S131072, .f32⟩) main_call14_v1) (TRef.of (T := ⟨S131072x1, .f32⟩) main_call14_v2) (broadcastInDim S131072x1 ![0] bcast_S131072_S131072x1_0),
    TRef.unary (TRef.of (T := ⟨S131072x1, .f32⟩) main_call14_v2) (TRef.of (T := ⟨S131072x1, .f32⟩) main_v208) Host.sqrt,
    nary ![main_v202, main_v204, main_v208, main_v144] main_v209 (fun u => concatenate S131072x19 1 [⟨S131072x9, u 0⟩, ⟨S131072x3, u 1⟩, ⟨S131072x1, u 2⟩, ⟨S131072x6, u 3⟩] concatenates_S131072x9_S131072x3_S131072x1_S131072x6_S131072x19_d1),
    unary main_arg4 main_v210 ((extractStridedSlice S1x19x19 ![7, 0, 0] · slices_S24x19x19_S1x19x19_7_0_0) : (⟨S24x19x19, .f32⟩ : BufTy).Contents (Elt F) → (⟨S1x19x19, .f32⟩ : BufTy).Contents (Elt F)),
    reshape main_v210 main_v211 rfl shapeCasts_S1x19x19_S19x19,
    unary main_v211 main_v212 ((transpose S19x19 [1, 0] · transposes_S19x19_S19x19_1_0) : (⟨S19x19, .f32⟩ : BufTy).Contents (Elt F) → (⟨S19x19, .f32⟩ : BufTy).Contents (Elt F)),
    binary main_v209 main_v212 main_v213 ((fun l r => Host.dotGeneral dot_S131072x19_S19x19_S131072x19_1_0_0_1_n_n none l r) : (⟨S131072x19, .f32⟩ : BufTy).Contents (Elt F) → (⟨S19x19, .f32⟩ : BufTy).Contents (Elt F) → (⟨S131072x19, .f32⟩ : BufTy).Contents (Elt F)),
    unary main_arg5 main_v214 ((extractStridedSlice S1x19 ![7, 0] · slices_S24x19_S1x19_7_0) : (⟨S24x19, .f32⟩ : BufTy).Contents (Elt F) → (⟨S1x19, .f32⟩ : BufTy).Contents (Elt F)),
    reshape main_v214 main_v215 rfl shapeCasts_S1x19_S19,
    unary main_v215 main_v216 (broadcastInDim S1x19 ![1] bcast_S19_S1x19_1 : (⟨S19, .f32⟩ : BufTy).Contents (Elt F) → (⟨S1x19, .f32⟩ : BufTy).Contents (Elt F)),
    unary main_v216 main_v217 (broadcastInDim S131072x19 ![0, 1] bcast_S1x19_S131072x19_0_1 : (⟨S1x19, .f32⟩ : BufTy).Contents (Elt F) → (⟨S131072x19, .f32⟩ : BufTy).Contents (Elt F)),
    binary main_v213 main_v217 main_v218 (addf : (⟨S131072x19, .f32⟩ : BufTy).Contents (Elt F) → (⟨S131072x19, .f32⟩ : BufTy).Contents (Elt F) → (⟨S131072x19, .f32⟩ : BufTy).Contents (Elt F)),
    TRef.nullary (TRef.of (T := ⟨S_, .f32⟩) main_call15_cst) (constant S_ .f32 0x00000000#32),
    TRef.unary (TRef.of (T := ⟨S_, .f32⟩) main_call15_cst) (TRef.of (T := ⟨S131072x19, .f32⟩) main_call15_v0) (broadcastInDim S131072x19 ![] bcast_S_S131072x19),
    TRef.binary (TRef.of (T := ⟨S131072x19, .f32⟩) main_v218) (TRef.of (T := ⟨S131072x19, .f32⟩) main_call15_v0) (TRef.of (T := ⟨S131072x19, .f32⟩) main_v219) maximumf,
    unary main_arg6 main_v220 ((extractStridedSlice S1x6x19 ![7, 0, 0] · slices_S24x6x19_S1x6x19_7_0_0) : (⟨S24x6x19, .f32⟩ : BufTy).Contents (Elt F) → (⟨S1x6x19, .f32⟩ : BufTy).Contents (Elt F)),
    reshape main_v220 main_v221 rfl shapeCasts_S1x6x19_S6x19,
    unary main_v221 main_v222 ((transpose S19x6 [1, 0] · transposes_S6x19_S19x6_1_0) : (⟨S6x19, .f32⟩ : BufTy).Contents (Elt F) → (⟨S19x6, .f32⟩ : BufTy).Contents (Elt F)),
    binary main_v219 main_v222 main_v223 ((fun l r => Host.dotGeneral dot_S131072x19_S19x6_S131072x6_1_0_0_1_n_n none l r) : (⟨S131072x19, .f32⟩ : BufTy).Contents (Elt F) → (⟨S19x6, .f32⟩ : BufTy).Contents (Elt F) → (⟨S131072x6, .f32⟩ : BufTy).Contents (Elt F)),
    unary main_arg7 main_v224 ((extractStridedSlice S1x6 ![7, 0] · slices_S24x6_S1x6_7_0) : (⟨S24x6, .f32⟩ : BufTy).Contents (Elt F) → (⟨S1x6, .f32⟩ : BufTy).Contents (Elt F)),
    reshape main_v224 main_v225 rfl shapeCasts_S1x6_S6,
    unary main_v225 main_v226 (broadcastInDim S1x6 ![1] bcast_S6_S1x6_1 : (⟨S6, .f32⟩ : BufTy).Contents (Elt F) → (⟨S1x6, .f32⟩ : BufTy).Contents (Elt F)),
    unary main_v226 main_v227 (broadcastInDim S131072x6 ![0, 1] bcast_S1x6_S131072x6_0_1 : (⟨S1x6, .f32⟩ : BufTy).Contents (Elt F) → (⟨S131072x6, .f32⟩ : BufTy).Contents (Elt F)),
    binary main_v223 main_v227 main_v228 (addf : (⟨S131072x6, .f32⟩ : BufTy).Contents (Elt F) → (⟨S131072x6, .f32⟩ : BufTy).Contents (Elt F) → (⟨S131072x6, .f32⟩ : BufTy).Contents (Elt F)) ]

abbrev win7_W : List (Ref sig .tc) := [main_v201, main_v202, main_v203, main_v204, main_v205, main_v206, main_v207, main_call14_v0, main_call14_cst, main_call14_v1, main_call14_v2, main_v208, main_v209, main_v210, main_v211, main_v212, main_v213, main_v214, main_v215, main_v216, main_v217, main_v218, main_call15_cst, main_call15_v0, main_v219, main_v220, main_v221, main_v222, main_v223, main_v224, main_v225, main_v226, main_v227, main_v228]

theorem win7_ok : (win7 : List (HloOp τ sig (Elt F))).Forall fun op => op.bufs ⊆ tcRefs τ sig ∧ op.fresh = ∅ :=
  ⟨⟨unary_bufs_sub .., rfl⟩, ⟨reshape_bufs_sub .., rfl⟩, ⟨unary_bufs_sub .., rfl⟩, ⟨reshape_bufs_sub .., rfl⟩, ⟨unary_bufs_sub .., rfl⟩, ⟨reshape_bufs_sub .., rfl⟩, ⟨binary_bufs_sub .., rfl⟩, ⟨binary_bufs_sub .., rfl⟩, ⟨nullary_bufs_sub .., rfl⟩, ⟨binary_bufs_sub .., rfl⟩, ⟨unary_bufs_sub .., rfl⟩, ⟨unary_bufs_sub .., rfl⟩, ⟨nary_bufs_sub .., rfl⟩, ⟨unary_bufs_sub .., rfl⟩, ⟨reshape_bufs_sub .., rfl⟩, ⟨unary_bufs_sub .., rfl⟩, ⟨binary_bufs_sub .., rfl⟩, ⟨unary_bufs_sub .., rfl⟩, ⟨reshape_bufs_sub .., rfl⟩, ⟨unary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨unary_bufs_sub .., rfl⟩, ⟨reshape_bufs_sub .., rfl⟩, ⟨unary_bufs_sub .., rfl⟩, ⟨binary_bufs_sub .., rfl⟩, ⟨unary_bufs_sub .., rfl⟩, ⟨reshape_bufs_sub .., rfl⟩, ⟨unary_bufs_sub .., rfl⟩, ⟨unary_bufs_sub .., rfl⟩, ⟨binary_bufs_sub .., rfl⟩⟩

theorem win7_writes : (win7 : List (HloOp τ sig (Elt F))).Forall fun op =>
    op.writes ⊆ (win7_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

abbrev win8 : List (HloOp τ sig (Elt F)) :=
  [ unary main_arg0 main_v229 ((extractStridedSlice S131072x1x9 ![0, 8, 0] · slices_S131072x24x9_S131072x1x9_0_8_0) : (⟨S131072x24x9, .f32⟩ : BufTy).Contents (Elt F) → (⟨S131072x1x9, .f32⟩ : BufTy).Contents (Elt F)),
    reshape main_v229 main_v230 rfl shapeCasts_S131072x1x9_S131072x9,
    unary main_arg1 main_v231 ((extractStridedSlice S131072x1x3 ![0, 8, 0] · slices_S131072x24x3_S131072x1x3_0_8_0) : (⟨S131072x24x3, .f32⟩ : BufTy).Contents (Elt F) → (⟨S131072x1x3, .f32⟩ : BufTy).Contents (Elt F)),
    reshape main_v231 main_v232 rfl shapeCasts_S131072x1x3_S131072x3,
    unary main_arg1 main_v233 ((extractStridedSlice S131072x1x3 ![0, 5, 0] · slices_S131072x24x3_S131072x1x3_0_5_0) : (⟨S131072x24x3, .f32⟩ : BufTy).Contents (Elt F) → (⟨S131072x1x3, .f32⟩ : BufTy).Contents (Elt F)),
    reshape main_v233 main_v234 rfl shapeCasts_S131072x1x3_S131072x3,
    binary main_v232 main_v234 main_v235 (subf : (⟨S131072x3, .f32⟩ : BufTy).Contents (Elt F) → (⟨S131072x3, .f32⟩ : BufTy).Contents (Elt F) → (⟨S131072x3, .f32⟩ : BufTy).Contents (Elt F)),
    TRef.binary (TRef.of (T := ⟨S131072x3, .f32⟩) main_v235) (TRef.of (T := ⟨S131072x3, .f32⟩) main_v235) (TRef.of (T := ⟨S131072x3, .f32⟩) main_call16_v0) mulf,
    TRef.nullary (TRef.of (T := ⟨S_, .f32⟩) main_call16_cst) (constant S_ .f32 0x00000000#32),
    TRef.binary (TRef.of (T := ⟨S131072x3, .f32⟩) main_call16_v0) (TRef.of (T := ⟨S_, .f32⟩) main_call16_cst) (TRef.of (T := ⟨S131072, .f32⟩) main_call16_v1) (fun x v => Host.reduceAdd x v reducesTo_S131072x3_S131072_d1 h_S_),
    TRef.unary (TRef.of (T := ⟨S131072, .f32⟩) main_call16_v1) (TRef.of (T := ⟨S131072x1, .f32⟩) main_call16_v2) (broadcastInDim S131072x1 ![0] bcast_S131072_S131072x1_0),
    TRef.unary (TRef.of (T := ⟨S131072x1, .f32⟩) main_call16_v2) (TRef.of (T := ⟨S131072x1, .f32⟩) main_v236) Host.sqrt,
    nary ![main_v230, main_v232, main_v236, main_v172] main_v237 (fun u => concatenate S131072x19 1 [⟨S131072x9, u 0⟩, ⟨S131072x3, u 1⟩, ⟨S131072x1, u 2⟩, ⟨S131072x6, u 3⟩] concatenates_S131072x9_S131072x3_S131072x1_S131072x6_S131072x19_d1),
    unary main_arg4 main_v238 ((extractStridedSlice S1x19x19 ![8, 0, 0] · slices_S24x19x19_S1x19x19_8_0_0) : (⟨S24x19x19, .f32⟩ : BufTy).Contents (Elt F) → (⟨S1x19x19, .f32⟩ : BufTy).Contents (Elt F)),
    reshape main_v238 main_v239 rfl shapeCasts_S1x19x19_S19x19,
    unary main_v239 main_v240 ((transpose S19x19 [1, 0] · transposes_S19x19_S19x19_1_0) : (⟨S19x19, .f32⟩ : BufTy).Contents (Elt F) → (⟨S19x19, .f32⟩ : BufTy).Contents (Elt F)),
    binary main_v237 main_v240 main_v241 ((fun l r => Host.dotGeneral dot_S131072x19_S19x19_S131072x19_1_0_0_1_n_n none l r) : (⟨S131072x19, .f32⟩ : BufTy).Contents (Elt F) → (⟨S19x19, .f32⟩ : BufTy).Contents (Elt F) → (⟨S131072x19, .f32⟩ : BufTy).Contents (Elt F)),
    unary main_arg5 main_v242 ((extractStridedSlice S1x19 ![8, 0] · slices_S24x19_S1x19_8_0) : (⟨S24x19, .f32⟩ : BufTy).Contents (Elt F) → (⟨S1x19, .f32⟩ : BufTy).Contents (Elt F)),
    reshape main_v242 main_v243 rfl shapeCasts_S1x19_S19,
    unary main_v243 main_v244 (broadcastInDim S1x19 ![1] bcast_S19_S1x19_1 : (⟨S19, .f32⟩ : BufTy).Contents (Elt F) → (⟨S1x19, .f32⟩ : BufTy).Contents (Elt F)),
    unary main_v244 main_v245 (broadcastInDim S131072x19 ![0, 1] bcast_S1x19_S131072x19_0_1 : (⟨S1x19, .f32⟩ : BufTy).Contents (Elt F) → (⟨S131072x19, .f32⟩ : BufTy).Contents (Elt F)),
    binary main_v241 main_v245 main_v246 (addf : (⟨S131072x19, .f32⟩ : BufTy).Contents (Elt F) → (⟨S131072x19, .f32⟩ : BufTy).Contents (Elt F) → (⟨S131072x19, .f32⟩ : BufTy).Contents (Elt F)),
    TRef.nullary (TRef.of (T := ⟨S_, .f32⟩) main_call17_cst) (constant S_ .f32 0x00000000#32),
    TRef.unary (TRef.of (T := ⟨S_, .f32⟩) main_call17_cst) (TRef.of (T := ⟨S131072x19, .f32⟩) main_call17_v0) (broadcastInDim S131072x19 ![] bcast_S_S131072x19),
    TRef.binary (TRef.of (T := ⟨S131072x19, .f32⟩) main_v246) (TRef.of (T := ⟨S131072x19, .f32⟩) main_call17_v0) (TRef.of (T := ⟨S131072x19, .f32⟩) main_v247) maximumf,
    unary main_arg6 main_v248 ((extractStridedSlice S1x6x19 ![8, 0, 0] · slices_S24x6x19_S1x6x19_8_0_0) : (⟨S24x6x19, .f32⟩ : BufTy).Contents (Elt F) → (⟨S1x6x19, .f32⟩ : BufTy).Contents (Elt F)),
    reshape main_v248 main_v249 rfl shapeCasts_S1x6x19_S6x19,
    unary main_v249 main_v250 ((transpose S19x6 [1, 0] · transposes_S6x19_S19x6_1_0) : (⟨S6x19, .f32⟩ : BufTy).Contents (Elt F) → (⟨S19x6, .f32⟩ : BufTy).Contents (Elt F)),
    binary main_v247 main_v250 main_v251 ((fun l r => Host.dotGeneral dot_S131072x19_S19x6_S131072x6_1_0_0_1_n_n none l r) : (⟨S131072x19, .f32⟩ : BufTy).Contents (Elt F) → (⟨S19x6, .f32⟩ : BufTy).Contents (Elt F) → (⟨S131072x6, .f32⟩ : BufTy).Contents (Elt F)),
    unary main_arg7 main_v252 ((extractStridedSlice S1x6 ![8, 0] · slices_S24x6_S1x6_8_0) : (⟨S24x6, .f32⟩ : BufTy).Contents (Elt F) → (⟨S1x6, .f32⟩ : BufTy).Contents (Elt F)),
    reshape main_v252 main_v253 rfl shapeCasts_S1x6_S6,
    unary main_v253 main_v254 (broadcastInDim S1x6 ![1] bcast_S6_S1x6_1 : (⟨S6, .f32⟩ : BufTy).Contents (Elt F) → (⟨S1x6, .f32⟩ : BufTy).Contents (Elt F)),
    unary main_v254 main_v255 (broadcastInDim S131072x6 ![0, 1] bcast_S1x6_S131072x6_0_1 : (⟨S1x6, .f32⟩ : BufTy).Contents (Elt F) → (⟨S131072x6, .f32⟩ : BufTy).Contents (Elt F)),
    binary main_v251 main_v255 main_v256 (addf : (⟨S131072x6, .f32⟩ : BufTy).Contents (Elt F) → (⟨S131072x6, .f32⟩ : BufTy).Contents (Elt F) → (⟨S131072x6, .f32⟩ : BufTy).Contents (Elt F)) ]

abbrev win8_W : List (Ref sig .tc) := [main_v229, main_v230, main_v231, main_v232, main_v233, main_v234, main_v235, main_call16_v0, main_call16_cst, main_call16_v1, main_call16_v2, main_v236, main_v237, main_v238, main_v239, main_v240, main_v241, main_v242, main_v243, main_v244, main_v245, main_v246, main_call17_cst, main_call17_v0, main_v247, main_v248, main_v249, main_v250, main_v251, main_v252, main_v253, main_v254, main_v255, main_v256]

theorem win8_ok : (win8 : List (HloOp τ sig (Elt F))).Forall fun op => op.bufs ⊆ tcRefs τ sig ∧ op.fresh = ∅ :=
  ⟨⟨unary_bufs_sub .., rfl⟩, ⟨reshape_bufs_sub .., rfl⟩, ⟨unary_bufs_sub .., rfl⟩, ⟨reshape_bufs_sub .., rfl⟩, ⟨unary_bufs_sub .., rfl⟩, ⟨reshape_bufs_sub .., rfl⟩, ⟨binary_bufs_sub .., rfl⟩, ⟨binary_bufs_sub .., rfl⟩, ⟨nullary_bufs_sub .., rfl⟩, ⟨binary_bufs_sub .., rfl⟩, ⟨unary_bufs_sub .., rfl⟩, ⟨unary_bufs_sub .., rfl⟩, ⟨nary_bufs_sub .., rfl⟩, ⟨unary_bufs_sub .., rfl⟩, ⟨reshape_bufs_sub .., rfl⟩, ⟨unary_bufs_sub .., rfl⟩, ⟨binary_bufs_sub .., rfl⟩, ⟨unary_bufs_sub .., rfl⟩, ⟨reshape_bufs_sub .., rfl⟩, ⟨unary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨unary_bufs_sub .., rfl⟩, ⟨reshape_bufs_sub .., rfl⟩, ⟨unary_bufs_sub .., rfl⟩, ⟨binary_bufs_sub .., rfl⟩, ⟨unary_bufs_sub .., rfl⟩, ⟨reshape_bufs_sub .., rfl⟩, ⟨unary_bufs_sub .., rfl⟩, ⟨unary_bufs_sub .., rfl⟩, ⟨binary_bufs_sub .., rfl⟩⟩

theorem win8_writes : (win8 : List (HloOp τ sig (Elt F))).Forall fun op =>
    op.writes ⊆ (win8_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

abbrev win9 : List (HloOp τ sig (Elt F)) :=
  [ unary main_arg0 main_v257 ((extractStridedSlice S131072x1x9 ![0, 9, 0] · slices_S131072x24x9_S131072x1x9_0_9_0) : (⟨S131072x24x9, .f32⟩ : BufTy).Contents (Elt F) → (⟨S131072x1x9, .f32⟩ : BufTy).Contents (Elt F)),
    reshape main_v257 main_v258 rfl shapeCasts_S131072x1x9_S131072x9,
    unary main_arg1 main_v259 ((extractStridedSlice S131072x1x3 ![0, 9, 0] · slices_S131072x24x3_S131072x1x3_0_9_0) : (⟨S131072x24x3, .f32⟩ : BufTy).Contents (Elt F) → (⟨S131072x1x3, .f32⟩ : BufTy).Contents (Elt F)),
    reshape main_v259 main_v260 rfl shapeCasts_S131072x1x3_S131072x3,
    unary main_arg1 main_v261 ((extractStridedSlice S131072x1x3 ![0, 6, 0] · slices_S131072x24x3_S131072x1x3_0_6_0) : (⟨S131072x24x3, .f32⟩ : BufTy).Contents (Elt F) → (⟨S131072x1x3, .f32⟩ : BufTy).Contents (Elt F)),
    reshape main_v261 main_v262 rfl shapeCasts_S131072x1x3_S131072x3,
    binary main_v260 main_v262 main_v263 (subf : (⟨S131072x3, .f32⟩ : BufTy).Contents (Elt F) → (⟨S131072x3, .f32⟩ : BufTy).Contents (Elt F) → (⟨S131072x3, .f32⟩ : BufTy).Contents (Elt F)),
    TRef.binary (TRef.of (T := ⟨S131072x3, .f32⟩) main_v263) (TRef.of (T := ⟨S131072x3, .f32⟩) main_v263) (TRef.of (T := ⟨S131072x3, .f32⟩) main_call18_v0) mulf,
    TRef.nullary (TRef.of (T := ⟨S_, .f32⟩) main_call18_cst) (constant S_ .f32 0x00000000#32),
    TRef.binary (TRef.of (T := ⟨S131072x3, .f32⟩) main_call18_v0) (TRef.of (T := ⟨S_, .f32⟩) main_call18_cst) (TRef.of (T := ⟨S131072, .f32⟩) main_call18_v1) (fun x v => Host.reduceAdd x v reducesTo_S131072x3_S131072_d1 h_S_),
    TRef.unary (TRef.of (T := ⟨S131072, .f32⟩) main_call18_v1) (TRef.of (T := ⟨S131072x1, .f32⟩) main_call18_v2) (broadcastInDim S131072x1 ![0] bcast_S131072_S131072x1_0),
    TRef.unary (TRef.of (T := ⟨S131072x1, .f32⟩) main_call18_v2) (TRef.of (T := ⟨S131072x1, .f32⟩) main_v264) Host.sqrt,
    nary ![main_v258, main_v260, main_v264, main_v200] main_v265 (fun u => concatenate S131072x19 1 [⟨S131072x9, u 0⟩, ⟨S131072x3, u 1⟩, ⟨S131072x1, u 2⟩, ⟨S131072x6, u 3⟩] concatenates_S131072x9_S131072x3_S131072x1_S131072x6_S131072x19_d1),
    unary main_arg4 main_v266 ((extractStridedSlice S1x19x19 ![9, 0, 0] · slices_S24x19x19_S1x19x19_9_0_0) : (⟨S24x19x19, .f32⟩ : BufTy).Contents (Elt F) → (⟨S1x19x19, .f32⟩ : BufTy).Contents (Elt F)),
    reshape main_v266 main_v267 rfl shapeCasts_S1x19x19_S19x19,
    unary main_v267 main_v268 ((transpose S19x19 [1, 0] · transposes_S19x19_S19x19_1_0) : (⟨S19x19, .f32⟩ : BufTy).Contents (Elt F) → (⟨S19x19, .f32⟩ : BufTy).Contents (Elt F)),
    binary main_v265 main_v268 main_v269 ((fun l r => Host.dotGeneral dot_S131072x19_S19x19_S131072x19_1_0_0_1_n_n none l r) : (⟨S131072x19, .f32⟩ : BufTy).Contents (Elt F) → (⟨S19x19, .f32⟩ : BufTy).Contents (Elt F) → (⟨S131072x19, .f32⟩ : BufTy).Contents (Elt F)),
    unary main_arg5 main_v270 ((extractStridedSlice S1x19 ![9, 0] · slices_S24x19_S1x19_9_0) : (⟨S24x19, .f32⟩ : BufTy).Contents (Elt F) → (⟨S1x19, .f32⟩ : BufTy).Contents (Elt F)),
    reshape main_v270 main_v271 rfl shapeCasts_S1x19_S19,
    unary main_v271 main_v272 (broadcastInDim S1x19 ![1] bcast_S19_S1x19_1 : (⟨S19, .f32⟩ : BufTy).Contents (Elt F) → (⟨S1x19, .f32⟩ : BufTy).Contents (Elt F)),
    unary main_v272 main_v273 (broadcastInDim S131072x19 ![0, 1] bcast_S1x19_S131072x19_0_1 : (⟨S1x19, .f32⟩ : BufTy).Contents (Elt F) → (⟨S131072x19, .f32⟩ : BufTy).Contents (Elt F)),
    binary main_v269 main_v273 main_v274 (addf : (⟨S131072x19, .f32⟩ : BufTy).Contents (Elt F) → (⟨S131072x19, .f32⟩ : BufTy).Contents (Elt F) → (⟨S131072x19, .f32⟩ : BufTy).Contents (Elt F)),
    TRef.nullary (TRef.of (T := ⟨S_, .f32⟩) main_call19_cst) (constant S_ .f32 0x00000000#32),
    TRef.unary (TRef.of (T := ⟨S_, .f32⟩) main_call19_cst) (TRef.of (T := ⟨S131072x19, .f32⟩) main_call19_v0) (broadcastInDim S131072x19 ![] bcast_S_S131072x19),
    TRef.binary (TRef.of (T := ⟨S131072x19, .f32⟩) main_v274) (TRef.of (T := ⟨S131072x19, .f32⟩) main_call19_v0) (TRef.of (T := ⟨S131072x19, .f32⟩) main_v275) maximumf,
    unary main_arg6 main_v276 ((extractStridedSlice S1x6x19 ![9, 0, 0] · slices_S24x6x19_S1x6x19_9_0_0) : (⟨S24x6x19, .f32⟩ : BufTy).Contents (Elt F) → (⟨S1x6x19, .f32⟩ : BufTy).Contents (Elt F)),
    reshape main_v276 main_v277 rfl shapeCasts_S1x6x19_S6x19,
    unary main_v277 main_v278 ((transpose S19x6 [1, 0] · transposes_S6x19_S19x6_1_0) : (⟨S6x19, .f32⟩ : BufTy).Contents (Elt F) → (⟨S19x6, .f32⟩ : BufTy).Contents (Elt F)),
    binary main_v275 main_v278 main_v279 ((fun l r => Host.dotGeneral dot_S131072x19_S19x6_S131072x6_1_0_0_1_n_n none l r) : (⟨S131072x19, .f32⟩ : BufTy).Contents (Elt F) → (⟨S19x6, .f32⟩ : BufTy).Contents (Elt F) → (⟨S131072x6, .f32⟩ : BufTy).Contents (Elt F)),
    unary main_arg7 main_v280 ((extractStridedSlice S1x6 ![9, 0] · slices_S24x6_S1x6_9_0) : (⟨S24x6, .f32⟩ : BufTy).Contents (Elt F) → (⟨S1x6, .f32⟩ : BufTy).Contents (Elt F)),
    reshape main_v280 main_v281 rfl shapeCasts_S1x6_S6,
    unary main_v281 main_v282 (broadcastInDim S1x6 ![1] bcast_S6_S1x6_1 : (⟨S6, .f32⟩ : BufTy).Contents (Elt F) → (⟨S1x6, .f32⟩ : BufTy).Contents (Elt F)),
    unary main_v282 main_v283 (broadcastInDim S131072x6 ![0, 1] bcast_S1x6_S131072x6_0_1 : (⟨S1x6, .f32⟩ : BufTy).Contents (Elt F) → (⟨S131072x6, .f32⟩ : BufTy).Contents (Elt F)),
    binary main_v279 main_v283 main_v284 (addf : (⟨S131072x6, .f32⟩ : BufTy).Contents (Elt F) → (⟨S131072x6, .f32⟩ : BufTy).Contents (Elt F) → (⟨S131072x6, .f32⟩ : BufTy).Contents (Elt F)) ]

abbrev win9_W : List (Ref sig .tc) := [main_v257, main_v258, main_v259, main_v260, main_v261, main_v262, main_v263, main_call18_v0, main_call18_cst, main_call18_v1, main_call18_v2, main_v264, main_v265, main_v266, main_v267, main_v268, main_v269, main_v270, main_v271, main_v272, main_v273, main_v274, main_call19_cst, main_call19_v0, main_v275, main_v276, main_v277, main_v278, main_v279, main_v280, main_v281, main_v282, main_v283, main_v284]

theorem win9_ok : (win9 : List (HloOp τ sig (Elt F))).Forall fun op => op.bufs ⊆ tcRefs τ sig ∧ op.fresh = ∅ :=
  ⟨⟨unary_bufs_sub .., rfl⟩, ⟨reshape_bufs_sub .., rfl⟩, ⟨unary_bufs_sub .., rfl⟩, ⟨reshape_bufs_sub .., rfl⟩, ⟨unary_bufs_sub .., rfl⟩, ⟨reshape_bufs_sub .., rfl⟩, ⟨binary_bufs_sub .., rfl⟩, ⟨binary_bufs_sub .., rfl⟩, ⟨nullary_bufs_sub .., rfl⟩, ⟨binary_bufs_sub .., rfl⟩, ⟨unary_bufs_sub .., rfl⟩, ⟨unary_bufs_sub .., rfl⟩, ⟨nary_bufs_sub .., rfl⟩, ⟨unary_bufs_sub .., rfl⟩, ⟨reshape_bufs_sub .., rfl⟩, ⟨unary_bufs_sub .., rfl⟩, ⟨binary_bufs_sub .., rfl⟩, ⟨unary_bufs_sub .., rfl⟩, ⟨reshape_bufs_sub .., rfl⟩, ⟨unary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨unary_bufs_sub .., rfl⟩, ⟨reshape_bufs_sub .., rfl⟩, ⟨unary_bufs_sub .., rfl⟩, ⟨binary_bufs_sub .., rfl⟩, ⟨unary_bufs_sub .., rfl⟩, ⟨reshape_bufs_sub .., rfl⟩, ⟨unary_bufs_sub .., rfl⟩, ⟨unary_bufs_sub .., rfl⟩, ⟨binary_bufs_sub .., rfl⟩⟩

theorem win9_writes : (win9 : List (HloOp τ sig (Elt F))).Forall fun op =>
    op.writes ⊆ (win9_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

abbrev win10 : List (HloOp τ sig (Elt F)) :=
  [ unary main_arg0 main_v285 ((extractStridedSlice S131072x1x9 ![0, 10, 0] · slices_S131072x24x9_S131072x1x9_0_10_0) : (⟨S131072x24x9, .f32⟩ : BufTy).Contents (Elt F) → (⟨S131072x1x9, .f32⟩ : BufTy).Contents (Elt F)),
    reshape main_v285 main_v286 rfl shapeCasts_S131072x1x9_S131072x9,
    unary main_arg1 main_v287 ((extractStridedSlice S131072x1x3 ![0, 10, 0] · slices_S131072x24x3_S131072x1x3_0_10_0) : (⟨S131072x24x3, .f32⟩ : BufTy).Contents (Elt F) → (⟨S131072x1x3, .f32⟩ : BufTy).Contents (Elt F)),
    reshape main_v287 main_v288 rfl shapeCasts_S131072x1x3_S131072x3,
    unary main_arg1 main_v289 ((extractStridedSlice S131072x1x3 ![0, 7, 0] · slices_S131072x24x3_S131072x1x3_0_7_0) : (⟨S131072x24x3, .f32⟩ : BufTy).Contents (Elt F) → (⟨S131072x1x3, .f32⟩ : BufTy).Contents (Elt F)),
    reshape main_v289 main_v290 rfl shapeCasts_S131072x1x3_S131072x3,
    binary main_v288 main_v290 main_v291 (subf : (⟨S131072x3, .f32⟩ : BufTy).Contents (Elt F) → (⟨S131072x3, .f32⟩ : BufTy).Contents (Elt F) → (⟨S131072x3, .f32⟩ : BufTy).Contents (Elt F)),
    TRef.binary (TRef.of (T := ⟨S131072x3, .f32⟩) main_v291) (TRef.of (T := ⟨S131072x3, .f32⟩) main_v291) (TRef.of (T := ⟨S131072x3, .f32⟩) main_call20_v0) mulf,
    TRef.nullary (TRef.of (T := ⟨S_, .f32⟩) main_call20_cst) (constant S_ .f32 0x00000000#32),
    TRef.binary (TRef.of (T := ⟨S131072x3, .f32⟩) main_call20_v0) (TRef.of (T := ⟨S_, .f32⟩) main_call20_cst) (TRef.of (T := ⟨S131072, .f32⟩) main_call20_v1) (fun x v => Host.reduceAdd x v reducesTo_S131072x3_S131072_d1 h_S_),
    TRef.unary (TRef.of (T := ⟨S131072, .f32⟩) main_call20_v1) (TRef.of (T := ⟨S131072x1, .f32⟩) main_call20_v2) (broadcastInDim S131072x1 ![0] bcast_S131072_S131072x1_0),
    TRef.unary (TRef.of (T := ⟨S131072x1, .f32⟩) main_call20_v2) (TRef.of (T := ⟨S131072x1, .f32⟩) main_v292) Host.sqrt,
    nary ![main_v286, main_v288, main_v292, main_v228] main_v293 (fun u => concatenate S131072x19 1 [⟨S131072x9, u 0⟩, ⟨S131072x3, u 1⟩, ⟨S131072x1, u 2⟩, ⟨S131072x6, u 3⟩] concatenates_S131072x9_S131072x3_S131072x1_S131072x6_S131072x19_d1),
    unary main_arg4 main_v294 ((extractStridedSlice S1x19x19 ![10, 0, 0] · slices_S24x19x19_S1x19x19_10_0_0) : (⟨S24x19x19, .f32⟩ : BufTy).Contents (Elt F) → (⟨S1x19x19, .f32⟩ : BufTy).Contents (Elt F)),
    reshape main_v294 main_v295 rfl shapeCasts_S1x19x19_S19x19,
    unary main_v295 main_v296 ((transpose S19x19 [1, 0] · transposes_S19x19_S19x19_1_0) : (⟨S19x19, .f32⟩ : BufTy).Contents (Elt F) → (⟨S19x19, .f32⟩ : BufTy).Contents (Elt F)),
    binary main_v293 main_v296 main_v297 ((fun l r => Host.dotGeneral dot_S131072x19_S19x19_S131072x19_1_0_0_1_n_n none l r) : (⟨S131072x19, .f32⟩ : BufTy).Contents (Elt F) → (⟨S19x19, .f32⟩ : BufTy).Contents (Elt F) → (⟨S131072x19, .f32⟩ : BufTy).Contents (Elt F)),
    unary main_arg5 main_v298 ((extractStridedSlice S1x19 ![10, 0] · slices_S24x19_S1x19_10_0) : (⟨S24x19, .f32⟩ : BufTy).Contents (Elt F) → (⟨S1x19, .f32⟩ : BufTy).Contents (Elt F)),
    reshape main_v298 main_v299 rfl shapeCasts_S1x19_S19,
    unary main_v299 main_v300 (broadcastInDim S1x19 ![1] bcast_S19_S1x19_1 : (⟨S19, .f32⟩ : BufTy).Contents (Elt F) → (⟨S1x19, .f32⟩ : BufTy).Contents (Elt F)),
    unary main_v300 main_v301 (broadcastInDim S131072x19 ![0, 1] bcast_S1x19_S131072x19_0_1 : (⟨S1x19, .f32⟩ : BufTy).Contents (Elt F) → (⟨S131072x19, .f32⟩ : BufTy).Contents (Elt F)),
    binary main_v297 main_v301 main_v302 (addf : (⟨S131072x19, .f32⟩ : BufTy).Contents (Elt F) → (⟨S131072x19, .f32⟩ : BufTy).Contents (Elt F) → (⟨S131072x19, .f32⟩ : BufTy).Contents (Elt F)),
    TRef.nullary (TRef.of (T := ⟨S_, .f32⟩) main_call21_cst) (constant S_ .f32 0x00000000#32),
    TRef.unary (TRef.of (T := ⟨S_, .f32⟩) main_call21_cst) (TRef.of (T := ⟨S131072x19, .f32⟩) main_call21_v0) (broadcastInDim S131072x19 ![] bcast_S_S131072x19),
    TRef.binary (TRef.of (T := ⟨S131072x19, .f32⟩) main_v302) (TRef.of (T := ⟨S131072x19, .f32⟩) main_call21_v0) (TRef.of (T := ⟨S131072x19, .f32⟩) main_v303) maximumf,
    unary main_arg6 main_v304 ((extractStridedSlice S1x6x19 ![10, 0, 0] · slices_S24x6x19_S1x6x19_10_0_0) : (⟨S24x6x19, .f32⟩ : BufTy).Contents (Elt F) → (⟨S1x6x19, .f32⟩ : BufTy).Contents (Elt F)),
    reshape main_v304 main_v305 rfl shapeCasts_S1x6x19_S6x19,
    unary main_v305 main_v306 ((transpose S19x6 [1, 0] · transposes_S6x19_S19x6_1_0) : (⟨S6x19, .f32⟩ : BufTy).Contents (Elt F) → (⟨S19x6, .f32⟩ : BufTy).Contents (Elt F)),
    binary main_v303 main_v306 main_v307 ((fun l r => Host.dotGeneral dot_S131072x19_S19x6_S131072x6_1_0_0_1_n_n none l r) : (⟨S131072x19, .f32⟩ : BufTy).Contents (Elt F) → (⟨S19x6, .f32⟩ : BufTy).Contents (Elt F) → (⟨S131072x6, .f32⟩ : BufTy).Contents (Elt F)),
    unary main_arg7 main_v308 ((extractStridedSlice S1x6 ![10, 0] · slices_S24x6_S1x6_10_0) : (⟨S24x6, .f32⟩ : BufTy).Contents (Elt F) → (⟨S1x6, .f32⟩ : BufTy).Contents (Elt F)),
    reshape main_v308 main_v309 rfl shapeCasts_S1x6_S6,
    unary main_v309 main_v310 (broadcastInDim S1x6 ![1] bcast_S6_S1x6_1 : (⟨S6, .f32⟩ : BufTy).Contents (Elt F) → (⟨S1x6, .f32⟩ : BufTy).Contents (Elt F)),
    unary main_v310 main_v311 (broadcastInDim S131072x6 ![0, 1] bcast_S1x6_S131072x6_0_1 : (⟨S1x6, .f32⟩ : BufTy).Contents (Elt F) → (⟨S131072x6, .f32⟩ : BufTy).Contents (Elt F)),
    binary main_v307 main_v311 main_v312 (addf : (⟨S131072x6, .f32⟩ : BufTy).Contents (Elt F) → (⟨S131072x6, .f32⟩ : BufTy).Contents (Elt F) → (⟨S131072x6, .f32⟩ : BufTy).Contents (Elt F)) ]

abbrev win10_W : List (Ref sig .tc) := [main_v285, main_v286, main_v287, main_v288, main_v289, main_v290, main_v291, main_call20_v0, main_call20_cst, main_call20_v1, main_call20_v2, main_v292, main_v293, main_v294, main_v295, main_v296, main_v297, main_v298, main_v299, main_v300, main_v301, main_v302, main_call21_cst, main_call21_v0, main_v303, main_v304, main_v305, main_v306, main_v307, main_v308, main_v309, main_v310, main_v311, main_v312]

theorem win10_ok : (win10 : List (HloOp τ sig (Elt F))).Forall fun op => op.bufs ⊆ tcRefs τ sig ∧ op.fresh = ∅ :=
  ⟨⟨unary_bufs_sub .., rfl⟩, ⟨reshape_bufs_sub .., rfl⟩, ⟨unary_bufs_sub .., rfl⟩, ⟨reshape_bufs_sub .., rfl⟩, ⟨unary_bufs_sub .., rfl⟩, ⟨reshape_bufs_sub .., rfl⟩, ⟨binary_bufs_sub .., rfl⟩, ⟨binary_bufs_sub .., rfl⟩, ⟨nullary_bufs_sub .., rfl⟩, ⟨binary_bufs_sub .., rfl⟩, ⟨unary_bufs_sub .., rfl⟩, ⟨unary_bufs_sub .., rfl⟩, ⟨nary_bufs_sub .., rfl⟩, ⟨unary_bufs_sub .., rfl⟩, ⟨reshape_bufs_sub .., rfl⟩, ⟨unary_bufs_sub .., rfl⟩, ⟨binary_bufs_sub .., rfl⟩, ⟨unary_bufs_sub .., rfl⟩, ⟨reshape_bufs_sub .., rfl⟩, ⟨unary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨unary_bufs_sub .., rfl⟩, ⟨reshape_bufs_sub .., rfl⟩, ⟨unary_bufs_sub .., rfl⟩, ⟨binary_bufs_sub .., rfl⟩, ⟨unary_bufs_sub .., rfl⟩, ⟨reshape_bufs_sub .., rfl⟩, ⟨unary_bufs_sub .., rfl⟩, ⟨unary_bufs_sub .., rfl⟩, ⟨binary_bufs_sub .., rfl⟩⟩

theorem win10_writes : (win10 : List (HloOp τ sig (Elt F))).Forall fun op =>
    op.writes ⊆ (win10_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

abbrev win11 : List (HloOp τ sig (Elt F)) :=
  [ unary main_arg0 main_v313 ((extractStridedSlice S131072x1x9 ![0, 11, 0] · slices_S131072x24x9_S131072x1x9_0_11_0) : (⟨S131072x24x9, .f32⟩ : BufTy).Contents (Elt F) → (⟨S131072x1x9, .f32⟩ : BufTy).Contents (Elt F)),
    reshape main_v313 main_v314 rfl shapeCasts_S131072x1x9_S131072x9,
    unary main_arg1 main_v315 ((extractStridedSlice S131072x1x3 ![0, 11, 0] · slices_S131072x24x3_S131072x1x3_0_11_0) : (⟨S131072x24x3, .f32⟩ : BufTy).Contents (Elt F) → (⟨S131072x1x3, .f32⟩ : BufTy).Contents (Elt F)),
    reshape main_v315 main_v316 rfl shapeCasts_S131072x1x3_S131072x3,
    unary main_arg1 main_v317 ((extractStridedSlice S131072x1x3 ![0, 8, 0] · slices_S131072x24x3_S131072x1x3_0_8_0) : (⟨S131072x24x3, .f32⟩ : BufTy).Contents (Elt F) → (⟨S131072x1x3, .f32⟩ : BufTy).Contents (Elt F)),
    reshape main_v317 main_v318 rfl shapeCasts_S131072x1x3_S131072x3,
    binary main_v316 main_v318 main_v319 (subf : (⟨S131072x3, .f32⟩ : BufTy).Contents (Elt F) → (⟨S131072x3, .f32⟩ : BufTy).Contents (Elt F) → (⟨S131072x3, .f32⟩ : BufTy).Contents (Elt F)),
    TRef.binary (TRef.of (T := ⟨S131072x3, .f32⟩) main_v319) (TRef.of (T := ⟨S131072x3, .f32⟩) main_v319) (TRef.of (T := ⟨S131072x3, .f32⟩) main_call22_v0) mulf,
    TRef.nullary (TRef.of (T := ⟨S_, .f32⟩) main_call22_cst) (constant S_ .f32 0x00000000#32),
    TRef.binary (TRef.of (T := ⟨S131072x3, .f32⟩) main_call22_v0) (TRef.of (T := ⟨S_, .f32⟩) main_call22_cst) (TRef.of (T := ⟨S131072, .f32⟩) main_call22_v1) (fun x v => Host.reduceAdd x v reducesTo_S131072x3_S131072_d1 h_S_),
    TRef.unary (TRef.of (T := ⟨S131072, .f32⟩) main_call22_v1) (TRef.of (T := ⟨S131072x1, .f32⟩) main_call22_v2) (broadcastInDim S131072x1 ![0] bcast_S131072_S131072x1_0),
    TRef.unary (TRef.of (T := ⟨S131072x1, .f32⟩) main_call22_v2) (TRef.of (T := ⟨S131072x1, .f32⟩) main_v320) Host.sqrt,
    nary ![main_v314, main_v316, main_v320, main_v256] main_v321 (fun u => concatenate S131072x19 1 [⟨S131072x9, u 0⟩, ⟨S131072x3, u 1⟩, ⟨S131072x1, u 2⟩, ⟨S131072x6, u 3⟩] concatenates_S131072x9_S131072x3_S131072x1_S131072x6_S131072x19_d1),
    unary main_arg4 main_v322 ((extractStridedSlice S1x19x19 ![11, 0, 0] · slices_S24x19x19_S1x19x19_11_0_0) : (⟨S24x19x19, .f32⟩ : BufTy).Contents (Elt F) → (⟨S1x19x19, .f32⟩ : BufTy).Contents (Elt F)),
    reshape main_v322 main_v323 rfl shapeCasts_S1x19x19_S19x19,
    unary main_v323 main_v324 ((transpose S19x19 [1, 0] · transposes_S19x19_S19x19_1_0) : (⟨S19x19, .f32⟩ : BufTy).Contents (Elt F) → (⟨S19x19, .f32⟩ : BufTy).Contents (Elt F)),
    binary main_v321 main_v324 main_v325 ((fun l r => Host.dotGeneral dot_S131072x19_S19x19_S131072x19_1_0_0_1_n_n none l r) : (⟨S131072x19, .f32⟩ : BufTy).Contents (Elt F) → (⟨S19x19, .f32⟩ : BufTy).Contents (Elt F) → (⟨S131072x19, .f32⟩ : BufTy).Contents (Elt F)),
    unary main_arg5 main_v326 ((extractStridedSlice S1x19 ![11, 0] · slices_S24x19_S1x19_11_0) : (⟨S24x19, .f32⟩ : BufTy).Contents (Elt F) → (⟨S1x19, .f32⟩ : BufTy).Contents (Elt F)),
    reshape main_v326 main_v327 rfl shapeCasts_S1x19_S19,
    unary main_v327 main_v328 (broadcastInDim S1x19 ![1] bcast_S19_S1x19_1 : (⟨S19, .f32⟩ : BufTy).Contents (Elt F) → (⟨S1x19, .f32⟩ : BufTy).Contents (Elt F)),
    unary main_v328 main_v329 (broadcastInDim S131072x19 ![0, 1] bcast_S1x19_S131072x19_0_1 : (⟨S1x19, .f32⟩ : BufTy).Contents (Elt F) → (⟨S131072x19, .f32⟩ : BufTy).Contents (Elt F)),
    binary main_v325 main_v329 main_v330 (addf : (⟨S131072x19, .f32⟩ : BufTy).Contents (Elt F) → (⟨S131072x19, .f32⟩ : BufTy).Contents (Elt F) → (⟨S131072x19, .f32⟩ : BufTy).Contents (Elt F)),
    TRef.nullary (TRef.of (T := ⟨S_, .f32⟩) main_call23_cst) (constant S_ .f32 0x00000000#32),
    TRef.unary (TRef.of (T := ⟨S_, .f32⟩) main_call23_cst) (TRef.of (T := ⟨S131072x19, .f32⟩) main_call23_v0) (broadcastInDim S131072x19 ![] bcast_S_S131072x19),
    TRef.binary (TRef.of (T := ⟨S131072x19, .f32⟩) main_v330) (TRef.of (T := ⟨S131072x19, .f32⟩) main_call23_v0) (TRef.of (T := ⟨S131072x19, .f32⟩) main_v331) maximumf,
    unary main_arg6 main_v332 ((extractStridedSlice S1x6x19 ![11, 0, 0] · slices_S24x6x19_S1x6x19_11_0_0) : (⟨S24x6x19, .f32⟩ : BufTy).Contents (Elt F) → (⟨S1x6x19, .f32⟩ : BufTy).Contents (Elt F)),
    reshape main_v332 main_v333 rfl shapeCasts_S1x6x19_S6x19,
    unary main_v333 main_v334 ((transpose S19x6 [1, 0] · transposes_S6x19_S19x6_1_0) : (⟨S6x19, .f32⟩ : BufTy).Contents (Elt F) → (⟨S19x6, .f32⟩ : BufTy).Contents (Elt F)),
    binary main_v331 main_v334 main_v335 ((fun l r => Host.dotGeneral dot_S131072x19_S19x6_S131072x6_1_0_0_1_n_n none l r) : (⟨S131072x19, .f32⟩ : BufTy).Contents (Elt F) → (⟨S19x6, .f32⟩ : BufTy).Contents (Elt F) → (⟨S131072x6, .f32⟩ : BufTy).Contents (Elt F)),
    unary main_arg7 main_v336 ((extractStridedSlice S1x6 ![11, 0] · slices_S24x6_S1x6_11_0) : (⟨S24x6, .f32⟩ : BufTy).Contents (Elt F) → (⟨S1x6, .f32⟩ : BufTy).Contents (Elt F)),
    reshape main_v336 main_v337 rfl shapeCasts_S1x6_S6,
    unary main_v337 main_v338 (broadcastInDim S1x6 ![1] bcast_S6_S1x6_1 : (⟨S6, .f32⟩ : BufTy).Contents (Elt F) → (⟨S1x6, .f32⟩ : BufTy).Contents (Elt F)),
    unary main_v338 main_v339 (broadcastInDim S131072x6 ![0, 1] bcast_S1x6_S131072x6_0_1 : (⟨S1x6, .f32⟩ : BufTy).Contents (Elt F) → (⟨S131072x6, .f32⟩ : BufTy).Contents (Elt F)),
    binary main_v335 main_v339 main_v340 (addf : (⟨S131072x6, .f32⟩ : BufTy).Contents (Elt F) → (⟨S131072x6, .f32⟩ : BufTy).Contents (Elt F) → (⟨S131072x6, .f32⟩ : BufTy).Contents (Elt F)) ]

abbrev win11_W : List (Ref sig .tc) := [main_v313, main_v314, main_v315, main_v316, main_v317, main_v318, main_v319, main_call22_v0, main_call22_cst, main_call22_v1, main_call22_v2, main_v320, main_v321, main_v322, main_v323, main_v324, main_v325, main_v326, main_v327, main_v328, main_v329, main_v330, main_call23_cst, main_call23_v0, main_v331, main_v332, main_v333, main_v334, main_v335, main_v336, main_v337, main_v338, main_v339, main_v340]

theorem win11_ok : (win11 : List (HloOp τ sig (Elt F))).Forall fun op => op.bufs ⊆ tcRefs τ sig ∧ op.fresh = ∅ :=
  ⟨⟨unary_bufs_sub .., rfl⟩, ⟨reshape_bufs_sub .., rfl⟩, ⟨unary_bufs_sub .., rfl⟩, ⟨reshape_bufs_sub .., rfl⟩, ⟨unary_bufs_sub .., rfl⟩, ⟨reshape_bufs_sub .., rfl⟩, ⟨binary_bufs_sub .., rfl⟩, ⟨binary_bufs_sub .., rfl⟩, ⟨nullary_bufs_sub .., rfl⟩, ⟨binary_bufs_sub .., rfl⟩, ⟨unary_bufs_sub .., rfl⟩, ⟨unary_bufs_sub .., rfl⟩, ⟨nary_bufs_sub .., rfl⟩, ⟨unary_bufs_sub .., rfl⟩, ⟨reshape_bufs_sub .., rfl⟩, ⟨unary_bufs_sub .., rfl⟩, ⟨binary_bufs_sub .., rfl⟩, ⟨unary_bufs_sub .., rfl⟩, ⟨reshape_bufs_sub .., rfl⟩, ⟨unary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨unary_bufs_sub .., rfl⟩, ⟨reshape_bufs_sub .., rfl⟩, ⟨unary_bufs_sub .., rfl⟩, ⟨binary_bufs_sub .., rfl⟩, ⟨unary_bufs_sub .., rfl⟩, ⟨reshape_bufs_sub .., rfl⟩, ⟨unary_bufs_sub .., rfl⟩, ⟨unary_bufs_sub .., rfl⟩, ⟨binary_bufs_sub .., rfl⟩⟩

theorem win11_writes : (win11 : List (HloOp τ sig (Elt F))).Forall fun op =>
    op.writes ⊆ (win11_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

abbrev win12 : List (HloOp τ sig (Elt F)) :=
  [ unary main_arg0 main_v341 ((extractStridedSlice S131072x1x9 ![0, 12, 0] · slices_S131072x24x9_S131072x1x9_0_12_0) : (⟨S131072x24x9, .f32⟩ : BufTy).Contents (Elt F) → (⟨S131072x1x9, .f32⟩ : BufTy).Contents (Elt F)),
    reshape main_v341 main_v342 rfl shapeCasts_S131072x1x9_S131072x9,
    unary main_arg1 main_v343 ((extractStridedSlice S131072x1x3 ![0, 12, 0] · slices_S131072x24x3_S131072x1x3_0_12_0) : (⟨S131072x24x3, .f32⟩ : BufTy).Contents (Elt F) → (⟨S131072x1x3, .f32⟩ : BufTy).Contents (Elt F)),
    reshape main_v343 main_v344 rfl shapeCasts_S131072x1x3_S131072x3,
    unary main_arg1 main_v345 ((extractStridedSlice S131072x1x3 ![0, 9, 0] · slices_S131072x24x3_S131072x1x3_0_9_0) : (⟨S131072x24x3, .f32⟩ : BufTy).Contents (Elt F) → (⟨S131072x1x3, .f32⟩ : BufTy).Contents (Elt F)),
    reshape main_v345 main_v346 rfl shapeCasts_S131072x1x3_S131072x3,
    binary main_v344 main_v346 main_v347 (subf : (⟨S131072x3, .f32⟩ : BufTy).Contents (Elt F) → (⟨S131072x3, .f32⟩ : BufTy).Contents (Elt F) → (⟨S131072x3, .f32⟩ : BufTy).Contents (Elt F)),
    TRef.binary (TRef.of (T := ⟨S131072x3, .f32⟩) main_v347) (TRef.of (T := ⟨S131072x3, .f32⟩) main_v347) (TRef.of (T := ⟨S131072x3, .f32⟩) main_call24_v0) mulf,
    TRef.nullary (TRef.of (T := ⟨S_, .f32⟩) main_call24_cst) (constant S_ .f32 0x00000000#32),
    TRef.binary (TRef.of (T := ⟨S131072x3, .f32⟩) main_call24_v0) (TRef.of (T := ⟨S_, .f32⟩) main_call24_cst) (TRef.of (T := ⟨S131072, .f32⟩) main_call24_v1) (fun x v => Host.reduceAdd x v reducesTo_S131072x3_S131072_d1 h_S_),
    TRef.unary (TRef.of (T := ⟨S131072, .f32⟩) main_call24_v1) (TRef.of (T := ⟨S131072x1, .f32⟩) main_call24_v2) (broadcastInDim S131072x1 ![0] bcast_S131072_S131072x1_0),
    TRef.unary (TRef.of (T := ⟨S131072x1, .f32⟩) main_call24_v2) (TRef.of (T := ⟨S131072x1, .f32⟩) main_v348) Host.sqrt,
    nary ![main_v342, main_v344, main_v348, main_v284] main_v349 (fun u => concatenate S131072x19 1 [⟨S131072x9, u 0⟩, ⟨S131072x3, u 1⟩, ⟨S131072x1, u 2⟩, ⟨S131072x6, u 3⟩] concatenates_S131072x9_S131072x3_S131072x1_S131072x6_S131072x19_d1),
    unary main_arg4 main_v350 ((extractStridedSlice S1x19x19 ![12, 0, 0] · slices_S24x19x19_S1x19x19_12_0_0) : (⟨S24x19x19, .f32⟩ : BufTy).Contents (Elt F) → (⟨S1x19x19, .f32⟩ : BufTy).Contents (Elt F)),
    reshape main_v350 main_v351 rfl shapeCasts_S1x19x19_S19x19,
    unary main_v351 main_v352 ((transpose S19x19 [1, 0] · transposes_S19x19_S19x19_1_0) : (⟨S19x19, .f32⟩ : BufTy).Contents (Elt F) → (⟨S19x19, .f32⟩ : BufTy).Contents (Elt F)),
    binary main_v349 main_v352 main_v353 ((fun l r => Host.dotGeneral dot_S131072x19_S19x19_S131072x19_1_0_0_1_n_n none l r) : (⟨S131072x19, .f32⟩ : BufTy).Contents (Elt F) → (⟨S19x19, .f32⟩ : BufTy).Contents (Elt F) → (⟨S131072x19, .f32⟩ : BufTy).Contents (Elt F)),
    unary main_arg5 main_v354 ((extractStridedSlice S1x19 ![12, 0] · slices_S24x19_S1x19_12_0) : (⟨S24x19, .f32⟩ : BufTy).Contents (Elt F) → (⟨S1x19, .f32⟩ : BufTy).Contents (Elt F)),
    reshape main_v354 main_v355 rfl shapeCasts_S1x19_S19,
    unary main_v355 main_v356 (broadcastInDim S1x19 ![1] bcast_S19_S1x19_1 : (⟨S19, .f32⟩ : BufTy).Contents (Elt F) → (⟨S1x19, .f32⟩ : BufTy).Contents (Elt F)),
    unary main_v356 main_v357 (broadcastInDim S131072x19 ![0, 1] bcast_S1x19_S131072x19_0_1 : (⟨S1x19, .f32⟩ : BufTy).Contents (Elt F) → (⟨S131072x19, .f32⟩ : BufTy).Contents (Elt F)),
    binary main_v353 main_v357 main_v358 (addf : (⟨S131072x19, .f32⟩ : BufTy).Contents (Elt F) → (⟨S131072x19, .f32⟩ : BufTy).Contents (Elt F) → (⟨S131072x19, .f32⟩ : BufTy).Contents (Elt F)),
    TRef.nullary (TRef.of (T := ⟨S_, .f32⟩) main_call25_cst) (constant S_ .f32 0x00000000#32),
    TRef.unary (TRef.of (T := ⟨S_, .f32⟩) main_call25_cst) (TRef.of (T := ⟨S131072x19, .f32⟩) main_call25_v0) (broadcastInDim S131072x19 ![] bcast_S_S131072x19),
    TRef.binary (TRef.of (T := ⟨S131072x19, .f32⟩) main_v358) (TRef.of (T := ⟨S131072x19, .f32⟩) main_call25_v0) (TRef.of (T := ⟨S131072x19, .f32⟩) main_v359) maximumf,
    unary main_arg6 main_v360 ((extractStridedSlice S1x6x19 ![12, 0, 0] · slices_S24x6x19_S1x6x19_12_0_0) : (⟨S24x6x19, .f32⟩ : BufTy).Contents (Elt F) → (⟨S1x6x19, .f32⟩ : BufTy).Contents (Elt F)),
    reshape main_v360 main_v361 rfl shapeCasts_S1x6x19_S6x19,
    unary main_v361 main_v362 ((transpose S19x6 [1, 0] · transposes_S6x19_S19x6_1_0) : (⟨S6x19, .f32⟩ : BufTy).Contents (Elt F) → (⟨S19x6, .f32⟩ : BufTy).Contents (Elt F)),
    binary main_v359 main_v362 main_v363 ((fun l r => Host.dotGeneral dot_S131072x19_S19x6_S131072x6_1_0_0_1_n_n none l r) : (⟨S131072x19, .f32⟩ : BufTy).Contents (Elt F) → (⟨S19x6, .f32⟩ : BufTy).Contents (Elt F) → (⟨S131072x6, .f32⟩ : BufTy).Contents (Elt F)),
    unary main_arg7 main_v364 ((extractStridedSlice S1x6 ![12, 0] · slices_S24x6_S1x6_12_0) : (⟨S24x6, .f32⟩ : BufTy).Contents (Elt F) → (⟨S1x6, .f32⟩ : BufTy).Contents (Elt F)),
    reshape main_v364 main_v365 rfl shapeCasts_S1x6_S6,
    unary main_v365 main_v366 (broadcastInDim S1x6 ![1] bcast_S6_S1x6_1 : (⟨S6, .f32⟩ : BufTy).Contents (Elt F) → (⟨S1x6, .f32⟩ : BufTy).Contents (Elt F)),
    unary main_v366 main_v367 (broadcastInDim S131072x6 ![0, 1] bcast_S1x6_S131072x6_0_1 : (⟨S1x6, .f32⟩ : BufTy).Contents (Elt F) → (⟨S131072x6, .f32⟩ : BufTy).Contents (Elt F)),
    binary main_v363 main_v367 main_v368 (addf : (⟨S131072x6, .f32⟩ : BufTy).Contents (Elt F) → (⟨S131072x6, .f32⟩ : BufTy).Contents (Elt F) → (⟨S131072x6, .f32⟩ : BufTy).Contents (Elt F)) ]

abbrev win12_W : List (Ref sig .tc) := [main_v341, main_v342, main_v343, main_v344, main_v345, main_v346, main_v347, main_call24_v0, main_call24_cst, main_call24_v1, main_call24_v2, main_v348, main_v349, main_v350, main_v351, main_v352, main_v353, main_v354, main_v355, main_v356, main_v357, main_v358, main_call25_cst, main_call25_v0, main_v359, main_v360, main_v361, main_v362, main_v363, main_v364, main_v365, main_v366, main_v367, main_v368]

theorem win12_ok : (win12 : List (HloOp τ sig (Elt F))).Forall fun op => op.bufs ⊆ tcRefs τ sig ∧ op.fresh = ∅ :=
  ⟨⟨unary_bufs_sub .., rfl⟩, ⟨reshape_bufs_sub .., rfl⟩, ⟨unary_bufs_sub .., rfl⟩, ⟨reshape_bufs_sub .., rfl⟩, ⟨unary_bufs_sub .., rfl⟩, ⟨reshape_bufs_sub .., rfl⟩, ⟨binary_bufs_sub .., rfl⟩, ⟨binary_bufs_sub .., rfl⟩, ⟨nullary_bufs_sub .., rfl⟩, ⟨binary_bufs_sub .., rfl⟩, ⟨unary_bufs_sub .., rfl⟩, ⟨unary_bufs_sub .., rfl⟩, ⟨nary_bufs_sub .., rfl⟩, ⟨unary_bufs_sub .., rfl⟩, ⟨reshape_bufs_sub .., rfl⟩, ⟨unary_bufs_sub .., rfl⟩, ⟨binary_bufs_sub .., rfl⟩, ⟨unary_bufs_sub .., rfl⟩, ⟨reshape_bufs_sub .., rfl⟩, ⟨unary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨unary_bufs_sub .., rfl⟩, ⟨reshape_bufs_sub .., rfl⟩, ⟨unary_bufs_sub .., rfl⟩, ⟨binary_bufs_sub .., rfl⟩, ⟨unary_bufs_sub .., rfl⟩, ⟨reshape_bufs_sub .., rfl⟩, ⟨unary_bufs_sub .., rfl⟩, ⟨unary_bufs_sub .., rfl⟩, ⟨binary_bufs_sub .., rfl⟩⟩

theorem win12_writes : (win12 : List (HloOp τ sig (Elt F))).Forall fun op =>
    op.writes ⊆ (win12_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

abbrev win13 : List (HloOp τ sig (Elt F)) :=
  [ unary main_arg0 main_v369 ((extractStridedSlice S131072x1x9 ![0, 13, 0] · slices_S131072x24x9_S131072x1x9_0_13_0) : (⟨S131072x24x9, .f32⟩ : BufTy).Contents (Elt F) → (⟨S131072x1x9, .f32⟩ : BufTy).Contents (Elt F)),
    reshape main_v369 main_v370 rfl shapeCasts_S131072x1x9_S131072x9,
    unary main_arg1 main_v371 ((extractStridedSlice S131072x1x3 ![0, 13, 0] · slices_S131072x24x3_S131072x1x3_0_13_0) : (⟨S131072x24x3, .f32⟩ : BufTy).Contents (Elt F) → (⟨S131072x1x3, .f32⟩ : BufTy).Contents (Elt F)),
    reshape main_v371 main_v372 rfl shapeCasts_S131072x1x3_S131072x3,
    unary main_arg1 main_v373 ((extractStridedSlice S131072x1x3 ![0, 9, 0] · slices_S131072x24x3_S131072x1x3_0_9_0) : (⟨S131072x24x3, .f32⟩ : BufTy).Contents (Elt F) → (⟨S131072x1x3, .f32⟩ : BufTy).Contents (Elt F)),
    reshape main_v373 main_v374 rfl shapeCasts_S131072x1x3_S131072x3,
    binary main_v372 main_v374 main_v375 (subf : (⟨S131072x3, .f32⟩ : BufTy).Contents (Elt F) → (⟨S131072x3, .f32⟩ : BufTy).Contents (Elt F) → (⟨S131072x3, .f32⟩ : BufTy).Contents (Elt F)),
    TRef.binary (TRef.of (T := ⟨S131072x3, .f32⟩) main_v375) (TRef.of (T := ⟨S131072x3, .f32⟩) main_v375) (TRef.of (T := ⟨S131072x3, .f32⟩) main_call26_v0) mulf,
    TRef.nullary (TRef.of (T := ⟨S_, .f32⟩) main_call26_cst) (constant S_ .f32 0x00000000#32),
    TRef.binary (TRef.of (T := ⟨S131072x3, .f32⟩) main_call26_v0) (TRef.of (T := ⟨S_, .f32⟩) main_call26_cst) (TRef.of (T := ⟨S131072, .f32⟩) main_call26_v1) (fun x v => Host.reduceAdd x v reducesTo_S131072x3_S131072_d1 h_S_),
    TRef.unary (TRef.of (T := ⟨S131072, .f32⟩) main_call26_v1) (TRef.of (T := ⟨S131072x1, .f32⟩) main_call26_v2) (broadcastInDim S131072x1 ![0] bcast_S131072_S131072x1_0),
    TRef.unary (TRef.of (T := ⟨S131072x1, .f32⟩) main_call26_v2) (TRef.of (T := ⟨S131072x1, .f32⟩) main_v376) Host.sqrt,
    nary ![main_v370, main_v372, main_v376, main_v284] main_v377 (fun u => concatenate S131072x19 1 [⟨S131072x9, u 0⟩, ⟨S131072x3, u 1⟩, ⟨S131072x1, u 2⟩, ⟨S131072x6, u 3⟩] concatenates_S131072x9_S131072x3_S131072x1_S131072x6_S131072x19_d1),
    unary main_arg4 main_v378 ((extractStridedSlice S1x19x19 ![13, 0, 0] · slices_S24x19x19_S1x19x19_13_0_0) : (⟨S24x19x19, .f32⟩ : BufTy).Contents (Elt F) → (⟨S1x19x19, .f32⟩ : BufTy).Contents (Elt F)),
    reshape main_v378 main_v379 rfl shapeCasts_S1x19x19_S19x19,
    unary main_v379 main_v380 ((transpose S19x19 [1, 0] · transposes_S19x19_S19x19_1_0) : (⟨S19x19, .f32⟩ : BufTy).Contents (Elt F) → (⟨S19x19, .f32⟩ : BufTy).Contents (Elt F)),
    binary main_v377 main_v380 main_v381 ((fun l r => Host.dotGeneral dot_S131072x19_S19x19_S131072x19_1_0_0_1_n_n none l r) : (⟨S131072x19, .f32⟩ : BufTy).Contents (Elt F) → (⟨S19x19, .f32⟩ : BufTy).Contents (Elt F) → (⟨S131072x19, .f32⟩ : BufTy).Contents (Elt F)),
    unary main_arg5 main_v382 ((extractStridedSlice S1x19 ![13, 0] · slices_S24x19_S1x19_13_0) : (⟨S24x19, .f32⟩ : BufTy).Contents (Elt F) → (⟨S1x19, .f32⟩ : BufTy).Contents (Elt F)),
    reshape main_v382 main_v383 rfl shapeCasts_S1x19_S19,
    unary main_v383 main_v384 (broadcastInDim S1x19 ![1] bcast_S19_S1x19_1 : (⟨S19, .f32⟩ : BufTy).Contents (Elt F) → (⟨S1x19, .f32⟩ : BufTy).Contents (Elt F)),
    unary main_v384 main_v385 (broadcastInDim S131072x19 ![0, 1] bcast_S1x19_S131072x19_0_1 : (⟨S1x19, .f32⟩ : BufTy).Contents (Elt F) → (⟨S131072x19, .f32⟩ : BufTy).Contents (Elt F)),
    binary main_v381 main_v385 main_v386 (addf : (⟨S131072x19, .f32⟩ : BufTy).Contents (Elt F) → (⟨S131072x19, .f32⟩ : BufTy).Contents (Elt F) → (⟨S131072x19, .f32⟩ : BufTy).Contents (Elt F)),
    TRef.nullary (TRef.of (T := ⟨S_, .f32⟩) main_call27_cst) (constant S_ .f32 0x00000000#32),
    TRef.unary (TRef.of (T := ⟨S_, .f32⟩) main_call27_cst) (TRef.of (T := ⟨S131072x19, .f32⟩) main_call27_v0) (broadcastInDim S131072x19 ![] bcast_S_S131072x19),
    TRef.binary (TRef.of (T := ⟨S131072x19, .f32⟩) main_v386) (TRef.of (T := ⟨S131072x19, .f32⟩) main_call27_v0) (TRef.of (T := ⟨S131072x19, .f32⟩) main_v387) maximumf,
    unary main_arg6 main_v388 ((extractStridedSlice S1x6x19 ![13, 0, 0] · slices_S24x6x19_S1x6x19_13_0_0) : (⟨S24x6x19, .f32⟩ : BufTy).Contents (Elt F) → (⟨S1x6x19, .f32⟩ : BufTy).Contents (Elt F)),
    reshape main_v388 main_v389 rfl shapeCasts_S1x6x19_S6x19,
    unary main_v389 main_v390 ((transpose S19x6 [1, 0] · transposes_S6x19_S19x6_1_0) : (⟨S6x19, .f32⟩ : BufTy).Contents (Elt F) → (⟨S19x6, .f32⟩ : BufTy).Contents (Elt F)),
    binary main_v387 main_v390 main_v391 ((fun l r => Host.dotGeneral dot_S131072x19_S19x6_S131072x6_1_0_0_1_n_n none l r) : (⟨S131072x19, .f32⟩ : BufTy).Contents (Elt F) → (⟨S19x6, .f32⟩ : BufTy).Contents (Elt F) → (⟨S131072x6, .f32⟩ : BufTy).Contents (Elt F)),
    unary main_arg7 main_v392 ((extractStridedSlice S1x6 ![13, 0] · slices_S24x6_S1x6_13_0) : (⟨S24x6, .f32⟩ : BufTy).Contents (Elt F) → (⟨S1x6, .f32⟩ : BufTy).Contents (Elt F)),
    reshape main_v392 main_v393 rfl shapeCasts_S1x6_S6,
    unary main_v393 main_v394 (broadcastInDim S1x6 ![1] bcast_S6_S1x6_1 : (⟨S6, .f32⟩ : BufTy).Contents (Elt F) → (⟨S1x6, .f32⟩ : BufTy).Contents (Elt F)),
    unary main_v394 main_v395 (broadcastInDim S131072x6 ![0, 1] bcast_S1x6_S131072x6_0_1 : (⟨S1x6, .f32⟩ : BufTy).Contents (Elt F) → (⟨S131072x6, .f32⟩ : BufTy).Contents (Elt F)),
    binary main_v391 main_v395 main_v396 (addf : (⟨S131072x6, .f32⟩ : BufTy).Contents (Elt F) → (⟨S131072x6, .f32⟩ : BufTy).Contents (Elt F) → (⟨S131072x6, .f32⟩ : BufTy).Contents (Elt F)) ]

abbrev win13_W : List (Ref sig .tc) := [main_v369, main_v370, main_v371, main_v372, main_v373, main_v374, main_v375, main_call26_v0, main_call26_cst, main_call26_v1, main_call26_v2, main_v376, main_v377, main_v378, main_v379, main_v380, main_v381, main_v382, main_v383, main_v384, main_v385, main_v386, main_call27_cst, main_call27_v0, main_v387, main_v388, main_v389, main_v390, main_v391, main_v392, main_v393, main_v394, main_v395, main_v396]

theorem win13_ok : (win13 : List (HloOp τ sig (Elt F))).Forall fun op => op.bufs ⊆ tcRefs τ sig ∧ op.fresh = ∅ :=
  ⟨⟨unary_bufs_sub .., rfl⟩, ⟨reshape_bufs_sub .., rfl⟩, ⟨unary_bufs_sub .., rfl⟩, ⟨reshape_bufs_sub .., rfl⟩, ⟨unary_bufs_sub .., rfl⟩, ⟨reshape_bufs_sub .., rfl⟩, ⟨binary_bufs_sub .., rfl⟩, ⟨binary_bufs_sub .., rfl⟩, ⟨nullary_bufs_sub .., rfl⟩, ⟨binary_bufs_sub .., rfl⟩, ⟨unary_bufs_sub .., rfl⟩, ⟨unary_bufs_sub .., rfl⟩, ⟨nary_bufs_sub .., rfl⟩, ⟨unary_bufs_sub .., rfl⟩, ⟨reshape_bufs_sub .., rfl⟩, ⟨unary_bufs_sub .., rfl⟩, ⟨binary_bufs_sub .., rfl⟩, ⟨unary_bufs_sub .., rfl⟩, ⟨reshape_bufs_sub .., rfl⟩, ⟨unary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨unary_bufs_sub .., rfl⟩, ⟨reshape_bufs_sub .., rfl⟩, ⟨unary_bufs_sub .., rfl⟩, ⟨binary_bufs_sub .., rfl⟩, ⟨unary_bufs_sub .., rfl⟩, ⟨reshape_bufs_sub .., rfl⟩, ⟨unary_bufs_sub .., rfl⟩, ⟨unary_bufs_sub .., rfl⟩, ⟨binary_bufs_sub .., rfl⟩⟩

theorem win13_writes : (win13 : List (HloOp τ sig (Elt F))).Forall fun op =>
    op.writes ⊆ (win13_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

abbrev win14 : List (HloOp τ sig (Elt F)) :=
  [ unary main_arg0 main_v397 ((extractStridedSlice S131072x1x9 ![0, 14, 0] · slices_S131072x24x9_S131072x1x9_0_14_0) : (⟨S131072x24x9, .f32⟩ : BufTy).Contents (Elt F) → (⟨S131072x1x9, .f32⟩ : BufTy).Contents (Elt F)),
    reshape main_v397 main_v398 rfl shapeCasts_S131072x1x9_S131072x9,
    unary main_arg1 main_v399 ((extractStridedSlice S131072x1x3 ![0, 14, 0] · slices_S131072x24x3_S131072x1x3_0_14_0) : (⟨S131072x24x3, .f32⟩ : BufTy).Contents (Elt F) → (⟨S131072x1x3, .f32⟩ : BufTy).Contents (Elt F)),
    reshape main_v399 main_v400 rfl shapeCasts_S131072x1x3_S131072x3,
    unary main_arg1 main_v401 ((extractStridedSlice S131072x1x3 ![0, 9, 0] · slices_S131072x24x3_S131072x1x3_0_9_0) : (⟨S131072x24x3, .f32⟩ : BufTy).Contents (Elt F) → (⟨S131072x1x3, .f32⟩ : BufTy).Contents (Elt F)),
    reshape main_v401 main_v402 rfl shapeCasts_S131072x1x3_S131072x3,
    binary main_v400 main_v402 main_v403 (subf : (⟨S131072x3, .f32⟩ : BufTy).Contents (Elt F) → (⟨S131072x3, .f32⟩ : BufTy).Contents (Elt F) → (⟨S131072x3, .f32⟩ : BufTy).Contents (Elt F)),
    TRef.binary (TRef.of (T := ⟨S131072x3, .f32⟩) main_v403) (TRef.of (T := ⟨S131072x3, .f32⟩) main_v403) (TRef.of (T := ⟨S131072x3, .f32⟩) main_call28_v0) mulf,
    TRef.nullary (TRef.of (T := ⟨S_, .f32⟩) main_call28_cst) (constant S_ .f32 0x00000000#32),
    TRef.binary (TRef.of (T := ⟨S131072x3, .f32⟩) main_call28_v0) (TRef.of (T := ⟨S_, .f32⟩) main_call28_cst) (TRef.of (T := ⟨S131072, .f32⟩) main_call28_v1) (fun x v => Host.reduceAdd x v reducesTo_S131072x3_S131072_d1 h_S_),
    TRef.unary (TRef.of (T := ⟨S131072, .f32⟩) main_call28_v1) (TRef.of (T := ⟨S131072x1, .f32⟩) main_call28_v2) (broadcastInDim S131072x1 ![0] bcast_S131072_S131072x1_0),
    TRef.unary (TRef.of (T := ⟨S131072x1, .f32⟩) main_call28_v2) (TRef.of (T := ⟨S131072x1, .f32⟩) main_v404) Host.sqrt,
    nary ![main_v398, main_v400, main_v404, main_v284] main_v405 (fun u => concatenate S131072x19 1 [⟨S131072x9, u 0⟩, ⟨S131072x3, u 1⟩, ⟨S131072x1, u 2⟩, ⟨S131072x6, u 3⟩] concatenates_S131072x9_S131072x3_S131072x1_S131072x6_S131072x19_d1),
    unary main_arg4 main_v406 ((extractStridedSlice S1x19x19 ![14, 0, 0] · slices_S24x19x19_S1x19x19_14_0_0) : (⟨S24x19x19, .f32⟩ : BufTy).Contents (Elt F) → (⟨S1x19x19, .f32⟩ : BufTy).Contents (Elt F)),
    reshape main_v406 main_v407 rfl shapeCasts_S1x19x19_S19x19,
    unary main_v407 main_v408 ((transpose S19x19 [1, 0] · transposes_S19x19_S19x19_1_0) : (⟨S19x19, .f32⟩ : BufTy).Contents (Elt F) → (⟨S19x19, .f32⟩ : BufTy).Contents (Elt F)),
    binary main_v405 main_v408 main_v409 ((fun l r => Host.dotGeneral dot_S131072x19_S19x19_S131072x19_1_0_0_1_n_n none l r) : (⟨S131072x19, .f32⟩ : BufTy).Contents (Elt F) → (⟨S19x19, .f32⟩ : BufTy).Contents (Elt F) → (⟨S131072x19, .f32⟩ : BufTy).Contents (Elt F)),
    unary main_arg5 main_v410 ((extractStridedSlice S1x19 ![14, 0] · slices_S24x19_S1x19_14_0) : (⟨S24x19, .f32⟩ : BufTy).Contents (Elt F) → (⟨S1x19, .f32⟩ : BufTy).Contents (Elt F)),
    reshape main_v410 main_v411 rfl shapeCasts_S1x19_S19,
    unary main_v411 main_v412 (broadcastInDim S1x19 ![1] bcast_S19_S1x19_1 : (⟨S19, .f32⟩ : BufTy).Contents (Elt F) → (⟨S1x19, .f32⟩ : BufTy).Contents (Elt F)),
    unary main_v412 main_v413 (broadcastInDim S131072x19 ![0, 1] bcast_S1x19_S131072x19_0_1 : (⟨S1x19, .f32⟩ : BufTy).Contents (Elt F) → (⟨S131072x19, .f32⟩ : BufTy).Contents (Elt F)),
    binary main_v409 main_v413 main_v414 (addf : (⟨S131072x19, .f32⟩ : BufTy).Contents (Elt F) → (⟨S131072x19, .f32⟩ : BufTy).Contents (Elt F) → (⟨S131072x19, .f32⟩ : BufTy).Contents (Elt F)),
    TRef.nullary (TRef.of (T := ⟨S_, .f32⟩) main_call29_cst) (constant S_ .f32 0x00000000#32),
    TRef.unary (TRef.of (T := ⟨S_, .f32⟩) main_call29_cst) (TRef.of (T := ⟨S131072x19, .f32⟩) main_call29_v0) (broadcastInDim S131072x19 ![] bcast_S_S131072x19),
    TRef.binary (TRef.of (T := ⟨S131072x19, .f32⟩) main_v414) (TRef.of (T := ⟨S131072x19, .f32⟩) main_call29_v0) (TRef.of (T := ⟨S131072x19, .f32⟩) main_v415) maximumf,
    unary main_arg6 main_v416 ((extractStridedSlice S1x6x19 ![14, 0, 0] · slices_S24x6x19_S1x6x19_14_0_0) : (⟨S24x6x19, .f32⟩ : BufTy).Contents (Elt F) → (⟨S1x6x19, .f32⟩ : BufTy).Contents (Elt F)),
    reshape main_v416 main_v417 rfl shapeCasts_S1x6x19_S6x19,
    unary main_v417 main_v418 ((transpose S19x6 [1, 0] · transposes_S6x19_S19x6_1_0) : (⟨S6x19, .f32⟩ : BufTy).Contents (Elt F) → (⟨S19x6, .f32⟩ : BufTy).Contents (Elt F)),
    binary main_v415 main_v418 main_v419 ((fun l r => Host.dotGeneral dot_S131072x19_S19x6_S131072x6_1_0_0_1_n_n none l r) : (⟨S131072x19, .f32⟩ : BufTy).Contents (Elt F) → (⟨S19x6, .f32⟩ : BufTy).Contents (Elt F) → (⟨S131072x6, .f32⟩ : BufTy).Contents (Elt F)),
    unary main_arg7 main_v420 ((extractStridedSlice S1x6 ![14, 0] · slices_S24x6_S1x6_14_0) : (⟨S24x6, .f32⟩ : BufTy).Contents (Elt F) → (⟨S1x6, .f32⟩ : BufTy).Contents (Elt F)),
    reshape main_v420 main_v421 rfl shapeCasts_S1x6_S6,
    unary main_v421 main_v422 (broadcastInDim S1x6 ![1] bcast_S6_S1x6_1 : (⟨S6, .f32⟩ : BufTy).Contents (Elt F) → (⟨S1x6, .f32⟩ : BufTy).Contents (Elt F)),
    unary main_v422 main_v423 (broadcastInDim S131072x6 ![0, 1] bcast_S1x6_S131072x6_0_1 : (⟨S1x6, .f32⟩ : BufTy).Contents (Elt F) → (⟨S131072x6, .f32⟩ : BufTy).Contents (Elt F)),
    binary main_v419 main_v423 main_v424 (addf : (⟨S131072x6, .f32⟩ : BufTy).Contents (Elt F) → (⟨S131072x6, .f32⟩ : BufTy).Contents (Elt F) → (⟨S131072x6, .f32⟩ : BufTy).Contents (Elt F)) ]

abbrev win14_W : List (Ref sig .tc) := [main_v397, main_v398, main_v399, main_v400, main_v401, main_v402, main_v403, main_call28_v0, main_call28_cst, main_call28_v1, main_call28_v2, main_v404, main_v405, main_v406, main_v407, main_v408, main_v409, main_v410, main_v411, main_v412, main_v413, main_v414, main_call29_cst, main_call29_v0, main_v415, main_v416, main_v417, main_v418, main_v419, main_v420, main_v421, main_v422, main_v423, main_v424]

theorem win14_ok : (win14 : List (HloOp τ sig (Elt F))).Forall fun op => op.bufs ⊆ tcRefs τ sig ∧ op.fresh = ∅ :=
  ⟨⟨unary_bufs_sub .., rfl⟩, ⟨reshape_bufs_sub .., rfl⟩, ⟨unary_bufs_sub .., rfl⟩, ⟨reshape_bufs_sub .., rfl⟩, ⟨unary_bufs_sub .., rfl⟩, ⟨reshape_bufs_sub .., rfl⟩, ⟨binary_bufs_sub .., rfl⟩, ⟨binary_bufs_sub .., rfl⟩, ⟨nullary_bufs_sub .., rfl⟩, ⟨binary_bufs_sub .., rfl⟩, ⟨unary_bufs_sub .., rfl⟩, ⟨unary_bufs_sub .., rfl⟩, ⟨nary_bufs_sub .., rfl⟩, ⟨unary_bufs_sub .., rfl⟩, ⟨reshape_bufs_sub .., rfl⟩, ⟨unary_bufs_sub .., rfl⟩, ⟨binary_bufs_sub .., rfl⟩, ⟨unary_bufs_sub .., rfl⟩, ⟨reshape_bufs_sub .., rfl⟩, ⟨unary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨unary_bufs_sub .., rfl⟩, ⟨reshape_bufs_sub .., rfl⟩, ⟨unary_bufs_sub .., rfl⟩, ⟨binary_bufs_sub .., rfl⟩, ⟨unary_bufs_sub .., rfl⟩, ⟨reshape_bufs_sub .., rfl⟩, ⟨unary_bufs_sub .., rfl⟩, ⟨unary_bufs_sub .., rfl⟩, ⟨binary_bufs_sub .., rfl⟩⟩

theorem win14_writes : (win14 : List (HloOp τ sig (Elt F))).Forall fun op =>
    op.writes ⊆ (win14_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

abbrev win15 : List (HloOp τ sig (Elt F)) :=
  [ unary main_arg0 main_v425 ((extractStridedSlice S131072x1x9 ![0, 15, 0] · slices_S131072x24x9_S131072x1x9_0_15_0) : (⟨S131072x24x9, .f32⟩ : BufTy).Contents (Elt F) → (⟨S131072x1x9, .f32⟩ : BufTy).Contents (Elt F)),
    reshape main_v425 main_v426 rfl shapeCasts_S131072x1x9_S131072x9,
    unary main_arg1 main_v427 ((extractStridedSlice S131072x1x3 ![0, 15, 0] · slices_S131072x24x3_S131072x1x3_0_15_0) : (⟨S131072x24x3, .f32⟩ : BufTy).Contents (Elt F) → (⟨S131072x1x3, .f32⟩ : BufTy).Contents (Elt F)),
    reshape main_v427 main_v428 rfl shapeCasts_S131072x1x3_S131072x3,
    unary main_arg1 main_v429 ((extractStridedSlice S131072x1x3 ![0, 12, 0] · slices_S131072x24x3_S131072x1x3_0_12_0) : (⟨S131072x24x3, .f32⟩ : BufTy).Contents (Elt F) → (⟨S131072x1x3, .f32⟩ : BufTy).Contents (Elt F)),
    reshape main_v429 main_v430 rfl shapeCasts_S131072x1x3_S131072x3,
    binary main_v428 main_v430 main_v431 (subf : (⟨S131072x3, .f32⟩ : BufTy).Contents (Elt F) → (⟨S131072x3, .f32⟩ : BufTy).Contents (Elt F) → (⟨S131072x3, .f32⟩ : BufTy).Contents (Elt F)),
    TRef.binary (TRef.of (T := ⟨S131072x3, .f32⟩) main_v431) (TRef.of (T := ⟨S131072x3, .f32⟩) main_v431) (TRef.of (T := ⟨S131072x3, .f32⟩) main_call30_v0) mulf,
    TRef.nullary (TRef.of (T := ⟨S_, .f32⟩) main_call30_cst) (constant S_ .f32 0x00000000#32),
    TRef.binary (TRef.of (T := ⟨S131072x3, .f32⟩) main_call30_v0) (TRef.of (T := ⟨S_, .f32⟩) main_call30_cst) (TRef.of (T := ⟨S131072, .f32⟩) main_call30_v1) (fun x v => Host.reduceAdd x v reducesTo_S131072x3_S131072_d1 h_S_),
    TRef.unary (TRef.of (T := ⟨S131072, .f32⟩) main_call30_v1) (TRef.of (T := ⟨S131072x1, .f32⟩) main_call30_v2) (broadcastInDim S131072x1 ![0] bcast_S131072_S131072x1_0),
    TRef.unary (TRef.of (T := ⟨S131072x1, .f32⟩) main_call30_v2) (TRef.of (T := ⟨S131072x1, .f32⟩) main_v432) Host.sqrt,
    nary ![main_v426, main_v428, main_v432, main_v368] main_v433 (fun u => concatenate S131072x19 1 [⟨S131072x9, u 0⟩, ⟨S131072x3, u 1⟩, ⟨S131072x1, u 2⟩, ⟨S131072x6, u 3⟩] concatenates_S131072x9_S131072x3_S131072x1_S131072x6_S131072x19_d1),
    unary main_arg4 main_v434 ((extractStridedSlice S1x19x19 ![15, 0, 0] · slices_S24x19x19_S1x19x19_15_0_0) : (⟨S24x19x19, .f32⟩ : BufTy).Contents (Elt F) → (⟨S1x19x19, .f32⟩ : BufTy).Contents (Elt F)),
    reshape main_v434 main_v435 rfl shapeCasts_S1x19x19_S19x19,
    unary main_v435 main_v436 ((transpose S19x19 [1, 0] · transposes_S19x19_S19x19_1_0) : (⟨S19x19, .f32⟩ : BufTy).Contents (Elt F) → (⟨S19x19, .f32⟩ : BufTy).Contents (Elt F)),
    binary main_v433 main_v436 main_v437 ((fun l r => Host.dotGeneral dot_S131072x19_S19x19_S131072x19_1_0_0_1_n_n none l r) : (⟨S131072x19, .f32⟩ : BufTy).Contents (Elt F) → (⟨S19x19, .f32⟩ : BufTy).Contents (Elt F) → (⟨S131072x19, .f32⟩ : BufTy).Contents (Elt F)),
    unary main_arg5 main_v438 ((extractStridedSlice S1x19 ![15, 0] · slices_S24x19_S1x19_15_0) : (⟨S24x19, .f32⟩ : BufTy).Contents (Elt F) → (⟨S1x19, .f32⟩ : BufTy).Contents (Elt F)),
    reshape main_v438 main_v439 rfl shapeCasts_S1x19_S19,
    unary main_v439 main_v440 (broadcastInDim S1x19 ![1] bcast_S19_S1x19_1 : (⟨S19, .f32⟩ : BufTy).Contents (Elt F) → (⟨S1x19, .f32⟩ : BufTy).Contents (Elt F)),
    unary main_v440 main_v441 (broadcastInDim S131072x19 ![0, 1] bcast_S1x19_S131072x19_0_1 : (⟨S1x19, .f32⟩ : BufTy).Contents (Elt F) → (⟨S131072x19, .f32⟩ : BufTy).Contents (Elt F)),
    binary main_v437 main_v441 main_v442 (addf : (⟨S131072x19, .f32⟩ : BufTy).Contents (Elt F) → (⟨S131072x19, .f32⟩ : BufTy).Contents (Elt F) → (⟨S131072x19, .f32⟩ : BufTy).Contents (Elt F)),
    TRef.nullary (TRef.of (T := ⟨S_, .f32⟩) main_call31_cst) (constant S_ .f32 0x00000000#32),
    TRef.unary (TRef.of (T := ⟨S_, .f32⟩) main_call31_cst) (TRef.of (T := ⟨S131072x19, .f32⟩) main_call31_v0) (broadcastInDim S131072x19 ![] bcast_S_S131072x19),
    TRef.binary (TRef.of (T := ⟨S131072x19, .f32⟩) main_v442) (TRef.of (T := ⟨S131072x19, .f32⟩) main_call31_v0) (TRef.of (T := ⟨S131072x19, .f32⟩) main_v443) maximumf,
    unary main_arg6 main_v444 ((extractStridedSlice S1x6x19 ![15, 0, 0] · slices_S24x6x19_S1x6x19_15_0_0) : (⟨S24x6x19, .f32⟩ : BufTy).Contents (Elt F) → (⟨S1x6x19, .f32⟩ : BufTy).Contents (Elt F)),
    reshape main_v444 main_v445 rfl shapeCasts_S1x6x19_S6x19,
    unary main_v445 main_v446 ((transpose S19x6 [1, 0] · transposes_S6x19_S19x6_1_0) : (⟨S6x19, .f32⟩ : BufTy).Contents (Elt F) → (⟨S19x6, .f32⟩ : BufTy).Contents (Elt F)),
    binary main_v443 main_v446 main_v447 ((fun l r => Host.dotGeneral dot_S131072x19_S19x6_S131072x6_1_0_0_1_n_n none l r) : (⟨S131072x19, .f32⟩ : BufTy).Contents (Elt F) → (⟨S19x6, .f32⟩ : BufTy).Contents (Elt F) → (⟨S131072x6, .f32⟩ : BufTy).Contents (Elt F)),
    unary main_arg7 main_v448 ((extractStridedSlice S1x6 ![15, 0] · slices_S24x6_S1x6_15_0) : (⟨S24x6, .f32⟩ : BufTy).Contents (Elt F) → (⟨S1x6, .f32⟩ : BufTy).Contents (Elt F)),
    reshape main_v448 main_v449 rfl shapeCasts_S1x6_S6,
    unary main_v449 main_v450 (broadcastInDim S1x6 ![1] bcast_S6_S1x6_1 : (⟨S6, .f32⟩ : BufTy).Contents (Elt F) → (⟨S1x6, .f32⟩ : BufTy).Contents (Elt F)),
    unary main_v450 main_v451 (broadcastInDim S131072x6 ![0, 1] bcast_S1x6_S131072x6_0_1 : (⟨S1x6, .f32⟩ : BufTy).Contents (Elt F) → (⟨S131072x6, .f32⟩ : BufTy).Contents (Elt F)),
    binary main_v447 main_v451 main_v452 (addf : (⟨S131072x6, .f32⟩ : BufTy).Contents (Elt F) → (⟨S131072x6, .f32⟩ : BufTy).Contents (Elt F) → (⟨S131072x6, .f32⟩ : BufTy).Contents (Elt F)) ]

abbrev win15_W : List (Ref sig .tc) := [main_v425, main_v426, main_v427, main_v428, main_v429, main_v430, main_v431, main_call30_v0, main_call30_cst, main_call30_v1, main_call30_v2, main_v432, main_v433, main_v434, main_v435, main_v436, main_v437, main_v438, main_v439, main_v440, main_v441, main_v442, main_call31_cst, main_call31_v0, main_v443, main_v444, main_v445, main_v446, main_v447, main_v448, main_v449, main_v450, main_v451, main_v452]

theorem win15_ok : (win15 : List (HloOp τ sig (Elt F))).Forall fun op => op.bufs ⊆ tcRefs τ sig ∧ op.fresh = ∅ :=
  ⟨⟨unary_bufs_sub .., rfl⟩, ⟨reshape_bufs_sub .., rfl⟩, ⟨unary_bufs_sub .., rfl⟩, ⟨reshape_bufs_sub .., rfl⟩, ⟨unary_bufs_sub .., rfl⟩, ⟨reshape_bufs_sub .., rfl⟩, ⟨binary_bufs_sub .., rfl⟩, ⟨binary_bufs_sub .., rfl⟩, ⟨nullary_bufs_sub .., rfl⟩, ⟨binary_bufs_sub .., rfl⟩, ⟨unary_bufs_sub .., rfl⟩, ⟨unary_bufs_sub .., rfl⟩, ⟨nary_bufs_sub .., rfl⟩, ⟨unary_bufs_sub .., rfl⟩, ⟨reshape_bufs_sub .., rfl⟩, ⟨unary_bufs_sub .., rfl⟩, ⟨binary_bufs_sub .., rfl⟩, ⟨unary_bufs_sub .., rfl⟩, ⟨reshape_bufs_sub .., rfl⟩, ⟨unary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨unary_bufs_sub .., rfl⟩, ⟨reshape_bufs_sub .., rfl⟩, ⟨unary_bufs_sub .., rfl⟩, ⟨binary_bufs_sub .., rfl⟩, ⟨unary_bufs_sub .., rfl⟩, ⟨reshape_bufs_sub .., rfl⟩, ⟨unary_bufs_sub .., rfl⟩, ⟨unary_bufs_sub .., rfl⟩, ⟨binary_bufs_sub .., rfl⟩⟩

theorem win15_writes : (win15 : List (HloOp τ sig (Elt F))).Forall fun op =>
    op.writes ⊆ (win15_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

abbrev win16 : List (HloOp τ sig (Elt F)) :=
  [ unary main_arg0 main_v453 ((extractStridedSlice S131072x1x9 ![0, 16, 0] · slices_S131072x24x9_S131072x1x9_0_16_0) : (⟨S131072x24x9, .f32⟩ : BufTy).Contents (Elt F) → (⟨S131072x1x9, .f32⟩ : BufTy).Contents (Elt F)),
    reshape main_v453 main_v454 rfl shapeCasts_S131072x1x9_S131072x9,
    unary main_arg1 main_v455 ((extractStridedSlice S131072x1x3 ![0, 16, 0] · slices_S131072x24x3_S131072x1x3_0_16_0) : (⟨S131072x24x3, .f32⟩ : BufTy).Contents (Elt F) → (⟨S131072x1x3, .f32⟩ : BufTy).Contents (Elt F)),
    reshape main_v455 main_v456 rfl shapeCasts_S131072x1x3_S131072x3,
    unary main_arg1 main_v457 ((extractStridedSlice S131072x1x3 ![0, 13, 0] · slices_S131072x24x3_S131072x1x3_0_13_0) : (⟨S131072x24x3, .f32⟩ : BufTy).Contents (Elt F) → (⟨S131072x1x3, .f32⟩ : BufTy).Contents (Elt F)),
    reshape main_v457 main_v458 rfl shapeCasts_S131072x1x3_S131072x3,
    binary main_v456 main_v458 main_v459 (subf : (⟨S131072x3, .f32⟩ : BufTy).Contents (Elt F) → (⟨S131072x3, .f32⟩ : BufTy).Contents (Elt F) → (⟨S131072x3, .f32⟩ : BufTy).Contents (Elt F)),
    TRef.binary (TRef.of (T := ⟨S131072x3, .f32⟩) main_v459) (TRef.of (T := ⟨S131072x3, .f32⟩) main_v459) (TRef.of (T := ⟨S131072x3, .f32⟩) main_call32_v0) mulf,
    TRef.nullary (TRef.of (T := ⟨S_, .f32⟩) main_call32_cst) (constant S_ .f32 0x00000000#32),
    TRef.binary (TRef.of (T := ⟨S131072x3, .f32⟩) main_call32_v0) (TRef.of (T := ⟨S_, .f32⟩) main_call32_cst) (TRef.of (T := ⟨S131072, .f32⟩) main_call32_v1) (fun x v => Host.reduceAdd x v reducesTo_S131072x3_S131072_d1 h_S_),
    TRef.unary (TRef.of (T := ⟨S131072, .f32⟩) main_call32_v1) (TRef.of (T := ⟨S131072x1, .f32⟩) main_call32_v2) (broadcastInDim S131072x1 ![0] bcast_S131072_S131072x1_0),
    TRef.unary (TRef.of (T := ⟨S131072x1, .f32⟩) main_call32_v2) (TRef.of (T := ⟨S131072x1, .f32⟩) main_v460) Host.sqrt,
    nary ![main_v454, main_v456, main_v460, main_v396] main_v461 (fun u => concatenate S131072x19 1 [⟨S131072x9, u 0⟩, ⟨S131072x3, u 1⟩, ⟨S131072x1, u 2⟩, ⟨S131072x6, u 3⟩] concatenates_S131072x9_S131072x3_S131072x1_S131072x6_S131072x19_d1),
    unary main_arg4 main_v462 ((extractStridedSlice S1x19x19 ![16, 0, 0] · slices_S24x19x19_S1x19x19_16_0_0) : (⟨S24x19x19, .f32⟩ : BufTy).Contents (Elt F) → (⟨S1x19x19, .f32⟩ : BufTy).Contents (Elt F)),
    reshape main_v462 main_v463 rfl shapeCasts_S1x19x19_S19x19,
    unary main_v463 main_v464 ((transpose S19x19 [1, 0] · transposes_S19x19_S19x19_1_0) : (⟨S19x19, .f32⟩ : BufTy).Contents (Elt F) → (⟨S19x19, .f32⟩ : BufTy).Contents (Elt F)),
    binary main_v461 main_v464 main_v465 ((fun l r => Host.dotGeneral dot_S131072x19_S19x19_S131072x19_1_0_0_1_n_n none l r) : (⟨S131072x19, .f32⟩ : BufTy).Contents (Elt F) → (⟨S19x19, .f32⟩ : BufTy).Contents (Elt F) → (⟨S131072x19, .f32⟩ : BufTy).Contents (Elt F)),
    unary main_arg5 main_v466 ((extractStridedSlice S1x19 ![16, 0] · slices_S24x19_S1x19_16_0) : (⟨S24x19, .f32⟩ : BufTy).Contents (Elt F) → (⟨S1x19, .f32⟩ : BufTy).Contents (Elt F)),
    reshape main_v466 main_v467 rfl shapeCasts_S1x19_S19,
    unary main_v467 main_v468 (broadcastInDim S1x19 ![1] bcast_S19_S1x19_1 : (⟨S19, .f32⟩ : BufTy).Contents (Elt F) → (⟨S1x19, .f32⟩ : BufTy).Contents (Elt F)),
    unary main_v468 main_v469 (broadcastInDim S131072x19 ![0, 1] bcast_S1x19_S131072x19_0_1 : (⟨S1x19, .f32⟩ : BufTy).Contents (Elt F) → (⟨S131072x19, .f32⟩ : BufTy).Contents (Elt F)),
    binary main_v465 main_v469 main_v470 (addf : (⟨S131072x19, .f32⟩ : BufTy).Contents (Elt F) → (⟨S131072x19, .f32⟩ : BufTy).Contents (Elt F) → (⟨S131072x19, .f32⟩ : BufTy).Contents (Elt F)),
    TRef.nullary (TRef.of (T := ⟨S_, .f32⟩) main_call33_cst) (constant S_ .f32 0x00000000#32),
    TRef.unary (TRef.of (T := ⟨S_, .f32⟩) main_call33_cst) (TRef.of (T := ⟨S131072x19, .f32⟩) main_call33_v0) (broadcastInDim S131072x19 ![] bcast_S_S131072x19),
    TRef.binary (TRef.of (T := ⟨S131072x19, .f32⟩) main_v470) (TRef.of (T := ⟨S131072x19, .f32⟩) main_call33_v0) (TRef.of (T := ⟨S131072x19, .f32⟩) main_v471) maximumf,
    unary main_arg6 main_v472 ((extractStridedSlice S1x6x19 ![16, 0, 0] · slices_S24x6x19_S1x6x19_16_0_0) : (⟨S24x6x19, .f32⟩ : BufTy).Contents (Elt F) → (⟨S1x6x19, .f32⟩ : BufTy).Contents (Elt F)),
    reshape main_v472 main_v473 rfl shapeCasts_S1x6x19_S6x19,
    unary main_v473 main_v474 ((transpose S19x6 [1, 0] · transposes_S6x19_S19x6_1_0) : (⟨S6x19, .f32⟩ : BufTy).Contents (Elt F) → (⟨S19x6, .f32⟩ : BufTy).Contents (Elt F)),
    binary main_v471 main_v474 main_v475 ((fun l r => Host.dotGeneral dot_S131072x19_S19x6_S131072x6_1_0_0_1_n_n none l r) : (⟨S131072x19, .f32⟩ : BufTy).Contents (Elt F) → (⟨S19x6, .f32⟩ : BufTy).Contents (Elt F) → (⟨S131072x6, .f32⟩ : BufTy).Contents (Elt F)),
    unary main_arg7 main_v476 ((extractStridedSlice S1x6 ![16, 0] · slices_S24x6_S1x6_16_0) : (⟨S24x6, .f32⟩ : BufTy).Contents (Elt F) → (⟨S1x6, .f32⟩ : BufTy).Contents (Elt F)),
    reshape main_v476 main_v477 rfl shapeCasts_S1x6_S6,
    unary main_v477 main_v478 (broadcastInDim S1x6 ![1] bcast_S6_S1x6_1 : (⟨S6, .f32⟩ : BufTy).Contents (Elt F) → (⟨S1x6, .f32⟩ : BufTy).Contents (Elt F)),
    unary main_v478 main_v479 (broadcastInDim S131072x6 ![0, 1] bcast_S1x6_S131072x6_0_1 : (⟨S1x6, .f32⟩ : BufTy).Contents (Elt F) → (⟨S131072x6, .f32⟩ : BufTy).Contents (Elt F)),
    binary main_v475 main_v479 main_v480 (addf : (⟨S131072x6, .f32⟩ : BufTy).Contents (Elt F) → (⟨S131072x6, .f32⟩ : BufTy).Contents (Elt F) → (⟨S131072x6, .f32⟩ : BufTy).Contents (Elt F)) ]

abbrev win16_W : List (Ref sig .tc) := [main_v453, main_v454, main_v455, main_v456, main_v457, main_v458, main_v459, main_call32_v0, main_call32_cst, main_call32_v1, main_call32_v2, main_v460, main_v461, main_v462, main_v463, main_v464, main_v465, main_v466, main_v467, main_v468, main_v469, main_v470, main_call33_cst, main_call33_v0, main_v471, main_v472, main_v473, main_v474, main_v475, main_v476, main_v477, main_v478, main_v479, main_v480]

theorem win16_ok : (win16 : List (HloOp τ sig (Elt F))).Forall fun op => op.bufs ⊆ tcRefs τ sig ∧ op.fresh = ∅ :=
  ⟨⟨unary_bufs_sub .., rfl⟩, ⟨reshape_bufs_sub .., rfl⟩, ⟨unary_bufs_sub .., rfl⟩, ⟨reshape_bufs_sub .., rfl⟩, ⟨unary_bufs_sub .., rfl⟩, ⟨reshape_bufs_sub .., rfl⟩, ⟨binary_bufs_sub .., rfl⟩, ⟨binary_bufs_sub .., rfl⟩, ⟨nullary_bufs_sub .., rfl⟩, ⟨binary_bufs_sub .., rfl⟩, ⟨unary_bufs_sub .., rfl⟩, ⟨unary_bufs_sub .., rfl⟩, ⟨nary_bufs_sub .., rfl⟩, ⟨unary_bufs_sub .., rfl⟩, ⟨reshape_bufs_sub .., rfl⟩, ⟨unary_bufs_sub .., rfl⟩, ⟨binary_bufs_sub .., rfl⟩, ⟨unary_bufs_sub .., rfl⟩, ⟨reshape_bufs_sub .., rfl⟩, ⟨unary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨unary_bufs_sub .., rfl⟩, ⟨reshape_bufs_sub .., rfl⟩, ⟨unary_bufs_sub .., rfl⟩, ⟨binary_bufs_sub .., rfl⟩, ⟨unary_bufs_sub .., rfl⟩, ⟨reshape_bufs_sub .., rfl⟩, ⟨unary_bufs_sub .., rfl⟩, ⟨unary_bufs_sub .., rfl⟩, ⟨binary_bufs_sub .., rfl⟩⟩

theorem win16_writes : (win16 : List (HloOp τ sig (Elt F))).Forall fun op =>
    op.writes ⊆ (win16_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

abbrev win17 : List (HloOp τ sig (Elt F)) :=
  [ unary main_arg0 main_v481 ((extractStridedSlice S131072x1x9 ![0, 17, 0] · slices_S131072x24x9_S131072x1x9_0_17_0) : (⟨S131072x24x9, .f32⟩ : BufTy).Contents (Elt F) → (⟨S131072x1x9, .f32⟩ : BufTy).Contents (Elt F)),
    reshape main_v481 main_v482 rfl shapeCasts_S131072x1x9_S131072x9,
    unary main_arg1 main_v483 ((extractStridedSlice S131072x1x3 ![0, 17, 0] · slices_S131072x24x3_S131072x1x3_0_17_0) : (⟨S131072x24x3, .f32⟩ : BufTy).Contents (Elt F) → (⟨S131072x1x3, .f32⟩ : BufTy).Contents (Elt F)),
    reshape main_v483 main_v484 rfl shapeCasts_S131072x1x3_S131072x3,
    unary main_arg1 main_v485 ((extractStridedSlice S131072x1x3 ![0, 14, 0] · slices_S131072x24x3_S131072x1x3_0_14_0) : (⟨S131072x24x3, .f32⟩ : BufTy).Contents (Elt F) → (⟨S131072x1x3, .f32⟩ : BufTy).Contents (Elt F)),
    reshape main_v485 main_v486 rfl shapeCasts_S131072x1x3_S131072x3,
    binary main_v484 main_v486 main_v487 (subf : (⟨S131072x3, .f32⟩ : BufTy).Contents (Elt F) → (⟨S131072x3, .f32⟩ : BufTy).Contents (Elt F) → (⟨S131072x3, .f32⟩ : BufTy).Contents (Elt F)),
    TRef.binary (TRef.of (T := ⟨S131072x3, .f32⟩) main_v487) (TRef.of (T := ⟨S131072x3, .f32⟩) main_v487) (TRef.of (T := ⟨S131072x3, .f32⟩) main_call34_v0) mulf,
    TRef.nullary (TRef.of (T := ⟨S_, .f32⟩) main_call34_cst) (constant S_ .f32 0x00000000#32),
    TRef.binary (TRef.of (T := ⟨S131072x3, .f32⟩) main_call34_v0) (TRef.of (T := ⟨S_, .f32⟩) main_call34_cst) (TRef.of (T := ⟨S131072, .f32⟩) main_call34_v1) (fun x v => Host.reduceAdd x v reducesTo_S131072x3_S131072_d1 h_S_),
    TRef.unary (TRef.of (T := ⟨S131072, .f32⟩) main_call34_v1) (TRef.of (T := ⟨S131072x1, .f32⟩) main_call34_v2) (broadcastInDim S131072x1 ![0] bcast_S131072_S131072x1_0),
    TRef.unary (TRef.of (T := ⟨S131072x1, .f32⟩) main_call34_v2) (TRef.of (T := ⟨S131072x1, .f32⟩) main_v488) Host.sqrt,
    nary ![main_v482, main_v484, main_v488, main_v424] main_v489 (fun u => concatenate S131072x19 1 [⟨S131072x9, u 0⟩, ⟨S131072x3, u 1⟩, ⟨S131072x1, u 2⟩, ⟨S131072x6, u 3⟩] concatenates_S131072x9_S131072x3_S131072x1_S131072x6_S131072x19_d1),
    unary main_arg4 main_v490 ((extractStridedSlice S1x19x19 ![17, 0, 0] · slices_S24x19x19_S1x19x19_17_0_0) : (⟨S24x19x19, .f32⟩ : BufTy).Contents (Elt F) → (⟨S1x19x19, .f32⟩ : BufTy).Contents (Elt F)),
    reshape main_v490 main_v491 rfl shapeCasts_S1x19x19_S19x19,
    unary main_v491 main_v492 ((transpose S19x19 [1, 0] · transposes_S19x19_S19x19_1_0) : (⟨S19x19, .f32⟩ : BufTy).Contents (Elt F) → (⟨S19x19, .f32⟩ : BufTy).Contents (Elt F)),
    binary main_v489 main_v492 main_v493 ((fun l r => Host.dotGeneral dot_S131072x19_S19x19_S131072x19_1_0_0_1_n_n none l r) : (⟨S131072x19, .f32⟩ : BufTy).Contents (Elt F) → (⟨S19x19, .f32⟩ : BufTy).Contents (Elt F) → (⟨S131072x19, .f32⟩ : BufTy).Contents (Elt F)),
    unary main_arg5 main_v494 ((extractStridedSlice S1x19 ![17, 0] · slices_S24x19_S1x19_17_0) : (⟨S24x19, .f32⟩ : BufTy).Contents (Elt F) → (⟨S1x19, .f32⟩ : BufTy).Contents (Elt F)),
    reshape main_v494 main_v495 rfl shapeCasts_S1x19_S19,
    unary main_v495 main_v496 (broadcastInDim S1x19 ![1] bcast_S19_S1x19_1 : (⟨S19, .f32⟩ : BufTy).Contents (Elt F) → (⟨S1x19, .f32⟩ : BufTy).Contents (Elt F)),
    unary main_v496 main_v497 (broadcastInDim S131072x19 ![0, 1] bcast_S1x19_S131072x19_0_1 : (⟨S1x19, .f32⟩ : BufTy).Contents (Elt F) → (⟨S131072x19, .f32⟩ : BufTy).Contents (Elt F)),
    binary main_v493 main_v497 main_v498 (addf : (⟨S131072x19, .f32⟩ : BufTy).Contents (Elt F) → (⟨S131072x19, .f32⟩ : BufTy).Contents (Elt F) → (⟨S131072x19, .f32⟩ : BufTy).Contents (Elt F)),
    TRef.nullary (TRef.of (T := ⟨S_, .f32⟩) main_call35_cst) (constant S_ .f32 0x00000000#32),
    TRef.unary (TRef.of (T := ⟨S_, .f32⟩) main_call35_cst) (TRef.of (T := ⟨S131072x19, .f32⟩) main_call35_v0) (broadcastInDim S131072x19 ![] bcast_S_S131072x19),
    TRef.binary (TRef.of (T := ⟨S131072x19, .f32⟩) main_v498) (TRef.of (T := ⟨S131072x19, .f32⟩) main_call35_v0) (TRef.of (T := ⟨S131072x19, .f32⟩) main_v499) maximumf,
    unary main_arg6 main_v500 ((extractStridedSlice S1x6x19 ![17, 0, 0] · slices_S24x6x19_S1x6x19_17_0_0) : (⟨S24x6x19, .f32⟩ : BufTy).Contents (Elt F) → (⟨S1x6x19, .f32⟩ : BufTy).Contents (Elt F)),
    reshape main_v500 main_v501 rfl shapeCasts_S1x6x19_S6x19,
    unary main_v501 main_v502 ((transpose S19x6 [1, 0] · transposes_S6x19_S19x6_1_0) : (⟨S6x19, .f32⟩ : BufTy).Contents (Elt F) → (⟨S19x6, .f32⟩ : BufTy).Contents (Elt F)),
    binary main_v499 main_v502 main_v503 ((fun l r => Host.dotGeneral dot_S131072x19_S19x6_S131072x6_1_0_0_1_n_n none l r) : (⟨S131072x19, .f32⟩ : BufTy).Contents (Elt F) → (⟨S19x6, .f32⟩ : BufTy).Contents (Elt F) → (⟨S131072x6, .f32⟩ : BufTy).Contents (Elt F)),
    unary main_arg7 main_v504 ((extractStridedSlice S1x6 ![17, 0] · slices_S24x6_S1x6_17_0) : (⟨S24x6, .f32⟩ : BufTy).Contents (Elt F) → (⟨S1x6, .f32⟩ : BufTy).Contents (Elt F)),
    reshape main_v504 main_v505 rfl shapeCasts_S1x6_S6,
    unary main_v505 main_v506 (broadcastInDim S1x6 ![1] bcast_S6_S1x6_1 : (⟨S6, .f32⟩ : BufTy).Contents (Elt F) → (⟨S1x6, .f32⟩ : BufTy).Contents (Elt F)),
    unary main_v506 main_v507 (broadcastInDim S131072x6 ![0, 1] bcast_S1x6_S131072x6_0_1 : (⟨S1x6, .f32⟩ : BufTy).Contents (Elt F) → (⟨S131072x6, .f32⟩ : BufTy).Contents (Elt F)),
    binary main_v503 main_v507 main_v508 (addf : (⟨S131072x6, .f32⟩ : BufTy).Contents (Elt F) → (⟨S131072x6, .f32⟩ : BufTy).Contents (Elt F) → (⟨S131072x6, .f32⟩ : BufTy).Contents (Elt F)) ]

abbrev win17_W : List (Ref sig .tc) := [main_v481, main_v482, main_v483, main_v484, main_v485, main_v486, main_v487, main_call34_v0, main_call34_cst, main_call34_v1, main_call34_v2, main_v488, main_v489, main_v490, main_v491, main_v492, main_v493, main_v494, main_v495, main_v496, main_v497, main_v498, main_call35_cst, main_call35_v0, main_v499, main_v500, main_v501, main_v502, main_v503, main_v504, main_v505, main_v506, main_v507, main_v508]

theorem win17_ok : (win17 : List (HloOp τ sig (Elt F))).Forall fun op => op.bufs ⊆ tcRefs τ sig ∧ op.fresh = ∅ :=
  ⟨⟨unary_bufs_sub .., rfl⟩, ⟨reshape_bufs_sub .., rfl⟩, ⟨unary_bufs_sub .., rfl⟩, ⟨reshape_bufs_sub .., rfl⟩, ⟨unary_bufs_sub .., rfl⟩, ⟨reshape_bufs_sub .., rfl⟩, ⟨binary_bufs_sub .., rfl⟩, ⟨binary_bufs_sub .., rfl⟩, ⟨nullary_bufs_sub .., rfl⟩, ⟨binary_bufs_sub .., rfl⟩, ⟨unary_bufs_sub .., rfl⟩, ⟨unary_bufs_sub .., rfl⟩, ⟨nary_bufs_sub .., rfl⟩, ⟨unary_bufs_sub .., rfl⟩, ⟨reshape_bufs_sub .., rfl⟩, ⟨unary_bufs_sub .., rfl⟩, ⟨binary_bufs_sub .., rfl⟩, ⟨unary_bufs_sub .., rfl⟩, ⟨reshape_bufs_sub .., rfl⟩, ⟨unary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨unary_bufs_sub .., rfl⟩, ⟨reshape_bufs_sub .., rfl⟩, ⟨unary_bufs_sub .., rfl⟩, ⟨binary_bufs_sub .., rfl⟩, ⟨unary_bufs_sub .., rfl⟩, ⟨reshape_bufs_sub .., rfl⟩, ⟨unary_bufs_sub .., rfl⟩, ⟨unary_bufs_sub .., rfl⟩, ⟨binary_bufs_sub .., rfl⟩⟩

theorem win17_writes : (win17 : List (HloOp τ sig (Elt F))).Forall fun op =>
    op.writes ⊆ (win17_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

abbrev win18 : List (HloOp τ sig (Elt F)) :=
  [ unary main_arg0 main_v509 ((extractStridedSlice S131072x1x9 ![0, 18, 0] · slices_S131072x24x9_S131072x1x9_0_18_0) : (⟨S131072x24x9, .f32⟩ : BufTy).Contents (Elt F) → (⟨S131072x1x9, .f32⟩ : BufTy).Contents (Elt F)),
    reshape main_v509 main_v510 rfl shapeCasts_S131072x1x9_S131072x9,
    unary main_arg1 main_v511 ((extractStridedSlice S131072x1x3 ![0, 18, 0] · slices_S131072x24x3_S131072x1x3_0_18_0) : (⟨S131072x24x3, .f32⟩ : BufTy).Contents (Elt F) → (⟨S131072x1x3, .f32⟩ : BufTy).Contents (Elt F)),
    reshape main_v511 main_v512 rfl shapeCasts_S131072x1x3_S131072x3,
    unary main_arg1 main_v513 ((extractStridedSlice S131072x1x3 ![0, 16, 0] · slices_S131072x24x3_S131072x1x3_0_16_0) : (⟨S131072x24x3, .f32⟩ : BufTy).Contents (Elt F) → (⟨S131072x1x3, .f32⟩ : BufTy).Contents (Elt F)),
    reshape main_v513 main_v514 rfl shapeCasts_S131072x1x3_S131072x3,
    binary main_v512 main_v514 main_v515 (subf : (⟨S131072x3, .f32⟩ : BufTy).Contents (Elt F) → (⟨S131072x3, .f32⟩ : BufTy).Contents (Elt F) → (⟨S131072x3, .f32⟩ : BufTy).Contents (Elt F)),
    TRef.binary (TRef.of (T := ⟨S131072x3, .f32⟩) main_v515) (TRef.of (T := ⟨S131072x3, .f32⟩) main_v515) (TRef.of (T := ⟨S131072x3, .f32⟩) main_call36_v0) mulf,
    TRef.nullary (TRef.of (T := ⟨S_, .f32⟩) main_call36_cst) (constant S_ .f32 0x00000000#32),
    TRef.binary (TRef.of (T := ⟨S131072x3, .f32⟩) main_call36_v0) (TRef.of (T := ⟨S_, .f32⟩) main_call36_cst) (TRef.of (T := ⟨S131072, .f32⟩) main_call36_v1) (fun x v => Host.reduceAdd x v reducesTo_S131072x3_S131072_d1 h_S_),
    TRef.unary (TRef.of (T := ⟨S131072, .f32⟩) main_call36_v1) (TRef.of (T := ⟨S131072x1, .f32⟩) main_call36_v2) (broadcastInDim S131072x1 ![0] bcast_S131072_S131072x1_0),
    TRef.unary (TRef.of (T := ⟨S131072x1, .f32⟩) main_call36_v2) (TRef.of (T := ⟨S131072x1, .f32⟩) main_v516) Host.sqrt,
    nary ![main_v510, main_v512, main_v516, main_v480] main_v517 (fun u => concatenate S131072x19 1 [⟨S131072x9, u 0⟩, ⟨S131072x3, u 1⟩, ⟨S131072x1, u 2⟩, ⟨S131072x6, u 3⟩] concatenates_S131072x9_S131072x3_S131072x1_S131072x6_S131072x19_d1),
    unary main_arg4 main_v518 ((extractStridedSlice S1x19x19 ![18, 0, 0] · slices_S24x19x19_S1x19x19_18_0_0) : (⟨S24x19x19, .f32⟩ : BufTy).Contents (Elt F) → (⟨S1x19x19, .f32⟩ : BufTy).Contents (Elt F)),
    reshape main_v518 main_v519 rfl shapeCasts_S1x19x19_S19x19,
    unary main_v519 main_v520 ((transpose S19x19 [1, 0] · transposes_S19x19_S19x19_1_0) : (⟨S19x19, .f32⟩ : BufTy).Contents (Elt F) → (⟨S19x19, .f32⟩ : BufTy).Contents (Elt F)),
    binary main_v517 main_v520 main_v521 ((fun l r => Host.dotGeneral dot_S131072x19_S19x19_S131072x19_1_0_0_1_n_n none l r) : (⟨S131072x19, .f32⟩ : BufTy).Contents (Elt F) → (⟨S19x19, .f32⟩ : BufTy).Contents (Elt F) → (⟨S131072x19, .f32⟩ : BufTy).Contents (Elt F)),
    unary main_arg5 main_v522 ((extractStridedSlice S1x19 ![18, 0] · slices_S24x19_S1x19_18_0) : (⟨S24x19, .f32⟩ : BufTy).Contents (Elt F) → (⟨S1x19, .f32⟩ : BufTy).Contents (Elt F)),
    reshape main_v522 main_v523 rfl shapeCasts_S1x19_S19,
    unary main_v523 main_v524 (broadcastInDim S1x19 ![1] bcast_S19_S1x19_1 : (⟨S19, .f32⟩ : BufTy).Contents (Elt F) → (⟨S1x19, .f32⟩ : BufTy).Contents (Elt F)),
    unary main_v524 main_v525 (broadcastInDim S131072x19 ![0, 1] bcast_S1x19_S131072x19_0_1 : (⟨S1x19, .f32⟩ : BufTy).Contents (Elt F) → (⟨S131072x19, .f32⟩ : BufTy).Contents (Elt F)),
    binary main_v521 main_v525 main_v526 (addf : (⟨S131072x19, .f32⟩ : BufTy).Contents (Elt F) → (⟨S131072x19, .f32⟩ : BufTy).Contents (Elt F) → (⟨S131072x19, .f32⟩ : BufTy).Contents (Elt F)),
    TRef.nullary (TRef.of (T := ⟨S_, .f32⟩) main_call37_cst) (constant S_ .f32 0x00000000#32),
    TRef.unary (TRef.of (T := ⟨S_, .f32⟩) main_call37_cst) (TRef.of (T := ⟨S131072x19, .f32⟩) main_call37_v0) (broadcastInDim S131072x19 ![] bcast_S_S131072x19),
    TRef.binary (TRef.of (T := ⟨S131072x19, .f32⟩) main_v526) (TRef.of (T := ⟨S131072x19, .f32⟩) main_call37_v0) (TRef.of (T := ⟨S131072x19, .f32⟩) main_v527) maximumf,
    unary main_arg6 main_v528 ((extractStridedSlice S1x6x19 ![18, 0, 0] · slices_S24x6x19_S1x6x19_18_0_0) : (⟨S24x6x19, .f32⟩ : BufTy).Contents (Elt F) → (⟨S1x6x19, .f32⟩ : BufTy).Contents (Elt F)),
    reshape main_v528 main_v529 rfl shapeCasts_S1x6x19_S6x19,
    unary main_v529 main_v530 ((transpose S19x6 [1, 0] · transposes_S6x19_S19x6_1_0) : (⟨S6x19, .f32⟩ : BufTy).Contents (Elt F) → (⟨S19x6, .f32⟩ : BufTy).Contents (Elt F)),
    binary main_v527 main_v530 main_v531 ((fun l r => Host.dotGeneral dot_S131072x19_S19x6_S131072x6_1_0_0_1_n_n none l r) : (⟨S131072x19, .f32⟩ : BufTy).Contents (Elt F) → (⟨S19x6, .f32⟩ : BufTy).Contents (Elt F) → (⟨S131072x6, .f32⟩ : BufTy).Contents (Elt F)),
    unary main_arg7 main_v532 ((extractStridedSlice S1x6 ![18, 0] · slices_S24x6_S1x6_18_0) : (⟨S24x6, .f32⟩ : BufTy).Contents (Elt F) → (⟨S1x6, .f32⟩ : BufTy).Contents (Elt F)),
    reshape main_v532 main_v533 rfl shapeCasts_S1x6_S6,
    unary main_v533 main_v534 (broadcastInDim S1x6 ![1] bcast_S6_S1x6_1 : (⟨S6, .f32⟩ : BufTy).Contents (Elt F) → (⟨S1x6, .f32⟩ : BufTy).Contents (Elt F)),
    unary main_v534 main_v535 (broadcastInDim S131072x6 ![0, 1] bcast_S1x6_S131072x6_0_1 : (⟨S1x6, .f32⟩ : BufTy).Contents (Elt F) → (⟨S131072x6, .f32⟩ : BufTy).Contents (Elt F)),
    binary main_v531 main_v535 main_v536 (addf : (⟨S131072x6, .f32⟩ : BufTy).Contents (Elt F) → (⟨S131072x6, .f32⟩ : BufTy).Contents (Elt F) → (⟨S131072x6, .f32⟩ : BufTy).Contents (Elt F)) ]

abbrev win18_W : List (Ref sig .tc) := [main_v509, main_v510, main_v511, main_v512, main_v513, main_v514, main_v515, main_call36_v0, main_call36_cst, main_call36_v1, main_call36_v2, main_v516, main_v517, main_v518, main_v519, main_v520, main_v521, main_v522, main_v523, main_v524, main_v525, main_v526, main_call37_cst, main_call37_v0, main_v527, main_v528, main_v529, main_v530, main_v531, main_v532, main_v533, main_v534, main_v535, main_v536]

theorem win18_ok : (win18 : List (HloOp τ sig (Elt F))).Forall fun op => op.bufs ⊆ tcRefs τ sig ∧ op.fresh = ∅ :=
  ⟨⟨unary_bufs_sub .., rfl⟩, ⟨reshape_bufs_sub .., rfl⟩, ⟨unary_bufs_sub .., rfl⟩, ⟨reshape_bufs_sub .., rfl⟩, ⟨unary_bufs_sub .., rfl⟩, ⟨reshape_bufs_sub .., rfl⟩, ⟨binary_bufs_sub .., rfl⟩, ⟨binary_bufs_sub .., rfl⟩, ⟨nullary_bufs_sub .., rfl⟩, ⟨binary_bufs_sub .., rfl⟩, ⟨unary_bufs_sub .., rfl⟩, ⟨unary_bufs_sub .., rfl⟩, ⟨nary_bufs_sub .., rfl⟩, ⟨unary_bufs_sub .., rfl⟩, ⟨reshape_bufs_sub .., rfl⟩, ⟨unary_bufs_sub .., rfl⟩, ⟨binary_bufs_sub .., rfl⟩, ⟨unary_bufs_sub .., rfl⟩, ⟨reshape_bufs_sub .., rfl⟩, ⟨unary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨unary_bufs_sub .., rfl⟩, ⟨reshape_bufs_sub .., rfl⟩, ⟨unary_bufs_sub .., rfl⟩, ⟨binary_bufs_sub .., rfl⟩, ⟨unary_bufs_sub .., rfl⟩, ⟨reshape_bufs_sub .., rfl⟩, ⟨unary_bufs_sub .., rfl⟩, ⟨unary_bufs_sub .., rfl⟩, ⟨binary_bufs_sub .., rfl⟩⟩

theorem win18_writes : (win18 : List (HloOp τ sig (Elt F))).Forall fun op =>
    op.writes ⊆ (win18_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

abbrev win19 : List (HloOp τ sig (Elt F)) :=
  [ unary main_arg0 main_v537 ((extractStridedSlice S131072x1x9 ![0, 19, 0] · slices_S131072x24x9_S131072x1x9_0_19_0) : (⟨S131072x24x9, .f32⟩ : BufTy).Contents (Elt F) → (⟨S131072x1x9, .f32⟩ : BufTy).Contents (Elt F)),
    reshape main_v537 main_v538 rfl shapeCasts_S131072x1x9_S131072x9,
    unary main_arg1 main_v539 ((extractStridedSlice S131072x1x3 ![0, 19, 0] · slices_S131072x24x3_S131072x1x3_0_19_0) : (⟨S131072x24x3, .f32⟩ : BufTy).Contents (Elt F) → (⟨S131072x1x3, .f32⟩ : BufTy).Contents (Elt F)),
    reshape main_v539 main_v540 rfl shapeCasts_S131072x1x3_S131072x3,
    unary main_arg1 main_v541 ((extractStridedSlice S131072x1x3 ![0, 17, 0] · slices_S131072x24x3_S131072x1x3_0_17_0) : (⟨S131072x24x3, .f32⟩ : BufTy).Contents (Elt F) → (⟨S131072x1x3, .f32⟩ : BufTy).Contents (Elt F)),
    reshape main_v541 main_v542 rfl shapeCasts_S131072x1x3_S131072x3,
    binary main_v540 main_v542 main_v543 (subf : (⟨S131072x3, .f32⟩ : BufTy).Contents (Elt F) → (⟨S131072x3, .f32⟩ : BufTy).Contents (Elt F) → (⟨S131072x3, .f32⟩ : BufTy).Contents (Elt F)),
    TRef.binary (TRef.of (T := ⟨S131072x3, .f32⟩) main_v543) (TRef.of (T := ⟨S131072x3, .f32⟩) main_v543) (TRef.of (T := ⟨S131072x3, .f32⟩) main_call38_v0) mulf,
    TRef.nullary (TRef.of (T := ⟨S_, .f32⟩) main_call38_cst) (constant S_ .f32 0x00000000#32),
    TRef.binary (TRef.of (T := ⟨S131072x3, .f32⟩) main_call38_v0) (TRef.of (T := ⟨S_, .f32⟩) main_call38_cst) (TRef.of (T := ⟨S131072, .f32⟩) main_call38_v1) (fun x v => Host.reduceAdd x v reducesTo_S131072x3_S131072_d1 h_S_),
    TRef.unary (TRef.of (T := ⟨S131072, .f32⟩) main_call38_v1) (TRef.of (T := ⟨S131072x1, .f32⟩) main_call38_v2) (broadcastInDim S131072x1 ![0] bcast_S131072_S131072x1_0),
    TRef.unary (TRef.of (T := ⟨S131072x1, .f32⟩) main_call38_v2) (TRef.of (T := ⟨S131072x1, .f32⟩) main_v544) Host.sqrt,
    nary ![main_v538, main_v540, main_v544, main_v508] main_v545 (fun u => concatenate S131072x19 1 [⟨S131072x9, u 0⟩, ⟨S131072x3, u 1⟩, ⟨S131072x1, u 2⟩, ⟨S131072x6, u 3⟩] concatenates_S131072x9_S131072x3_S131072x1_S131072x6_S131072x19_d1),
    unary main_arg4 main_v546 ((extractStridedSlice S1x19x19 ![19, 0, 0] · slices_S24x19x19_S1x19x19_19_0_0) : (⟨S24x19x19, .f32⟩ : BufTy).Contents (Elt F) → (⟨S1x19x19, .f32⟩ : BufTy).Contents (Elt F)),
    reshape main_v546 main_v547 rfl shapeCasts_S1x19x19_S19x19,
    unary main_v547 main_v548 ((transpose S19x19 [1, 0] · transposes_S19x19_S19x19_1_0) : (⟨S19x19, .f32⟩ : BufTy).Contents (Elt F) → (⟨S19x19, .f32⟩ : BufTy).Contents (Elt F)),
    binary main_v545 main_v548 main_v549 ((fun l r => Host.dotGeneral dot_S131072x19_S19x19_S131072x19_1_0_0_1_n_n none l r) : (⟨S131072x19, .f32⟩ : BufTy).Contents (Elt F) → (⟨S19x19, .f32⟩ : BufTy).Contents (Elt F) → (⟨S131072x19, .f32⟩ : BufTy).Contents (Elt F)),
    unary main_arg5 main_v550 ((extractStridedSlice S1x19 ![19, 0] · slices_S24x19_S1x19_19_0) : (⟨S24x19, .f32⟩ : BufTy).Contents (Elt F) → (⟨S1x19, .f32⟩ : BufTy).Contents (Elt F)),
    reshape main_v550 main_v551 rfl shapeCasts_S1x19_S19,
    unary main_v551 main_v552 (broadcastInDim S1x19 ![1] bcast_S19_S1x19_1 : (⟨S19, .f32⟩ : BufTy).Contents (Elt F) → (⟨S1x19, .f32⟩ : BufTy).Contents (Elt F)),
    unary main_v552 main_v553 (broadcastInDim S131072x19 ![0, 1] bcast_S1x19_S131072x19_0_1 : (⟨S1x19, .f32⟩ : BufTy).Contents (Elt F) → (⟨S131072x19, .f32⟩ : BufTy).Contents (Elt F)),
    binary main_v549 main_v553 main_v554 (addf : (⟨S131072x19, .f32⟩ : BufTy).Contents (Elt F) → (⟨S131072x19, .f32⟩ : BufTy).Contents (Elt F) → (⟨S131072x19, .f32⟩ : BufTy).Contents (Elt F)),
    TRef.nullary (TRef.of (T := ⟨S_, .f32⟩) main_call39_cst) (constant S_ .f32 0x00000000#32),
    TRef.unary (TRef.of (T := ⟨S_, .f32⟩) main_call39_cst) (TRef.of (T := ⟨S131072x19, .f32⟩) main_call39_v0) (broadcastInDim S131072x19 ![] bcast_S_S131072x19),
    TRef.binary (TRef.of (T := ⟨S131072x19, .f32⟩) main_v554) (TRef.of (T := ⟨S131072x19, .f32⟩) main_call39_v0) (TRef.of (T := ⟨S131072x19, .f32⟩) main_v555) maximumf,
    unary main_arg6 main_v556 ((extractStridedSlice S1x6x19 ![19, 0, 0] · slices_S24x6x19_S1x6x19_19_0_0) : (⟨S24x6x19, .f32⟩ : BufTy).Contents (Elt F) → (⟨S1x6x19, .f32⟩ : BufTy).Contents (Elt F)),
    reshape main_v556 main_v557 rfl shapeCasts_S1x6x19_S6x19,
    unary main_v557 main_v558 ((transpose S19x6 [1, 0] · transposes_S6x19_S19x6_1_0) : (⟨S6x19, .f32⟩ : BufTy).Contents (Elt F) → (⟨S19x6, .f32⟩ : BufTy).Contents (Elt F)),
    binary main_v555 main_v558 main_v559 ((fun l r => Host.dotGeneral dot_S131072x19_S19x6_S131072x6_1_0_0_1_n_n none l r) : (⟨S131072x19, .f32⟩ : BufTy).Contents (Elt F) → (⟨S19x6, .f32⟩ : BufTy).Contents (Elt F) → (⟨S131072x6, .f32⟩ : BufTy).Contents (Elt F)),
    unary main_arg7 main_v560 ((extractStridedSlice S1x6 ![19, 0] · slices_S24x6_S1x6_19_0) : (⟨S24x6, .f32⟩ : BufTy).Contents (Elt F) → (⟨S1x6, .f32⟩ : BufTy).Contents (Elt F)),
    reshape main_v560 main_v561 rfl shapeCasts_S1x6_S6,
    unary main_v561 main_v562 (broadcastInDim S1x6 ![1] bcast_S6_S1x6_1 : (⟨S6, .f32⟩ : BufTy).Contents (Elt F) → (⟨S1x6, .f32⟩ : BufTy).Contents (Elt F)),
    unary main_v562 main_v563 (broadcastInDim S131072x6 ![0, 1] bcast_S1x6_S131072x6_0_1 : (⟨S1x6, .f32⟩ : BufTy).Contents (Elt F) → (⟨S131072x6, .f32⟩ : BufTy).Contents (Elt F)),
    binary main_v559 main_v563 main_v564 (addf : (⟨S131072x6, .f32⟩ : BufTy).Contents (Elt F) → (⟨S131072x6, .f32⟩ : BufTy).Contents (Elt F) → (⟨S131072x6, .f32⟩ : BufTy).Contents (Elt F)) ]

abbrev win19_W : List (Ref sig .tc) := [main_v537, main_v538, main_v539, main_v540, main_v541, main_v542, main_v543, main_call38_v0, main_call38_cst, main_call38_v1, main_call38_v2, main_v544, main_v545, main_v546, main_v547, main_v548, main_v549, main_v550, main_v551, main_v552, main_v553, main_v554, main_call39_cst, main_call39_v0, main_v555, main_v556, main_v557, main_v558, main_v559, main_v560, main_v561, main_v562, main_v563, main_v564]

theorem win19_ok : (win19 : List (HloOp τ sig (Elt F))).Forall fun op => op.bufs ⊆ tcRefs τ sig ∧ op.fresh = ∅ :=
  ⟨⟨unary_bufs_sub .., rfl⟩, ⟨reshape_bufs_sub .., rfl⟩, ⟨unary_bufs_sub .., rfl⟩, ⟨reshape_bufs_sub .., rfl⟩, ⟨unary_bufs_sub .., rfl⟩, ⟨reshape_bufs_sub .., rfl⟩, ⟨binary_bufs_sub .., rfl⟩, ⟨binary_bufs_sub .., rfl⟩, ⟨nullary_bufs_sub .., rfl⟩, ⟨binary_bufs_sub .., rfl⟩, ⟨unary_bufs_sub .., rfl⟩, ⟨unary_bufs_sub .., rfl⟩, ⟨nary_bufs_sub .., rfl⟩, ⟨unary_bufs_sub .., rfl⟩, ⟨reshape_bufs_sub .., rfl⟩, ⟨unary_bufs_sub .., rfl⟩, ⟨binary_bufs_sub .., rfl⟩, ⟨unary_bufs_sub .., rfl⟩, ⟨reshape_bufs_sub .., rfl⟩, ⟨unary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨unary_bufs_sub .., rfl⟩, ⟨reshape_bufs_sub .., rfl⟩, ⟨unary_bufs_sub .., rfl⟩, ⟨binary_bufs_sub .., rfl⟩, ⟨unary_bufs_sub .., rfl⟩, ⟨reshape_bufs_sub .., rfl⟩, ⟨unary_bufs_sub .., rfl⟩, ⟨unary_bufs_sub .., rfl⟩, ⟨binary_bufs_sub .., rfl⟩⟩

theorem win19_writes : (win19 : List (HloOp τ sig (Elt F))).Forall fun op =>
    op.writes ⊆ (win19_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

abbrev win20 : List (HloOp τ sig (Elt F)) :=
  [ unary main_arg0 main_v565 ((extractStridedSlice S131072x1x9 ![0, 20, 0] · slices_S131072x24x9_S131072x1x9_0_20_0) : (⟨S131072x24x9, .f32⟩ : BufTy).Contents (Elt F) → (⟨S131072x1x9, .f32⟩ : BufTy).Contents (Elt F)),
    reshape main_v565 main_v566 rfl shapeCasts_S131072x1x9_S131072x9,
    unary main_arg1 main_v567 ((extractStridedSlice S131072x1x3 ![0, 20, 0] · slices_S131072x24x3_S131072x1x3_0_20_0) : (⟨S131072x24x3, .f32⟩ : BufTy).Contents (Elt F) → (⟨S131072x1x3, .f32⟩ : BufTy).Contents (Elt F)),
    reshape main_v567 main_v568 rfl shapeCasts_S131072x1x3_S131072x3,
    unary main_arg1 main_v569 ((extractStridedSlice S131072x1x3 ![0, 18, 0] · slices_S131072x24x3_S131072x1x3_0_18_0) : (⟨S131072x24x3, .f32⟩ : BufTy).Contents (Elt F) → (⟨S131072x1x3, .f32⟩ : BufTy).Contents (Elt F)),
    reshape main_v569 main_v570 rfl shapeCasts_S131072x1x3_S131072x3,
    binary main_v568 main_v570 main_v571 (subf : (⟨S131072x3, .f32⟩ : BufTy).Contents (Elt F) → (⟨S131072x3, .f32⟩ : BufTy).Contents (Elt F) → (⟨S131072x3, .f32⟩ : BufTy).Contents (Elt F)),
    TRef.binary (TRef.of (T := ⟨S131072x3, .f32⟩) main_v571) (TRef.of (T := ⟨S131072x3, .f32⟩) main_v571) (TRef.of (T := ⟨S131072x3, .f32⟩) main_call40_v0) mulf,
    TRef.nullary (TRef.of (T := ⟨S_, .f32⟩) main_call40_cst) (constant S_ .f32 0x00000000#32),
    TRef.binary (TRef.of (T := ⟨S131072x3, .f32⟩) main_call40_v0) (TRef.of (T := ⟨S_, .f32⟩) main_call40_cst) (TRef.of (T := ⟨S131072, .f32⟩) main_call40_v1) (fun x v => Host.reduceAdd x v reducesTo_S131072x3_S131072_d1 h_S_),
    TRef.unary (TRef.of (T := ⟨S131072, .f32⟩) main_call40_v1) (TRef.of (T := ⟨S131072x1, .f32⟩) main_call40_v2) (broadcastInDim S131072x1 ![0] bcast_S131072_S131072x1_0),
    TRef.unary (TRef.of (T := ⟨S131072x1, .f32⟩) main_call40_v2) (TRef.of (T := ⟨S131072x1, .f32⟩) main_v572) Host.sqrt,
    nary ![main_v566, main_v568, main_v572, main_v536] main_v573 (fun u => concatenate S131072x19 1 [⟨S131072x9, u 0⟩, ⟨S131072x3, u 1⟩, ⟨S131072x1, u 2⟩, ⟨S131072x6, u 3⟩] concatenates_S131072x9_S131072x3_S131072x1_S131072x6_S131072x19_d1),
    unary main_arg4 main_v574 ((extractStridedSlice S1x19x19 ![20, 0, 0] · slices_S24x19x19_S1x19x19_20_0_0) : (⟨S24x19x19, .f32⟩ : BufTy).Contents (Elt F) → (⟨S1x19x19, .f32⟩ : BufTy).Contents (Elt F)),
    reshape main_v574 main_v575 rfl shapeCasts_S1x19x19_S19x19,
    unary main_v575 main_v576 ((transpose S19x19 [1, 0] · transposes_S19x19_S19x19_1_0) : (⟨S19x19, .f32⟩ : BufTy).Contents (Elt F) → (⟨S19x19, .f32⟩ : BufTy).Contents (Elt F)),
    binary main_v573 main_v576 main_v577 ((fun l r => Host.dotGeneral dot_S131072x19_S19x19_S131072x19_1_0_0_1_n_n none l r) : (⟨S131072x19, .f32⟩ : BufTy).Contents (Elt F) → (⟨S19x19, .f32⟩ : BufTy).Contents (Elt F) → (⟨S131072x19, .f32⟩ : BufTy).Contents (Elt F)),
    unary main_arg5 main_v578 ((extractStridedSlice S1x19 ![20, 0] · slices_S24x19_S1x19_20_0) : (⟨S24x19, .f32⟩ : BufTy).Contents (Elt F) → (⟨S1x19, .f32⟩ : BufTy).Contents (Elt F)),
    reshape main_v578 main_v579 rfl shapeCasts_S1x19_S19,
    unary main_v579 main_v580 (broadcastInDim S1x19 ![1] bcast_S19_S1x19_1 : (⟨S19, .f32⟩ : BufTy).Contents (Elt F) → (⟨S1x19, .f32⟩ : BufTy).Contents (Elt F)),
    unary main_v580 main_v581 (broadcastInDim S131072x19 ![0, 1] bcast_S1x19_S131072x19_0_1 : (⟨S1x19, .f32⟩ : BufTy).Contents (Elt F) → (⟨S131072x19, .f32⟩ : BufTy).Contents (Elt F)),
    binary main_v577 main_v581 main_v582 (addf : (⟨S131072x19, .f32⟩ : BufTy).Contents (Elt F) → (⟨S131072x19, .f32⟩ : BufTy).Contents (Elt F) → (⟨S131072x19, .f32⟩ : BufTy).Contents (Elt F)),
    TRef.nullary (TRef.of (T := ⟨S_, .f32⟩) main_call41_cst) (constant S_ .f32 0x00000000#32),
    TRef.unary (TRef.of (T := ⟨S_, .f32⟩) main_call41_cst) (TRef.of (T := ⟨S131072x19, .f32⟩) main_call41_v0) (broadcastInDim S131072x19 ![] bcast_S_S131072x19),
    TRef.binary (TRef.of (T := ⟨S131072x19, .f32⟩) main_v582) (TRef.of (T := ⟨S131072x19, .f32⟩) main_call41_v0) (TRef.of (T := ⟨S131072x19, .f32⟩) main_v583) maximumf,
    unary main_arg6 main_v584 ((extractStridedSlice S1x6x19 ![20, 0, 0] · slices_S24x6x19_S1x6x19_20_0_0) : (⟨S24x6x19, .f32⟩ : BufTy).Contents (Elt F) → (⟨S1x6x19, .f32⟩ : BufTy).Contents (Elt F)),
    reshape main_v584 main_v585 rfl shapeCasts_S1x6x19_S6x19,
    unary main_v585 main_v586 ((transpose S19x6 [1, 0] · transposes_S6x19_S19x6_1_0) : (⟨S6x19, .f32⟩ : BufTy).Contents (Elt F) → (⟨S19x6, .f32⟩ : BufTy).Contents (Elt F)),
    binary main_v583 main_v586 main_v587 ((fun l r => Host.dotGeneral dot_S131072x19_S19x6_S131072x6_1_0_0_1_n_n none l r) : (⟨S131072x19, .f32⟩ : BufTy).Contents (Elt F) → (⟨S19x6, .f32⟩ : BufTy).Contents (Elt F) → (⟨S131072x6, .f32⟩ : BufTy).Contents (Elt F)),
    unary main_arg7 main_v588 ((extractStridedSlice S1x6 ![20, 0] · slices_S24x6_S1x6_20_0) : (⟨S24x6, .f32⟩ : BufTy).Contents (Elt F) → (⟨S1x6, .f32⟩ : BufTy).Contents (Elt F)),
    reshape main_v588 main_v589 rfl shapeCasts_S1x6_S6,
    unary main_v589 main_v590 (broadcastInDim S1x6 ![1] bcast_S6_S1x6_1 : (⟨S6, .f32⟩ : BufTy).Contents (Elt F) → (⟨S1x6, .f32⟩ : BufTy).Contents (Elt F)),
    unary main_v590 main_v591 (broadcastInDim S131072x6 ![0, 1] bcast_S1x6_S131072x6_0_1 : (⟨S1x6, .f32⟩ : BufTy).Contents (Elt F) → (⟨S131072x6, .f32⟩ : BufTy).Contents (Elt F)),
    binary main_v587 main_v591 main_v592 (addf : (⟨S131072x6, .f32⟩ : BufTy).Contents (Elt F) → (⟨S131072x6, .f32⟩ : BufTy).Contents (Elt F) → (⟨S131072x6, .f32⟩ : BufTy).Contents (Elt F)) ]

abbrev win20_W : List (Ref sig .tc) := [main_v565, main_v566, main_v567, main_v568, main_v569, main_v570, main_v571, main_call40_v0, main_call40_cst, main_call40_v1, main_call40_v2, main_v572, main_v573, main_v574, main_v575, main_v576, main_v577, main_v578, main_v579, main_v580, main_v581, main_v582, main_call41_cst, main_call41_v0, main_v583, main_v584, main_v585, main_v586, main_v587, main_v588, main_v589, main_v590, main_v591, main_v592]

theorem win20_ok : (win20 : List (HloOp τ sig (Elt F))).Forall fun op => op.bufs ⊆ tcRefs τ sig ∧ op.fresh = ∅ :=
  ⟨⟨unary_bufs_sub .., rfl⟩, ⟨reshape_bufs_sub .., rfl⟩, ⟨unary_bufs_sub .., rfl⟩, ⟨reshape_bufs_sub .., rfl⟩, ⟨unary_bufs_sub .., rfl⟩, ⟨reshape_bufs_sub .., rfl⟩, ⟨binary_bufs_sub .., rfl⟩, ⟨binary_bufs_sub .., rfl⟩, ⟨nullary_bufs_sub .., rfl⟩, ⟨binary_bufs_sub .., rfl⟩, ⟨unary_bufs_sub .., rfl⟩, ⟨unary_bufs_sub .., rfl⟩, ⟨nary_bufs_sub .., rfl⟩, ⟨unary_bufs_sub .., rfl⟩, ⟨reshape_bufs_sub .., rfl⟩, ⟨unary_bufs_sub .., rfl⟩, ⟨binary_bufs_sub .., rfl⟩, ⟨unary_bufs_sub .., rfl⟩, ⟨reshape_bufs_sub .., rfl⟩, ⟨unary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨unary_bufs_sub .., rfl⟩, ⟨reshape_bufs_sub .., rfl⟩, ⟨unary_bufs_sub .., rfl⟩, ⟨binary_bufs_sub .., rfl⟩, ⟨unary_bufs_sub .., rfl⟩, ⟨reshape_bufs_sub .., rfl⟩, ⟨unary_bufs_sub .., rfl⟩, ⟨unary_bufs_sub .., rfl⟩, ⟨binary_bufs_sub .., rfl⟩⟩

theorem win20_writes : (win20 : List (HloOp τ sig (Elt F))).Forall fun op =>
    op.writes ⊆ (win20_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

abbrev win21 : List (HloOp τ sig (Elt F)) :=
  [ unary main_arg0 main_v593 ((extractStridedSlice S131072x1x9 ![0, 21, 0] · slices_S131072x24x9_S131072x1x9_0_21_0) : (⟨S131072x24x9, .f32⟩ : BufTy).Contents (Elt F) → (⟨S131072x1x9, .f32⟩ : BufTy).Contents (Elt F)),
    reshape main_v593 main_v594 rfl shapeCasts_S131072x1x9_S131072x9,
    unary main_arg1 main_v595 ((extractStridedSlice S131072x1x3 ![0, 21, 0] · slices_S131072x24x3_S131072x1x3_0_21_0) : (⟨S131072x24x3, .f32⟩ : BufTy).Contents (Elt F) → (⟨S131072x1x3, .f32⟩ : BufTy).Contents (Elt F)),
    reshape main_v595 main_v596 rfl shapeCasts_S131072x1x3_S131072x3,
    unary main_arg1 main_v597 ((extractStridedSlice S131072x1x3 ![0, 19, 0] · slices_S131072x24x3_S131072x1x3_0_19_0) : (⟨S131072x24x3, .f32⟩ : BufTy).Contents (Elt F) → (⟨S131072x1x3, .f32⟩ : BufTy).Contents (Elt F)),
    reshape main_v597 main_v598 rfl shapeCasts_S131072x1x3_S131072x3,
    binary main_v596 main_v598 main_v599 (subf : (⟨S131072x3, .f32⟩ : BufTy).Contents (Elt F) → (⟨S131072x3, .f32⟩ : BufTy).Contents (Elt F) → (⟨S131072x3, .f32⟩ : BufTy).Contents (Elt F)),
    TRef.binary (TRef.of (T := ⟨S131072x3, .f32⟩) main_v599) (TRef.of (T := ⟨S131072x3, .f32⟩) main_v599) (TRef.of (T := ⟨S131072x3, .f32⟩) main_call42_v0) mulf,
    TRef.nullary (TRef.of (T := ⟨S_, .f32⟩) main_call42_cst) (constant S_ .f32 0x00000000#32),
    TRef.binary (TRef.of (T := ⟨S131072x3, .f32⟩) main_call42_v0) (TRef.of (T := ⟨S_, .f32⟩) main_call42_cst) (TRef.of (T := ⟨S131072, .f32⟩) main_call42_v1) (fun x v => Host.reduceAdd x v reducesTo_S131072x3_S131072_d1 h_S_),
    TRef.unary (TRef.of (T := ⟨S131072, .f32⟩) main_call42_v1) (TRef.of (T := ⟨S131072x1, .f32⟩) main_call42_v2) (broadcastInDim S131072x1 ![0] bcast_S131072_S131072x1_0),
    TRef.unary (TRef.of (T := ⟨S131072x1, .f32⟩) main_call42_v2) (TRef.of (T := ⟨S131072x1, .f32⟩) main_v600) Host.sqrt,
    nary ![main_v594, main_v596, main_v600, main_v564] main_v601 (fun u => concatenate S131072x19 1 [⟨S131072x9, u 0⟩, ⟨S131072x3, u 1⟩, ⟨S131072x1, u 2⟩, ⟨S131072x6, u 3⟩] concatenates_S131072x9_S131072x3_S131072x1_S131072x6_S131072x19_d1),
    unary main_arg4 main_v602 ((extractStridedSlice S1x19x19 ![21, 0, 0] · slices_S24x19x19_S1x19x19_21_0_0) : (⟨S24x19x19, .f32⟩ : BufTy).Contents (Elt F) → (⟨S1x19x19, .f32⟩ : BufTy).Contents (Elt F)),
    reshape main_v602 main_v603 rfl shapeCasts_S1x19x19_S19x19,
    unary main_v603 main_v604 ((transpose S19x19 [1, 0] · transposes_S19x19_S19x19_1_0) : (⟨S19x19, .f32⟩ : BufTy).Contents (Elt F) → (⟨S19x19, .f32⟩ : BufTy).Contents (Elt F)),
    binary main_v601 main_v604 main_v605 ((fun l r => Host.dotGeneral dot_S131072x19_S19x19_S131072x19_1_0_0_1_n_n none l r) : (⟨S131072x19, .f32⟩ : BufTy).Contents (Elt F) → (⟨S19x19, .f32⟩ : BufTy).Contents (Elt F) → (⟨S131072x19, .f32⟩ : BufTy).Contents (Elt F)),
    unary main_arg5 main_v606 ((extractStridedSlice S1x19 ![21, 0] · slices_S24x19_S1x19_21_0) : (⟨S24x19, .f32⟩ : BufTy).Contents (Elt F) → (⟨S1x19, .f32⟩ : BufTy).Contents (Elt F)),
    reshape main_v606 main_v607 rfl shapeCasts_S1x19_S19,
    unary main_v607 main_v608 (broadcastInDim S1x19 ![1] bcast_S19_S1x19_1 : (⟨S19, .f32⟩ : BufTy).Contents (Elt F) → (⟨S1x19, .f32⟩ : BufTy).Contents (Elt F)),
    unary main_v608 main_v609 (broadcastInDim S131072x19 ![0, 1] bcast_S1x19_S131072x19_0_1 : (⟨S1x19, .f32⟩ : BufTy).Contents (Elt F) → (⟨S131072x19, .f32⟩ : BufTy).Contents (Elt F)),
    binary main_v605 main_v609 main_v610 (addf : (⟨S131072x19, .f32⟩ : BufTy).Contents (Elt F) → (⟨S131072x19, .f32⟩ : BufTy).Contents (Elt F) → (⟨S131072x19, .f32⟩ : BufTy).Contents (Elt F)),
    TRef.nullary (TRef.of (T := ⟨S_, .f32⟩) main_call43_cst) (constant S_ .f32 0x00000000#32),
    TRef.unary (TRef.of (T := ⟨S_, .f32⟩) main_call43_cst) (TRef.of (T := ⟨S131072x19, .f32⟩) main_call43_v0) (broadcastInDim S131072x19 ![] bcast_S_S131072x19),
    TRef.binary (TRef.of (T := ⟨S131072x19, .f32⟩) main_v610) (TRef.of (T := ⟨S131072x19, .f32⟩) main_call43_v0) (TRef.of (T := ⟨S131072x19, .f32⟩) main_v611) maximumf,
    unary main_arg6 main_v612 ((extractStridedSlice S1x6x19 ![21, 0, 0] · slices_S24x6x19_S1x6x19_21_0_0) : (⟨S24x6x19, .f32⟩ : BufTy).Contents (Elt F) → (⟨S1x6x19, .f32⟩ : BufTy).Contents (Elt F)),
    reshape main_v612 main_v613 rfl shapeCasts_S1x6x19_S6x19,
    unary main_v613 main_v614 ((transpose S19x6 [1, 0] · transposes_S6x19_S19x6_1_0) : (⟨S6x19, .f32⟩ : BufTy).Contents (Elt F) → (⟨S19x6, .f32⟩ : BufTy).Contents (Elt F)),
    binary main_v611 main_v614 main_v615 ((fun l r => Host.dotGeneral dot_S131072x19_S19x6_S131072x6_1_0_0_1_n_n none l r) : (⟨S131072x19, .f32⟩ : BufTy).Contents (Elt F) → (⟨S19x6, .f32⟩ : BufTy).Contents (Elt F) → (⟨S131072x6, .f32⟩ : BufTy).Contents (Elt F)),
    unary main_arg7 main_v616 ((extractStridedSlice S1x6 ![21, 0] · slices_S24x6_S1x6_21_0) : (⟨S24x6, .f32⟩ : BufTy).Contents (Elt F) → (⟨S1x6, .f32⟩ : BufTy).Contents (Elt F)),
    reshape main_v616 main_v617 rfl shapeCasts_S1x6_S6,
    unary main_v617 main_v618 (broadcastInDim S1x6 ![1] bcast_S6_S1x6_1 : (⟨S6, .f32⟩ : BufTy).Contents (Elt F) → (⟨S1x6, .f32⟩ : BufTy).Contents (Elt F)),
    unary main_v618 main_v619 (broadcastInDim S131072x6 ![0, 1] bcast_S1x6_S131072x6_0_1 : (⟨S1x6, .f32⟩ : BufTy).Contents (Elt F) → (⟨S131072x6, .f32⟩ : BufTy).Contents (Elt F)),
    binary main_v615 main_v619 main_v620 (addf : (⟨S131072x6, .f32⟩ : BufTy).Contents (Elt F) → (⟨S131072x6, .f32⟩ : BufTy).Contents (Elt F) → (⟨S131072x6, .f32⟩ : BufTy).Contents (Elt F)) ]

abbrev win21_W : List (Ref sig .tc) := [main_v593, main_v594, main_v595, main_v596, main_v597, main_v598, main_v599, main_call42_v0, main_call42_cst, main_call42_v1, main_call42_v2, main_v600, main_v601, main_v602, main_v603, main_v604, main_v605, main_v606, main_v607, main_v608, main_v609, main_v610, main_call43_cst, main_call43_v0, main_v611, main_v612, main_v613, main_v614, main_v615, main_v616, main_v617, main_v618, main_v619, main_v620]

theorem win21_ok : (win21 : List (HloOp τ sig (Elt F))).Forall fun op => op.bufs ⊆ tcRefs τ sig ∧ op.fresh = ∅ :=
  ⟨⟨unary_bufs_sub .., rfl⟩, ⟨reshape_bufs_sub .., rfl⟩, ⟨unary_bufs_sub .., rfl⟩, ⟨reshape_bufs_sub .., rfl⟩, ⟨unary_bufs_sub .., rfl⟩, ⟨reshape_bufs_sub .., rfl⟩, ⟨binary_bufs_sub .., rfl⟩, ⟨binary_bufs_sub .., rfl⟩, ⟨nullary_bufs_sub .., rfl⟩, ⟨binary_bufs_sub .., rfl⟩, ⟨unary_bufs_sub .., rfl⟩, ⟨unary_bufs_sub .., rfl⟩, ⟨nary_bufs_sub .., rfl⟩, ⟨unary_bufs_sub .., rfl⟩, ⟨reshape_bufs_sub .., rfl⟩, ⟨unary_bufs_sub .., rfl⟩, ⟨binary_bufs_sub .., rfl⟩, ⟨unary_bufs_sub .., rfl⟩, ⟨reshape_bufs_sub .., rfl⟩, ⟨unary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨unary_bufs_sub .., rfl⟩, ⟨reshape_bufs_sub .., rfl⟩, ⟨unary_bufs_sub .., rfl⟩, ⟨binary_bufs_sub .., rfl⟩, ⟨unary_bufs_sub .., rfl⟩, ⟨reshape_bufs_sub .., rfl⟩, ⟨unary_bufs_sub .., rfl⟩, ⟨unary_bufs_sub .., rfl⟩, ⟨binary_bufs_sub .., rfl⟩⟩

theorem win21_writes : (win21 : List (HloOp τ sig (Elt F))).Forall fun op =>
    op.writes ⊆ (win21_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

abbrev win22 : List (HloOp τ sig (Elt F)) :=
  [ unary main_arg0 main_v621 ((extractStridedSlice S131072x1x9 ![0, 22, 0] · slices_S131072x24x9_S131072x1x9_0_22_0) : (⟨S131072x24x9, .f32⟩ : BufTy).Contents (Elt F) → (⟨S131072x1x9, .f32⟩ : BufTy).Contents (Elt F)),
    reshape main_v621 main_v622 rfl shapeCasts_S131072x1x9_S131072x9,
    unary main_arg1 main_v623 ((extractStridedSlice S131072x1x3 ![0, 22, 0] · slices_S131072x24x3_S131072x1x3_0_22_0) : (⟨S131072x24x3, .f32⟩ : BufTy).Contents (Elt F) → (⟨S131072x1x3, .f32⟩ : BufTy).Contents (Elt F)),
    reshape main_v623 main_v624 rfl shapeCasts_S131072x1x3_S131072x3,
    unary main_arg1 main_v625 ((extractStridedSlice S131072x1x3 ![0, 20, 0] · slices_S131072x24x3_S131072x1x3_0_20_0) : (⟨S131072x24x3, .f32⟩ : BufTy).Contents (Elt F) → (⟨S131072x1x3, .f32⟩ : BufTy).Contents (Elt F)),
    reshape main_v625 main_v626 rfl shapeCasts_S131072x1x3_S131072x3,
    binary main_v624 main_v626 main_v627 (subf : (⟨S131072x3, .f32⟩ : BufTy).Contents (Elt F) → (⟨S131072x3, .f32⟩ : BufTy).Contents (Elt F) → (⟨S131072x3, .f32⟩ : BufTy).Contents (Elt F)),
    TRef.binary (TRef.of (T := ⟨S131072x3, .f32⟩) main_v627) (TRef.of (T := ⟨S131072x3, .f32⟩) main_v627) (TRef.of (T := ⟨S131072x3, .f32⟩) main_call44_v0) mulf,
    TRef.nullary (TRef.of (T := ⟨S_, .f32⟩) main_call44_cst) (constant S_ .f32 0x00000000#32),
    TRef.binary (TRef.of (T := ⟨S131072x3, .f32⟩) main_call44_v0) (TRef.of (T := ⟨S_, .f32⟩) main_call44_cst) (TRef.of (T := ⟨S131072, .f32⟩) main_call44_v1) (fun x v => Host.reduceAdd x v reducesTo_S131072x3_S131072_d1 h_S_),
    TRef.unary (TRef.of (T := ⟨S131072, .f32⟩) main_call44_v1) (TRef.of (T := ⟨S131072x1, .f32⟩) main_call44_v2) (broadcastInDim S131072x1 ![0] bcast_S131072_S131072x1_0),
    TRef.unary (TRef.of (T := ⟨S131072x1, .f32⟩) main_call44_v2) (TRef.of (T := ⟨S131072x1, .f32⟩) main_v628) Host.sqrt,
    nary ![main_v622, main_v624, main_v628, main_v592] main_v629 (fun u => concatenate S131072x19 1 [⟨S131072x9, u 0⟩, ⟨S131072x3, u 1⟩, ⟨S131072x1, u 2⟩, ⟨S131072x6, u 3⟩] concatenates_S131072x9_S131072x3_S131072x1_S131072x6_S131072x19_d1),
    unary main_arg4 main_v630 ((extractStridedSlice S1x19x19 ![22, 0, 0] · slices_S24x19x19_S1x19x19_22_0_0) : (⟨S24x19x19, .f32⟩ : BufTy).Contents (Elt F) → (⟨S1x19x19, .f32⟩ : BufTy).Contents (Elt F)),
    reshape main_v630 main_v631 rfl shapeCasts_S1x19x19_S19x19,
    unary main_v631 main_v632 ((transpose S19x19 [1, 0] · transposes_S19x19_S19x19_1_0) : (⟨S19x19, .f32⟩ : BufTy).Contents (Elt F) → (⟨S19x19, .f32⟩ : BufTy).Contents (Elt F)),
    binary main_v629 main_v632 main_v633 ((fun l r => Host.dotGeneral dot_S131072x19_S19x19_S131072x19_1_0_0_1_n_n none l r) : (⟨S131072x19, .f32⟩ : BufTy).Contents (Elt F) → (⟨S19x19, .f32⟩ : BufTy).Contents (Elt F) → (⟨S131072x19, .f32⟩ : BufTy).Contents (Elt F)),
    unary main_arg5 main_v634 ((extractStridedSlice S1x19 ![22, 0] · slices_S24x19_S1x19_22_0) : (⟨S24x19, .f32⟩ : BufTy).Contents (Elt F) → (⟨S1x19, .f32⟩ : BufTy).Contents (Elt F)),
    reshape main_v634 main_v635 rfl shapeCasts_S1x19_S19,
    unary main_v635 main_v636 (broadcastInDim S1x19 ![1] bcast_S19_S1x19_1 : (⟨S19, .f32⟩ : BufTy).Contents (Elt F) → (⟨S1x19, .f32⟩ : BufTy).Contents (Elt F)),
    unary main_v636 main_v637 (broadcastInDim S131072x19 ![0, 1] bcast_S1x19_S131072x19_0_1 : (⟨S1x19, .f32⟩ : BufTy).Contents (Elt F) → (⟨S131072x19, .f32⟩ : BufTy).Contents (Elt F)),
    binary main_v633 main_v637 main_v638 (addf : (⟨S131072x19, .f32⟩ : BufTy).Contents (Elt F) → (⟨S131072x19, .f32⟩ : BufTy).Contents (Elt F) → (⟨S131072x19, .f32⟩ : BufTy).Contents (Elt F)),
    TRef.nullary (TRef.of (T := ⟨S_, .f32⟩) main_call45_cst) (constant S_ .f32 0x00000000#32),
    TRef.unary (TRef.of (T := ⟨S_, .f32⟩) main_call45_cst) (TRef.of (T := ⟨S131072x19, .f32⟩) main_call45_v0) (broadcastInDim S131072x19 ![] bcast_S_S131072x19),
    TRef.binary (TRef.of (T := ⟨S131072x19, .f32⟩) main_v638) (TRef.of (T := ⟨S131072x19, .f32⟩) main_call45_v0) (TRef.of (T := ⟨S131072x19, .f32⟩) main_v639) maximumf,
    unary main_arg6 main_v640 ((extractStridedSlice S1x6x19 ![22, 0, 0] · slices_S24x6x19_S1x6x19_22_0_0) : (⟨S24x6x19, .f32⟩ : BufTy).Contents (Elt F) → (⟨S1x6x19, .f32⟩ : BufTy).Contents (Elt F)),
    reshape main_v640 main_v641 rfl shapeCasts_S1x6x19_S6x19,
    unary main_v641 main_v642 ((transpose S19x6 [1, 0] · transposes_S6x19_S19x6_1_0) : (⟨S6x19, .f32⟩ : BufTy).Contents (Elt F) → (⟨S19x6, .f32⟩ : BufTy).Contents (Elt F)),
    binary main_v639 main_v642 main_v643 ((fun l r => Host.dotGeneral dot_S131072x19_S19x6_S131072x6_1_0_0_1_n_n none l r) : (⟨S131072x19, .f32⟩ : BufTy).Contents (Elt F) → (⟨S19x6, .f32⟩ : BufTy).Contents (Elt F) → (⟨S131072x6, .f32⟩ : BufTy).Contents (Elt F)),
    unary main_arg7 main_v644 ((extractStridedSlice S1x6 ![22, 0] · slices_S24x6_S1x6_22_0) : (⟨S24x6, .f32⟩ : BufTy).Contents (Elt F) → (⟨S1x6, .f32⟩ : BufTy).Contents (Elt F)),
    reshape main_v644 main_v645 rfl shapeCasts_S1x6_S6,
    unary main_v645 main_v646 (broadcastInDim S1x6 ![1] bcast_S6_S1x6_1 : (⟨S6, .f32⟩ : BufTy).Contents (Elt F) → (⟨S1x6, .f32⟩ : BufTy).Contents (Elt F)),
    unary main_v646 main_v647 (broadcastInDim S131072x6 ![0, 1] bcast_S1x6_S131072x6_0_1 : (⟨S1x6, .f32⟩ : BufTy).Contents (Elt F) → (⟨S131072x6, .f32⟩ : BufTy).Contents (Elt F)),
    binary main_v643 main_v647 main_v648 (addf : (⟨S131072x6, .f32⟩ : BufTy).Contents (Elt F) → (⟨S131072x6, .f32⟩ : BufTy).Contents (Elt F) → (⟨S131072x6, .f32⟩ : BufTy).Contents (Elt F)) ]

abbrev win22_W : List (Ref sig .tc) := [main_v621, main_v622, main_v623, main_v624, main_v625, main_v626, main_v627, main_call44_v0, main_call44_cst, main_call44_v1, main_call44_v2, main_v628, main_v629, main_v630, main_v631, main_v632, main_v633, main_v634, main_v635, main_v636, main_v637, main_v638, main_call45_cst, main_call45_v0, main_v639, main_v640, main_v641, main_v642, main_v643, main_v644, main_v645, main_v646, main_v647, main_v648]

theorem win22_ok : (win22 : List (HloOp τ sig (Elt F))).Forall fun op => op.bufs ⊆ tcRefs τ sig ∧ op.fresh = ∅ :=
  ⟨⟨unary_bufs_sub .., rfl⟩, ⟨reshape_bufs_sub .., rfl⟩, ⟨unary_bufs_sub .., rfl⟩, ⟨reshape_bufs_sub .., rfl⟩, ⟨unary_bufs_sub .., rfl⟩, ⟨reshape_bufs_sub .., rfl⟩, ⟨binary_bufs_sub .., rfl⟩, ⟨binary_bufs_sub .., rfl⟩, ⟨nullary_bufs_sub .., rfl⟩, ⟨binary_bufs_sub .., rfl⟩, ⟨unary_bufs_sub .., rfl⟩, ⟨unary_bufs_sub .., rfl⟩, ⟨nary_bufs_sub .., rfl⟩, ⟨unary_bufs_sub .., rfl⟩, ⟨reshape_bufs_sub .., rfl⟩, ⟨unary_bufs_sub .., rfl⟩, ⟨binary_bufs_sub .., rfl⟩, ⟨unary_bufs_sub .., rfl⟩, ⟨reshape_bufs_sub .., rfl⟩, ⟨unary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨unary_bufs_sub .., rfl⟩, ⟨reshape_bufs_sub .., rfl⟩, ⟨unary_bufs_sub .., rfl⟩, ⟨binary_bufs_sub .., rfl⟩, ⟨unary_bufs_sub .., rfl⟩, ⟨reshape_bufs_sub .., rfl⟩, ⟨unary_bufs_sub .., rfl⟩, ⟨unary_bufs_sub .., rfl⟩, ⟨binary_bufs_sub .., rfl⟩⟩

theorem win22_writes : (win22 : List (HloOp τ sig (Elt F))).Forall fun op =>
    op.writes ⊆ (win22_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

abbrev win23 : List (HloOp τ sig (Elt F)) :=
  [ unary main_arg0 main_v649 ((extractStridedSlice S131072x1x9 ![0, 23, 0] · slices_S131072x24x9_S131072x1x9_0_23_0) : (⟨S131072x24x9, .f32⟩ : BufTy).Contents (Elt F) → (⟨S131072x1x9, .f32⟩ : BufTy).Contents (Elt F)),
    reshape main_v649 main_v650 rfl shapeCasts_S131072x1x9_S131072x9,
    unary main_arg1 main_v651 ((extractStridedSlice S131072x1x3 ![0, 23, 0] · slices_S131072x24x3_S131072x1x3_0_23_0) : (⟨S131072x24x3, .f32⟩ : BufTy).Contents (Elt F) → (⟨S131072x1x3, .f32⟩ : BufTy).Contents (Elt F)),
    reshape main_v651 main_v652 rfl shapeCasts_S131072x1x3_S131072x3,
    unary main_arg1 main_v653 ((extractStridedSlice S131072x1x3 ![0, 21, 0] · slices_S131072x24x3_S131072x1x3_0_21_0) : (⟨S131072x24x3, .f32⟩ : BufTy).Contents (Elt F) → (⟨S131072x1x3, .f32⟩ : BufTy).Contents (Elt F)),
    reshape main_v653 main_v654 rfl shapeCasts_S131072x1x3_S131072x3,
    binary main_v652 main_v654 main_v655 (subf : (⟨S131072x3, .f32⟩ : BufTy).Contents (Elt F) → (⟨S131072x3, .f32⟩ : BufTy).Contents (Elt F) → (⟨S131072x3, .f32⟩ : BufTy).Contents (Elt F)),
    TRef.binary (TRef.of (T := ⟨S131072x3, .f32⟩) main_v655) (TRef.of (T := ⟨S131072x3, .f32⟩) main_v655) (TRef.of (T := ⟨S131072x3, .f32⟩) main_call46_v0) mulf,
    TRef.nullary (TRef.of (T := ⟨S_, .f32⟩) main_call46_cst) (constant S_ .f32 0x00000000#32),
    TRef.binary (TRef.of (T := ⟨S131072x3, .f32⟩) main_call46_v0) (TRef.of (T := ⟨S_, .f32⟩) main_call46_cst) (TRef.of (T := ⟨S131072, .f32⟩) main_call46_v1) (fun x v => Host.reduceAdd x v reducesTo_S131072x3_S131072_d1 h_S_),
    TRef.unary (TRef.of (T := ⟨S131072, .f32⟩) main_call46_v1) (TRef.of (T := ⟨S131072x1, .f32⟩) main_call46_v2) (broadcastInDim S131072x1 ![0] bcast_S131072_S131072x1_0),
    TRef.unary (TRef.of (T := ⟨S131072x1, .f32⟩) main_call46_v2) (TRef.of (T := ⟨S131072x1, .f32⟩) main_v656) Host.sqrt,
    nary ![main_v650, main_v652, main_v656, main_v620] main_v657 (fun u => concatenate S131072x19 1 [⟨S131072x9, u 0⟩, ⟨S131072x3, u 1⟩, ⟨S131072x1, u 2⟩, ⟨S131072x6, u 3⟩] concatenates_S131072x9_S131072x3_S131072x1_S131072x6_S131072x19_d1),
    unary main_arg4 main_v658 ((extractStridedSlice S1x19x19 ![23, 0, 0] · slices_S24x19x19_S1x19x19_23_0_0) : (⟨S24x19x19, .f32⟩ : BufTy).Contents (Elt F) → (⟨S1x19x19, .f32⟩ : BufTy).Contents (Elt F)),
    reshape main_v658 main_v659 rfl shapeCasts_S1x19x19_S19x19,
    unary main_v659 main_v660 ((transpose S19x19 [1, 0] · transposes_S19x19_S19x19_1_0) : (⟨S19x19, .f32⟩ : BufTy).Contents (Elt F) → (⟨S19x19, .f32⟩ : BufTy).Contents (Elt F)),
    binary main_v657 main_v660 main_v661 ((fun l r => Host.dotGeneral dot_S131072x19_S19x19_S131072x19_1_0_0_1_n_n none l r) : (⟨S131072x19, .f32⟩ : BufTy).Contents (Elt F) → (⟨S19x19, .f32⟩ : BufTy).Contents (Elt F) → (⟨S131072x19, .f32⟩ : BufTy).Contents (Elt F)),
    unary main_arg5 main_v662 ((extractStridedSlice S1x19 ![23, 0] · slices_S24x19_S1x19_23_0) : (⟨S24x19, .f32⟩ : BufTy).Contents (Elt F) → (⟨S1x19, .f32⟩ : BufTy).Contents (Elt F)),
    reshape main_v662 main_v663 rfl shapeCasts_S1x19_S19,
    unary main_v663 main_v664 (broadcastInDim S1x19 ![1] bcast_S19_S1x19_1 : (⟨S19, .f32⟩ : BufTy).Contents (Elt F) → (⟨S1x19, .f32⟩ : BufTy).Contents (Elt F)),
    unary main_v664 main_v665 (broadcastInDim S131072x19 ![0, 1] bcast_S1x19_S131072x19_0_1 : (⟨S1x19, .f32⟩ : BufTy).Contents (Elt F) → (⟨S131072x19, .f32⟩ : BufTy).Contents (Elt F)),
    binary main_v661 main_v665 main_v666 (addf : (⟨S131072x19, .f32⟩ : BufTy).Contents (Elt F) → (⟨S131072x19, .f32⟩ : BufTy).Contents (Elt F) → (⟨S131072x19, .f32⟩ : BufTy).Contents (Elt F)),
    TRef.nullary (TRef.of (T := ⟨S_, .f32⟩) main_call47_cst) (constant S_ .f32 0x00000000#32),
    TRef.unary (TRef.of (T := ⟨S_, .f32⟩) main_call47_cst) (TRef.of (T := ⟨S131072x19, .f32⟩) main_call47_v0) (broadcastInDim S131072x19 ![] bcast_S_S131072x19),
    TRef.binary (TRef.of (T := ⟨S131072x19, .f32⟩) main_v666) (TRef.of (T := ⟨S131072x19, .f32⟩) main_call47_v0) (TRef.of (T := ⟨S131072x19, .f32⟩) main_v667) maximumf,
    unary main_arg6 main_v668 ((extractStridedSlice S1x6x19 ![23, 0, 0] · slices_S24x6x19_S1x6x19_23_0_0) : (⟨S24x6x19, .f32⟩ : BufTy).Contents (Elt F) → (⟨S1x6x19, .f32⟩ : BufTy).Contents (Elt F)),
    reshape main_v668 main_v669 rfl shapeCasts_S1x6x19_S6x19,
    unary main_v669 main_v670 ((transpose S19x6 [1, 0] · transposes_S6x19_S19x6_1_0) : (⟨S6x19, .f32⟩ : BufTy).Contents (Elt F) → (⟨S19x6, .f32⟩ : BufTy).Contents (Elt F)),
    binary main_v667 main_v670 main_v671 ((fun l r => Host.dotGeneral dot_S131072x19_S19x6_S131072x6_1_0_0_1_n_n none l r) : (⟨S131072x19, .f32⟩ : BufTy).Contents (Elt F) → (⟨S19x6, .f32⟩ : BufTy).Contents (Elt F) → (⟨S131072x6, .f32⟩ : BufTy).Contents (Elt F)),
    unary main_arg7 main_v672 ((extractStridedSlice S1x6 ![23, 0] · slices_S24x6_S1x6_23_0) : (⟨S24x6, .f32⟩ : BufTy).Contents (Elt F) → (⟨S1x6, .f32⟩ : BufTy).Contents (Elt F)),
    reshape main_v672 main_v673 rfl shapeCasts_S1x6_S6,
    unary main_v673 main_v674 (broadcastInDim S1x6 ![1] bcast_S6_S1x6_1 : (⟨S6, .f32⟩ : BufTy).Contents (Elt F) → (⟨S1x6, .f32⟩ : BufTy).Contents (Elt F)),
    unary main_v674 main_v675 (broadcastInDim S131072x6 ![0, 1] bcast_S1x6_S131072x6_0_1 : (⟨S1x6, .f32⟩ : BufTy).Contents (Elt F) → (⟨S131072x6, .f32⟩ : BufTy).Contents (Elt F)),
    binary main_v671 main_v675 main_v676 (addf : (⟨S131072x6, .f32⟩ : BufTy).Contents (Elt F) → (⟨S131072x6, .f32⟩ : BufTy).Contents (Elt F) → (⟨S131072x6, .f32⟩ : BufTy).Contents (Elt F)) ]

abbrev win23_W : List (Ref sig .tc) := [main_v649, main_v650, main_v651, main_v652, main_v653, main_v654, main_v655, main_call46_v0, main_call46_cst, main_call46_v1, main_call46_v2, main_v656, main_v657, main_v658, main_v659, main_v660, main_v661, main_v662, main_v663, main_v664, main_v665, main_v666, main_call47_cst, main_call47_v0, main_v667, main_v668, main_v669, main_v670, main_v671, main_v672, main_v673, main_v674, main_v675, main_v676]

theorem win23_ok : (win23 : List (HloOp τ sig (Elt F))).Forall fun op => op.bufs ⊆ tcRefs τ sig ∧ op.fresh = ∅ :=
  ⟨⟨unary_bufs_sub .., rfl⟩, ⟨reshape_bufs_sub .., rfl⟩, ⟨unary_bufs_sub .., rfl⟩, ⟨reshape_bufs_sub .., rfl⟩, ⟨unary_bufs_sub .., rfl⟩, ⟨reshape_bufs_sub .., rfl⟩, ⟨binary_bufs_sub .., rfl⟩, ⟨binary_bufs_sub .., rfl⟩, ⟨nullary_bufs_sub .., rfl⟩, ⟨binary_bufs_sub .., rfl⟩, ⟨unary_bufs_sub .., rfl⟩, ⟨unary_bufs_sub .., rfl⟩, ⟨nary_bufs_sub .., rfl⟩, ⟨unary_bufs_sub .., rfl⟩, ⟨reshape_bufs_sub .., rfl⟩, ⟨unary_bufs_sub .., rfl⟩, ⟨binary_bufs_sub .., rfl⟩, ⟨unary_bufs_sub .., rfl⟩, ⟨reshape_bufs_sub .., rfl⟩, ⟨unary_bufs_sub .., rfl⟩, ⟨unary_bufs_sub .., rfl⟩, ⟨binary_bufs_sub .., rfl⟩, ⟨nullary_bufs_sub .., rfl⟩, ⟨unary_bufs_sub .., rfl⟩, ⟨binary_bufs_sub .., rfl⟩, ⟨unary_bufs_sub .., rfl⟩, ⟨reshape_bufs_sub .., rfl⟩, ⟨unary_bufs_sub .., rfl⟩, ⟨binary_bufs_sub .., rfl⟩, ⟨unary_bufs_sub .., rfl⟩, ⟨reshape_bufs_sub .., rfl⟩, ⟨unary_bufs_sub .., rfl⟩, ⟨unary_bufs_sub .., rfl⟩, ⟨binary_bufs_sub .., rfl⟩⟩

theorem win23_writes : (win23 : List (HloOp τ sig (Elt F))).Forall fun op =>
    op.writes ⊆ (win23_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

abbrev winF : List (HloOp τ sig (Elt F)) :=
  [ nary ![main_v32, main_v60, main_v88, main_v116, main_v144, main_v172, main_v200, main_v228, main_v256, main_v284, main_v312, main_v340, main_v368, main_v396, main_v424, main_v452] main_v677 (fun u => concatenate S131072x96 1 [⟨S131072x6, u 0⟩, ⟨S131072x6, u 1⟩, ⟨S131072x6, u 2⟩, ⟨S131072x6, u 3⟩, ⟨S131072x6, u 4⟩, ⟨S131072x6, u 5⟩, ⟨S131072x6, u 6⟩, ⟨S131072x6, u 7⟩, ⟨S131072x6, u 8⟩, ⟨S131072x6, u 9⟩, ⟨S131072x6, u 10⟩, ⟨S131072x6, u 11⟩, ⟨S131072x6, u 12⟩, ⟨S131072x6, u 13⟩, ⟨S131072x6, u 14⟩, ⟨S131072x6, u 15⟩] concatenates_S131072x6_S131072x6_S131072x6_S131072x6_S131072x6_S131072x6_S131072x6_S131072x6_S131072x6_S131072x6_S131072x6_S131072x6_S131072x6_S131072x6_S131072x6_S131072x6_S131072x96_d1),
    nary ![main_v480, main_v508, main_v536, main_v564, main_v592, main_v620, main_v648, main_v676] main_v678 (fun u => concatenate S131072x48 1 [⟨S131072x6, u 0⟩, ⟨S131072x6, u 1⟩, ⟨S131072x6, u 2⟩, ⟨S131072x6, u 3⟩, ⟨S131072x6, u 4⟩, ⟨S131072x6, u 5⟩, ⟨S131072x6, u 6⟩, ⟨S131072x6, u 7⟩] concatenates_S131072x6_S131072x6_S131072x6_S131072x6_S131072x6_S131072x6_S131072x6_S131072x6_S131072x48_d1),
    binary main_v677 main_v678 main_v679 ((fun a b => concatenate S131072x144 1 [⟨S131072x96, a⟩, ⟨S131072x48, b⟩] concatenates_S131072x96_S131072x48_S131072x144_d1) : (⟨S131072x96, .f32⟩ : BufTy).Contents (Elt F) → (⟨S131072x48, .f32⟩ : BufTy).Contents (Elt F) → (⟨S131072x144, .f32⟩ : BufTy).Contents (Elt F)) ]

abbrev winF_W : List (Ref sig .tc) := [main_v677, main_v678, main_v679]

theorem winF_ok : (winF : List (HloOp τ sig (Elt F))).Forall fun op => op.bufs ⊆ tcRefs τ sig ∧ op.fresh = ∅ :=
  ⟨⟨nary_bufs_sub .., rfl⟩, ⟨nary_bufs_sub .., rfl⟩, ⟨binary_bufs_sub .., rfl⟩⟩

theorem winF_writes : (winF : List (HloOp τ sig (Elt F))).Forall fun op =>
    op.writes ⊆ (winF_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The windows, in program order. -/
abbrev wins : List (List (HloOp τ sig (Elt F))) :=
  [winG, win0, win1, win2, win3, win4, win5, win6, win7, win8, win9, win10, win11, win12, win13, win14, win15, win16, win17, win18, win19, win20, win21, win22, win23, winF]

/-- The program's 824 operations, in order. -/
abbrev ops : List (HloOp τ sig (Elt F)) := (wins (F := F)).flatten

theorem wins_ok : ∀ l ∈ (wins (F := F)), l.Forall fun op => op.bufs ⊆ tcRefs τ sig ∧ op.fresh = ∅ := by
  intro l hl
  simp only [wins, List.mem_cons, List.not_mem_nil, or_false] at hl
  rcases hl with rfl | rfl | rfl | rfl | rfl | rfl | rfl | rfl | rfl | rfl | rfl | rfl | rfl | rfl | rfl | rfl | rfl | rfl | rfl | rfl | rfl | rfl | rfl | rfl | rfl | rfl
  · exact winG_ok
  · exact win0_ok
  · exact win1_ok
  · exact win2_ok
  · exact win3_ok
  · exact win4_ok
  · exact win5_ok
  · exact win6_ok
  · exact win7_ok
  · exact win8_ok
  · exact win9_ok
  · exact win10_ok
  · exact win11_ok
  · exact win12_ok
  · exact win13_ok
  · exact win14_ok
  · exact win15_ok
  · exact win16_ok
  · exact win17_ok
  · exact win18_ok
  · exact win19_ok
  · exact win20_ok
  · exact win21_ok
  · exact win22_ok
  · exact win23_ok
  · exact winF_ok

theorem ops_ok : (ops : List (HloOp τ sig (Elt F))).Forall fun op => op.bufs ⊆ tcRefs τ sig ∧ op.fresh = ∅ := forall_flatten _ wins_ok

theorem ops_sub : (ops : List (HloOp τ sig (Elt F))).Forall fun op => op.bufs ⊆ tcRefs τ sig :=
  List.forall_iff_forall_mem.2 fun op h => (List.forall_iff_forall_mem.1 ops_ok op h).1

theorem ops_fresh : ∀ op ∈ (ops : List (HloOp τ sig (Elt F))), op.fresh = ∅ :=
  fun op h => (List.forall_iff_forall_mem.1 ops_ok op h).2

set_option maxRecDepth 200000 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

/-- Every weakly fair execution of the program terminates with every buffer at the fold of the operations over the launch
    contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

/-! ## What each window leaves in its joint's output buffer -/

set_option maxHeartbeats 2000000 in
theorem winG_val (V : Valuation τ sig (Elt Ideal)) :
    after (winG (F := Ideal)) V (Proc.devRef .tc main_v7)
      = globArr (V (Proc.devRef .tc main_arg0)) (V (Proc.devRef .tc main_arg1)) (V (Proc.devRef .tc main_arg2)) (V (Proc.devRef .tc main_arg3)) := by
  simp only [winG]
  after_results_simp
  rfl

set_option maxHeartbeats 2000000 in
theorem win0_val (V : Valuation τ sig (Elt Ideal)) :
    after (win0 (F := Ideal)) V (Proc.devRef .tc main_v32)
      = jointAt 0 (by decide) (posAt 0 (by decide) (V (Proc.devRef .tc main_arg1)))
        (V (Proc.devRef .tc main_arg0)) (V (Proc.devRef .tc main_arg1)) (V (Proc.devRef .tc main_arg4)) (V (Proc.devRef .tc main_arg5))
        (V (Proc.devRef .tc main_arg6)) (V (Proc.devRef .tc main_arg7)) (V (Proc.devRef .tc main_v7)) := by
  simp only [win0]
  after_results_simp
  rfl

set_option maxHeartbeats 2000000 in
theorem win1_val (V : Valuation τ sig (Elt Ideal)) :
    after (win1 (F := Ideal)) V (Proc.devRef .tc main_v60)
      = jointAt 1 (by decide) (subf (posAt 1 (by decide) (V (Proc.devRef .tc main_arg1))) (posAt 0 (by decide) (V (Proc.devRef .tc main_arg1))))
        (V (Proc.devRef .tc main_arg0)) (V (Proc.devRef .tc main_arg1)) (V (Proc.devRef .tc main_arg4)) (V (Proc.devRef .tc main_arg5))
        (V (Proc.devRef .tc main_arg6)) (V (Proc.devRef .tc main_arg7)) (V (Proc.devRef .tc main_v32)) := by
  simp only [win1]
  after_results_simp
  rfl

set_option maxHeartbeats 2000000 in
theorem win2_val (V : Valuation τ sig (Elt Ideal)) :
    after (win2 (F := Ideal)) V (Proc.devRef .tc main_v88)
      = jointAt 2 (by decide) (subf (posAt 2 (by decide) (V (Proc.devRef .tc main_arg1))) (posAt 0 (by decide) (V (Proc.devRef .tc main_arg1))))
        (V (Proc.devRef .tc main_arg0)) (V (Proc.devRef .tc main_arg1)) (V (Proc.devRef .tc main_arg4)) (V (Proc.devRef .tc main_arg5))
        (V (Proc.devRef .tc main_arg6)) (V (Proc.devRef .tc main_arg7)) (V (Proc.devRef .tc main_v32)) := by
  simp only [win2]
  after_results_simp
  rfl

set_option maxHeartbeats 2000000 in
theorem win3_val (V : Valuation τ sig (Elt Ideal)) :
    after (win3 (F := Ideal)) V (Proc.devRef .tc main_v116)
      = jointAt 3 (by decide) (subf (posAt 3 (by decide) (V (Proc.devRef .tc main_arg1))) (posAt 0 (by decide) (V (Proc.devRef .tc main_arg1))))
        (V (Proc.devRef .tc main_arg0)) (V (Proc.devRef .tc main_arg1)) (V (Proc.devRef .tc main_arg4)) (V (Proc.devRef .tc main_arg5))
        (V (Proc.devRef .tc main_arg6)) (V (Proc.devRef .tc main_arg7)) (V (Proc.devRef .tc main_v32)) := by
  simp only [win3]
  after_results_simp
  rfl

set_option maxHeartbeats 2000000 in
theorem win4_val (V : Valuation τ sig (Elt Ideal)) :
    after (win4 (F := Ideal)) V (Proc.devRef .tc main_v144)
      = jointAt 4 (by decide) (subf (posAt 4 (by decide) (V (Proc.devRef .tc main_arg1))) (posAt 1 (by decide) (V (Proc.devRef .tc main_arg1))))
        (V (Proc.devRef .tc main_arg0)) (V (Proc.devRef .tc main_arg1)) (V (Proc.devRef .tc main_arg4)) (V (Proc.devRef .tc main_arg5))
        (V (Proc.devRef .tc main_arg6)) (V (Proc.devRef .tc main_arg7)) (V (Proc.devRef .tc main_v60)) := by
  simp only [win4]
  after_results_simp
  rfl

set_option maxHeartbeats 2000000 in
theorem win5_val (V : Valuation τ sig (Elt Ideal)) :
    after (win5 (F := Ideal)) V (Proc.devRef .tc main_v172)
      = jointAt 5 (by decide) (subf (posAt 5 (by decide) (V (Proc.devRef .tc main_arg1))) (posAt 2 (by decide) (V (Proc.devRef .tc main_arg1))))
        (V (Proc.devRef .tc main_arg0)) (V (Proc.devRef .tc main_arg1)) (V (Proc.devRef .tc main_arg4)) (V (Proc.devRef .tc main_arg5))
        (V (Proc.devRef .tc main_arg6)) (V (Proc.devRef .tc main_arg7)) (V (Proc.devRef .tc main_v88)) := by
  simp only [win5]
  after_results_simp
  rfl

set_option maxHeartbeats 2000000 in
theorem win6_val (V : Valuation τ sig (Elt Ideal)) :
    after (win6 (F := Ideal)) V (Proc.devRef .tc main_v200)
      = jointAt 6 (by decide) (subf (posAt 6 (by decide) (V (Proc.devRef .tc main_arg1))) (posAt 3 (by decide) (V (Proc.devRef .tc main_arg1))))
        (V (Proc.devRef .tc main_arg0)) (V (Proc.devRef .tc main_arg1)) (V (Proc.devRef .tc main_arg4)) (V (Proc.devRef .tc main_arg5))
        (V (Proc.devRef .tc main_arg6)) (V (Proc.devRef .tc main_arg7)) (V (Proc.devRef .tc main_v116)) := by
  simp only [win6]
  after_results_simp
  rfl

set_option maxHeartbeats 2000000 in
theorem win7_val (V : Valuation τ sig (Elt Ideal)) :
    after (win7 (F := Ideal)) V (Proc.devRef .tc main_v228)
      = jointAt 7 (by decide) (subf (posAt 7 (by decide) (V (Proc.devRef .tc main_arg1))) (posAt 4 (by decide) (V (Proc.devRef .tc main_arg1))))
        (V (Proc.devRef .tc main_arg0)) (V (Proc.devRef .tc main_arg1)) (V (Proc.devRef .tc main_arg4)) (V (Proc.devRef .tc main_arg5))
        (V (Proc.devRef .tc main_arg6)) (V (Proc.devRef .tc main_arg7)) (V (Proc.devRef .tc main_v144)) := by
  simp only [win7]
  after_results_simp
  rfl

set_option maxHeartbeats 2000000 in
theorem win8_val (V : Valuation τ sig (Elt Ideal)) :
    after (win8 (F := Ideal)) V (Proc.devRef .tc main_v256)
      = jointAt 8 (by decide) (subf (posAt 8 (by decide) (V (Proc.devRef .tc main_arg1))) (posAt 5 (by decide) (V (Proc.devRef .tc main_arg1))))
        (V (Proc.devRef .tc main_arg0)) (V (Proc.devRef .tc main_arg1)) (V (Proc.devRef .tc main_arg4)) (V (Proc.devRef .tc main_arg5))
        (V (Proc.devRef .tc main_arg6)) (V (Proc.devRef .tc main_arg7)) (V (Proc.devRef .tc main_v172)) := by
  simp only [win8]
  after_results_simp
  rfl

set_option maxHeartbeats 2000000 in
theorem win9_val (V : Valuation τ sig (Elt Ideal)) :
    after (win9 (F := Ideal)) V (Proc.devRef .tc main_v284)
      = jointAt 9 (by decide) (subf (posAt 9 (by decide) (V (Proc.devRef .tc main_arg1))) (posAt 6 (by decide) (V (Proc.devRef .tc main_arg1))))
        (V (Proc.devRef .tc main_arg0)) (V (Proc.devRef .tc main_arg1)) (V (Proc.devRef .tc main_arg4)) (V (Proc.devRef .tc main_arg5))
        (V (Proc.devRef .tc main_arg6)) (V (Proc.devRef .tc main_arg7)) (V (Proc.devRef .tc main_v200)) := by
  simp only [win9]
  after_results_simp
  rfl

set_option maxHeartbeats 2000000 in
theorem win10_val (V : Valuation τ sig (Elt Ideal)) :
    after (win10 (F := Ideal)) V (Proc.devRef .tc main_v312)
      = jointAt 10 (by decide) (subf (posAt 10 (by decide) (V (Proc.devRef .tc main_arg1))) (posAt 7 (by decide) (V (Proc.devRef .tc main_arg1))))
        (V (Proc.devRef .tc main_arg0)) (V (Proc.devRef .tc main_arg1)) (V (Proc.devRef .tc main_arg4)) (V (Proc.devRef .tc main_arg5))
        (V (Proc.devRef .tc main_arg6)) (V (Proc.devRef .tc main_arg7)) (V (Proc.devRef .tc main_v228)) := by
  simp only [win10]
  after_results_simp
  rfl

set_option maxHeartbeats 2000000 in
theorem win11_val (V : Valuation τ sig (Elt Ideal)) :
    after (win11 (F := Ideal)) V (Proc.devRef .tc main_v340)
      = jointAt 11 (by decide) (subf (posAt 11 (by decide) (V (Proc.devRef .tc main_arg1))) (posAt 8 (by decide) (V (Proc.devRef .tc main_arg1))))
        (V (Proc.devRef .tc main_arg0)) (V (Proc.devRef .tc main_arg1)) (V (Proc.devRef .tc main_arg4)) (V (Proc.devRef .tc main_arg5))
        (V (Proc.devRef .tc main_arg6)) (V (Proc.devRef .tc main_arg7)) (V (Proc.devRef .tc main_v256)) := by
  simp only [win11]
  after_results_simp
  rfl

set_option maxHeartbeats 2000000 in
theorem win12_val (V : Valuation τ sig (Elt Ideal)) :
    after (win12 (F := Ideal)) V (Proc.devRef .tc main_v368)
      = jointAt 12 (by decide) (subf (posAt 12 (by decide) (V (Proc.devRef .tc main_arg1))) (posAt 9 (by decide) (V (Proc.devRef .tc main_arg1))))
        (V (Proc.devRef .tc main_arg0)) (V (Proc.devRef .tc main_arg1)) (V (Proc.devRef .tc main_arg4)) (V (Proc.devRef .tc main_arg5))
        (V (Proc.devRef .tc main_arg6)) (V (Proc.devRef .tc main_arg7)) (V (Proc.devRef .tc main_v284)) := by
  simp only [win12]
  after_results_simp
  rfl

set_option maxHeartbeats 2000000 in
theorem win13_val (V : Valuation τ sig (Elt Ideal)) :
    after (win13 (F := Ideal)) V (Proc.devRef .tc main_v396)
      = jointAt 13 (by decide) (subf (posAt 13 (by decide) (V (Proc.devRef .tc main_arg1))) (posAt 9 (by decide) (V (Proc.devRef .tc main_arg1))))
        (V (Proc.devRef .tc main_arg0)) (V (Proc.devRef .tc main_arg1)) (V (Proc.devRef .tc main_arg4)) (V (Proc.devRef .tc main_arg5))
        (V (Proc.devRef .tc main_arg6)) (V (Proc.devRef .tc main_arg7)) (V (Proc.devRef .tc main_v284)) := by
  simp only [win13]
  after_results_simp
  rfl

set_option maxHeartbeats 2000000 in
theorem win14_val (V : Valuation τ sig (Elt Ideal)) :
    after (win14 (F := Ideal)) V (Proc.devRef .tc main_v424)
      = jointAt 14 (by decide) (subf (posAt 14 (by decide) (V (Proc.devRef .tc main_arg1))) (posAt 9 (by decide) (V (Proc.devRef .tc main_arg1))))
        (V (Proc.devRef .tc main_arg0)) (V (Proc.devRef .tc main_arg1)) (V (Proc.devRef .tc main_arg4)) (V (Proc.devRef .tc main_arg5))
        (V (Proc.devRef .tc main_arg6)) (V (Proc.devRef .tc main_arg7)) (V (Proc.devRef .tc main_v284)) := by
  simp only [win14]
  after_results_simp
  rfl

set_option maxHeartbeats 2000000 in
theorem win15_val (V : Valuation τ sig (Elt Ideal)) :
    after (win15 (F := Ideal)) V (Proc.devRef .tc main_v452)
      = jointAt 15 (by decide) (subf (posAt 15 (by decide) (V (Proc.devRef .tc main_arg1))) (posAt 12 (by decide) (V (Proc.devRef .tc main_arg1))))
        (V (Proc.devRef .tc main_arg0)) (V (Proc.devRef .tc main_arg1)) (V (Proc.devRef .tc main_arg4)) (V (Proc.devRef .tc main_arg5))
        (V (Proc.devRef .tc main_arg6)) (V (Proc.devRef .tc main_arg7)) (V (Proc.devRef .tc main_v368)) := by
  simp only [win15]
  after_results_simp
  rfl

set_option maxHeartbeats 2000000 in
theorem win16_val (V : Valuation τ sig (Elt Ideal)) :
    after (win16 (F := Ideal)) V (Proc.devRef .tc main_v480)
      = jointAt 16 (by decide) (subf (posAt 16 (by decide) (V (Proc.devRef .tc main_arg1))) (posAt 13 (by decide) (V (Proc.devRef .tc main_arg1))))
        (V (Proc.devRef .tc main_arg0)) (V (Proc.devRef .tc main_arg1)) (V (Proc.devRef .tc main_arg4)) (V (Proc.devRef .tc main_arg5))
        (V (Proc.devRef .tc main_arg6)) (V (Proc.devRef .tc main_arg7)) (V (Proc.devRef .tc main_v396)) := by
  simp only [win16]
  after_results_simp
  rfl

set_option maxHeartbeats 2000000 in
theorem win17_val (V : Valuation τ sig (Elt Ideal)) :
    after (win17 (F := Ideal)) V (Proc.devRef .tc main_v508)
      = jointAt 17 (by decide) (subf (posAt 17 (by decide) (V (Proc.devRef .tc main_arg1))) (posAt 14 (by decide) (V (Proc.devRef .tc main_arg1))))
        (V (Proc.devRef .tc main_arg0)) (V (Proc.devRef .tc main_arg1)) (V (Proc.devRef .tc main_arg4)) (V (Proc.devRef .tc main_arg5))
        (V (Proc.devRef .tc main_arg6)) (V (Proc.devRef .tc main_arg7)) (V (Proc.devRef .tc main_v424)) := by
  simp only [win17]
  after_results_simp
  rfl

set_option maxHeartbeats 2000000 in
theorem win18_val (V : Valuation τ sig (Elt Ideal)) :
    after (win18 (F := Ideal)) V (Proc.devRef .tc main_v536)
      = jointAt 18 (by decide) (subf (posAt 18 (by decide) (V (Proc.devRef .tc main_arg1))) (posAt 16 (by decide) (V (Proc.devRef .tc main_arg1))))
        (V (Proc.devRef .tc main_arg0)) (V (Proc.devRef .tc main_arg1)) (V (Proc.devRef .tc main_arg4)) (V (Proc.devRef .tc main_arg5))
        (V (Proc.devRef .tc main_arg6)) (V (Proc.devRef .tc main_arg7)) (V (Proc.devRef .tc main_v480)) := by
  simp only [win18]
  after_results_simp
  rfl

set_option maxHeartbeats 2000000 in
theorem win19_val (V : Valuation τ sig (Elt Ideal)) :
    after (win19 (F := Ideal)) V (Proc.devRef .tc main_v564)
      = jointAt 19 (by decide) (subf (posAt 19 (by decide) (V (Proc.devRef .tc main_arg1))) (posAt 17 (by decide) (V (Proc.devRef .tc main_arg1))))
        (V (Proc.devRef .tc main_arg0)) (V (Proc.devRef .tc main_arg1)) (V (Proc.devRef .tc main_arg4)) (V (Proc.devRef .tc main_arg5))
        (V (Proc.devRef .tc main_arg6)) (V (Proc.devRef .tc main_arg7)) (V (Proc.devRef .tc main_v508)) := by
  simp only [win19]
  after_results_simp
  rfl

set_option maxHeartbeats 2000000 in
theorem win20_val (V : Valuation τ sig (Elt Ideal)) :
    after (win20 (F := Ideal)) V (Proc.devRef .tc main_v592)
      = jointAt 20 (by decide) (subf (posAt 20 (by decide) (V (Proc.devRef .tc main_arg1))) (posAt 18 (by decide) (V (Proc.devRef .tc main_arg1))))
        (V (Proc.devRef .tc main_arg0)) (V (Proc.devRef .tc main_arg1)) (V (Proc.devRef .tc main_arg4)) (V (Proc.devRef .tc main_arg5))
        (V (Proc.devRef .tc main_arg6)) (V (Proc.devRef .tc main_arg7)) (V (Proc.devRef .tc main_v536)) := by
  simp only [win20]
  after_results_simp
  rfl

set_option maxHeartbeats 2000000 in
theorem win21_val (V : Valuation τ sig (Elt Ideal)) :
    after (win21 (F := Ideal)) V (Proc.devRef .tc main_v620)
      = jointAt 21 (by decide) (subf (posAt 21 (by decide) (V (Proc.devRef .tc main_arg1))) (posAt 19 (by decide) (V (Proc.devRef .tc main_arg1))))
        (V (Proc.devRef .tc main_arg0)) (V (Proc.devRef .tc main_arg1)) (V (Proc.devRef .tc main_arg4)) (V (Proc.devRef .tc main_arg5))
        (V (Proc.devRef .tc main_arg6)) (V (Proc.devRef .tc main_arg7)) (V (Proc.devRef .tc main_v564)) := by
  simp only [win21]
  after_results_simp
  rfl

set_option maxHeartbeats 2000000 in
theorem win22_val (V : Valuation τ sig (Elt Ideal)) :
    after (win22 (F := Ideal)) V (Proc.devRef .tc main_v648)
      = jointAt 22 (by decide) (subf (posAt 22 (by decide) (V (Proc.devRef .tc main_arg1))) (posAt 20 (by decide) (V (Proc.devRef .tc main_arg1))))
        (V (Proc.devRef .tc main_arg0)) (V (Proc.devRef .tc main_arg1)) (V (Proc.devRef .tc main_arg4)) (V (Proc.devRef .tc main_arg5))
        (V (Proc.devRef .tc main_arg6)) (V (Proc.devRef .tc main_arg7)) (V (Proc.devRef .tc main_v592)) := by
  simp only [win22]
  after_results_simp
  rfl

set_option maxHeartbeats 2000000 in
theorem win23_val (V : Valuation τ sig (Elt Ideal)) :
    after (win23 (F := Ideal)) V (Proc.devRef .tc main_v676)
      = jointAt 23 (by decide) (subf (posAt 23 (by decide) (V (Proc.devRef .tc main_arg1))) (posAt 21 (by decide) (V (Proc.devRef .tc main_arg1))))
        (V (Proc.devRef .tc main_arg0)) (V (Proc.devRef .tc main_arg1)) (V (Proc.devRef .tc main_arg4)) (V (Proc.devRef .tc main_arg5))
        (V (Proc.devRef .tc main_arg6)) (V (Proc.devRef .tc main_arg7)) (V (Proc.devRef .tc main_v620)) := by
  simp only [win23]
  after_results_simp
  rfl

/-! ## The joints' windows and output buffers as families -/

/-- Each joint's window. -/
def win : Fin 24 → List (HloOp τ sig (Elt Ideal)) :=
  ![win0, win1, win2, win3, win4, win5, win6, win7, win8, win9, win10, win11, win12, win13, win14, win15, win16, win17, win18, win19, win20, win21, win22, win23]

/-- The buffers each joint's window writes. -/
def winW : Fin 24 → List (Ref sig .tc) :=
  ![win0_W, win1_W, win2_W, win3_W, win4_W, win5_W, win6_W, win7_W, win8_W, win9_W, win10_W, win11_W, win12_W, win13_W, win14_W, win15_W, win16_W, win17_W, win18_W, win19_W, win20_W, win21_W, win22_W, win23_W]

/-- Each joint's output buffer. -/
def outRef : Fin 24 → Ref sig .tc :=
  ![main_v32, main_v60, main_v88, main_v116, main_v144, main_v172, main_v200, main_v228, main_v256, main_v284, main_v312, main_v340, main_v368, main_v396, main_v424, main_v452, main_v480, main_v508, main_v536, main_v564, main_v592, main_v620, main_v648, main_v676]

/-- The 24 joints' output buffers' contents. -/
def outs (V : Valuation τ sig (Elt Ideal)) : Fin 24 → FVec Ideal S131072x6 .f32 :=
  ![V (Proc.devRef .tc main_v32), V (Proc.devRef .tc main_v60), V (Proc.devRef .tc main_v88), V (Proc.devRef .tc main_v116), V (Proc.devRef .tc main_v144), V (Proc.devRef .tc main_v172), V (Proc.devRef .tc main_v200), V (Proc.devRef .tc main_v228), V (Proc.devRef .tc main_v256), V (Proc.devRef .tc main_v284), V (Proc.devRef .tc main_v312), V (Proc.devRef .tc main_v340), V (Proc.devRef .tc main_v368), V (Proc.devRef .tc main_v396), V (Proc.devRef .tc main_v424), V (Proc.devRef .tc main_v452), V (Proc.devRef .tc main_v480), V (Proc.devRef .tc main_v508), V (Proc.devRef .tc main_v536), V (Proc.devRef .tc main_v564), V (Proc.devRef .tc main_v592), V (Proc.devRef .tc main_v620), V (Proc.devRef .tc main_v648), V (Proc.devRef .tc main_v676)]

theorem win_writes : ∀ j : Fin 24, (win j).Forall fun op => op.writes ⊆ ((winW j).map (Proc.devRef (τ := τ) .tc)).toFinset
  | ⟨0, _⟩ => win0_writes
  | ⟨1, _⟩ => win1_writes
  | ⟨2, _⟩ => win2_writes
  | ⟨3, _⟩ => win3_writes
  | ⟨4, _⟩ => win4_writes
  | ⟨5, _⟩ => win5_writes
  | ⟨6, _⟩ => win6_writes
  | ⟨7, _⟩ => win7_writes
  | ⟨8, _⟩ => win8_writes
  | ⟨9, _⟩ => win9_writes
  | ⟨10, _⟩ => win10_writes
  | ⟨11, _⟩ => win11_writes
  | ⟨12, _⟩ => win12_writes
  | ⟨13, _⟩ => win13_writes
  | ⟨14, _⟩ => win14_writes
  | ⟨15, _⟩ => win15_writes
  | ⟨16, _⟩ => win16_writes
  | ⟨17, _⟩ => win17_writes
  | ⟨18, _⟩ => win18_writes
  | ⟨19, _⟩ => win19_writes
  | ⟨20, _⟩ => win20_writes
  | ⟨21, _⟩ => win21_writes
  | ⟨22, _⟩ => win22_writes
  | ⟨23, _⟩ => win23_writes
  | ⟨n + 24, h⟩ => absurd h (by omega)

/-- After the root's window its output buffer holds the root's network on its own positions and the global features'
    buffer. -/
theorem win_val_root (V : Valuation τ sig (Elt Ideal)) :
    outs (after (win 0) V) 0
      = jointAt 0 (by decide) (posAt 0 (by decide) (V (Proc.devRef .tc main_arg1)))
          (V (Proc.devRef .tc main_arg0)) (V (Proc.devRef .tc main_arg1)) (V (Proc.devRef .tc main_arg4)) (V (Proc.devRef .tc main_arg5))
          (V (Proc.devRef .tc main_arg6)) (V (Proc.devRef .tc main_arg7)) (V (Proc.devRef .tc main_v7)) :=
  win0_val V

/-- After any other joint's window its output buffer holds the joint's network on its position less its parent's and its
    parent's output buffer. -/
theorem win_val : ∀ (j : Fin 24) (_ : j ≠ 0) (V : Valuation τ sig (Elt Ideal)),
    outs (after (win j) V) j
      = jointAt j.val j.isLt
          (subf (posAt j.val j.isLt (V (Proc.devRef .tc main_arg1)))
            (posAt (Cert.Spec.parent j).val (Cert.Spec.parent j).isLt (V (Proc.devRef .tc main_arg1))))
          (V (Proc.devRef .tc main_arg0)) (V (Proc.devRef .tc main_arg1)) (V (Proc.devRef .tc main_arg4)) (V (Proc.devRef .tc main_arg5))
          (V (Proc.devRef .tc main_arg6)) (V (Proc.devRef .tc main_arg7)) (outs V (Cert.Spec.parent j))
  | ⟨0, _⟩, h, _ => absurd rfl h
  | ⟨1, _⟩, _, V => win1_val V
  | ⟨2, _⟩, _, V => win2_val V
  | ⟨3, _⟩, _, V => win3_val V
  | ⟨4, _⟩, _, V => win4_val V
  | ⟨5, _⟩, _, V => win5_val V
  | ⟨6, _⟩, _, V => win6_val V
  | ⟨7, _⟩, _, V => win7_val V
  | ⟨8, _⟩, _, V => win8_val V
  | ⟨9, _⟩, _, V => win9_val V
  | ⟨10, _⟩, _, V => win10_val V
  | ⟨11, _⟩, _, V => win11_val V
  | ⟨12, _⟩, _, V => win12_val V
  | ⟨13, _⟩, _, V => win13_val V
  | ⟨14, _⟩, _, V => win14_val V
  | ⟨15, _⟩, _, V => win15_val V
  | ⟨16, _⟩, _, V => win16_val V
  | ⟨17, _⟩, _, V => win17_val V
  | ⟨18, _⟩, _, V => win18_val V
  | ⟨19, _⟩, _, V => win19_val V
  | ⟨20, _⟩, _, V => win20_val V
  | ⟨21, _⟩, _, V => win21_val V
  | ⟨22, _⟩, _, V => win22_val V
  | ⟨23, _⟩, _, V => win23_val V
  | ⟨n + 24, h⟩, _, _ => absurd h (by omega)

/-- After the last window the result buffer holds the 24 output buffers' contents laid side by side. -/
theorem winF_val (V : Valuation τ sig (Elt Ideal)) :
    after (winF (F := Ideal)) V (Proc.devRef .tc main_v679) = resultOf (outs V) := by
  simp only [winF]
  after_results_simp
  rfl

end Cert.ReferenceIdeal.Hand

end
-- ==== Proof.RefRun.lean ====
/-
  The reference program's run, window by window.

  Every buffer of the program is written once. The contents after the global-feature window and the first k joint windows
  satisfy, for every joint written so far, the same relation the specification's recurrence states: the joint's output
  buffer holds the joint network on its slabs of the argument buffers — unchanged since launch —, on the bone vectors, and
  on the parent's output buffer (for the root, on the global features). A window writes only buffers of its own, so what
  earlier windows wrote stays. After the last joint the result buffer is the 24 outputs side by side, and read at a row
  this is a solution of the recurrence on the row's data.
-/
import proofs.«147313_j28467043238534_2_alg».proof.Proof.RefWindows

noncomputable section

namespace Cert.ReferenceIdeal.Hand

open Cert.ReferenceIdeal Cert.ReferenceIdeal.Gen Cert.ReferenceIdeal.Chain Idealize.ShloMosaic Idealize.ShloMosaic.TcCoe
  Idealize.SL.Sem Idealize.ShloMosaic.StableHlo Idealize.ShloMosaic.ValueIdx

/-! ## What a joint's window leaves alone -/

/-- A buffer a joint's window does not write keeps its contents through it. -/
theorem win_keep (j : Fin 24) (V : Valuation τ sig (Elt Ideal)) (r : Ref sig .tc) (h : r ∉ winW j) :
    after (win j) V (Proc.devRef .tc r) = V (Proc.devRef .tc r) :=
  after_of_writes_sub (win j) V (win_writes j) h

/-- No joint's window writes an argument buffer or the global features' buffer. -/
theorem arg_notW : ∀ j : Fin 24, main_arg0 ∉ winW j ∧ main_arg1 ∉ winW j ∧ main_arg2 ∉ winW j ∧ main_arg3 ∉ winW j
    ∧ main_arg4 ∉ winW j ∧ main_arg5 ∉ winW j ∧ main_arg6 ∉ winW j ∧ main_arg7 ∉ winW j ∧ main_v7 ∉ winW j := by
  decide

/-- No joint's window writes another joint's output buffer. -/
theorem out_notW : ∀ i j : Fin 24, i ≠ j → outRef i ∉ winW j := by decide

/-- Every joint other than the root comes after its parent. -/
theorem parent_lt : ∀ j : Fin 24, j ≠ 0 → (Cert.Spec.parent j).val < j.val := by decide

/-- Another joint's output buffer keeps its contents through a joint's window. -/
theorem outs_keep (j i : Fin 24) (hij : i ≠ j) (V : Valuation τ sig (Elt Ideal)) :
    outs (after (win j) V) i = outs V i := by
  fin_cases i <;> exact win_keep j V _ (out_notW _ j hij)

/-! ## The contents after the first k joints -/

/-- The contents after the global-feature window and the first `k` joint windows. -/
def stage (V0 : Valuation τ sig (Elt Ideal)) : ℕ → Valuation τ sig (Elt Ideal)
  | 0 => after winG V0
  | k + 1 => if h : k < 24 then after (win ⟨k, h⟩) (stage V0 k) else stage V0 k

/-- After all the windows: the last window from the contents after the 24 joints. -/
theorem after_ops (V0 : Valuation τ sig (Elt Ideal)) : after ops V0 = after winF (stage V0 24) := by
  rw [show (ops : List (HloOp τ sig (Elt Ideal))) = (wins (F := Ideal)).flatten from rfl, after_flatten]
  rfl

/-- What holds of contents `V` reached from launch contents `V0` once the first `k` joints are written. -/
structure Inv (V0 V : Valuation τ sig (Elt Ideal)) (k : ℕ) : Prop where
  a0 : V (Proc.devRef .tc main_arg0) = V0 (Proc.devRef .tc main_arg0)
  a1 : V (Proc.devRef .tc main_arg1) = V0 (Proc.devRef .tc main_arg1)
  a2 : V (Proc.devRef .tc main_arg2) = V0 (Proc.devRef .tc main_arg2)
  a3 : V (Proc.devRef .tc main_arg3) = V0 (Proc.devRef .tc main_arg3)
  a4 : V (Proc.devRef .tc main_arg4) = V0 (Proc.devRef .tc main_arg4)
  a5 : V (Proc.devRef .tc main_arg5) = V0 (Proc.devRef .tc main_arg5)
  a6 : V (Proc.devRef .tc main_arg6) = V0 (Proc.devRef .tc main_arg6)
  a7 : V (Proc.devRef .tc main_arg7) = V0 (Proc.devRef .tc main_arg7)
  glob : V (Proc.devRef .tc main_v7) = globArr (V0 (Proc.devRef .tc main_arg0)) (V0 (Proc.devRef .tc main_arg1)) (V0 (Proc.devRef .tc main_arg2)) (V0 (Proc.devRef .tc main_arg3))
  root : 0 < k → outs V 0
    = jointAt 0 (by decide) (posAt 0 (by decide) (V0 (Proc.devRef .tc main_arg1))) (V0 (Proc.devRef .tc main_arg0)) (V0 (Proc.devRef .tc main_arg1)) (V0 (Proc.devRef .tc main_arg4)) (V0 (Proc.devRef .tc main_arg5)) (V0 (Proc.devRef .tc main_arg6)) (V0 (Proc.devRef .tc main_arg7))
        (globArr (V0 (Proc.devRef .tc main_arg0)) (V0 (Proc.devRef .tc main_arg1)) (V0 (Proc.devRef .tc main_arg2)) (V0 (Proc.devRef .tc main_arg3)))
  child : ∀ j : Fin 24, j ≠ 0 → j.val < k → outs V j
    = jointAt j.val j.isLt
        (subf (posAt j.val j.isLt (V0 (Proc.devRef .tc main_arg1))) (posAt (Cert.Spec.parent j).val (Cert.Spec.parent j).isLt (V0 (Proc.devRef .tc main_arg1))))
        (V0 (Proc.devRef .tc main_arg0)) (V0 (Proc.devRef .tc main_arg1)) (V0 (Proc.devRef .tc main_arg4)) (V0 (Proc.devRef .tc main_arg5)) (V0 (Proc.devRef .tc main_arg6)) (V0 (Proc.devRef .tc main_arg7)) (outs V (Cert.Spec.parent j))

/-- One more joint's window. -/
theorem inv_step (V0 V : Valuation τ sig (Elt Ideal)) (k : ℕ) (hk : k < 24) (h : Inv V0 V k) :
    Inv V0 (after (win ⟨k, hk⟩) V) (k + 1) := by
  have hw := arg_notW ⟨k, hk⟩
  have ka : ∀ r : Ref sig .tc, r ∉ winW ⟨k, hk⟩ →
      after (win ⟨k, hk⟩) V (Proc.devRef .tc r) = V (Proc.devRef .tc r) := fun r hr => win_keep _ V r hr
  refine ⟨(ka _ hw.1).trans h.a0, (ka _ hw.2.1).trans h.a1, (ka _ hw.2.2.1).trans h.a2, (ka _ hw.2.2.2.1).trans h.a3,
    (ka _ hw.2.2.2.2.1).trans h.a4, (ka _ hw.2.2.2.2.2.1).trans h.a5, (ka _ hw.2.2.2.2.2.2.1).trans h.a6,
    (ka _ hw.2.2.2.2.2.2.2.1).trans h.a7, (ka _ hw.2.2.2.2.2.2.2.2).trans h.glob, ?_, ?_⟩
  · intro _
    by_cases hk0 : k = 0
    · subst hk0
      refine (win_val_root V).trans ?_
      rw [h.a0, h.a1, h.a4, h.a5, h.a6, h.a7, h.glob]
    · rw [outs_keep ⟨k, hk⟩ 0 (fun e => hk0 (congrArg Fin.val e).symm) V]
      exact h.root (Nat.pos_of_ne_zero hk0)
  · intro j hj hjk
    by_cases hjk' : j.val < k
    · have hne : j ≠ ⟨k, hk⟩ := fun e => by rw [e] at hjk'; exact Nat.lt_irrefl _ hjk'
      have hpne : Cert.Spec.parent j ≠ ⟨k, hk⟩ := fun e => by
        have hlt := parent_lt j hj
        rw [e] at hlt
        exact Nat.lt_irrefl _ (Nat.lt_trans hlt hjk')
      rw [outs_keep _ j hne V, outs_keep _ (Cert.Spec.parent j) hpne V]
      exact h.child j hj hjk'
    · have hjeq : (⟨k, hk⟩ : Fin 24) = j := Fin.ext (by show k = j.val; omega)
      rw [hjeq]
      have hpne : Cert.Spec.parent j ≠ j := fun e => by
        have hlt := parent_lt j hj
        rw [e] at hlt
        exact Nat.lt_irrefl _ hlt
      rw [outs_keep j (Cert.Spec.parent j) hpne V]
      refine (win_val j hj V).trans ?_
      rw [h.a0, h.a1, h.a4, h.a5, h.a6, h.a7]

/-- The global-feature window leaves the arguments alone. -/
theorem winG_keep (V : Valuation τ sig (Elt Ideal)) (r : Ref sig .tc) (h : r ∉ (winG_W : List (Ref sig .tc))) :
    after (winG (F := Ideal)) V (Proc.devRef .tc r) = V (Proc.devRef .tc r) :=
  after_of_writes_sub winG V winG_writes h

/-- The last window leaves the arguments alone. -/
theorem winF_keep (V : Valuation τ sig (Elt Ideal)) (r : Ref sig .tc) (h : r ∉ (winF_W : List (Ref sig .tc))) :
    after (winF (F := Ideal)) V (Proc.devRef .tc r) = V (Proc.devRef .tc r) :=
  after_of_writes_sub winF V winF_writes h

/-- After the first `k` joints, for every `k` up to 24. -/
theorem inv_stage (V0 : Valuation τ sig (Elt Ideal)) : ∀ k : ℕ, k ≤ 24 → Inv V0 (stage V0 k) k
  | 0, _ =>
    ⟨winG_keep V0 _ (by decide), winG_keep V0 _ (by decide), winG_keep V0 _ (by decide), winG_keep V0 _ (by decide),
      winG_keep V0 _ (by decide), winG_keep V0 _ (by decide), winG_keep V0 _ (by decide), winG_keep V0 _ (by decide),
      winG_val V0, fun h => absurd h (Nat.lt_irrefl 0), fun j _ hj => absurd hj (Nat.not_lt_zero _)⟩
  | k + 1, hk => by
    have hk' : k < 24 := hk
    rw [show stage V0 (k + 1) = after (win ⟨k, hk'⟩) (stage V0 k) from dif_pos hk']
    exact inv_step V0 _ k hk' (inv_stage V0 k (Nat.le_of_lt hk'))

/-! ## The result -/

/-- The result buffer at the end: the 24 outputs side by side. -/
theorem result_eq (V0 : Valuation τ sig (Elt Ideal)) :
    after ops V0 (Proc.devRef .tc main_v679) = resultOf (outs (stage V0 24)) := by
  rw [after_ops]
  exact winF_val _

/-- **The run's result solves the recurrence.** Row `b` of the result buffer at the end, cut into the 24 joints' six
    columns, is a solution of the recurrence over the kinematic tree on row `b` of the argument buffers at launch. -/
theorem solvesRun (V0 : Valuation τ sig (Elt Ideal)) (b : Fin 131072) :
    Cert.Spec.Solves (Cert.Spec.rowOf (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) b)
      (fun j f => after ops V0 (Proc.devRef .tc main_v679)
        (ix2 b (⟨6 * j.val + f.val, by have := j.isLt; have := f.isLt; omega⟩ : Fin 144))) := by
  have I := inv_stage V0 24 (Nat.le_refl 24)
  have hR : (fun (j : Fin 24) (f : Fin 6) => after ops V0 (Proc.devRef .tc main_v679)
        (ix2 b (⟨6 * j.val + f.val, by have := j.isLt; have := f.isLt; omega⟩ : Fin 144)))
      = fun j f => outs (stage V0 24) j (ix2 b f) :=
    funext fun j => funext fun f => by rw [result_eq]; exact resultOf_apply _ b j f
  rw [hR]
  refine ⟨?_, fun j hj => ?_⟩
  · funext f
    show outs (stage V0 24) 0 (ix2 b f) = _
    rw [I.root (by decide), jointAt_apply]
    have hg : (fun a => globArr (V0 (Proc.devRef .tc main_arg0)) (V0 (Proc.devRef .tc main_arg1)) (V0 (Proc.devRef .tc main_arg2)) (V0 (Proc.devRef .tc main_arg3)) (ix2 b a)) = (Cert.Spec.rowOf (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) b).glob :=
      funext fun a => glob_apply _ _ _ _ _ _ _ _ b a
    have hd : (fun k => posAt 0 (by decide) (V0 (Proc.devRef .tc main_arg1)) (ix2 b k)) = (Cert.Spec.rowOf (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) b).pos 0 :=
      funext fun k => posAt_apply 0 (by decide) _ b k
    rw [hg, hd]
    rfl
  · funext f
    show outs (stage V0 24) j (ix2 b f) = _
    rw [I.child j hj j.isLt, jointAt_apply]
    have hd : (fun k => subf (posAt j.val j.isLt (V0 (Proc.devRef .tc main_arg1)))
        (posAt (Cert.Spec.parent j).val (Cert.Spec.parent j).isLt (V0 (Proc.devRef .tc main_arg1))) (ix2 b k))
        = fun k => (Cert.Spec.rowOf (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) b).pos j k - (Cert.Spec.rowOf (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) b).pos (Cert.Spec.parent j) k :=
      funext fun k => by
        show posAt j.val j.isLt (V0 (Proc.devRef .tc main_arg1)) (ix2 b k)
          - posAt (Cert.Spec.parent j).val (Cert.Spec.parent j).isLt (V0 (Proc.devRef .tc main_arg1)) (ix2 b k) = _
        rw [posAt_apply, posAt_apply]
        rfl
    rw [hd]
    rfl

/-- The argument buffers at the end are as launched. -/
theorem args_eq (V0 : Valuation τ sig (Elt Ideal)) :
    after ops V0 (Proc.devRef .tc main_arg0) = V0 (Proc.devRef .tc main_arg0)
    ∧ after ops V0 (Proc.devRef .tc main_arg1) = V0 (Proc.devRef .tc main_arg1)
    ∧ after ops V0 (Proc.devRef .tc main_arg2) = V0 (Proc.devRef .tc main_arg2)
    ∧ after ops V0 (Proc.devRef .tc main_arg3) = V0 (Proc.devRef .tc main_arg3)
    ∧ after ops V0 (Proc.devRef .tc main_arg4) = V0 (Proc.devRef .tc main_arg4)
    ∧ after ops V0 (Proc.devRef .tc main_arg5) = V0 (Proc.devRef .tc main_arg5)
    ∧ after ops V0 (Proc.devRef .tc main_arg6) = V0 (Proc.devRef .tc main_arg6)
    ∧ after ops V0 (Proc.devRef .tc main_arg7) = V0 (Proc.devRef .tc main_arg7) := by
  have I := inv_stage V0 24 (Nat.le_refl 24)
  rw [after_ops]
  exact ⟨(winF_keep _ _ (by decide)).trans I.a0, (winF_keep _ _ (by decide)).trans I.a1,
    (winF_keep _ _ (by decide)).trans I.a2, (winF_keep _ _ (by decide)).trans I.a3,
    (winF_keep _ _ (by decide)).trans I.a4, (winF_keep _ _ (by decide)).trans I.a5,
    (winF_keep _ _ (by decide)).trans I.a6, (winF_keep _ _ (by decide)).trans I.a7⟩

/-- The result buffer at the end of the run from the memory `m`, on device `c`. -/
def result (m : (ℓ : Loc nD τ sig) → Buf (Elt Ideal) ℓ) (c : Dev nD) : FVec Ideal S131072x144 .f32 :=
  after ops (launchContents m c) (Proc.devRef .tc main_v679)

/-- On every device, from any memory with zero counters: every weakly fair execution of the program terminates with the
    result buffer at `result m c` and the eight arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v679) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    have A := args_eq (launchContents m c)
    ⟨h c main_v679, (h c main_arg0).trans A.1, (h c main_arg1).trans A.2.1, (h c main_arg2).trans A.2.2.1,
      (h c main_arg3).trans A.2.2.2.1, (h c main_arg4).trans A.2.2.2.2.1, (h c main_arg5).trans A.2.2.2.2.2.1,
      (h c main_arg6).trans A.2.2.2.2.2.2.1, (h c main_arg7).trans A.2.2.2.2.2.2.2⟩)
    (run_all m ρ)

/-- Row `b` of the run's result solves the recurrence on row `b` of the arguments in memory at launch. -/
theorem solves (m : (ℓ : Loc nD τ sig) → Buf (Elt Ideal) ℓ) (c : Dev nD) (b : Fin 131072) :
    Cert.Spec.Solves
      (Cert.Spec.rowOf (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7)) b)
      (fun j f => result m c (ix2 b (⟨6 * j.val + f.val, by have := j.isLt; have := f.isLt; omega⟩ : Fin 144))) :=
  solvesRun (launchContents m c) b

end Cert.ReferenceIdeal.Hand

end
-- ==== Proof.Claims.lean ====
/-
  The reference's frame, and: the two idealized programs compute one function.

  The reference is a straight-line host program; its run ends with its result buffer at the fold of its 824 operations over
  the launch contents and with its arguments unchanged, which is its frame with the result forgotten. Read at the ideal
  instance, that result, cut along each batch row into 24 groups of 6, solves the row's recurrence over the kinematic tree
  (the reference side), and the kernel's result array equals any function that does (the kernel side). So from memories that
  agree on the eight arguments both programs end with the same result array and with their arguments unchanged.
-/
import proofs.«147313_j28467043238534_2_alg».proof.Defs
import proofs.«147313_j28467043238534_2_alg».proof.Proof.KernelArray
import proofs.«147313_j28467043238534_2_alg».proof.Proof.RefRun
import proofs.«147313_j28467043238534_2_alg».proof.Proof.Gen.Pre_finite_inputs

noncomputable section

namespace Cert.Proof.Claims

open Idealize.ShloMosaic Idealize.ShloMosaic.ValueIdx Idealize.SL.Sem

theorem frame_referenceIdeal : Cert.frame_ReferenceIdeal := fun m ρ _ =>
  (θ_run Cert.ReferenceIdeal.defs _ _).mono (fun _ h c => (h c).2) (Cert.ReferenceIdeal.Hand.run m ρ)

theorem algebraic : Cert.algebraic_KernelIdeal_ReferenceIdeal := by
  intro m ρ m' ρ' _ hagree
  refine ⟨fun c => Cert.ReferenceIdeal.Hand.result m' c, ?_, Cert.ReferenceIdeal.Hand.run m' ρ'⟩
  refine Cert.KernelIdeal.Array.run m ρ (fun c => Cert.ReferenceIdeal.Hand.result m' c) fun c b => ?_
  have h := Cert.ReferenceIdeal.Hand.solves m' c b
  rw [(hagree c).1, (hagree c).2.1, (hagree c).2.2.1, (hagree c).2.2.2.1, (hagree c).2.2.2.2.1, (hagree c).2.2.2.2.2.1,
    (hagree c).2.2.2.2.2.2.1, (hagree c).2.2.2.2.2.2.2] at h
  exact h

end Cert.Proof.Claims

end
-- ==== Proof.lean ====
/-
  The certificate's claim: the three frames, the idealization, and the equality of the two idealized programs.

  The kernel evaluates, for every batch row, a chain of small networks along a 24-joint kinematic tree; the reference does the
  same one joint at a time on the host. The kernels' frames are the generated runs (Proof/Frames.lean); the idealization
  changed nothing; the reference's frame and the equality are Proof/Claims.lean, over the per-row mathematics of Proof/Spec.lean: the kernel's side in
  Proof/KernelRows.lean, Pieces.lean, KernelChain.lean, KernelJoints.lean, KernelBlock.lean and KernelArray.lean, the
  reference's in the Proof/Ref*.lean modules.
-/
import proofs.«147313_j28467043238534_2_alg».proof.Defs
import proofs.«147313_j28467043238534_2_alg».proof.Proof.Frames
import proofs.«147313_j28467043238534_2_alg».proof.Proof.Claims
import proofs.«147313_j28467043238534_2_alg».proof.Proof.Gen.Kernel
import proofs.«147313_j28467043238534_2_alg».proof.Proof.Gen.KernelIdeal
import proofs.«147313_j28467043238534_2_alg».proof.Proof.Gen.ReferenceIdeal
import proofs.«147313_j28467043238534_2_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Frames.frame_kernel, Frames.frame_kernelIdeal, Claims.frame_referenceIdeal, Frames.preserves, Claims.algebraic⟩

end Cert.Proof

end
